-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v165)) (v1 : (c : Dev Cert.KernelIdeal.nD) → Buf (Elt Ideal) ((c.tc : Thread Cert.KernelIdeal.nD Cert.KernelIdeal.τ).loc Cert.KernelIdeal.main_v173)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_v173) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x64 : Shape := ⟨2, ![100, 64]⟩
abbrev S100000 : Shape := ⟨1, ![100000]⟩
abbrev S2x1000000 : Shape := ⟨2, ![2, 1000000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S3x192x64 : Shape := ⟨3, ![3, 192, 64]⟩
abbrev S3x64 : Shape := ⟨2, ![3, 64]⟩
abbrev S3x128x64 : Shape := ⟨3, ![3, 128, 64]⟩
abbrev S64x192 : Shape := ⟨2, ![64, 192]⟩
abbrev S192 : Shape := ⟨1, ![192]⟩
abbrev S64x1 : Shape := ⟨2, ![64, 1]⟩
abbrev S1 : Shape := ⟨1, ![1]⟩
abbrev S64x256 : Shape := ⟨2, ![64, 256]⟩
abbrev S256 : Shape := ⟨1, ![256]⟩
abbrev S64x3 : Shape := ⟨2, ![64, 3]⟩
abbrev S3 : Shape := ⟨1, ![3]⟩
abbrev S_ : Shape := ⟨0, ![]⟩

class Facts : Prop where
  bcast_S_S100x64 : S_.BroadcastsInDim S100x64 (![] : Fin 0 → Fin S100x64.rank)
  reducesTo_S100x64_S_d0_1 : S100x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x192x64 : S_.BroadcastsInDim S3x192x64 (![] : Fin 0 → Fin S3x192x64.rank)
  reducesTo_S3x192x64_S_d0_1_2 : S3x192x64.ReducesTo [0, 1, 2] S_
  bcast_S_S3x64 : S_.BroadcastsInDim S3x64 (![] : Fin 0 → Fin S3x64.rank)
  reducesTo_S3x64_S_d0_1 : S3x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S64x192 : S_.BroadcastsInDim S64x192 (![] : Fin 0 → Fin S64x192.rank)
  reducesTo_S64x192_S_d0_1 : S64x192.ReducesTo [0, 1] S_
  bcast_S_S192 : S_.BroadcastsInDim S192 (![] : Fin 0 → Fin S192.rank)
  reducesTo_S192_S_d0 : S192.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_arg27 : FVec F S64x3 .f32) (main_arg28 : FVec F S3 .f32) (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  let main_v124 : FVec F S64x3 .f32 := Host.absf main_arg27
  let main_cst_48 : FVec F S_ .f32 := constant S_ .f32 0x7F800000#32
  let main_v125 : FVec F S64x3 .f32 := broadcastInDim S64x3 ![] bcast_S_S64x3 main_cst_48
  let main_v126 : IVec S64x3 1 := cmpf .olt main_v124 main_v125
  let main_c_49 : IVec S_ 1 := constantI S_ 1 1#1
  let main_v127 : IVec S_ 1 := (fun x v => Host.reduce IntOp.andi x v reducesTo_S64x3_S_d0_1 h_S_) main_v126 main_c_49
  let main_v128 : IVec S_ 1 := andi main_v123 main_v127
  let main_v129 : FVec F S3 .f32 := Host.absf main_arg28
  let main_cst_50 : FVec F S_ .f32 := constant S_ .f32 0x7F800000#32
  let main_v130 : FVec F S3 .f32 := broadcastInDim S3 ![] bcast_S_S3 main_cst_50
  let main_v131 : IVec S3 1 := cmpf .olt main_v129 main_v130
  let main_c_51 : IVec S_ 1 := constantI S_ 1 1#1
  let main_v132 : IVec S_ 1 := (fun x v => Host.reduce IntOp.andi x v reducesTo_S3_S_d0 h_S_) main_v131 main_c_51
  let main_v133 : IVec S_ 1 := andi main_v128 main_v132
  main_v133

def fn_part6 {F : FTy → Type} [FloatOps F] (main_arg23 : FVec F S64x1 .f32) (main_arg24 : FVec F S1 .f32) (main_arg25 : FVec F S64x1 .f32) (main_arg26 : FVec F S1 .f32) (main_arg27 : FVec F S64x3 .f32) (main_arg28 : FVec F S3 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S64x1 .f32 := Host.absf main_arg23
  let main_cst_40 : FVec F S_ .f32 := constant S_ .f32 0x7F800000#32
  let main_v105 : FVec F S64x1 .f32 := broadcastInDim S64x1 ![] bcast_S_S64x1 main_cst_40
  let main_v106 : IVec S64x1 1 := cmpf .olt main_v104 main_v105
  let main_c_41 : IVec S_ 1 := constantI S_ 1 1#1
  let main_v107 : IVec S_ 1 := (fun x v => Host.reduce IntOp.andi x v reducesTo_S64x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S64x1 .f32 := Host.absf main_arg25
  let main_cst_44 : FVec F S_ .f32 := constant S_ .f32 0x7F800000#32
  let main_v115 : FVec F S64x1 .f32 := broadcastInDim S64x1 ![] bcast_S_S64x1 main_cst_44
  let main_v116 : IVec S64x1 1 := cmpf .olt main_v114 main_v115
  let main_c_45 : IVec S_ 1 := constantI S_ 1 1#1
  let main_v117 : IVec S_ 1 := (fun x v => Host.reduce IntOp.andi x v reducesTo_S64x1_S_d0_1 h_S_) main_v116 main_c_45
  let main_v118 : IVec S_ 1 := andi main_v113 main_v117
  let main_v119 : FVec F S1 .f32 := Host.absf main_arg26
  fn_part7 (F := F) main_arg27 main_arg28 main_v118 main_v119

def fn_part5 {F : FTy → Type} [FloatOps F] (main_arg20 : FVec F S256 .f32) (main_arg21 : FVec F S64x1 .f32) (main_arg22 : FVec F S1 .f32) (main_arg23 : FVec F S64x1 .f32) (main_arg24 : FVec F S1 .f32) (main_arg25 : FVec F S64x1 .f32) (main_arg26 : FVec F S1 .f32) (main_arg27 : FVec F S64x3 .f32) (main_arg28 : FVec F S3 .f32) (main_v83 : IVec S_ 1) (main_v84 : FVec F S64x256 .f32) (main_cst_32 : FVec F S_ .f32) : IVec S_ 1 :=
  let main_v85 : FVec F S64x256 .f32 := broadcastInDim S64x256 ![] bcast_S_S64x256 main_cst_32
  let main_v86 : IVec S64x256 1 := cmpf .olt main_v84 main_v85
  let main_c_33 : IVec S_ 1 := constantI S_ 1 1#1
  let main_v87 : IVec S_ 1 := (fun x v => Host.reduce IntOp.andi x v reducesTo_S64x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S64x1 .f32 := Host.absf main_arg21
  let main_cst_36 : FVec F S_ .f32 := constant S_ .f32 0x7F800000#32
  let main_v95 : FVec F S64x1 .f32 := broadcastInDim S64x1 ![] bcast_S_S64x1 main_cst_36
  let main_v96 : IVec S64x1 1 := cmpf .olt main_v94 main_v95
  let main_c_37 : IVec S_ 1 := constantI S_ 1 1#1
  let main_v97 : IVec S_ 1 := (fun x v => Host.reduce IntOp.andi x v reducesTo_S64x1_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S1 .f32) (main_arg17 : FVec F S64x1 .f32) (main_arg18 : FVec F S1 .f32) (main_arg19 : FVec F S64x256 .f32) (main_arg20 : FVec F S256 .f32) (main_arg21 : FVec F S64x1 .f32) (main_arg22 : FVec F S1 .f32) (main_arg23 : FVec F S64x1 .f32) (main_arg24 : FVec F S1 .f32) (main_arg25 : FVec F S64x1 .f32) (main_arg26 : FVec F S1 .f32) (main_arg27 : FVec F S64x3 .f32) (main_arg28 : FVec F S3 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S64x1 .f32 := Host.absf main_arg17
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S64x256 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S64x1 .f32) (main_arg14 : FVec F S1 .f32) (main_arg15 : FVec F S64x1 .f32) (main_arg16 : FVec F S1 .f32) (main_arg17 : FVec F S64x1 .f32) (main_arg18 : FVec F S1 .f32) (main_arg19 : FVec F S64x256 .f32) (main_arg20 : FVec F S256 .f32) (main_arg21 : FVec F S64x1 .f32) (main_arg22 : FVec F S1 .f32) (main_arg23 : FVec F S64x1 .f32) (main_arg24 : FVec F S1 .f32) (main_arg25 : FVec F S64x1 .f32) (main_arg26 : FVec F S1 .f32) (main_arg27 : FVec F S64x3 .f32) (main_arg28 : FVec F S3 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S3x128x64 .f32) (main_arg10 : FVec F S3x64 .f32) (main_arg11 : FVec F S64x192 .f32) (main_arg12 : FVec F S192 .f32) (main_arg13 : FVec F S64x1 .f32) (main_arg14 : FVec F S1 .f32) (main_arg15 : FVec F S64x1 .f32) (main_arg16 : FVec F S1 .f32) (main_arg17 : FVec F S64x1 .f32) (main_arg18 : FVec F S1 .f32) (main_arg19 : FVec F S64x256 .f32) (main_arg20 : FVec F S256 .f32) (main_arg21 : FVec F S64x1 .f32) (main_arg22 : FVec F S1 .f32) (main_arg23 : FVec F S64x1 .f32) (main_arg24 : FVec F S1 .f32) (main_arg25 : FVec F S64x1 .f32) (main_arg26 : FVec F S1 .f32) (main_arg27 : FVec F S64x3 .f32) (main_arg28 : FVec F S3 .f32) (main_v33 : IVec S_ 1) : IVec S_ 1 :=
  let main_v34 : FVec F S3x128x64 .f32 := Host.absf main_arg9
  let main_cst_12 : FVec F S_ .f32 := constant S_ .f32 0x7F800000#32
  let main_v35 : FVec F S3x128x64 .f32 := broadcastInDim S3x128x64 ![] bcast_S_S3x128x64 main_cst_12
  let main_v36 : IVec S3x128x64 1 := cmpf .olt main_v34 main_v35
  let main_c_13 : IVec S_ 1 := constantI S_ 1 1#1
  let main_v37 : IVec S_ 1 := (fun x v => Host.reduce IntOp.andi x v reducesTo_S3x128x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S64x192 .f32 := Host.absf main_arg11
  let main_cst_16 : FVec F S_ .f32 := constant S_ .f32 0x7F800000#32
  let main_v45 : FVec F S64x192 .f32 := broadcastInDim S64x192 ![] bcast_S_S64x192 main_cst_16
  let main_v46 : IVec S64x192 1 := cmpf .olt main_v44 main_v45
  let main_c_17 : IVec S_ 1 := constantI S_ 1 1#1
  let main_v47 : IVec S_ 1 := (fun x v => Host.reduce IntOp.andi x v reducesTo_S64x192_S_d0_1 h_S_) main_v46 main_c_17
  let main_v48 : IVec S_ 1 := andi main_v43 main_v47
  let main_v49 : FVec F S192 .f32 := Host.absf main_arg12
  let main_cst_18 : FVec F S_ .f32 := constant S_ .f32 0x7F800000#32
  let main_v50 : FVec F S192 .f32 := broadcastInDim S192 ![] bcast_S_S192 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S128 .f32) (main_arg7 : FVec F S3x192x64 .f32) (main_arg8 : FVec F S3x64 .f32) (main_arg9 : FVec F S3x128x64 .f32) (main_arg10 : FVec F S3x64 .f32) (main_arg11 : FVec F S64x192 .f32) (main_arg12 : FVec F S192 .f32) (main_arg13 : FVec F S64x1 .f32) (main_arg14 : FVec F S1 .f32) (main_arg15 : FVec F S64x1 .f32) (main_arg16 : FVec F S1 .f32) (main_arg17 : FVec F S64x1 .f32) (main_arg18 : FVec F S1 .f32) (main_arg19 : FVec F S64x256 .f32) (main_arg20 : FVec F S256 .f32) (main_arg21 : FVec F S64x1 .f32) (main_arg22 : FVec F S1 .f32) (main_arg23 : FVec F S64x1 .f32) (main_arg24 : FVec F S1 .f32) (main_arg25 : FVec F S64x1 .f32) (main_arg26 : FVec F S1 .f32) (main_arg27 : FVec F S64x3 .f32) (main_arg28 : FVec F S3 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x192x64 .f32 := Host.absf main_arg7
  let main_cst_8 : FVec F S_ .f32 := constant S_ .f32 0x7F800000#32
  let main_v25 : FVec F S3x192x64 .f32 := broadcastInDim S3x192x64 ![] bcast_S_S3x192x64 main_cst_8
  let main_v26 : IVec S3x192x64 1 := cmpf .olt main_v24 main_v25
  let main_c_9 : IVec S_ 1 := constantI S_ 1 1#1
  let main_v27 : IVec S_ 1 := (fun x v => Host.reduce IntOp.andi x v reducesTo_S3x192x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100x64 .f32) (main_arg1 : IVec S100000 32) (main_arg2 : IVec S2x1000000 32) (main_arg3 : FVec F S64x64 .f32) (main_arg4 : FVec F S64 .f32) (main_arg5 : FVec F S64x128 .f32) (main_arg6 : FVec F S128 .f32) (main_arg7 : FVec F S3x192x64 .f32) (main_arg8 : FVec F S3x64 .f32) (main_arg9 : FVec F S3x128x64 .f32) (main_arg10 : FVec F S3x64 .f32) (main_arg11 : FVec F S64x192 .f32) (main_arg12 : FVec F S192 .f32) (main_arg13 : FVec F S64x1 .f32) (main_arg14 : FVec F S1 .f32) (main_arg15 : FVec F S64x1 .f32) (main_arg16 : FVec F S1 .f32) (main_arg17 : FVec F S64x1 .f32) (main_arg18 : FVec F S1 .f32) (main_arg19 : FVec F S64x256 .f32) (main_arg20 : FVec F S256 .f32) (main_arg21 : FVec F S64x1 .f32) (main_arg22 : FVec F S1 .f32) (main_arg23 : FVec F S64x1 .f32) (main_arg24 : FVec F S1 .f32) (main_arg25 : FVec F S64x1 .f32) (main_arg26 : FVec F S1 .f32) (main_arg27 : FVec F S64x3 .f32) (main_arg28 : FVec F S3 .f32) : IVec S_ 1 :=
  let main_v0 : FVec F S100x64 .f32 := Host.absf main_arg0
  let main_cst : FVec F S_ .f32 := constant S_ .f32 0x7F800000#32
  let main_v1 : FVec F S100x64 .f32 := broadcastInDim S100x64 ![] bcast_S_S100x64 main_cst
  let main_v2 : IVec S100x64 1 := cmpf .olt main_v0 main_v1
  let main_c : IVec S_ 1 := constantI S_ 1 1#1
  let main_v3 : IVec S_ 1 := (fun x v => Host.reduce IntOp.andi x v reducesTo_S100x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100x64 : Shape := ⟨2, ![100, 64]⟩
abbrev S100000 : Shape := ⟨1, ![100000]⟩
abbrev S2x1000000 : Shape := ⟨2, ![2, 1000000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S3x192x64 : Shape := ⟨3, ![3, 192, 64]⟩
abbrev S3x64 : Shape := ⟨2, ![3, 64]⟩
abbrev S3x128x64 : Shape := ⟨3, ![3, 128, 64]⟩
abbrev S64x192 : Shape := ⟨2, ![64, 192]⟩
abbrev S192 : Shape := ⟨1, ![192]⟩
abbrev S64x1 : Shape := ⟨2, ![64, 1]⟩
abbrev S1 : Shape := ⟨1, ![1]⟩
abbrev S64x256 : Shape := ⟨2, ![64, 256]⟩
abbrev S256 : Shape := ⟨1, ![256]⟩
abbrev S64x3 : Shape := ⟨2, ![64, 3]⟩
abbrev S3 : Shape := ⟨1, ![3]⟩
abbrev S1x1000000 : Shape := ⟨2, ![1, 1000000]⟩
abbrev S1000000 : Shape := ⟨1, ![1000000]⟩
abbrev S1x64 : Shape := ⟨2, ![1, 64]⟩
abbrev S_ : Shape := ⟨0, ![]⟩
abbrev S100x128 : Shape := ⟨2, ![100, 128]⟩
abbrev S1x128 : Shape := ⟨2, ![1, 128]⟩
abbrev S100000x1 : Shape := ⟨2, ![100000, 1]⟩
abbrev S100000x64 : Shape := ⟨2, ![100000, 64]⟩
abbrev S1000000x1 : Shape := ⟨2, ![1000000, 1]⟩
abbrev S1000000x64 : Shape := ⟨2, ![1000000, 64]⟩
abbrev S1x192x64 : Shape := ⟨3, ![1, 192, 64]⟩
abbrev S192x64 : Shape := ⟨2, ![192, 64]⟩
abbrev S1007616x64 : Shape := ⟨2, ![1007616, 64]⟩
abbrev S8192x64 : Shape := ⟨2, ![8192, 64]⟩
abbrev S1x128x64 : Shape := ⟨3, ![1, 128, 64]⟩
abbrev S128x64 : Shape := ⟨2, ![128, 64]⟩
abbrev S106496x64 : Shape := ⟨2, ![106496, 64]⟩
abbrev S1x192 : Shape := ⟨2, ![1, 192]⟩
abbrev S1x1 : Shape := ⟨2, ![1, 1]⟩
abbrev S106496x3 : Shape := ⟨2, ![106496, 3]⟩
abbrev S8192x3 : Shape := ⟨2, ![8192, 3]⟩
abbrev S8192x192 : Shape := ⟨2, ![8192, 192]⟩
abbrev S8192x1 : Shape := ⟨2, ![8192, 1]⟩
abbrev S100000x3 : Shape := ⟨2, ![100000, 3]⟩
abbrev S1x256 : Shape := ⟨2, ![1, 256]⟩
abbrev S1x3 : Shape := ⟨2, ![1, 3]⟩
abbrev S1007616x6 : Shape := ⟨2, ![1007616, 6]⟩
abbrev S8192x6 : Shape := ⟨2, ![8192, 6]⟩
abbrev S8192x256 : Shape := ⟨2, ![8192, 256]⟩
abbrev S1000000x6 : Shape := ⟨2, ![1000000, 6]⟩

abbrev nBuf : Space → Nat
  | .hbm => 260
  | .vmem => 89
  | .smem => 0
  | _ => 0

abbrev hbmTy0_0 (i : Nat) : BufTy := match i % 128 with
  | 0 => ⟨S100x64, .f32⟩
  | 1 => ⟨S100000, .i32⟩
  | 2 => ⟨S2x1000000, .i32⟩
  | 3 => ⟨S64x64, .f32⟩
  | 4 => ⟨S64, .f32⟩
  | 5 => ⟨S64x128, .f32⟩
  | 6 => ⟨S128, .f32⟩
  | 7 => ⟨S3x192x64, .f32⟩
  | 8 => ⟨S3x64, .f32⟩
  | 9 => ⟨S3x128x64, .f32⟩
  | 10 => ⟨S3x64, .f32⟩
  | 11 => ⟨S64x192, .f32⟩
  | 12 => ⟨S192, .f32⟩
  | 13 => ⟨S64x1, .f32⟩
  | 14 => ⟨S1, .f32⟩
  | 15 => ⟨S64x1, .f32⟩
  | 16 => ⟨S1, .f32⟩
  | 17 => ⟨S64x1, .f32⟩
  | 18 => ⟨S1, .f32⟩
  | 19 => ⟨S64x256, .f32⟩
  | 20 => ⟨S256, .f32⟩
  | 21 => ⟨S64x1, .f32⟩
  | 22 => ⟨S1, .f32⟩
  | 23 => ⟨S64x1, .f32⟩
  | 24 => ⟨S1, .f32⟩
  | 25 => ⟨S64x1, .f32⟩
  | 26 => ⟨S1, .f32⟩
  | 27 => ⟨S64x3, .f32⟩
  | 28 => ⟨S3, .f32⟩
  | 29 => ⟨S1x1000000, .i32⟩
  | 30 => ⟨S1000000, .i32⟩
  | 31 => ⟨S1x1000000, .i32⟩
  | 32 => ⟨S1000000, .i32⟩
  | 33 => ⟨S100x64, .f32⟩
  | 34 => ⟨S1x64, .f32⟩
  | 35 => ⟨S100x64, .f32⟩
  | 36 => ⟨S100x64, .f32⟩
  | 37 => ⟨S_, .f32⟩
  | 38 => ⟨S100x64, .f32⟩
  | 39 => ⟨S100x64, .f32⟩
  | 40 => ⟨S100x128, .f32⟩
  | 41 => ⟨S1x128, .f32⟩
  | 42 => ⟨S100x128, .f32⟩
  | 43 => ⟨S100x128, .f32⟩
  | 44 => ⟨S100x64, .f32⟩
  | 45 => ⟨S100x64, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S100000x64, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000, .i32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x64, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x64, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x64, .f32⟩
  | 91 => ⟨S1x192x64, .f32⟩
  | 92 => ⟨S192x64, .f32⟩
  | 93 => ⟨S1x64, .f32⟩
  | 94 => ⟨S64, .f32⟩
  | 95 => ⟨S_, .i32⟩
  | 96 => ⟨S_, .f32⟩
  | 97 => ⟨S1007616x64, .f32⟩
  | 98 => ⟨S_, .i32⟩
  | 99 => ⟨S_, .f32⟩
  | 100 => ⟨S1007616x64, .f32⟩
  | 101 => ⟨S_, .i32⟩
  | 102 => ⟨S_, .f32⟩
  | 103 => ⟨S1007616x64, .f32⟩
  | 104 => ⟨S64x64, .f32⟩
  | 105 => ⟨S64x64, .f32⟩
  | 106 => ⟨S64x64, .f32⟩
  | 107 => ⟨S1x64, .f32⟩
  | 108 => ⟨S1007616x64, .f32⟩
  | 109 => ⟨S1000000x64, .f32⟩
  | 110 => ⟨S_, .f32⟩
  | 111 => ⟨S100000x64, .f32⟩
  | 112 => ⟨S1000000x1, .i32⟩
  | 113 => ⟨S100000x64, .f32⟩
  | 114 => ⟨S1x128x64, .f32⟩
  | 115 => ⟨S128x64, .f32⟩
  | 116 => ⟨S1x64, .f32⟩
  | 117 => ⟨S64, .f32⟩
  | 118 => ⟨S_, .i32⟩
  | 119 => ⟨S_, .f32⟩
  | 120 => ⟨S106496x64, .f32⟩
  | 121 => ⟨S_, .i32⟩
  | 122 => ⟨S_, .f32⟩
  | 123 => ⟨S106496x64, .f32⟩
  | 124 => ⟨S64x64, .f32⟩
  | 125 => ⟨S64x64, .f32⟩
  | 126 => ⟨S1x64, .f32⟩
  | 127 => ⟨S106496x64, .f32⟩
  | _ => ⟨S100x64, .f32⟩

abbrev hbmTy0_1 (i : Nat) : BufTy := match i % 128 with
  | 0 => ⟨S100000x64, .f32⟩
  | 1 => ⟨S_, .i32⟩
  | 2 => ⟨S1000000, .i32⟩
  | 3 => ⟨S1000000, .i1⟩
  | 4 => ⟨S_, .i32⟩
  | 5 => ⟨S1000000, .i32⟩
  | 6 => ⟨S1000000, .i32⟩
  | 7 => ⟨S1000000, .i32⟩
  | 8 => ⟨S1000000x1, .i32⟩
  | 9 => ⟨S1000000x64, .f32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x64, .f32⟩
  | 19 => ⟨S1x192x64, .f32⟩
  | 20 => ⟨S192x64, .f32⟩
  | 21 => ⟨S1x64, .f32⟩
  | 22 => ⟨S64, .f32⟩
  | 23 => ⟨S_, .i32⟩
  | 24 => ⟨S_, .f32⟩
  | 25 => ⟨S1007616x64, .f32⟩
  | 26 => ⟨S_, .i32⟩
  | 27 => ⟨S_, .f32⟩
  | 28 => ⟨S1007616x64, .f32⟩
  | 29 => ⟨S_, .i32⟩
  | 30 => ⟨S_, .f32⟩
  | 31 => ⟨S1007616x64, .f32⟩
  | 32 => ⟨S64x64, .f32⟩
  | 33 => ⟨S64x64, .f32⟩
  | 34 => ⟨S64x64, .f32⟩
  | 35 => ⟨S1x64, .f32⟩
  | 36 => ⟨S1007616x64, .f32⟩
  | 37 => ⟨S1000000x64, .f32⟩
  | 38 => ⟨S_, .f32⟩
  | 39 => ⟨S100000x64, .f32⟩
  | 40 => ⟨S1000000x1, .i32⟩
  | 41 => ⟨S100000x64, .f32⟩
  | 42 => ⟨S1x128x64, .f32⟩
  | 43 => ⟨S128x64, .f32⟩
  | 44 => ⟨S1x64, .f32⟩
  | 45 => ⟨S64, .f32⟩
  | 46 => ⟨S_, .i32⟩
  | 47 => ⟨S_, .f32⟩
  | 48 => ⟨S106496x64, .f32⟩
  | 49 => ⟨S_, .i32⟩
  | 50 => ⟨S_, .f32⟩
  | 51 => ⟨S106496x64, .f32⟩
  | 52 => ⟨S64x64, .f32⟩
  | 53 => ⟨S64x64, .f32⟩
  | 54 => ⟨S1x64, .f32⟩
  | 55 => ⟨S106496x64, .f32⟩
  | 56 => ⟨S100000x64, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x64, .f32⟩
  | 75 => ⟨S1x192x64, .f32⟩
  | 76 => ⟨S192x64, .f32⟩
  | 77 => ⟨S1x64, .f32⟩
  | 78 => ⟨S64, .f32⟩
  | 79 => ⟨S_, .i32⟩
  | 80 => ⟨S_, .f32⟩
  | 81 => ⟨S1007616x64, .f32⟩
  | 82 => ⟨S_, .i32⟩
  | 83 => ⟨S_, .f32⟩
  | 84 => ⟨S1007616x64, .f32⟩
  | 85 => ⟨S_, .i32⟩
  | 86 => ⟨S_, .f32⟩
  | 87 => ⟨S1007616x64, .f32⟩
  | 88 => ⟨S64x64, .f32⟩
  | 89 => ⟨S64x64, .f32⟩
  | 90 => ⟨S64x64, .f32⟩
  | 91 => ⟨S1x64, .f32⟩
  | 92 => ⟨S1007616x64, .f32⟩
  | 93 => ⟨S1000000x64, .f32⟩
  | 94 => ⟨S_, .f32⟩
  | 95 => ⟨S100000x64, .f32⟩
  | 96 => ⟨S1000000x1, .i32⟩
  | 97 => ⟨S100000x64, .f32⟩
  | 98 => ⟨S1x128x64, .f32⟩
  | 99 => ⟨S128x64, .f32⟩
  | 100 => ⟨S1x64, .f32⟩
  | 101 => ⟨S64, .f32⟩
  | 102 => ⟨S_, .i32⟩
  | 103 => ⟨S_, .f32⟩
  | 104 => ⟨S106496x64, .f32⟩
  | 105 => ⟨S_, .i32⟩
  | 106 => ⟨S_, .f32⟩
  | 107 => ⟨S106496x64, .f32⟩
  | 108 => ⟨S64x64, .f32⟩
  | 109 => ⟨S64x64, .f32⟩
  | 110 => ⟨S1x64, .f32⟩
  | 111 => ⟨S106496x64, .f32⟩
  | 112 => ⟨S100000x64, .f32⟩
  | 113 => ⟨S_, .i32⟩
  | 114 => ⟨S_, .f32⟩
  | 115 => ⟨S106496x64, .f32⟩
  | 116 => ⟨S1x192, .f32⟩
  | 117 => ⟨S1x1, .f32⟩
  | 118 => ⟨S1x1, .f32⟩
  | 119 => ⟨S1x1, .f32⟩
  | 120 => ⟨S106496x3, .f32⟩
  | 121 => ⟨S100000x3, .f32⟩
  | 122 => ⟨S_, .i32⟩
  | 123 => ⟨S_, .f32⟩
  | 124 => ⟨S1007616x64, .f32⟩
  | 125 => ⟨S1x256, .f32⟩
  | 126 => ⟨S1x1, .f32⟩
  | 127 => ⟨S1x1, .f32⟩
  | _ => ⟨S100x64, .f32⟩

abbrev hbmTy0_2 (i : Nat) : BufTy := match i % 128 with
  | 0 => ⟨S1x1, .f32⟩
  | 1 => ⟨S1x3, .f32⟩
  | 2 => ⟨S1007616x6, .f32⟩
  | 3 => ⟨S1000000x6, .f32⟩
  | _ => ⟨S100x64, .f32⟩

abbrev hbmTy (i : Nat) : BufTy := match i / 128 with
  | 0 => hbmTy0_0 i
  | 1 => hbmTy0_1 i
  | 2 => hbmTy0_2 i
  | _ => ⟨S100x64, .f32⟩

abbrev bufTy : (tb : Table) → Fin (tcTables nBuf tb) → BufTy
  | .hbm, ⟨i, _⟩ => hbmTy i
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S8192x64, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | .local _ .vmem, ⟨14, _⟩ => ⟨S8192x64, .f32⟩
  | .local _ .vmem, ⟨15, _⟩ => ⟨S8192x64, .f32⟩
  | .local _ .vmem, ⟨16, _⟩ => ⟨S64x64, .f32⟩
  | .local _ .vmem, ⟨17, _⟩ => ⟨S64x64, .f32⟩
  | .local _ .vmem, ⟨18, _⟩ => ⟨S1x64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | .local _ .vmem, ⟨22, _⟩ => ⟨S8192x64, .f32⟩
  | .local _ .vmem, ⟨23, _⟩ => ⟨S8192x64, .f32⟩
  | .local _ .vmem, ⟨24, _⟩ => ⟨S8192x64, .f32⟩
  | .local _ .vmem, ⟨25, _⟩ => ⟨S8192x64, .f32⟩
  | .local _ .vmem, ⟨26, _⟩ => ⟨S8192x64, .f32⟩
  | .local _ .vmem, ⟨27, _⟩ => ⟨S64x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S8192x64, .f32⟩
  | .local _ .vmem, ⟨32, _⟩ => ⟨S8192x64, .f32⟩
  | .local _ .vmem, ⟨33, _⟩ => ⟨S8192x64, .f32⟩
  | .local _ .vmem, ⟨34, _⟩ => ⟨S8192x64, .f32⟩
  | .local _ .vmem, ⟨35, _⟩ => ⟨S8192x64, .f32⟩
  | .local _ .vmem, ⟨36, _⟩ => ⟨S8192x64, .f32⟩
  | .local _ .vmem, ⟨37, _⟩ => ⟨S64x64, .f32⟩
  | .local _ .vmem, ⟨38, _⟩ => ⟨S64x64, .f32⟩
  | .local _ .vmem, ⟨39, _⟩ => ⟨S1x64, .f32⟩
  | .local _ .vmem, ⟨40, _⟩ => ⟨S8192x64, .f32⟩
  | .local _ .vmem, ⟨41, _⟩ => ⟨S8192x64, .f32⟩
  | .local _ .vmem, ⟨42, _⟩ => ⟨S8192x64, .f32⟩
  | .local _ .vmem, ⟨43, _⟩ => ⟨S8192x64, .f32⟩
  | .local _ .vmem, ⟨44, _⟩ => ⟨S8192x64, .f32⟩
  | .local _ .vmem, ⟨45, _⟩ => ⟨S8192x64, .f32⟩
  | .local _ .vmem, ⟨46, _⟩ => ⟨S8192x64, .f32⟩
  | .local _ .vmem, ⟨47, _⟩ => ⟨S8192x64, .f32⟩
  | .local _ .vmem, ⟨48, _⟩ => ⟨S64x64, .f32⟩
  | .local _ .vmem, ⟨49, _⟩ => ⟨S64x64, .f32⟩
  | .local _ .vmem, ⟨50, _⟩ => ⟨S64x64, .f32⟩
  | .local _ .vmem, ⟨51, _⟩ => ⟨S1x64, .f32⟩
  | .local _ .vmem, ⟨52, _⟩ => ⟨S8192x64, .f32⟩
  | .local _ .vmem, ⟨53, _⟩ => ⟨S8192x64, .f32⟩
  | .local _ .vmem, ⟨54, _⟩ => ⟨S8192x64, .f32⟩
  | .local _ .vmem, ⟨55, _⟩ => ⟨S8192x64, .f32⟩
  | .local _ .vmem, ⟨56, _⟩ => ⟨S8192x64, .f32⟩
  | .local _ .vmem, ⟨57, _⟩ => ⟨S8192x64, .f32⟩
  | .local _ .vmem, ⟨58, _⟩ => ⟨S64x64, .f32⟩
  | .local _ .vmem, ⟨59, _⟩ => ⟨S64x64, .f32⟩
  | .local _ .vmem, ⟨60, _⟩ => ⟨S1x64, .f32⟩
  | .local _ .vmem, ⟨61, _⟩ => ⟨S8192x64, .f32⟩
  | .local _ .vmem, ⟨62, _⟩ => ⟨S8192x64, .f32⟩
  | .local _ .vmem, ⟨63, _⟩ => ⟨S8192x64, .f32⟩
  | .local _ .vmem, ⟨64, _⟩ => ⟨S8192x64, .f32⟩
  | .local _ .vmem, ⟨65, _⟩ => ⟨S64x192, .f32⟩
  | .local _ .vmem, ⟨66, _⟩ => ⟨S1x192, .f32⟩
  | .local _ .vmem, ⟨67, _⟩ => ⟨S64x1, .f32⟩
  | .local _ .vmem, ⟨68, _⟩ => ⟨S1x1, .f32⟩
  | .local _ .vmem, ⟨69, _⟩ => ⟨S64x1, .f32⟩
  | .local _ .vmem, ⟨70, _⟩ => ⟨S1x1, .f32⟩
  | .local _ .vmem, ⟨71, _⟩ => ⟨S64x1, .f32⟩
  | .local _ .vmem, ⟨72, _⟩ => ⟨S1x1, .f32⟩
  | .local _ .vmem, ⟨73, _⟩ => ⟨S8192x3, .f32⟩
  | .local _ .vmem, ⟨74, _⟩ => ⟨S8192x3, .f32⟩
  | .local _ .vmem, ⟨75, _⟩ => ⟨S8192x64, .f32⟩
  | .local _ .vmem, ⟨76, _⟩ => ⟨S8192x64, .f32⟩
  | .local _ .vmem, ⟨77, _⟩ => ⟨S64x256, .f32⟩
  | .local _ .vmem, ⟨78, _⟩ => ⟨S1x256, .f32⟩
  | .local _ .vmem, ⟨79, _⟩ => ⟨S64x1, .f32⟩
  | .local _ .vmem, ⟨80, _⟩ => ⟨S1x1, .f32⟩
  | .local _ .vmem, ⟨81, _⟩ => ⟨S64x1, .f32⟩
  | .local _ .vmem, ⟨82, _⟩ => ⟨S1x1, .f32⟩
  | .local _ .vmem, ⟨83, _⟩ => ⟨S64x1, .f32⟩
  | .local _ .vmem, ⟨84, _⟩ => ⟨S1x1, .f32⟩
  | .local _ .vmem, ⟨85, _⟩ => ⟨S64x3, .f32⟩
  | .local _ .vmem, ⟨86, _⟩ => ⟨S1x3, .f32⟩
  | .local _ .vmem, ⟨87, _⟩ => ⟨S8192x6, .f32⟩
  | .local _ .vmem, ⟨88, _⟩ => ⟨S8192x6, .f32⟩
  | _, _ => ⟨S100x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | _, _ => false

abbrev semScoped : Fin 0 → Bool
  | ⟨_, h⟩ => absurd h (Nat.not_lt_zero _)

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTc nBuf bufTy 0 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_call0_cst : Ref sig .tc := ⟨.hbm, 37, rfl⟩
abbrev main_call0_v0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_0 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_1 : Ref sig .tc := ⟨.hbm, 55, rfl⟩
abbrev main_v22 : Ref sig .tc := ⟨.hbm, 56, rfl⟩
abbrev main_v23 : Ref sig .tc := ⟨.hbm, 57, rfl⟩
abbrev main_c_2 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_3 : Ref sig .tc := ⟨.hbm, 64, rfl⟩
abbrev main_v29 : Ref sig .tc := ⟨.hbm, 65, rfl⟩
abbrev main_v30 : Ref sig .tc := ⟨.hbm, 66, rfl⟩
abbrev main_c_4 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_5 : Ref sig .tc := ⟨.hbm, 73, rfl⟩
abbrev main_v36 : Ref sig .tc := ⟨.hbm, 74, rfl⟩
abbrev main_v37 : Ref sig .tc := ⟨.hbm, 75, rfl⟩
abbrev main_c_6 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_7 : Ref sig .tc := ⟨.hbm, 82, rfl⟩
abbrev main_v43 : Ref sig .tc := ⟨.hbm, 83, rfl⟩
abbrev main_v44 : Ref sig .tc := ⟨.hbm, 84, rfl⟩
abbrev main_c_8 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_9 : Ref sig .tc := ⟨.hbm, 95, rfl⟩
abbrev main_call1_v0 : Ref sig .tc := ⟨.hbm, 96, rfl⟩
abbrev main_v54 : Ref sig .tc := ⟨.hbm, 97, rfl⟩
abbrev main_c_10 : Ref sig .tc := ⟨.hbm, 98, rfl⟩
abbrev main_call2_v0 : Ref sig .tc := ⟨.hbm, 99, rfl⟩
abbrev main_v55 : Ref sig .tc := ⟨.hbm, 100, rfl⟩
abbrev main_c_11 : Ref sig .tc := ⟨.hbm, 101, rfl⟩
abbrev main_call3_v0 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_c_12 : Ref sig .tc := ⟨.hbm, 118, rfl⟩
abbrev main_call4_v0 : Ref sig .tc := ⟨.hbm, 119, rfl⟩
abbrev main_v70 : Ref sig .tc := ⟨.hbm, 120, rfl⟩
abbrev main_c_13 : Ref sig .tc := ⟨.hbm, 121, rfl⟩
abbrev main_call5_v0 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_14 : Ref sig .tc := ⟨.hbm, 129, rfl⟩
abbrev main_v77 : Ref sig .tc := ⟨.hbm, 130, rfl⟩
abbrev main_v78 : Ref sig .tc := ⟨.hbm, 131, rfl⟩
abbrev main_c_15 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_c_16 : Ref sig .tc := ⟨.hbm, 138, rfl⟩
abbrev main_v84 : Ref sig .tc := ⟨.hbm, 139, rfl⟩
abbrev main_v85 : Ref sig .tc := ⟨.hbm, 140, rfl⟩
abbrev main_c_17 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_c_18 : Ref sig .tc := ⟨.hbm, 151, rfl⟩
abbrev main_call6_v0 : Ref sig .tc := ⟨.hbm, 152, rfl⟩
abbrev main_v95 : Ref sig .tc := ⟨.hbm, 153, rfl⟩
abbrev main_c_19 : Ref sig .tc := ⟨.hbm, 154, rfl⟩
abbrev main_call7_v0 : Ref sig .tc := ⟨.hbm, 155, rfl⟩
abbrev main_v96 : Ref sig .tc := ⟨.hbm, 156, rfl⟩
abbrev main_c_20 : Ref sig .tc := ⟨.hbm, 157, rfl⟩
abbrev main_call8_v0 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_21 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_c_22 : Ref sig .tc := ⟨.hbm, 174, rfl⟩
abbrev main_call9_v0 : Ref sig .tc := ⟨.hbm, 175, rfl⟩
abbrev main_v111 : Ref sig .tc := ⟨.hbm, 176, rfl⟩
abbrev main_c_23 : Ref sig .tc := ⟨.hbm, 177, rfl⟩
abbrev main_call10_v0 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_c_24 : Ref sig .tc := ⟨.hbm, 185, rfl⟩
abbrev main_v118 : Ref sig .tc := ⟨.hbm, 186, rfl⟩
abbrev main_v119 : Ref sig .tc := ⟨.hbm, 187, rfl⟩
abbrev main_c_25 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_c_26 : Ref sig .tc := ⟨.hbm, 194, rfl⟩
abbrev main_v125 : Ref sig .tc := ⟨.hbm, 195, rfl⟩
abbrev main_v126 : Ref sig .tc := ⟨.hbm, 196, rfl⟩
abbrev main_c_27 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_c_28 : Ref sig .tc := ⟨.hbm, 207, rfl⟩
abbrev main_call11_v0 : Ref sig .tc := ⟨.hbm, 208, rfl⟩
abbrev main_v136 : Ref sig .tc := ⟨.hbm, 209, rfl⟩
abbrev main_c_29 : Ref sig .tc := ⟨.hbm, 210, rfl⟩
abbrev main_call12_v0 : Ref sig .tc := ⟨.hbm, 211, rfl⟩
abbrev main_v137 : Ref sig .tc := ⟨.hbm, 212, rfl⟩
abbrev main_c_30 : Ref sig .tc := ⟨.hbm, 213, rfl⟩
abbrev main_call13_v0 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_cst_31 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_c_32 : Ref sig .tc := ⟨.hbm, 230, rfl⟩
abbrev main_call14_v0 : Ref sig .tc := ⟨.hbm, 231, rfl⟩
abbrev main_v152 : Ref sig .tc := ⟨.hbm, 232, rfl⟩
abbrev main_c_33 : Ref sig .tc := ⟨.hbm, 233, rfl⟩
abbrev main_call15_v0 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_c_34 : Ref sig .tc := ⟨.hbm, 241, rfl⟩
abbrev main_call16_v0 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_c_35 : Ref sig .tc := ⟨.hbm, 250, rfl⟩
abbrev main_call17_v0 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg7_0 : Ref sig .tc := ⟨.vmem, 71, rfl⟩
abbrev cc6_stg8_0 : Ref sig .tc := ⟨.vmem, 72, rfl⟩
abbrev cc6_stg9_0 : Ref sig .tc := ⟨.vmem, 73, rfl⟩
abbrev cc6_stg9_1 : Ref sig .tc := ⟨.vmem, 74, rfl⟩
abbrev cc7_stg0_0 : Ref sig .tc := ⟨.vmem, 75, rfl⟩
abbrev cc7_stg0_1 : Ref sig .tc := ⟨.vmem, 76, rfl⟩
abbrev cc7_stg1_0 : Ref sig .tc := ⟨.vmem, 77, rfl⟩
abbrev cc7_stg2_0 : Ref sig .tc := ⟨.vmem, 78, rfl⟩
abbrev cc7_stg3_0 : Ref sig .tc := ⟨.vmem, 79, rfl⟩
abbrev cc7_stg4_0 : Ref sig .tc := ⟨.vmem, 80, rfl⟩
abbrev cc7_stg5_0 : Ref sig .tc := ⟨.vmem, 81, rfl⟩
abbrev cc7_stg6_0 : Ref sig .tc := ⟨.vmem, 82, rfl⟩
abbrev cc7_stg7_0 : Ref sig .tc := ⟨.vmem, 83, rfl⟩
abbrev cc7_stg8_0 : Ref sig .tc := ⟨.vmem, 84, rfl⟩
abbrev cc7_stg9_0 : Ref sig .tc := ⟨.vmem, 85, rfl⟩
abbrev cc7_stg10_0 : Ref sig .tc := ⟨.vmem, 86, rfl⟩
abbrev cc7_stg11_0 : Ref sig .tc := ⟨.vmem, 87, rfl⟩
abbrev cc7_stg11_1 : Ref sig .tc := ⟨.vmem, 88, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62
abbrev cc6_sem0_0 : DmaSem sig := 63
abbrev cc6_sem0_1 : DmaSem sig := 64
abbrev cc6_sem1_0 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem6_0 : DmaSem sig := 70
abbrev cc6_sem7_0 : DmaSem sig := 71
abbrev cc6_sem8_0 : DmaSem sig := 72
abbrev cc6_sem9_0 : DmaSem sig := 73
abbrev cc6_sem9_1 : DmaSem sig := 74
abbrev cc7_sem0_0 : DmaSem sig := 75
abbrev cc7_sem0_1 : DmaSem sig := 76
abbrev cc7_sem1_0 : DmaSem sig := 77
abbrev cc7_sem2_0 : DmaSem sig := 78
abbrev cc7_sem3_0 : DmaSem sig := 79
abbrev cc7_sem4_0 : DmaSem sig := 80
abbrev cc7_sem5_0 : DmaSem sig := 81
abbrev cc7_sem6_0 : DmaSem sig := 82
abbrev cc7_sem7_0 : DmaSem sig := 83
abbrev cc7_sem8_0 : DmaSem sig := 84
abbrev cc7_sem9_0 : DmaSem sig := 85
abbrev cc7_sem10_0 : DmaSem sig := 86
abbrev cc7_sem11_0 : DmaSem sig := 87
abbrev cc7_sem11_1 : DmaSem sig := 88

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![123], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8192x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8192x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![123], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S8192x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![13], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8192x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![13], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x192 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x192 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S8192x3 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![123], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S64x1 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x1 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S64x3 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x3 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 2 → Memref sig .tc .vmem S8192x6 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100x64_0_1 : S1x64.BroadcastsInDim S100x64 (![0, 1] : Fin 2 → Fin S100x64.rank)
  bcast_S_S100x64 : S_.BroadcastsInDim S100x64 (![] : Fin 0 → Fin S100x64.rank)
  bcast_S128_S1x128_1 : S128.BroadcastsInDim S1x128 (![1] : Fin 1 → Fin S1x128.rank)
  bcast_S1x128_S100x128_0_1 : S1x128.BroadcastsInDim S100x128 (![0, 1] : Fin 2 → Fin S100x128.rank)
  slices_S100x128_S100x64_0_0 : S100x128.Slices ![0, 0] S100x64
  slices_S100x128_S100x64_0_64 : S100x128.Slices ![0, 64] S100x64
  bcast_S_S100000 : S_.BroadcastsInDim S100000 (![] : Fin 0 → Fin S100000.rank)
  bcast_S100000_S100000x1_0 : S100000.BroadcastsInDim S100000x1 (![0] : Fin 1 → Fin S100000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S3x192x64_S1x192x64_0_0_0 : S3x192x64.Slices ![0, 0, 0] S1x192x64
  shapeCasts_S1x192x64_S192x64 : S1x192x64.ShapeCasts S192x64
  slices_S3x64_S1x64_0_0 : S3x64.Slices ![0, 0] S1x64
  shapeCasts_S1x64_S64 : S1x64.ShapeCasts S64
  pads_S1000000x64_S1007616x64_076160_000 : S1000000x64.Pads (![0, 0] : Fin 2 → Nat) ![7616, 0] ![0, 0] S1007616x64
  h_S_ : 0 < S_.numel
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  slices_S1007616x64_S1000000x64_0_0 : S1007616x64.Slices ![0, 0] S1000000x64
  bcast_S_S100000x64 : S_.BroadcastsInDim S100000x64 (![] : Fin 0 → Fin S100000x64.rank)
  slices_S3x128x64_S1x128x64_0_0_0 : S3x128x64.Slices ![0, 0, 0] S1x128x64
  shapeCasts_S1x128x64_S128x64 : S1x128x64.ShapeCasts S128x64
  pads_S100000x64_S106496x64_064960_000 : S100000x64.Pads (![0, 0] : Fin 2 → Nat) ![6496, 0] ![0, 0] S106496x64
  slices_S128x64_S64x64_0_0 : S128x64.Slices ![0, 0] S64x64
  slices_S128x64_S64x64_64_0 : S128x64.Slices ![64, 0] S64x64
  slices_S106496x64_S100000x64_0_0 : S106496x64.Slices ![0, 0] S100000x64
  slices_S3x192x64_S1x192x64_1_0_0 : S3x192x64.Slices ![1, 0, 0] S1x192x64
  slices_S3x64_S1x64_1_0 : S3x64.Slices ![1, 0] S1x64
  slices_S3x128x64_S1x128x64_1_0_0 : S3x128x64.Slices ![1, 0, 0] S1x128x64
  slices_S3x192x64_S1x192x64_2_0_0 : S3x192x64.Slices ![2, 0, 0] S1x192x64
  slices_S3x64_S1x64_2_0 : S3x64.Slices ![2, 0] S1x64
  slices_S3x128x64_S1x128x64_2_0_0 : S3x128x64.Slices ![2, 0, 0] S1x128x64
  shapeCasts_S192_S1x192 : S192.ShapeCasts S1x192
  shapeCasts_S1_S1x1 : S1.ShapeCasts S1x1
  inb_S64x192_S64x192_0_0 : ∀ a, (![0, 0] : Fin 2 → Nat) a + S64x192.size a ≤ S64x192.size a
  h_S64x192 : 0 < S64x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S8192x192 : S1x192.Broadcasts S8192x192
  slices_S8192x192_o0_0_S8192x64 : S8192x192.Slices ![0, 0] S8192x64
  slices_S8192x192_o0_64_S8192x64 : S8192x192.Slices ![0, 64] S8192x64
  slices_S8192x192_o0_128_S8192x64 : S8192x192.Slices ![0, 128] S8192x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x3_S8192x1_0_0 : ∀ a, (![0, 0] : Fin 2 → Nat) a + S8192x1.size a ≤ S8192x3.size a
  h_S8192x1 : 0 < S8192x1.numel
  inb_S8192x3_S8192x1_0_1 : ∀ a, (![0, 1] : Fin 2 → Nat) a + S8192x1.size a ≤ S8192x3.size a
  inb_S8192x3_S8192x1_0_2 : ∀ a, (![0, 2] : Fin 2 → Nat) a + S8192x1.size a ≤ S8192x3.size a
  slices_S106496x3_S100000x3_0_0 : S106496x3.Slices ![0, 0] S100000x3
  shapeCasts_S256_S1x256 : S256.ShapeCasts S1x256
  shapeCasts_S3_S1x3 : S3.ShapeCasts S1x3
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  slices_S8192x256_o0_0_S8192x64 : S8192x256.Slices ![0, 0] S8192x64
  slices_S8192x256_o0_64_S8192x64 : S8192x256.Slices ![0, 64] S8192x64
  slices_S8192x256_o0_128_S8192x64 : S8192x256.Slices ![0, 128] S8192x64
  slices_S8192x256_o0_192_S8192x64 : S8192x256.Slices ![0, 192] S8192x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8192x3 : S1x3.Broadcasts S8192x3
  inb_S8192x6_S8192x1_0_0 : ∀ a, (![0, 0] : Fin 2 → Nat) a + S8192x1.size a ≤ S8192x6.size a
  inb_S8192x6_S8192x1_0_1 : ∀ a, (![0, 1] : Fin 2 → Nat) a + S8192x1.size a ≤ S8192x6.size a
  inb_S8192x6_S8192x1_0_2 : ∀ a, (![0, 2] : Fin 2 → Nat) a + S8192x1.size a ≤ S8192x6.size a
  inb_S8192x6_S8192x3_0_3 : ∀ a, (![0, 3] : Fin 2 → Nat) a + S8192x3.size a ≤ S8192x6.size a
  h_S8192x3 : 0 < S8192x3.numel
  slices_S1007616x6_S1000000x6_0_0 : S1007616x6.Slices ![0, 0] S1000000x6
  dot_S100x64_S64x64_S100x64_1_0_0_1_n_n_wf : DotDims.WF S100x64 S64x64 S100x64 [1] [0] [0] [1] [] []
  dot_S100x64_S64x128_S100x128_1_0_0_1_n_n_wf : DotDims.WF S100x64 S64x128 S100x128 [1] [0] [0] [1] [] []
  gather_S100x64_S100000x1_S100000x64_1_0_n_n_0_1_164_wf : GatherDims.WF S100x64 S100000x1 S100000x64 [1] [0] [] [0] [] 1 ![1, 64]
  gather_S100000_S1000000x1_S1000000_n_0_n_n_0_1_1_wf : GatherDims.WF S100000 S1000000x1 S1000000 [] [0] [] [0] [] 1 ![1]
  gather_S100x64_S1000000x1_S1000000x64_1_0_n_n_0_1_164_wf : GatherDims.WF S100x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  dot_S8192x64_S64x64_S8192x64_1_0_0_1_n_n_wf : DotDims.WF S8192x64 S64x64 S8192x64 [1] [0] [0] [1] [] []
  scatter_S100000x64_S1000000x1_S1000000x64_1_0_0_1_wf : ScatterDims.WF S100000x64 S1000000x1 S1000000x64 [1] [0] [0] 1
  dot_S8192x64_S64x192_S8192x192_1_0_0_1_n_n_wf : DotDims.WF S8192x64 S64x192 S8192x192 [1] [0] [0] [1] [] []
  dot_S8192x64_S64x1_S8192x1_1_0_0_1_n_n_wf : DotDims.WF S8192x64 S64x1 S8192x1 [1] [0] [0] [1] [] []
  dot_S8192x64_S64x256_S8192x256_1_0_0_1_n_n_wf : DotDims.WF S8192x64 S64x256 S8192x256 [1] [0] [0] [1] [] []
  dot_S8192x64_S64x3_S8192x3_1_0_0_1_n_n_wf : DotDims.WF S8192x64 S64x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1007616x64.size a
  hwx0_0 : ∀ i : grid0.Coords, EltTy.bits .f32 = 32 ∨ (Rect.block (s := S1007616x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S1007616x64.size a
  hwx0_1 : ∀ i : grid0.Coords, EltTy.bits .f32 = 32 ∨ (Rect.block (s := S1007616x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S1007616x64.size a
  hwx0_2 : ∀ i : grid0.Coords, EltTy.bits .f32 = 32 ∨ (Rect.block (s := S1007616x64) S8192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x64.size a ≤ S1007616x64.size a
  hwx0_7 : ∀ i : grid0.Coords, EltTy.bits .f32 = 32 ∨ (Rect.block (s := S1007616x64) S8192x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S106496x64.size a
  hwx1_0 : ∀ i : grid1.Coords, EltTy.bits .f32 = 32 ∨ (Rect.block (s := S106496x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S106496x64.size a
  hwx1_1 : ∀ i : grid1.Coords, EltTy.bits .f32 = 32 ∨ (Rect.block (s := S106496x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x64.size a ≤ S106496x64.size a
  hwx1_5 : ∀ i : grid1.Coords, EltTy.bits .f32 = 32 ∨ (Rect.block (s := S106496x64) S8192x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S1007616x64.size a
  hwx2_0 : ∀ i : grid2.Coords, EltTy.bits .f32 = 32 ∨ (Rect.block (s := S1007616x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S1007616x64.size a
  hwx2_1 : ∀ i : grid2.Coords, EltTy.bits .f32 = 32 ∨ (Rect.block (s := S1007616x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S1007616x64.size a
  hwx2_2 : ∀ i : grid2.Coords, EltTy.bits .f32 = 32 ∨ (Rect.block (s := S1007616x64) S8192x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8192x64.size a ≤ S1007616x64.size a
  hwx2_7 : ∀ i : grid2.Coords, EltTy.bits .f32 = 32 ∨ (Rect.block (s := S1007616x64) S8192x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S106496x64.size a
  hwx3_0 : ∀ i : grid3.Coords, EltTy.bits .f32 = 32 ∨ (Rect.block (s := S106496x64) S8192x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S106496x64.size a
  hwx3_1 : ∀ i : grid3.Coords, EltTy.bits .f32 = 32 ∨ (Rect.block (s := S106496x64) S8192x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8192x64.size a ≤ S106496x64.size a
  hwx3_5 : ∀ i : grid3.Coords, EltTy.bits .f32 = 32 ∨ (Rect.block (s := S106496x64) S8192x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S1007616x64.size a
  hwx4_0 : ∀ i : grid4.Coords, EltTy.bits .f32 = 32 ∨ (Rect.block (s := S1007616x64) S8192x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S1007616x64.size a
  hwx4_1 : ∀ i : grid4.Coords, EltTy.bits .f32 = 32 ∨ (Rect.block (s := S1007616x64) S8192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S1007616x64.size a
  hwx4_2 : ∀ i : grid4.Coords, EltTy.bits .f32 = 32 ∨ (Rect.block (s := S1007616x64) S8192x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8192x64.size a ≤ S1007616x64.size a
  hwx4_7 : ∀ i : grid4.Coords, EltTy.bits .f32 = 32 ∨ (Rect.block (s := S1007616x64) S8192x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S106496x64.size a
  hwx5_0 : ∀ i : grid5.Coords, EltTy.bits .f32 = 32 ∨ (Rect.block (s := S106496x64) S8192x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x64.size a ≤ S106496x64.size a
  hwx5_1 : ∀ i : grid5.Coords, EltTy.bits .f32 = 32 ∨ (Rect.block (s := S106496x64) S8192x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8192x64.size a ≤ S106496x64.size a
  hwx5_5 : ∀ i : grid5.Coords, EltTy.bits .f32 = 32 ∨ (Rect.block (s := S106496x64) S8192x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x64.size a ≤ S106496x64.size a
  hwx6_0 : ∀ i : grid6.Coords, EltTy.bits .f32 = 32 ∨ (Rect.block (s := S106496x64) S8192x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x192.size a ≤ S64x192.size a
  hwx6_1 : ∀ i : grid6.Coords, EltTy.bits .f32 = 32 ∨ (Rect.block (s := S64x192) S64x192.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x192.size a ≤ S1x192.size a
  hwx6_2 : ∀ i : grid6.Coords, EltTy.bits .f32 = 32 ∨ (Rect.block (s := S1x192) S1x192.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x1.size a ≤ S64x1.size a
  hwx6_7 : ∀ i : grid6.Coords, EltTy.bits .f32 = 32 ∨ (Rect.block (s := S64x1) S64x1.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x1.size a ≤ S1x1.size a
  hwx6_8 : ∀ i : grid6.Coords, EltTy.bits .f32 = 32 ∨ (Rect.block (s := S1x1) S1x1.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S8192x3.size a ≤ S106496x3.size a
  hwx6_9 : ∀ i : grid6.Coords, EltTy.bits .f32 = 32 ∨ (Rect.block (s := S106496x3) S8192x3.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x64.size a ≤ S1007616x64.size a
  hwx7_0 : ∀ i : grid7.Coords, EltTy.bits .f32 = 32 ∨ (Rect.block (s := S1007616x64) S8192x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x256.size a ≤ S64x256.size a
  hwx7_1 : ∀ i : grid7.Coords, EltTy.bits .f32 = 32 ∨ (Rect.block (s := S64x256) S64x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x1.size a ≤ S64x1.size a
  hwx7_3 : ∀ i : grid7.Coords, EltTy.bits .f32 = 32 ∨ (Rect.block (s := S64x1) S64x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x1.size a ≤ S64x1.size a
  hwx7_5 : ∀ i : grid7.Coords, EltTy.bits .f32 = 32 ∨ (Rect.block (s := S64x1) S64x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1.size a ≤ S1x1.size a
  hwx7_6 : ∀ i : grid7.Coords, EltTy.bits .f32 = 32 ∨ (Rect.block (s := S1x1) S1x1.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S64x1.size a ≤ S64x1.size a
  hwx7_7 : ∀ i : grid7.Coords, EltTy.bits .f32 = 32 ∨ (Rect.block (s := S64x1) S64x1.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x1.size a ≤ S1x1.size a
  hwx7_8 : ∀ i : grid7.Coords, EltTy.bits .f32 = 32 ∨ (Rect.block (s := S1x1) S1x1.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S64x3.size a ≤ S64x3.size a
  hwx7_9 : ∀ i : grid7.Coords, EltTy.bits .f32 = 32 ∨ (Rect.block (s := S64x3) S64x3.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x3.size a ≤ S1x3.size a
  hwx7_10 : ∀ i : grid7.Coords, EltTy.bits .f32 = 32 ∨ (Rect.block (s := S1x3) S1x3.size (cc7_transform_10 i) (hinb7_10 i)).WholeWords (EltTy.packing .f32)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S8192x6.size a ≤ S1007616x6.size a
  hwx7_11 : ∀ i : grid7.Coords, EltTy.bits .f32 = 32 ∨ (Rect.block (s := S1007616x6) S8192x6.size (cc7_transform_11 i) (hinb7_11 i)).WholeWords (EltTy.packing .f32)

variable [Facts₀]

def dot_S100x64_S64x64_S100x64_1_0_0_1_n_n : DotDims S100x64 S64x64 S100x64 where
  lhsContracting := [1]
  rhsContracting := [0]
  lhsNonContracting := [0]
  rhsNonContracting := [1]
  lhsBatch := []
  rhsBatch := []
  wf := dot_S100x64_S64x64_S100x64_1_0_0_1_n_n_wf
def dot_S100x64_S64x128_S100x128_1_0_0_1_n_n : DotDims S100x64 S64x128 S100x128 where
  lhsContracting := [1]
  rhsContracting := [0]
  lhsNonContracting := [0]
  rhsNonContracting := [1]
  lhsBatch := []
  rhsBatch := []
  wf := dot_S100x64_S64x128_S100x128_1_0_0_1_n_n_wf
def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100x64_S1000000x1_S1000000x64_1_0_n_n_0_1_164 : GatherDims S100x64 S1000000x1 S1000000x64 where
  offsetDims := [1]
  collapsedSliceDims := [0]
  operandBatchingDims := []
  startIndicesBatchingDims := []
  startIndexMap := [0]
  indexVectorDim := 1
  sliceSizes := ![1, 64]
  wf := gather_S100x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S8192x64_S64x192_S8192x192_1_0_0_1_n_n : DotDims S8192x64 S64x192 S8192x192 where
  lhsContracting := [1]
  rhsContracting := [0]
  lhsNonContracting := [0]
  rhsNonContracting := [1]
  lhsBatch := []
  rhsBatch := []
  wf := dot_S8192x64_S64x192_S8192x192_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf

abbrev win0_0 : Pipeline.Window sig grid0 :=
  Pipeline.Window.ofSpec (Memref.whole main_v54) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v61) S8192x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v70) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v72) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v75) S8192x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v95) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v97) S8192x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v98) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v99) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v100) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v101) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v102) S8192x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v111) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v112) S8192x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v113) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v114) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v115) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v116) S8192x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v136) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v137) S8192x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v138) S8192x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v139) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v140) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v141) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v142) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v143) S8192x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v152) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v153) S8192x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v154) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v155) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v156) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v157) S8192x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v159) S8192x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x192.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v160) S1x192.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v161) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg15) S64x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v162) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg17) S64x1.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v163) S1x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v164) S8192x3.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v166) S8192x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg19) S64x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v167) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg21) S64x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v168) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg23) S64x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v169) S1x1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg25) S64x1.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v170) S1x1.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_arg27) S64x3.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v171) S1x3.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v172) S8192x6.size cc7_transform_11 reads7_11 true false 2 stage7_11 sem7_11
    hrank7 hreads7_11 hinb7_11 nbuf7_11 (Memref.isWhole_whole _) hwx7_11 hstage7_11

abbrev win7 : Fin 12 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | ⟨_ + 12, h⟩ => absurd h (Nat.not_lt.2 (Nat.le_add_left _ _))
abbrev spec7 : Fin 12 → Pipeline.WinSpec sig grid7.rank := fun w => (win7 w).toWinSpec

class Facts : Prop extends Facts₀ where

variable [Facts]
-- ==== ReferenceIdeal.lean ====
abbrev S100x64 : Shape := ⟨2, ![100, 64]⟩
abbrev S100000 : Shape := ⟨1, ![100000]⟩
abbrev S2x1000000 : Shape := ⟨2, ![2, 1000000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S3x192x64 : Shape := ⟨3, ![3, 192, 64]⟩
abbrev S3x64 : Shape := ⟨2, ![3, 64]⟩
abbrev S3x128x64 : Shape := ⟨3, ![3, 128, 64]⟩
abbrev S64x192 : Shape := ⟨2, ![64, 192]⟩
abbrev S192 : Shape := ⟨1, ![192]⟩
abbrev S64x1 : Shape := ⟨2, ![64, 1]⟩
abbrev S1 : Shape := ⟨1, ![1]⟩
abbrev S64x256 : Shape := ⟨2, ![64, 256]⟩
abbrev S256 : Shape := ⟨1, ![256]⟩
abbrev S64x3 : Shape := ⟨2, ![64, 3]⟩
abbrev S3 : Shape := ⟨1, ![3]⟩
abbrev S1x1000000 : Shape := ⟨2, ![1, 1000000]⟩
abbrev S1000000 : Shape := ⟨1, ![1000000]⟩
abbrev S1x64 : Shape := ⟨2, ![1, 64]⟩
abbrev S_ : Shape := ⟨0, ![]⟩
abbrev S100x128 : Shape := ⟨2, ![100, 128]⟩
abbrev S1x128 : Shape := ⟨2, ![1, 128]⟩
abbrev S100000x1 : Shape := ⟨2, ![100000, 1]⟩
abbrev S100000x64 : Shape := ⟨2, ![100000, 64]⟩
abbrev S1000000x1 : Shape := ⟨2, ![1000000, 1]⟩
abbrev S1000000x64 : Shape := ⟨2, ![1000000, 64]⟩
abbrev S1000000x192 : Shape := ⟨2, ![1000000, 192]⟩
abbrev S1x192x64 : Shape := ⟨3, ![1, 192, 64]⟩
abbrev S192x64 : Shape := ⟨2, ![192, 64]⟩
abbrev S100000x128 : Shape := ⟨2, ![100000, 128]⟩
abbrev S1x128x64 : Shape := ⟨3, ![1, 128, 64]⟩
abbrev S128x64 : Shape := ⟨2, ![128, 64]⟩
abbrev S100000x192 : Shape := ⟨2, ![100000, 192]⟩
abbrev S1x192 : Shape := ⟨2, ![1, 192]⟩
abbrev S1x1 : Shape := ⟨2, ![1, 1]⟩
abbrev S100000x3 : Shape := ⟨2, ![100000, 3]⟩
abbrev S1000000x256 : Shape := ⟨2, ![1000000, 256]⟩
abbrev S1x256 : Shape := ⟨2, ![1, 256]⟩
abbrev S1000000x3 : Shape := ⟨2, ![1000000, 3]⟩
abbrev S1x3 : Shape := ⟨2, ![1, 3]⟩
abbrev S1000000x6 : Shape := ⟨2, ![1000000, 6]⟩

abbrev nBuf : Space → Nat
  | .hbm => 261
  | .vmem => 0
  | .smem => 0
  | _ => 0

abbrev hbmTy0_0 (i : Nat) : BufTy := match i % 128 with
  | 0 => ⟨S100x64, .f32⟩
  | 1 => ⟨S100000, .i32⟩
  | 2 => ⟨S2x1000000, .i32⟩
  | 3 => ⟨S64x64, .f32⟩
  | 4 => ⟨S64, .f32⟩
  | 5 => ⟨S64x128, .f32⟩
  | 6 => ⟨S128, .f32⟩
  | 7 => ⟨S3x192x64, .f32⟩
  | 8 => ⟨S3x64, .f32⟩
  | 9 => ⟨S3x128x64, .f32⟩
  | 10 => ⟨S3x64, .f32⟩
  | 11 => ⟨S64x192, .f32⟩
  | 12 => ⟨S192, .f32⟩
  | 13 => ⟨S64x1, .f32⟩
  | 14 => ⟨S1, .f32⟩
  | 15 => ⟨S64x1, .f32⟩
  | 16 => ⟨S1, .f32⟩
  | 17 => ⟨S64x1, .f32⟩
  | 18 => ⟨S1, .f32⟩
  | 19 => ⟨S64x256, .f32⟩
  | 20 => ⟨S256, .f32⟩
  | 21 => ⟨S64x1, .f32⟩
  | 22 => ⟨S1, .f32⟩
  | 23 => ⟨S64x1, .f32⟩
  | 24 => ⟨S1, .f32⟩
  | 25 => ⟨S64x1, .f32⟩
  | 26 => ⟨S1, .f32⟩
  | 27 => ⟨S64x3, .f32⟩
  | 28 => ⟨S3, .f32⟩
  | 29 => ⟨S1x1000000, .i32⟩
  | 30 => ⟨S1000000, .i32⟩
  | 31 => ⟨S1x1000000, .i32⟩
  | 32 => ⟨S1000000, .i32⟩
  | 33 => ⟨S100x64, .f32⟩
  | 34 => ⟨S1x64, .f32⟩
  | 35 => ⟨S100x64, .f32⟩
  | 36 => ⟨S100x64, .f32⟩
  | 37 => ⟨S_, .f32⟩
  | 38 => ⟨S100x64, .f32⟩
  | 39 => ⟨S100x64, .f32⟩
  | 40 => ⟨S100x128, .f32⟩
  | 41 => ⟨S1x128, .f32⟩
  | 42 => ⟨S100x128, .f32⟩
  | 43 => ⟨S100x128, .f32⟩
  | 44 => ⟨S100x64, .f32⟩
  | 45 => ⟨S100x64, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S100000x64, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000, .i32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x64, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x64, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x64, .f32⟩
  | 91 => ⟨S1000000x192, .f32⟩
  | 92 => ⟨S1x192x64, .f32⟩
  | 93 => ⟨S192x64, .f32⟩
  | 94 => ⟨S1000000x64, .f32⟩
  | 95 => ⟨S1x64, .f32⟩
  | 96 => ⟨S64, .f32⟩
  | 97 => ⟨S1x64, .f32⟩
  | 98 => ⟨S1000000x64, .f32⟩
  | 99 => ⟨S1000000x64, .f32⟩
  | 100 => ⟨S_, .f32⟩
  | 101 => ⟨S1000000x64, .f32⟩
  | 102 => ⟨S1000000x64, .f32⟩
  | 103 => ⟨S_, .f32⟩
  | 104 => ⟨S100000x64, .f32⟩
  | 105 => ⟨S1000000x1, .i32⟩
  | 106 => ⟨S100000x64, .f32⟩
  | 107 => ⟨S100000x128, .f32⟩
  | 108 => ⟨S1x128x64, .f32⟩
  | 109 => ⟨S128x64, .f32⟩
  | 110 => ⟨S100000x64, .f32⟩
  | 111 => ⟨S1x64, .f32⟩
  | 112 => ⟨S64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x64, .f32⟩
  | _ => ⟨S100x64, .f32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x64, .f32⟩
  | 9 => ⟨S1000000x192, .f32⟩
  | 10 => ⟨S1x192x64, .f32⟩
  | 11 => ⟨S192x64, .f32⟩
  | 12 => ⟨S1000000x64, .f32⟩
  | 13 => ⟨S1x64, .f32⟩
  | 14 => ⟨S64, .f32⟩
  | 15 => ⟨S1x64, .f32⟩
  | 16 => ⟨S1000000x64, .f32⟩
  | 17 => ⟨S1000000x64, .f32⟩
  | 18 => ⟨S_, .f32⟩
  | 19 => ⟨S1000000x64, .f32⟩
  | 20 => ⟨S1000000x64, .f32⟩
  | 21 => ⟨S_, .f32⟩
  | 22 => ⟨S100000x64, .f32⟩
  | 23 => ⟨S1000000x1, .i32⟩
  | 24 => ⟨S100000x64, .f32⟩
  | 25 => ⟨S100000x128, .f32⟩
  | 26 => ⟨S1x128x64, .f32⟩
  | 27 => ⟨S128x64, .f32⟩
  | 28 => ⟨S100000x64, .f32⟩
  | 29 => ⟨S1x64, .f32⟩
  | 30 => ⟨S64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x64, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S1000000x192, .f32⟩
  | 56 => ⟨S1x192x64, .f32⟩
  | 57 => ⟨S192x64, .f32⟩
  | 58 => ⟨S1000000x64, .f32⟩
  | 59 => ⟨S1x64, .f32⟩
  | 60 => ⟨S64, .f32⟩
  | 61 => ⟨S1x64, .f32⟩
  | 62 => ⟨S1000000x64, .f32⟩
  | 63 => ⟨S1000000x64, .f32⟩
  | 64 => ⟨S_, .f32⟩
  | 65 => ⟨S1000000x64, .f32⟩
  | 66 => ⟨S1000000x64, .f32⟩
  | 67 => ⟨S_, .f32⟩
  | 68 => ⟨S100000x64, .f32⟩
  | 69 => ⟨S1000000x1, .i32⟩
  | 70 => ⟨S100000x64, .f32⟩
  | 71 => ⟨S100000x128, .f32⟩
  | 72 => ⟨S1x128x64, .f32⟩
  | 73 => ⟨S128x64, .f32⟩
  | 74 => ⟨S100000x64, .f32⟩
  | 75 => ⟨S1x64, .f32⟩
  | 76 => ⟨S64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x192, .f32⟩
  | 84 => ⟨S1x192, .f32⟩
  | 85 => ⟨S100000x192, .f32⟩
  | 86 => ⟨S100000x192, .f32⟩
  | 87 => ⟨S100000x64, .f32⟩
  | 88 => ⟨S100000x64, .f32⟩
  | 89 => ⟨S100000x64, .f32⟩
  | 90 => ⟨S100000x1, .f32⟩
  | 91 => ⟨S1x1, .f32⟩
  | 92 => ⟨S100000x1, .f32⟩
  | 93 => ⟨S100000x1, .f32⟩
  | 94 => ⟨S100000x1, .f32⟩
  | 95 => ⟨S100000x1, .f32⟩
  | 96 => ⟨S1x1, .f32⟩
  | 97 => ⟨S100000x1, .f32⟩
  | 98 => ⟨S100000x1, .f32⟩
  | 99 => ⟨S100000x1, .f32⟩
  | 100 => ⟨S100000x1, .f32⟩
  | 101 => ⟨S1x1, .f32⟩
  | 102 => ⟨S100000x1, .f32⟩
  | 103 => ⟨S100000x1, .f32⟩
  | 104 => ⟨S100000x3, .f32⟩
  | 105 => ⟨S1000000x256, .f32⟩
  | 106 => ⟨S1x256, .f32⟩
  | 107 => ⟨S1000000x256, .f32⟩
  | 108 => ⟨S1000000x256, .f32⟩
  | 109 => ⟨S1000000x64, .f32⟩
  | 110 => ⟨S1000000x64, .f32⟩
  | 111 => ⟨S1000000x64, .f32⟩
  | 112 => ⟨S1000000x64, .f32⟩
  | 113 => ⟨S1000000x1, .f32⟩
  | 114 => ⟨S1x1, .f32⟩
  | 115 => ⟨S1000000x1, .f32⟩
  | 116 => ⟨S1000000x1, .f32⟩
  | 117 => ⟨S1000000x1, .f32⟩
  | 118 => ⟨S1000000x1, .f32⟩
  | 119 => ⟨S1x1, .f32⟩
  | 120 => ⟨S1000000x1, .f32⟩
  | 121 => ⟨S1000000x1, .f32⟩
  | 122 => ⟨S1000000x1, .f32⟩
  | 123 => ⟨S1000000x1, .f32⟩
  | 124 => ⟨S1x1, .f32⟩
  | 125 => ⟨S1000000x1, .f32⟩
  | 126 => ⟨S1000000x1, .f32⟩
  | 127 => ⟨S1000000x3, .f32⟩
  | _ => ⟨S100x64, .f32⟩

abbrev hbmTy0_2 (i : Nat) : BufTy := match i % 128 with
  | 0 => ⟨S1x3, .f32⟩
  | 1 => ⟨S1000000x3, .f32⟩
  | 2 => ⟨S1000000x3, .f32⟩
  | 3 => ⟨S1000000x3, .f32⟩
  | 4 => ⟨S1000000x6, .f32⟩
  | _ => ⟨S100x64, .f32⟩

abbrev hbmTy (i : Nat) : BufTy := match i / 128 with
  | 0 => hbmTy0_0 i
  | 1 => hbmTy0_1 i
  | 2 => hbmTy0_2 i
  | _ => ⟨S100x64, .f32⟩

abbrev bufTy : (tb : Table) → Fin (tcTables nBuf tb) → BufTy
  | .hbm, ⟨i, _⟩ => hbmTy i
  | _, _ => ⟨S100x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_call0_cst : Ref sig .tc := ⟨.hbm, 37, rfl⟩
abbrev main_call0_v0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_0 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_1 : Ref sig .tc := ⟨.hbm, 55, rfl⟩
abbrev main_v22 : Ref sig .tc := ⟨.hbm, 56, rfl⟩
abbrev main_v23 : Ref sig .tc := ⟨.hbm, 57, rfl⟩
abbrev main_c_2 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_3 : Ref sig .tc := ⟨.hbm, 64, rfl⟩
abbrev main_v29 : Ref sig .tc := ⟨.hbm, 65, rfl⟩
abbrev main_v30 : Ref sig .tc := ⟨.hbm, 66, rfl⟩
abbrev main_c_4 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_5 : Ref sig .tc := ⟨.hbm, 73, rfl⟩
abbrev main_v36 : Ref sig .tc := ⟨.hbm, 74, rfl⟩
abbrev main_v37 : Ref sig .tc := ⟨.hbm, 75, rfl⟩
abbrev main_c_6 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_7 : Ref sig .tc := ⟨.hbm, 82, rfl⟩
abbrev main_v43 : Ref sig .tc := ⟨.hbm, 83, rfl⟩
abbrev main_v44 : Ref sig .tc := ⟨.hbm, 84, rfl⟩
abbrev main_c_8 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_call1_cst : Ref sig .tc := ⟨.hbm, 100, rfl⟩
abbrev main_call1_v0 : Ref sig .tc := ⟨.hbm, 101, rfl⟩
abbrev main_v59 : Ref sig .tc := ⟨.hbm, 102, rfl⟩
abbrev main_cst : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_call2_cst : Ref sig .tc := ⟨.hbm, 116, rfl⟩
abbrev main_call2_v0 : Ref sig .tc := ⟨.hbm, 117, rfl⟩
abbrev main_v72 : Ref sig .tc := ⟨.hbm, 118, rfl⟩
abbrev main_c_9 : Ref sig .tc := ⟨.hbm, 119, rfl⟩
abbrev main_v73 : Ref sig .tc := ⟨.hbm, 120, rfl⟩
abbrev main_v74 : Ref sig .tc := ⟨.hbm, 121, rfl⟩
abbrev main_c_10 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_11 : Ref sig .tc := ⟨.hbm, 128, rfl⟩
abbrev main_v80 : Ref sig .tc := ⟨.hbm, 129, rfl⟩
abbrev main_v81 : Ref sig .tc := ⟨.hbm, 130, rfl⟩
abbrev main_c_12 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_call3_cst : Ref sig .tc := ⟨.hbm, 146, rfl⟩
abbrev main_call3_v0 : Ref sig .tc := ⟨.hbm, 147, rfl⟩
abbrev main_v96 : Ref sig .tc := ⟨.hbm, 148, rfl⟩
abbrev main_cst_13 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_call4_cst : Ref sig .tc := ⟨.hbm, 162, rfl⟩
abbrev main_call4_v0 : Ref sig .tc := ⟨.hbm, 163, rfl⟩
abbrev main_v109 : Ref sig .tc := ⟨.hbm, 164, rfl⟩
abbrev main_c_14 : Ref sig .tc := ⟨.hbm, 165, rfl⟩
abbrev main_v110 : Ref sig .tc := ⟨.hbm, 166, rfl⟩
abbrev main_v111 : Ref sig .tc := ⟨.hbm, 167, rfl⟩
abbrev main_c_15 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_c_16 : Ref sig .tc := ⟨.hbm, 174, rfl⟩
abbrev main_v117 : Ref sig .tc := ⟨.hbm, 175, rfl⟩
abbrev main_v118 : Ref sig .tc := ⟨.hbm, 176, rfl⟩
abbrev main_c_17 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_call5_cst : Ref sig .tc := ⟨.hbm, 192, rfl⟩
abbrev main_call5_v0 : Ref sig .tc := ⟨.hbm, 193, rfl⟩
abbrev main_v133 : Ref sig .tc := ⟨.hbm, 194, rfl⟩
abbrev main_cst_18 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_call6_cst : Ref sig .tc := ⟨.hbm, 208, rfl⟩
abbrev main_call6_v0 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100x64_0_1 : S1x64.BroadcastsInDim S100x64 (![0, 1] : Fin 2 → Fin S100x64.rank)
  bcast_S_S100x64 : S_.BroadcastsInDim S100x64 (![] : Fin 0 → Fin S100x64.rank)
  bcast_S128_S1x128_1 : S128.BroadcastsInDim S1x128 (![1] : Fin 1 → Fin S1x128.rank)
  bcast_S1x128_S100x128_0_1 : S1x128.BroadcastsInDim S100x128 (![0, 1] : Fin 2 → Fin S100x128.rank)
  slices_S100x128_S100x64_0_0 : S100x128.Slices ![0, 0] S100x64
  slices_S100x128_S100x64_0_64 : S100x128.Slices ![0, 64] S100x64
  bcast_S_S100000 : S_.BroadcastsInDim S100000 (![] : Fin 0 → Fin S100000.rank)
  bcast_S100000_S100000x1_0 : S100000.BroadcastsInDim S100000x1 (![0] : Fin 1 → Fin S100000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x192_d1 : Shape.Concatenates [S1000000x64, S1000000x64, S1000000x64] S1000000x192 1
  slices_S3x192x64_S1x192x64_0_0_0 : S3x192x64.Slices ![0, 0, 0] S1x192x64
  shapeCasts_S1x192x64_S192x64 : S1x192x64.ShapeCasts S192x64
  slices_S3x64_S1x64_0_0 : S3x64.Slices ![0, 0] S1x64
  shapeCasts_S1x64_S64 : S1x64.ShapeCasts S64
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  concatenates_S100000x64_S100000x64_S100000x128_d1 : Shape.Concatenates [S100000x64, S100000x64] S100000x128 1
  slices_S3x128x64_S1x128x64_0_0_0 : S3x128x64.Slices ![0, 0, 0] S1x128x64
  shapeCasts_S1x128x64_S128x64 : S1x128x64.ShapeCasts S128x64
  bcast_S1x64_S100000x64_0_1 : S1x64.BroadcastsInDim S100000x64 (![0, 1] : Fin 2 → Fin S100000x64.rank)
  slices_S3x192x64_S1x192x64_1_0_0 : S3x192x64.Slices ![1, 0, 0] S1x192x64
  slices_S3x64_S1x64_1_0 : S3x64.Slices ![1, 0] S1x64
  slices_S3x128x64_S1x128x64_1_0_0 : S3x128x64.Slices ![1, 0, 0] S1x128x64
  slices_S3x192x64_S1x192x64_2_0_0 : S3x192x64.Slices ![2, 0, 0] S1x192x64
  slices_S3x64_S1x64_2_0 : S3x64.Slices ![2, 0] S1x64
  slices_S3x128x64_S1x128x64_2_0_0 : S3x128x64.Slices ![2, 0, 0] S1x128x64
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  concatenates_S100000x1_S100000x1_S100000x1_S100000x3_d1 : Shape.Concatenates [S100000x1, S100000x1, S100000x1] S100000x3 1
  bcast_S256_S1x256_1 : S256.BroadcastsInDim S1x256 (![1] : Fin 1 → Fin S1x256.rank)
  bcast_S1x256_S1000000x256_0_1 : S1x256.BroadcastsInDim S1000000x256 (![0, 1] : Fin 2 → Fin S1000000x256.rank)
  slices_S1000000x256_S1000000x64_0_0 : S1000000x256.Slices ![0, 0] S1000000x64
  slices_S1000000x256_S1000000x64_0_64 : S1000000x256.Slices ![0, 64] S1000000x64
  slices_S1000000x256_S1000000x64_0_128 : S1000000x256.Slices ![0, 128] S1000000x64
  slices_S1000000x256_S1000000x64_0_192 : S1000000x256.Slices ![0, 192] S1000000x64
  bcast_S1x1_S1000000x1_0_1 : S1x1.BroadcastsInDim S1000000x1 (![0, 1] : Fin 2 → Fin S1000000x1.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  concatenates_S1000000x1_S1000000x1_S1000000x1_S1000000x3_S1000000x6_d1 : Shape.Concatenates [S1000000x1, S1000000x1, S1000000x1, S1000000x3] S1000000x6 1
  dot_S100x64_S64x64_S100x64_1_0_0_1_n_n_wf : DotDims.WF S100x64 S64x64 S100x64 [1] [0] [0] [1] [] []
  dot_S100x64_S64x128_S100x128_1_0_0_1_n_n_wf : DotDims.WF S100x64 S64x128 S100x128 [1] [0] [0] [1] [] []
  gather_S100x64_S100000x1_S100000x64_1_0_n_n_0_1_164_wf : GatherDims.WF S100x64 S100000x1 S100000x64 [1] [0] [] [0] [] 1 ![1, 64]
  gather_S100000_S1000000x1_S1000000_n_0_n_n_0_1_1_wf : GatherDims.WF S100000 S1000000x1 S1000000 [] [0] [] [0] [] 1 ![1]
  gather_S100x64_S1000000x1_S1000000x64_1_0_n_n_0_1_164_wf : GatherDims.WF S100x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  dot_S1000000x192_S192x64_S1000000x64_1_0_0_1_n_n_wf : DotDims.WF S1000000x192 S192x64 S1000000x64 [1] [0] [0] [1] [] []
  scatter_S100000x64_S1000000x1_S1000000x64_1_0_0_1_wf : ScatterDims.WF S100000x64 S1000000x1 S1000000x64 [1] [0] [0] 1
  dot_S100000x128_S128x64_S100000x64_1_0_0_1_n_n_wf : DotDims.WF S100000x128 S128x64 S100000x64 [1] [0] [0] [1] [] []
  dot_S100000x64_S64x192_S100000x192_1_0_0_1_n_n_wf : DotDims.WF S100000x64 S64x192 S100000x192 [1] [0] [0] [1] [] []
  dot_S100000x64_S64x1_S100000x1_1_0_0_1_n_n_wf : DotDims.WF S100000x64 S64x1 S100000x1 [1] [0] [0] [1] [] []
  dot_S1000000x64_S64x256_S1000000x256_1_0_0_1_n_n_wf : DotDims.WF S1000000x64 S64x256 S1000000x256 [1] [0] [0] [1] [] []
  dot_S1000000x64_S64x1_S1000000x1_1_0_0_1_n_n_wf : DotDims.WF S1000000x64 S64x1 S1000000x1 [1] [0] [0] [1] [] []
  dot_S1000000x64_S64x3_S1000000x3_1_0_0_1_n_n_wf : DotDims.WF S1000000x64 S64x3 S1000000x3 [1] [0] [0] [1] [] []

variable [Facts₀]

def dot_S100x64_S64x64_S100x64_1_0_0_1_n_n : DotDims S100x64 S64x64 S100x64 where
  lhsContracting := [1]
  rhsContracting := [0]
  lhsNonContracting := [0]
  rhsNonContracting := [1]
  lhsBatch := []
  rhsBatch := []
  wf := dot_S100x64_S64x64_S100x64_1_0_0_1_n_n_wf
def dot_S100x64_S64x128_S100x128_1_0_0_1_n_n : DotDims S100x64 S64x128 S100x128 where
  lhsContracting := [1]
  rhsContracting := [0]
  lhsNonContracting := [0]
  rhsNonContracting := [1]
  lhsBatch := []
  rhsBatch := []
  wf := dot_S100x64_S64x128_S100x128_1_0_0_1_n_n_wf
def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100x64_S1000000x1_S1000000x64_1_0_n_n_0_1_164 : GatherDims S100x64 S1000000x1 S1000000x64 where
  offsetDims := [1]
  collapsedSliceDims := [0]
  operandBatchingDims := []
  startIndicesBatchingDims := []
  startIndexMap := [0]
  indexVectorDim := 1
  sliceSizes := ![1, 64]
  wf := gather_S100x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def dot_S1000000x64_S64x256_S1000000x256_1_0_0_1_n_n : DotDims S1000000x64 S64x256 S1000000x256 where
  lhsContracting := [1]
  rhsContracting := [0]
  lhsNonContracting := [0]
  rhsNonContracting := [1]
  lhsBatch := []
  rhsBatch := []
  wf := dot_S1000000x64_S64x256_S1000000x256_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def dot_S1000000x64_S64x3_S1000000x3_1_0_0_1_n_n : DotDims S1000000x64 S64x3 S1000000x3 where
  lhsContracting := [1]
  rhsContracting := [0]
  lhsNonContracting := [0]
  rhsNonContracting := [1]
  lhsBatch := []
  rhsBatch := []
  wf := dot_S1000000x64_S64x3_S1000000x3_1_0_0_1_n_n_wf

class Facts : Prop extends Facts₀ where

variable [Facts]
-- ==== Proof.KRun.lean ====
/-
  The idealized kernel program's run with every buffer named: from any memory with zero counters every weakly fair
  execution of @main terminates, nothing faulting, and each unscoped buffer of a TensorCore ends at the contents the
  fold over @main's segments assigns to it (a stretch of host operations applies them in order; a region leaves each
  of its arrays at what its write-backs, folded over the grid, leave). The argument is the one that shows the
  arguments unchanged, read at every buffer instead of at the arguments only.
-/
import proofs.«118118_j10582799417469_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W53 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W53 m ρ c b)
    (hfin := fun c s' => by
      iintro ⟨⟨Hh, -⟩, HSI⟩
      unfold StableHlo.held
      imodintro
      iapply (pointsTo_read_all (Pipeline.ucRefs τ sig) (fun b => (((c : Thread nD τ)).1, b)) (W53 m ρ c) s')
      isplitl [Hh] <;> iassumption)
    (hQ := fun s h c b hb => h c _ (mem_uc b hb))

end Cert.KernelIdeal.KRun

end
-- ==== Proof.KEval.lean ====
/-
  Reading a buffer through a region of the idealized kernel program: a buffer that is none of the region's arrays holds
  after the region what it held before it. (The statements of the frame module, restated so that a rewriting pass can
  apply them at any buffer.)
-/
import proofs.«118118_j10582799417469_1_alg».proof.Proof.Gen.KernelIdeal.Frame

set_option maxRecDepth 16384

noncomputable section

namespace Cert.KernelIdeal.KEval

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem keep0 (c : Dev nD) (b : Ref sig .tc) (hb : ∀ w, Pipeline.arrRef spec0 w ≠ b) :
    W10 m ρ c (no_index (Proc.devRef .tc b)) = W9 m ρ c (Proc.devRef .tc b) := W10_of_ne m ρ c b hb
theorem keep1 (c : Dev nD) (b : Ref sig .tc) (hb : ∀ w, Pipeline.arrRef spec1 w ≠ b) :
    W16 m ρ c (no_index (Proc.devRef .tc b)) = W15 m ρ c (Proc.devRef .tc b) := W16_of_ne m ρ c b hb
theorem keep2 (c : Dev nD) (b : Ref sig .tc) (hb : ∀ w, Pipeline.arrRef spec2 w ≠ b) :
    W24 m ρ c (no_index (Proc.devRef .tc b)) = W23 m ρ c (Proc.devRef .tc b) := W24_of_ne m ρ c b hb
theorem keep3 (c : Dev nD) (b : Ref sig .tc) (hb : ∀ w, Pipeline.arrRef spec3 w ≠ b) :
    W30 m ρ c (no_index (Proc.devRef .tc b)) = W29 m ρ c (Proc.devRef .tc b) := W30_of_ne m ρ c b hb
theorem keep4 (c : Dev nD) (b : Ref sig .tc) (hb : ∀ w, Pipeline.arrRef spec4 w ≠ b) :
    W38 m ρ c (no_index (Proc.devRef .tc b)) = W37 m ρ c (Proc.devRef .tc b) := W38_of_ne m ρ c b hb
theorem keep5 (c : Dev nD) (b : Ref sig .tc) (hb : ∀ w, Pipeline.arrRef spec5 w ≠ b) :
    W44 m ρ c (no_index (Proc.devRef .tc b)) = W43 m ρ c (Proc.devRef .tc b) := W44_of_ne m ρ c b hb
theorem keep6 (c : Dev nD) (b : Ref sig .tc) (hb : ∀ w, Pipeline.arrRef spec6 w ≠ b) :
    W48 m ρ c (no_index (Proc.devRef .tc b)) = W47 m ρ c (Proc.devRef .tc b) := W48_of_ne m ρ c b hb
theorem keep7 (c : Dev nD) (b : Ref sig .tc) (hb : ∀ w, Pipeline.arrRef spec7 w ≠ b) :
    W52 m ρ c (no_index (Proc.devRef .tc b)) = W51 m ρ c (Proc.devRef .tc b) := W52_of_ne m ρ c b hb

end Cert.KernelIdeal.KEval

end
-- ==== Proof.Rows.lean ====
/-
  Two facts about rows. The programs differ in that one of them works on arrays padded with rows of zeros up to a
  whole number of 8192-row blocks and cuts the padding off afterwards: a row below the original height of a padded array
  is the original row, and a row of the first rows cut off an array is that row of the array.
-/
import Idealize.ShloMosaic.Lib.Pipeline.Value
import Idealize.ShloMosaic.Lib.ValueIdx
import Idealize.ShloMosaic.Lib.KernelVsHost

namespace Cert.Rows

open Idealize.ShloMosaic Idealize.ShloMosaic.ValueIdx

variable {α : Type}

/-- Row `r` of the first `R` rows of an array of `P` rows is row `r` of the array. -/
theorem slice_rows {P R C : Nat} (x : (⟨2, ![P, C]⟩ : Shape).Idx → α)
    (h : (⟨2, ![P, C]⟩ : Shape).Slices ![0, 0] ⟨2, ![R, C]⟩) (r : Fin R) (j : Fin C) (hr : r.val < P) :
    extractStridedSlice ⟨2, ![R, C]⟩ ![0, 0] x h (ix2 r j) = x (ix2 ⟨r.val, hr⟩ j) :=
  extractStridedSlice_apply ![0, 0] x h (ix2 r j) (ix2 ⟨r.val, hr⟩ j) (fun a => match a with
    | ⟨0, _⟩ => by show r.val = 0 + r.val; omega
    | ⟨1, _⟩ => by show j.val = 0 + j.val; omega)

/-- Row `r` of an array padded below with `hi` further rows is row `r` of the array, for `r` below its height. -/
theorem pad_rows {P R C hi : Nat} (x : (⟨2, ![R, C]⟩ : Shape).Idx → α) {u : Shape} (v : u.Idx → α)
    (h : (⟨2, ![R, C]⟩ : Shape).Pads ![0, 0] ![hi, 0] ![0, 0] ⟨2, ![P, C]⟩) (hu : 0 < u.numel) (r : Fin R) (j : Fin C) (hr : r.val < P) :
    pad ⟨2, ![P, C]⟩ ![0, 0] ![hi, 0] ![0, 0] x v h hu (ix2 ⟨r.val, hr⟩ j) = x (ix2 r j) :=
  pad_apply_of_inside ![0, 0] ![hi, 0] ![0, 0] x v h hu (ix2 ⟨r.val, hr⟩ j) (ix2 r j) (fun a => match a with
    | ⟨0, _⟩ => by show r.val = 0 + r.val * (0 + 1); omega
    | ⟨1, _⟩ => by show j.val = 0 + j.val * (0 + 1); omega)

end Cert.Rows
-- ==== Proof.Spec.lean ====
/-
  The mathematics shared by the two programs, as functions of whole arrays read index by index on the extended reals.
  A message-passing layer has two dense steps: the edge message
  `relu (x_src · W[0:64] + x_dst · W[64:128] + e · W[128:192] + b)` over the edges, and the node update
  `relu (x · W[0:64] + agg · W[64:128] + b)` over the nodes. The two decoding heads first project a 64-wide row to
  192 (nodes) or 256 (edges) columns, cut the projection into 64-wide groups, and send each group through its own
  small linear map, followed by a sine on all heads but one.
  A product of a row with a block of rows of a weight matrix is written once (`rowDot`); the programs differ only in
  how they group these sums (one product over a joined row against several products over its parts).
-/
import Idealize.ShloMosaic.PureOps.Ideal
import Idealize.ShloMosaic.Lib.ValueIdx

noncomputable section

open scoped BigOperators

namespace Cert.Spec

open Idealize.ShloMosaic Idealize.ShloMosaic.ValueIdx

/-- An array of extended reals of a literal shape. -/
abbrev Arr (s : Shape) : Type := s.Idx → EReal
abbrev sh1 (a : Nat) : Shape := ⟨1, ![a]⟩
abbrev sh2 (a b : Nat) : Shape := ⟨2, ![a, b]⟩

/-- Row `r` of `x` (`n` wide) against rows `off … off + n - 1` of `W`, column `j`. -/
def rowDot {R n K C : Nat} (off : Nat) (h : off + n ≤ K) (x : Arr (sh2 R n)) (W : Arr (sh2 K C)) (r : Fin R) (j : Fin C) : EReal :=
  ∑ k : Fin n, x (ix2 r k) * W (ix2 (⟨off + k.val, by omega⟩ : Fin K) j)

/-- The edge message of one layer. -/
def msg (xs xd e : Arr (sh2 1000000 64)) (W : Arr (sh2 192 64)) (b : Arr (sh1 64)) : Arr (sh2 1000000 64) :=
  fun i => max (rowDot 0 (by omega) xs W (i 0) (i 1) + rowDot 64 (by omega) xd W (i 0) (i 1)
    + rowDot 128 (by omega) e W (i 0) (i 1) + b (ix1 (i 1))) 0

/-- The node update of one layer. -/
def upd (x agg : Arr (sh2 100000 64)) (W : Arr (sh2 128 64)) (b : Arr (sh1 64)) : Arr (sh2 100000 64) :=
  fun i => max (rowDot 0 (by omega) x W (i 0) (i 1) + rowDot 64 (by omega) agg W (i 0) (i 1) + b (ix1 (i 1))) 0

/-- The projection `x · W + b` at row `r`, column `j`. -/
def proj {R K C : Nat} (x : Arr (sh2 R K)) (W : Arr (sh2 K C)) (b : Arr (sh1 C)) (r : Fin R) (j : Fin C) : EReal :=
  (∑ k : Fin K, x (ix2 r k) * W (ix2 k j)) + b (ix1 j)

/-- One head: columns `off … off + 63` of a projected row against a `64 × C'` map, plus its bias. -/
def head {R C C' : Nat} (off : Nat) (h : off + 64 ≤ C) (xp : Fin R → Fin C → EReal) (w : Arr (sh2 64 C')) (b : Arr (sh1 C'))
    (r : Fin R) (j : Fin C') : EReal :=
  (∑ k : Fin 64, xp r (⟨off + k.val, by omega⟩ : Fin C) * w (ix2 k j)) + b (ix1 j)

/-- The node decoder: three heads over a 192-wide projection; sine on the first two. -/
def ndec (x : Arr (sh2 100000 64)) (xpW : Arr (sh2 64 192)) (xpb : Arr (sh1 192))
    (nlW : Arr (sh2 64 1)) (nlb : Arr (sh1 1)) (nnW : Arr (sh2 64 1)) (nnb : Arr (sh1 1)) (ntW : Arr (sh2 64 1)) (ntb : Arr (sh1 1)) :
    Arr (sh2 100000 3) :=
  fun i =>
    if (i 1).val = 0 then Ideal.sin (head 0 (by omega) (proj x xpW xpb) nlW nlb (i 0) 0)
    else if (i 1).val = 1 then Ideal.sin (head 64 (by omega) (proj x xpW xpb) nnW nnb (i 0) 0)
    else head 128 (by omega) (proj x xpW xpb) ntW ntb (i 0) 0

/-- The edge decoder: four heads over a 256-wide projection, the last one three columns wide; sine on all but the third. -/
def edec (e : Arr (sh2 1000000 64)) (epW : Arr (sh2 64 256)) (epb : Arr (sh1 256))
    (weW : Arr (sh2 64 1)) (web : Arr (sh1 1)) (elW : Arr (sh2 64 1)) (elb : Arr (sh1 1)) (etW : Arr (sh2 64 1)) (etb : Arr (sh1 1))
    (cpW : Arr (sh2 64 3)) (cpb : Arr (sh1 3)) : Arr (sh2 1000000 6) :=
  fun i =>
    if (i 1).val = 0 then Ideal.sin (head 0 (by omega) (proj e epW epb) weW web (i 0) 0)
    else if (i 1).val = 1 then Ideal.sin (head 64 (by omega) (proj e epW epb) elW elb (i 0) 0)
    else if (i 1).val = 2 then head 128 (by omega) (proj e epW epb) etW etb (i 0) 0
    else Ideal.sin (head 192 (by omega) (proj e epW epb) cpW cpb (i 0) (⟨((i 1).val - 3) % 3, Nat.mod_lt _ (by omega)⟩ : Fin 3))

end Cert.Spec

end
-- ==== Proof.NodeDec.lean ====
/-
  The node decoder's region, read as one function of whole arrays on the extended reals.
  Each grid point takes a block of 8192 rows of the padded node array, projects every 64-wide row to 192 columns
  (`x · W + b`), cuts the projection into three 64-wide groups and sends each group through its own 64 × 1 map plus a
  bias, with a sine on the first two; the three results are the three columns of the output block. Every matrix
  product accumulates into zero, so on the extended reals it is the plain sum over the shared coordinate, and a
  row of the output depends on the same row of the input only. Hence the padded output array is, row by row, the
  row decoder `rowDec` of the padded input's row, and on the first 100,000 rows this is the specification's `ndec`.
-/
import proofs.«118118_j10582799417469_1_alg».proof.Proof.Gen.KernelIdeal.Frame
import proofs.«118118_j10582799417469_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.NodeDec

open Cert.KernelIdeal Cert.KernelIdeal.Gen Idealize.ShloMosaic Idealize.ShloMosaic.ValueIdx Idealize.ShloMosaic.TcCoe Idealize.SL.Sem
open Idealize.ShloMosaic.Pipeline (Dat)

/-! ## The decoder on one row -/

/-- The projection of one 64-wide row, at column `c`. -/
def xpRow (xr : Fin 64 → EReal) (W : S64x192.Idx → EReal) (B : Fin 192 → EReal) (c : Fin 192) : EReal :=
  (∑ k : Fin 64, xr k * W (ix2 k c)) + B c

/-- One head of a projected row: the 64-wide group at column `off` against a 64 × 1 map, plus a bias. -/
def headRow (off : Nat) (h : off + 64 ≤ 192) (xp : Fin 192 → EReal) (w : S64x1.Idx → EReal) (b : EReal) : EReal :=
  (∑ k : Fin 64, xp (⟨off + k.val, by omega⟩ : Fin 192) * w (ix2 k 0)) + b

/-- The three decoded columns of one row: sine on the first two heads. -/
def rowDec (xr : Fin 64 → EReal) (W : S64x192.Idx → EReal) (B : Fin 192 → EReal) (w0 w1 w2 : S64x1.Idx → EReal)
    (b0 b1 b2 : EReal) (j : Fin 3) : EReal :=
  if j.val = 0 then Ideal.sin (headRow 0 (by omega) (xpRow xr W B) w0 b0)
  else if j.val = 1 then Ideal.sin (headRow 64 (by omega) (xpRow xr W B) w1 b1)
  else headRow 128 (by omega) (xpRow xr W B) w2 b2

/-- The specification's node decoder at row `r`, column `j`, is the row decoder of row `r`. -/
theorem ndec_eq (x : Cert.Spec.Arr (Cert.Spec.sh2 100000 64)) (xpW : Cert.Spec.Arr (Cert.Spec.sh2 64 192)) (xpb : Cert.Spec.Arr (Cert.Spec.sh1 192))
    (nlW : Cert.Spec.Arr (Cert.Spec.sh2 64 1)) (nlb : Cert.Spec.Arr (Cert.Spec.sh1 1)) (nnW : Cert.Spec.Arr (Cert.Spec.sh2 64 1)) (nnb : Cert.Spec.Arr (Cert.Spec.sh1 1))
    (ntW : Cert.Spec.Arr (Cert.Spec.sh2 64 1)) (ntb : Cert.Spec.Arr (Cert.Spec.sh1 1)) (r : Fin 100000) (j : Fin 3) :
    Cert.Spec.ndec x xpW xpb nlW nlb nnW nnb ntW ntb (ix2 r j)
      = rowDec (fun k => x (ix2 r k)) xpW (fun c => xpb (ix1 c)) nlW nnW ntW (nlb (ix1 0)) (nnb (ix1 0)) (ntb (ix1 0)) j := rfl

/-- The decoder of a whole array of `R` rows, row by row (the biases as the 1 × n arrays the region stages). -/
def decAt {R : Nat} (X : (⟨2, ![R, 64]⟩ : Shape).Idx → EReal) (W : S64x192.Idx → EReal) (B : S1x192.Idx → EReal)
    (w0 : S64x1.Idx → EReal) (b0 : S1x1.Idx → EReal) (w1 : S64x1.Idx → EReal) (b1 : S1x1.Idx → EReal)
    (w2 : S64x1.Idx → EReal) (b2 : S1x1.Idx → EReal) : (⟨2, ![R, 3]⟩ : Shape).Idx → EReal :=
  fun i => rowDec (fun k => X (ix2 (⟨(i 0).val, idx2_lt0 i⟩ : Fin R) k)) W (fun c => B (ix2 0 c)) w0 w1 w2
    (b0 (ix2 0 0)) (b1 (ix2 0 0)) (b2 (ix2 0 0)) (⟨(i 1).val, idx2_lt1 i⟩ : Fin 3)

/-- At an index whose coordinates are `p` and `q`. -/
theorem decAt_at {R : Nat} (X : (⟨2, ![R, 64]⟩ : Shape).Idx → EReal) (W : S64x192.Idx → EReal) (B : S1x192.Idx → EReal)
    (w0 : S64x1.Idx → EReal) (b0 : S1x1.Idx → EReal) (w1 : S64x1.Idx → EReal) (b1 : S1x1.Idx → EReal)
    (w2 : S64x1.Idx → EReal) (b2 : S1x1.Idx → EReal) (i : (⟨2, ![R, 3]⟩ : Shape).Idx) (p : Fin R) (q : Fin 3)
    (hp : (i 0).val = p.val) (hq : (i 1).val = q.val) :
    decAt X W B w0 b0 w1 b1 w2 b2 i
      = rowDec (fun k => X (ix2 p k)) W (fun c => B (ix2 0 c)) w0 w1 w2 (b0 (ix2 0 0)) (b1 (ix2 0 0)) (b2 (ix2 0 0)) q := by
  have e0 : (⟨(i 0).val, idx2_lt0 i⟩ : Fin R) = p := Fin.ext hp
  have e1 : (⟨(i 1).val, idx2_lt1 i⟩ : Fin 3) = q := Fin.ext hq
  unfold decAt
  rw [e0, e1]

/-! ## The body's payloads at an index -/

theorem mm192_l0 (i : S8192x192.Idx) (q : dot_S8192x64_S64x192_S8192x192_1_0_0_1_n_n.contr.Idx) : (dot_S8192x64_S64x192_S8192x192_1_0_0_1_n_n.lhsIdx i q 0).val = (i 0).val := by
  unfold DotDims.lhsIdx
  rw [dif_neg (show ¬(0 : Fin S8192x64.rank) ∈ dot_S8192x64_S64x192_S8192x192_1_0_0_1_n_n.lhsBatch by decide), dif_pos (show (0 : Fin S8192x64.rank) ∈ dot_S8192x64_S64x192_S8192x192_1_0_0_1_n_n.lhsNonContracting by decide)]
  rfl
theorem mm192_r1 (i : S8192x192.Idx) (q : dot_S8192x64_S64x192_S8192x192_1_0_0_1_n_n.contr.Idx) : (dot_S8192x64_S64x192_S8192x192_1_0_0_1_n_n.rhsIdx i q 1).val = (i 1).val := by
  unfold DotDims.rhsIdx
  rw [dif_neg (show ¬(1 : Fin S64x192.rank) ∈ dot_S8192x64_S64x192_S8192x192_1_0_0_1_n_n.rhsBatch by decide), dif_pos (show (1 : Fin S64x192.rank) ∈ dot_S8192x64_S64x192_S8192x192_1_0_0_1_n_n.rhsNonContracting by decide)]
  rfl
/-- The projection's matrix product into a zero accumulator, read at row `p`, column `c`: the plain sum over the 64 shared coordinates. -/
theorem mm192 (a : FVec Ideal S8192x64 .bf16) (b : FVec Ideal S64x192 .bf16) (p : Fin 8192) (c : Fin 192) :
    matmul dot_S8192x64_S64x192_S8192x192_1_0_0_1_n_n none a b (constant (F := Ideal) S8192x192 .f32 0x00000000#32) (ix2 p c)
      = ∑ k : Fin 64, a (ix2 p k) * b (ix2 k c) := by
  simp only [matmul]
  rw [Ideal.matmul_constant_zero_apply, ← Equiv.sum_comp (contrEquiv1 dot_S8192x64_S64x192_S8192x192_1_0_0_1_n_n 64 rfl rfl).symm]
  refine Finset.sum_congr rfl fun k _ => ?_
  have hk := contrEquiv1_symm_val dot_S8192x64_S64x192_S8192x192_1_0_0_1_n_n 64 rfl rfl k
  have el : dot_S8192x64_S64x192_S8192x192_1_0_0_1_n_n.lhsIdx (ix2 p c) ((contrEquiv1 dot_S8192x64_S64x192_S8192x192_1_0_0_1_n_n 64 rfl rfl).symm k) = ix2 p k :=
    funext fun a => Fin.ext (by
      match a with
      | ⟨0, _⟩ => exact mm192_l0 _ _
      | ⟨1, _⟩ => exact (dot_S8192x64_S64x192_S8192x192_1_0_0_1_n_n.lhsIdx_val_of_single rfl _ _).trans hk)
  have er : dot_S8192x64_S64x192_S8192x192_1_0_0_1_n_n.rhsIdx (ix2 p c) ((contrEquiv1 dot_S8192x64_S64x192_S8192x192_1_0_0_1_n_n 64 rfl rfl).symm k) = ix2 k c :=
    funext fun a => Fin.ext (by
      match a with
      | ⟨0, _⟩ => exact (dot_S8192x64_S64x192_S8192x192_1_0_0_1_n_n.rhsIdx_val_of_single rfl _ _).trans hk
      | ⟨1, _⟩ => exact mm192_r1 _ _)
  rw [el, er]

theorem mm1_l0 (i : S8192x1.Idx) (q : dot_S8192x64_S64x1_S8192x1_1_0_0_1_n_n.contr.Idx) : (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch by decide), dif_pos (show (0 : Fin S8192x64.rank) ∈ dot_S8192x64_S64x1_S8192x1_1_0_0_1_n_n.lhsNonContracting by decide)]
  rfl
theorem mm1_r1 (i : S8192x1.Idx) (q : dot_S8192x64_S64x1_S8192x1_1_0_0_1_n_n.contr.Idx) : (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch by decide), dif_pos (show (1 : Fin S64x1.rank) ∈ dot_S8192x64_S64x1_S8192x1_1_0_0_1_n_n.rhsNonContracting by decide)]
  rfl
/-- A head's matrix product into a zero accumulator, read at row `p`: the sum over the 64 coordinates of the group. -/
theorem mm1 (a : FVec Ideal S8192x64 .bf16) (b : FVec Ideal S64x1 .bf16) (p : Fin 8192) (c : Fin 1) :
    matmul dot_S8192x64_S64x1_S8192x1_1_0_0_1_n_n none a b (constant (F := Ideal) S8192x1 .f32 0x00000000#32) (ix2 p c)
      = ∑ k : Fin 64, a (ix2 p k) * b (ix2 k c) := by
  simp only [matmul]
  rw [Ideal.matmul_constant_zero_apply, ← Equiv.sum_comp (contrEquiv1 dot_S8192x64_S64x1_S8192x1_1_0_0_1_n_n 64 rfl rfl).symm]
  refine Finset.sum_congr rfl fun k _ => ?_
  have hk := contrEquiv1_symm_val dot_S8192x64_S64x1_S8192x1_1_0_0_1_n_n 64 rfl rfl k
  have el : dot_S8192x64_S64x1_S8192x1_1_0_0_1_n_n.lhsIdx (ix2 p c) ((contrEquiv1 dot_S8192x64_S64x1_S8192x1_1_0_0_1_n_n 64 rfl rfl).symm k) = ix2 p k :=
    funext fun a => Fin.ext (by
      match a with
      | ⟨0, _⟩ => exact mm1_l0 _ _
      | ⟨1, _⟩ => exact (dot_S8192x64_S64x1_S8192x1_1_0_0_1_n_n.lhsIdx_val_of_single rfl _ _).trans hk)
  have er : dot_S8192x64_S64x1_S8192x1_1_0_0_1_n_n.rhsIdx (ix2 p c) ((contrEquiv1 dot_S8192x64_S64x1_S8192x1_1_0_0_1_n_n 64 rfl rfl).symm k) = ix2 k c :=
    funext fun a => Fin.ext (by
      match a with
      | ⟨0, _⟩ => exact (dot_S8192x64_S64x1_S8192x1_1_0_0_1_n_n.rhsIdx_val_of_single rfl _ _).trans hk
      | ⟨1, _⟩ => exact mm1_r1 _ _)
  rw [el, er]

/-- The projection `x · W + b` as the body computes it on one block, at row `p`, column `c`. -/
theorem pay2_apply (v0 : Vec Ideal S8192x64 .f32) (v3 : Vec Ideal S64x192 .f32) (v6 : Vec Ideal S1x192 .f32) (p : Fin 8192) (c : Fin 192) :
    k6_pay2 v0 v3 v6 (ix2 p c) = xpRow (fun k => v0 (ix2 p k)) v3 (fun c => v6 (ix2 0 c)) c := by
  unfold k6_pay2
  rw [shapeCast_self, shapeCast_self]
  refine (addf_apply _ _ _).trans ?_
  rw [mm192]
  refine congrArg₂ (· + ·) rfl ?_
  exact broadcastTo_apply _ _ _ (ix2 0 c) (fun a => by
    match a with
    | ⟨0, _⟩ => rfl
    | ⟨1, _⟩ => rfl)

/-- A sine of a vector, at an index. -/
theorem sin_apply {s : Shape} {φ : FTy} (a : FVec Ideal s φ) (i : s.Idx) : sin a i = Ideal.sin (a i) := rfl

/-- One head's matrix product: the 64-wide group of the projected block `P` that starts at column `off`, against a
    64 × 1 map, into a zero accumulator, at row `p`. -/
theorem headmm_apply (off : Nat) (hoff : off + 64 ≤ 192) (P : FVec Ideal S8192x192 .f32) (hs : S8192x192.Slices ![0, off] S8192x64)
    (w : Vec Ideal S64x1 .f32) (h1 : FTy.bits .bf16 < FTy.bits .f32) (p : Fin 8192) :
    matmul dot_S8192x64_S64x1_S8192x1_1_0_0_1_n_n none (truncf .bf16 (extractStridedSlice S8192x64 ![0, off] P hs) h1)
        (truncf .bf16 w h1) (constant (F := Ideal) S8192x1 .f32 0x00000000#32) (ix2 p 0)
      = ∑ k : Fin 64, P (ix2 p (⟨off + k.val, by omega⟩ : Fin 192)) * w (ix2 k 0) := by
  rw [mm1]
  refine Finset.sum_congr rfl fun k _ => ?_
  refine congrArg₂ (· * ·) ?_ rfl
  show extractStridedSlice S8192x64 ![0, off] P hs (ix2 p k) = _
  exact extractStridedSlice_apply _ _ _ (ix2 p k) (ix2 p (⟨off + k.val, by omega⟩ : Fin 192)) (fun a => by
    match a with
    | ⟨0, _⟩ => exact (Nat.zero_add _).symm
    | ⟨1, _⟩ => rfl)

/-- A 1 × 1 bias broadcast down a column reads the bias. -/
theorem bias1_apply (b : FVec Ideal S1x1 .f32) (hb : S1x1.Broadcasts S8192x1) (p : Fin 8192) :
    broadcastTo S8192x1 b hb (ix2 p 0) = b (ix2 0 0) :=
  broadcastTo_apply _ _ _ (ix2 0 0) (fun a => by
    match a with
    | ⟨0, _⟩ => rfl
    | ⟨1, _⟩ => rfl)

/-- A head of the projected block is the head of the projected row. -/
theorem head_apply (off : Nat) (hoff : off + 64 ≤ 192) (v0 : Vec Ideal S8192x64 .f32) (v3 : Vec Ideal S64x192 .f32) (v6 : Vec Ideal S1x192 .f32)
    (hs : S8192x192.Slices ![0, off] S8192x64) (w : Vec Ideal S64x1 .f32) (h1 : FTy.bits .bf16 < FTy.bits .f32)
    (b : FVec Ideal S1x1 .f32) (hb : S1x1.Broadcasts S8192x1) (p : Fin 8192) :
    matmul dot_S8192x64_S64x1_S8192x1_1_0_0_1_n_n none (truncf .bf16 (extractStridedSlice S8192x64 ![0, off] (k6_pay2 v0 v3 v6) hs) h1)
        (truncf .bf16 w h1) (constant (F := Ideal) S8192x1 .f32 0x00000000#32) (ix2 p 0) + broadcastTo S8192x1 b hb (ix2 p 0)
      = headRow off hoff (xpRow (fun k => v0 (ix2 p k)) v3 (fun c => v6 (ix2 0 c))) w (b (ix2 0 0)) :=
  congrArg₂ (· + ·)
    ((headmm_apply off hoff _ hs w h1 p).trans (Finset.sum_congr rfl fun k _ => congrArg₂ (· * ·) (pay2_apply v0 v3 v6 p _) rfl))
    (bias1_apply b hb p)

/-- The first head: sine of the group at column 0 against its map, plus its bias. -/
theorem pay3_apply (v0 : Vec Ideal S8192x64 .f32) (v3 : Vec Ideal S64x192 .f32) (v6 : Vec Ideal S1x192 .f32) (v13 : Vec Ideal S64x1 .f32)
    (v21 : Vec Ideal S1x1 .f32) (p : Fin 8192) :
    k6_pay3 v0 v3 v6 v13 v21 (ix2 p 0)
      = Ideal.sin (headRow 0 (by omega) (xpRow (fun k => v0 (ix2 p k)) v3 (fun c => v6 (ix2 0 c))) v13 (v21 (ix2 0 0))) := by
  unfold k6_pay3
  rw [shapeCast_self]
  refine (sin_apply _ _).trans (congrArg Ideal.sin ?_)
  refine (addf_apply _ _ _).trans ?_
  exact head_apply 0 (by omega) v0 v3 v6 _ v13 _ v21 _ p

/-- The second head: the group at column 64. -/
theorem pay4_apply (v0 : Vec Ideal S8192x64 .f32) (v3 : Vec Ideal S64x192 .f32) (v6 : Vec Ideal S1x192 .f32) (v15 : Vec Ideal S64x1 .f32)
    (v28 : Vec Ideal S1x1 .f32) (p : Fin 8192) :
    k6_pay4 v0 v3 v6 v15 v28 (ix2 p 0)
      = Ideal.sin (headRow 64 (by omega) (xpRow (fun k => v0 (ix2 p k)) v3 (fun c => v6 (ix2 0 c))) v15 (v28 (ix2 0 0))) := by
  unfold k6_pay4
  rw [shapeCast_self]
  refine (sin_apply _ _).trans (congrArg Ideal.sin ?_)
  refine (addf_apply _ _ _).trans ?_
  exact head_apply 64 (by omega) v0 v3 v6 _ v15 _ v28 _ p

/-- The third head: the group at column 128, no sine. -/
theorem pay1_apply (v0 : Vec Ideal S8192x64 .f32) (v3 : Vec Ideal S64x192 .f32) (v6 : Vec Ideal S1x192 .f32) (v17 : Vec Ideal S64x1 .f32)
    (v35 : Vec Ideal S1x1 .f32) (p : Fin 8192) :
    k6_pay1 (k6_pay5 v0 v3 v6 v17) (k6_pay6 v35) (ix2 p 0)
      = headRow 128 (by omega) (xpRow (fun k => v0 (ix2 p k)) v3 (fun c => v6 (ix2 0 c))) v17 (v35 (ix2 0 0)) := by
  unfold k6_pay1 k6_pay5 k6_pay6
  rw [shapeCast_self]
  refine (addf_apply _ _ _).trans ?_
  exact head_apply 128 (by omega) v0 v3 v6 _ v17 _ v35 _ p

/-! ## From blocks to the array -/

theorem hz : (![0, 0] : Fin 2 → Nat) = fun _ => 0 := funext fun a => by fin_cases a <;> rfl

/-- The printed index maps, decided over the 13 grid points: the row windows sit at block `t`, every other window at block 0. -/
theorem idx_facts : ∀ t : Fin cfg6.N,
    (win6_0.index t (0 : Fin 2) = t.val ∧ win6_0.index t (1 : Fin 2) = 0)
    ∧ (win6_9.index t (0 : Fin 2) = t.val ∧ win6_9.index t (1 : Fin 2) = 0)
    ∧ (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0)
    ∧ (win6_8.index t (0 : Fin 2) = 0 ∧ win6_8.index t (1 : Fin 2) = 0) :=
  (by decide +kernel : ∀ t : Fin grid6.N, _)

/-- Window 1 stages its whole array at every point. -/
theorem blk1 (V : (c : Dev nD) → (b : Ref sig .tc) → Buf (Elt Ideal) ((c : Thread nD τ).loc b)) (c : Dev nD) (t : Fin cfg6.N) :
    iblk6 V c 1 t = (V c main_arg11 : S64x192.Idx → EReal) := by
  obtain ⟨-, -, ⟨e0, e1⟩, -, -, -, -, -, -, -⟩ := idx_facts t
  funext j
  show V c main_arg11 (((cfg6.win 1).blk t).view.emb j) = V c main_arg11 j
  refine congrArg _ (funext fun a => Fin.ext ?_)
  match a with
  | ⟨0, _⟩ => show win6_1.index t (0 : Fin 2) * 64 + 1 * (j 0).val = (j 0).val; omega
  | ⟨1, _⟩ => show win6_1.index t (1 : Fin 2) * 192 + 1 * (j 1).val = (j 1).val; omega

/-- Window 2 stages its whole array at every point. -/
theorem blk2 (V : (c : Dev nD) → (b : Ref sig .tc) → Buf (Elt Ideal) ((c : Thread nD τ).loc b)) (c : Dev nD) (t : Fin cfg6.N) :
    iblk6 V c 2 t = (V c main_v160 : S1x192.Idx → EReal) := by
  obtain ⟨-, -, -, ⟨e0, e1⟩, -, -, -, -, -, -⟩ := idx_facts t
  funext j
  show V c main_v160 (((cfg6.win 2).blk t).view.emb j) = V c main_v160 j
  refine congrArg _ (funext fun a => Fin.ext ?_)
  match a with
  | ⟨0, _⟩ => show win6_2.index t (0 : Fin 2) * 1 + 1 * (j 0).val = (j 0).val; omega
  | ⟨1, _⟩ => show win6_2.index t (1 : Fin 2) * 192 + 1 * (j 1).val = (j 1).val; omega

/-- Window 3 stages its whole array at every point. -/
theorem blk3 (V : (c : Dev nD) → (b : Ref sig .tc) → Buf (Elt Ideal) ((c : Thread nD τ).loc b)) (c : Dev nD) (t : Fin cfg6.N) :
    iblk6 V c 3 t = (V c main_arg13 : S64x1.Idx → EReal) := by
  obtain ⟨-, -, -, -, ⟨e0, e1⟩, -, -, -, -, -⟩ := idx_facts t
  funext j
  show V c main_arg13 (((cfg6.win 3).blk t).view.emb j) = V c main_arg13 j
  refine congrArg _ (funext fun a => Fin.ext ?_)
  match a with
  | ⟨0, _⟩ => show win6_3.index t (0 : Fin 2) * 64 + 1 * (j 0).val = (j 0).val; omega
  | ⟨1, _⟩ => show win6_3.index t (1 : Fin 2) * 1 + 1 * (j 1).val = (j 1).val; omega

/-- Window 4 stages its whole array at every point. -/
theorem blk4 (V : (c : Dev nD) → (b : Ref sig .tc) → Buf (Elt Ideal) ((c : Thread nD τ).loc b)) (c : Dev nD) (t : Fin cfg6.N) :
    iblk6 V c 4 t = (V c main_v161 : S1x1.Idx → EReal) := by
  obtain ⟨-, -, -, -, -, ⟨e0, e1⟩, -, -, -, -⟩ := idx_facts t
  funext j
  show V c main_v161 (((cfg6.win 4).blk t).view.emb j) = V c main_v161 j
  refine congrArg _ (funext fun a => Fin.ext ?_)
  match a with
  | ⟨0, _⟩ => show win6_4.index t (0 : Fin 2) * 1 + 1 * (j 0).val = (j 0).val; omega
  | ⟨1, _⟩ => show win6_4.index t (1 : Fin 2) * 1 + 1 * (j 1).val = (j 1).val; omega

/-- Window 5 stages its whole array at every point. -/
theorem blk5 (V : (c : Dev nD) → (b : Ref sig .tc) → Buf (Elt Ideal) ((c : Thread nD τ).loc b)) (c : Dev nD) (t : Fin cfg6.N) :
    iblk6 V c 5 t = (V c main_arg15 : S64x1.Idx → EReal) := by
  obtain ⟨-, -, -, -, -, -, ⟨e0, e1⟩, -, -, -⟩ := idx_facts t
  funext j
  show V c main_arg15 (((cfg6.win 5).blk t).view.emb j) = V c main_arg15 j
  refine congrArg _ (funext fun a => Fin.ext ?_)
  match a with
  | ⟨0, _⟩ => show win6_5.index t (0 : Fin 2) * 64 + 1 * (j 0).val = (j 0).val; omega
  | ⟨1, _⟩ => show win6_5.index t (1 : Fin 2) * 1 + 1 * (j 1).val = (j 1).val; omega

/-- Window 6 stages its whole array at every point. -/
theorem blk6 (V : (c : Dev nD) → (b : Ref sig .tc) → Buf (Elt Ideal) ((c : Thread nD τ).loc b)) (c : Dev nD) (t : Fin cfg6.N) :
    iblk6 V c 6 t = (V c main_v162 : S1x1.Idx → EReal) := by
  obtain ⟨-, -, -, -, -, -, -, ⟨e0, e1⟩, -, -⟩ := idx_facts t
  funext j
  show V c main_v162 (((cfg6.win 6).blk t).view.emb j) = V c main_v162 j
  refine congrArg _ (funext fun a => Fin.ext ?_)
  match a with
  | ⟨0, _⟩ => show win6_6.index t (0 : Fin 2) * 1 + 1 * (j 0).val = (j 0).val; omega
  | ⟨1, _⟩ => show win6_6.index t (1 : Fin 2) * 1 + 1 * (j 1).val = (j 1).val; omega

/-- Window 7 stages its whole array at every point. -/
theorem blk7 (V : (c : Dev nD) → (b : Ref sig .tc) → Buf (Elt Ideal) ((c : Thread nD τ).loc b)) (c : Dev nD) (t : Fin cfg6.N) :
    iblk6 V c 7 t = (V c main_arg17 : S64x1.Idx → EReal) := by
  obtain ⟨-, -, -, -, -, -, -, -, ⟨e0, e1⟩, -⟩ := idx_facts t
  funext j
  show V c main_arg17 (((cfg6.win 7).blk t).view.emb j) = V c main_arg17 j
  refine congrArg _ (funext fun a => Fin.ext ?_)
  match a with
  | ⟨0, _⟩ => show win6_7.index t (0 : Fin 2) * 64 + 1 * (j 0).val = (j 0).val; omega
  | ⟨1, _⟩ => show win6_7.index t (1 : Fin 2) * 1 + 1 * (j 1).val = (j 1).val; omega

/-- Window 8 stages its whole array at every point. -/
theorem blk8 (V : (c : Dev nD) → (b : Ref sig .tc) → Buf (Elt Ideal) ((c : Thread nD τ).loc b)) (c : Dev nD) (t : Fin cfg6.N) :
    iblk6 V c 8 t = (V c main_v163 : S1x1.Idx → EReal) := by
  obtain ⟨-, -, -, -, -, -, -, -, -, ⟨e0, e1⟩⟩ := idx_facts t
  funext j
  show V c main_v163 (((cfg6.win 8).blk t).view.emb j) = V c main_v163 j
  refine congrArg _ (funext fun a => Fin.ext ?_)
  match a with
  | ⟨0, _⟩ => show win6_8.index t (0 : Fin 2) * 1 + 1 * (j 0).val = (j 0).val; omega
  | ⟨1, _⟩ => show win6_8.index t (1 : Fin 2) * 1 + 1 * (j 1).val = (j 1).val; omega

/-- Window 0's block at point `t` is rows `8192 t … 8192 t + 8191` of the padded array. -/
theorem blk0 (V : (c : Dev nD) → (b : Ref sig .tc) → Buf (Elt Ideal) ((c : Thread nD τ).loc b)) (c : Dev nD) (t : Fin cfg6.N) (p : Fin 8192) (k : Fin 64) (R : Fin 106496)
    (hR : R.val = t.val * 8192 + p.val) :
    iblk6 V c 0 t (ix2 p k) = (V c main_v159 : S106496x64.Idx → EReal) (ix2 R k) := by
  obtain ⟨⟨e0, e1⟩, -⟩ := idx_facts t
  show V c main_v159 (((cfg6.win 0).blk t).view.emb (ix2 p k)) = V c main_v159 (ix2 R k)
  refine congrArg _ (funext fun a => Fin.ext ?_)
  match a with
  | ⟨0, _⟩ => show win6_0.index t (0 : Fin 2) * 8192 + 1 * p.val = R.val; omega
  | ⟨1, _⟩ => show win6_0.index t (1 : Fin 2) * 64 + 1 * k.val = k.val; omega

/-- What the body leaves in the output block is the row decoder of the input block, row by row: the three stores
    write the three columns, each the matching head of the row. -/
theorem out_apply (x0 : Vec Ideal S8192x64 .f32) (x1 : Vec Ideal S64x192 .f32) (x2 : Vec Ideal S1x192 .f32) (x3 : Vec Ideal S64x1 .f32) (x4 : Vec Ideal S1x1 .f32) (x5 : Vec Ideal S64x1 .f32) (x6 : Vec Ideal S1x1 .f32) (x7 : Vec Ideal S64x1 .f32) (x8 : Vec Ideal S1x1 .f32) (y : S8192x3.Idx) :
    out6_9 x0 x1 x2 x3 x4 x5 x6 x7 x8 y = decAt (R := 8192) x0 x1 x2 x3 x4 x5 x6 x7 x8 y := by
  unfold out6_9
  simp only [View.ld_unit_zero (S := S8192x64) hz, View.ld_unit_zero (S := S64x192) hz, View.ld_unit_zero (S := S1x192) hz,
    View.ld_unit_zero (S := S64x1) hz, View.ld_unit_zero (S := S1x1) hz]
  refine View.canon_apply_of_pieces (Val := Elt Ideal) (S := S8192x3) (e := .f32) (decAt (R := 8192) x0 x1 x2 x3 x4 x5 x6 x7 x8) _ ?_ y (cover6_9 _ _ _ y)
  intro pc hpc
  simp only [List.mem_cons, List.not_mem_nil, or_false] at hpc
  rcases hpc with rfl | rfl | rfl
  · intro x
    obtain ⟨p, q, rfl⟩ : ∃ (p : Fin 8192) (q : Fin 1), x = ix2 p q := ⟨x 0, x 1, eq_ix2 x⟩
    obtain rfl : q = 0 := Subsingleton.elim _ _
    refine (pay1_apply x0 x1 x2 x7 x8 p).trans ?_
    refine ((decAt_at x0 x1 x2 x3 x4 x5 x6 x7 x8 _ p 2 ?_ ?_).trans ?_).symm
    · show 0 + 1 * p.val = p.val; omega
    · rfl
    · rfl
  · intro x
    obtain ⟨p, q, rfl⟩ : ∃ (p : Fin 8192) (q : Fin 1), x = ix2 p q := ⟨x 0, x 1, eq_ix2 x⟩
    obtain rfl : q = 0 := Subsingleton.elim _ _
    refine (pay4_apply x0 x1 x2 x5 x6 p).trans ?_
    refine ((decAt_at x0 x1 x2 x3 x4 x5 x6 x7 x8 _ p 1 ?_ ?_).trans ?_).symm
    · show 0 + 1 * p.val = p.val; omega
    · rfl
    · rfl
  · intro x
    obtain ⟨p, q, rfl⟩ : ∃ (p : Fin 8192) (q : Fin 1), x = ix2 p q := ⟨x 0, x 1, eq_ix2 x⟩
    obtain rfl : q = 0 := Subsingleton.elim _ _
    refine (pay3_apply x0 x1 x2 x3 x4 p).trans ?_
    refine ((decAt_at x0 x1 x2 x3 x4 x5 x6 x7 x8 _ p 0 ?_ ?_).trans ?_).symm
    · show 0 + 1 * p.val = p.val; omega
    · rfl
    · rfl

/-- What point `t` writes back is block `t` of the row-by-row decoder of the arrays as the region finds them. -/
theorem flushed_eq (V : (c : Dev nD) → (b : Ref sig .tc) → Buf (Elt Ideal) ((c : Thread nD τ).loc b)) (c : Dev nD) (t : Fin cfg6.N) :
    (dat6 (F := Ideal) V c).flushed 9 t = ((cfg6.win 9).blk t).view.read (Elt Ideal)
      (decAt (R := 106496) (V c main_v159) (V c main_arg11) (V c main_v160) (V c main_arg13) (V c main_v161) (V c main_arg15) (V c main_v162) (V c main_arg17) (V c main_v163)) := by
  show (cfg6.win 9).cut (grid6.coords t) ((dat6 V c).after 9 t) = _
  rw [after6_9, blk1, blk2, blk3, blk4, blk5, blk6, blk7, blk8]
  obtain ⟨-, ⟨e0, e1⟩, -⟩ := idx_facts t
  funext y
  obtain ⟨p, q, rfl⟩ : ∃ (p : Fin 8192) (q : Fin 3), y = ix2 p q := ⟨y 0, y 1, eq_ix2 y⟩
  have hR : t.val * 8192 + p.val < 106496 := by
    have hN : grid6.N = 13 := N_6
    have ht : t.val < grid6.N := t.isLt
    omega
  refine (out_apply (iblk6 V c 0 t) (V c main_arg11) (V c main_v160) (V c main_arg13) (V c main_v161) (V c main_arg15) (V c main_v162) (V c main_arg17) (V c main_v163) (ix2 p q)).trans ?_
  refine (decAt_at (R := 8192) (iblk6 V c 0 t) (V c main_arg11) (V c main_v160) (V c main_arg13) (V c main_v161) (V c main_arg15) (V c main_v162) (V c main_arg17) (V c main_v163) (ix2 p q) p q rfl rfl).trans ?_
  refine Eq.symm ((decAt_at (R := 106496) (V c main_v159) (V c main_arg11) (V c main_v160) (V c main_arg13) (V c main_v161) (V c main_arg15) (V c main_v162) (V c main_arg17) (V c main_v163) (((cfg6.win 9).blk t).view.emb (ix2 p q)) ⟨t.val * 8192 + p.val, hR⟩ q ?_ ?_).trans ?_)
  · show win6_9.index t (0 : Fin 2) * 8192 + 1 * p.val = t.val * 8192 + p.val; omega
  · show win6_9.index t (1 : Fin 2) * 3 + 1 * q.val = q.val; omega
  · have e : (fun k => (V c main_v159 : S106496x64.Idx → EReal) (ix2 (⟨t.val * 8192 + p.val, hR⟩ : Fin 106496) k))
        = fun k => iblk6 V c 0 t (ix2 p k) := funext fun k => (blk0 V c t p k ⟨t.val * 8192 + p.val, hR⟩ rfl).symm
    rw [e]

/-- An index of the padded output is in point `t`'s block iff each coordinate is in the block's range on its axis. -/
theorem mem_blk (t : Fin cfg6.N) (i : S106496x3.Idx) :
    i ∈ ((cfg6.win 9).blk t).view.set ↔ ∀ a : Fin 2, win6_9.index t a * S8192x3.size a ≤ (i a).val ∧ (i a).val < win6_9.index t a * S8192x3.size a + S8192x3.size a := by
  show i ∈ ((View.whole main_v164).slice (win6_9.rect t)).set ↔ _
  rw [View.set_slice_whole, Rect.mem_set_unit]
  exact Iff.rfl

/-- The 13 blocks of 8192 rows cover the 106,496 rows: row `r` is in block `r / 8192`. -/
theorem cover (i : S106496x3.Idx) : ∃ t : Fin cfg6.N, (cfg6.win 9).flush t = true ∧ i ∈ ((cfg6.win 9).blk t).view.set := by
  have hi0 : (i 0).val < 106496 := idx2_lt0 i
  have hi1 : (i 1).val < 3 := idx2_lt1 i
  have hN : grid6.N = 13 := N_6
  have ht : (i 0).val / 8192 < grid6.N := by omega
  obtain ⟨-, ⟨e0, e1⟩, -⟩ := idx_facts ⟨(i 0).val / 8192, ht⟩
  refine ⟨⟨(i 0).val / 8192, ht⟩, flush6_9 _, ?_⟩
  rw [mem_blk]
  intro a
  match a with
  | ⟨0, _⟩ =>
    show win6_9.index ⟨(i 0).val / 8192, ht⟩ (0 : Fin 2) * 8192 ≤ (i 0).val ∧ (i 0).val < win6_9.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win6_9.index ⟨(i 0).val / 8192, ht⟩ (1 : Fin 2) * 3 ≤ (i 1).val ∧ (i 1).val < win6_9.index ⟨(i 0).val / 8192, ht⟩ (1 : Fin 2) * 3 + 3
    rw [e1]; omega

/-- The padded output array after the region: the row-by-row decoder of the arrays as the region finds them. -/
theorem final (V : (c : Dev nD) → (b : Ref sig .tc) → Buf (Elt Ideal) ((c : Thread nD τ).loc b)) (c : Dev nD) :
    (dat6 (F := Ideal) V c).arrAt 9 cfg6.N = decAt (R := 106496) (V c main_v159) (V c main_arg11) (V c main_v160) (V c main_arg13) (V c main_v161) (V c main_arg15) (V c main_v162) (V c main_arg17) (V c main_v163) :=
  (dat6 (F := Ideal) V c).arrAt_eq_of_cover 9 _ (fun t _ => flushed_eq V c t) cover

/-! ## The region's value -/

/-- REGION 6, READ: whatever the buffers hold when the region is entered, if the first 100,000 rows of the padded node
    array are `x` and the eight parameter arrays are the decoder's, then after the region the first 100,000 rows of
    the padded output are the specification's node decoder of them. -/
theorem value6 (V : (c : Dev nD) → (b : Ref sig .tc) → Buf (Elt Ideal) ((c : Thread nD τ).loc b)) (c : Dev nD)
    (x : Cert.Spec.Arr (Cert.Spec.sh2 100000 64)) (xpW : Cert.Spec.Arr (Cert.Spec.sh2 64 192)) (xpb : Cert.Spec.Arr (Cert.Spec.sh1 192))
    (nlW : Cert.Spec.Arr (Cert.Spec.sh2 64 1)) (nlb : Cert.Spec.Arr (Cert.Spec.sh1 1))
    (nnW : Cert.Spec.Arr (Cert.Spec.sh2 64 1)) (nnb : Cert.Spec.Arr (Cert.Spec.sh1 1))
    (ntW : Cert.Spec.Arr (Cert.Spec.sh2 64 1)) (ntb : Cert.Spec.Arr (Cert.Spec.sh1 1))
    (hx : ∀ (r : Fin 100000) (k : Fin 64), (V c main_v159 : S106496x64.Idx → EReal) (ix2 (⟨r.val, by omega⟩ : Fin 106496) k) = x (ix2 r k))
    (hxpW : (V c main_arg11 : S64x192.Idx → EReal) = xpW)
    (hxpb : ∀ j : Fin 192, (V c main_v160 : S1x192.Idx → EReal) (ix2 0 j) = xpb (ix1 j))
    (hnlW : (V c main_arg13 : S64x1.Idx → EReal) = nlW) (hnlb : (V c main_v161 : S1x1.Idx → EReal) (ix2 0 0) = nlb (ix1 0))
    (hnnW : (V c main_arg15 : S64x1.Idx → EReal) = nnW) (hnnb : (V c main_v162 : S1x1.Idx → EReal) (ix2 0 0) = nnb (ix1 0))
    (hntW : (V c main_arg17 : S64x1.Idx → EReal) = ntW) (hntb : (V c main_v163 : S1x1.Idx → EReal) (ix2 0 0) = ntb (ix1 0)) :
    ∀ (r : Fin 100000) (j : Fin 3),
      ((dat6 (F := Ideal) V c).arrAt 9 cfg6.N : S106496x3.Idx → EReal) (ix2 (⟨r.val, by omega⟩ : Fin 106496) j)
        = Cert.Spec.ndec x xpW xpb nlW nlb nnW nnb ntW ntb (ix2 r j) := by
  intro r j
  rw [final, ndec_eq, decAt_at (R := 106496) (V c main_v159) (V c main_arg11) (V c main_v160) (V c main_arg13) (V c main_v161) (V c main_arg15) (V c main_v162) (V c main_arg17) (V c main_v163) (ix2 (⟨r.val, by omega⟩ : Fin 106496) j) ⟨r.val, by omega⟩ j rfl rfl]
  have e1 : (fun k => (V c main_v159 : S106496x64.Idx → EReal) (ix2 (⟨r.val, by omega⟩ : Fin 106496) k)) = fun k => x (ix2 r k) :=
    funext fun k => hx r k
  have e2 : (fun j => (V c main_v160 : S1x192.Idx → EReal) (ix2 0 j)) = fun j => xpb (ix1 j) := funext hxpb
  rw [e1, e2, hxpW, hnlW, hnlb, hnnW, hnnb, hntW, hntb]

end Cert.KernelIdeal.NodeDec

end
-- ==== Proof.RefDec.lean ====
/-
  The reference's two decoders are the specification's. Each decoder projects a 64-wide row to 192 (nodes) or
  256 (edges) columns, cuts the projection into 64-wide groups by slicing, multiplies each group with its own small
  matrix and adds its bias, takes the sine of all heads but one, and lays the heads side by side: a column of
  the result is the head whose span of columns holds it.
-/
import proofs.«118118_j10582799417469_1_alg».proof.Proof.Spec
import proofs.«118118_j10582799417469_1_alg».proof.Proof.ReadP

noncomputable section

open scoped BigOperators

namespace Cert.ReferenceIdeal.RefSpec

open Cert.ReferenceIdeal Cert.ReferenceIdeal.Gen Cert.ReferenceIdeal.ReadP Idealize.ShloMosaic Idealize.ShloMosaic.ValueIdx

/-- A rank-2 index with known coordinates. -/
theorem ix2_of {n0 n1 : Nat} (j : (⟨2, ![n0, n1]⟩ : Shape).Idx) (a : Fin n0) (b : Fin n1) (h0 : j 0 = a) (h1 : j 1 = b) :
    j = ix2 a b := by
  subst h0; subst h1; exact eq_ix2 j

/-- A rank-1 index with a known coordinate. -/
theorem ix1_of {n : Nat} (j : (⟨1, ![n]⟩ : Shape).Idx) (a : Fin n) (h0 : j 0 = a) : j = ix1 a := by
  subst h0; exact eq_ix1 j

/-- The projection `x · W + b` as the reference computes it, at row `r`, column `c`. -/
theorem nproj (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x11 : (⟨S64x192, .f32⟩ : BufTy).Contents (Elt Ideal)) (x12 : (⟨S192, .f32⟩ : BufTy).Contents (Elt Ideal)) (r : Fin 100000) (c : Fin 192) :
    val_main_v150 (F := Ideal) x0 x1 x2 x3 x4 x5 x6 x7 x8 x9 x10 x11 x12 (ix2 r c)
      = Cert.Spec.proj (val_main_v146 (F := Ideal) x0 x1 x2 x3 x4 x5 x6 x7 x8 x9 x10) x11 x12 r c := by
  rw [val_main_v150_apply, val_main_v147_apply, val_main_v149_apply, val_main_v148_apply]
  have e1 : ∀ k : Fin 64, lidx_main_v147 (ix2 r c) k = ix2 r k := fun k => ix2_of _ _ _ rfl rfl
  have e2 : ∀ k : Fin 64, ridx_main_v147 (ix2 r c) k = ix2 k c := fun k => ix2_of _ _ _ rfl rfl
  have e3 : idx_main_v148 (idx_main_v149 (ix2 r c)) = ix1 c := ix1_of _ _ rfl
  simp only [e1, e2, e3]
  rfl

/-- The head over columns 0 … 63 of the projection, before its sine, at row `r`. -/
theorem nhead0 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x11 : (⟨S64x192, .f32⟩ : BufTy).Contents (Elt Ideal)) (x12 : (⟨S192, .f32⟩ : BufTy).Contents (Elt Ideal)) (x13 : (⟨S64x1, .f32⟩ : BufTy).Contents (Elt Ideal)) (x14 : (⟨S1, .f32⟩ : BufTy).Contents (Elt Ideal)) (r : Fin 100000) :
    val_main_v157 (F := Ideal) x0 x1 x2 x3 x4 x5 x6 x7 x8 x9 x10 x11 x12 x13 x14 (ix2 r (0 : Fin 1))
      = Cert.Spec.head 0 (by omega) (Cert.Spec.proj (val_main_v146 (F := Ideal) x0 x1 x2 x3 x4 x5 x6 x7 x8 x9 x10) x11 x12) x13 x14 r (0 : Fin 1) := by
  rw [val_main_v157_apply, val_main_v154_apply, val_main_v156_apply, val_main_v155_apply]
  have e1 : ∀ k : Fin 64, idx_main_v151 (lidx_main_v154 (ix2 r (0 : Fin 1)) k) = ix2 r (⟨0 + k.val, by omega⟩ : Fin 192) :=
    fun k => ix2_of _ _ _ rfl (Fin.ext (Nat.zero_add _).symm)
  have e2 : ∀ k : Fin 64, ridx_main_v154 (ix2 r (0 : Fin 1)) k = ix2 k (0 : Fin 1) := fun k => ix2_of _ _ _ rfl rfl
  have e3 : idx_main_v155 (idx_main_v156 (ix2 r (0 : Fin 1))) = ix1 (0 : Fin 1) := ix1_of _ _ rfl
  simp only [val_main_v151_apply, e1, e2, e3, nproj]
  rfl

/-- The head over columns 64 … 127 of the projection, before its sine, at row `r`. -/
theorem nhead1 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x11 : (⟨S64x192, .f32⟩ : BufTy).Contents (Elt Ideal)) (x12 : (⟨S192, .f32⟩ : BufTy).Contents (Elt Ideal)) (x15 : (⟨S64x1, .f32⟩ : BufTy).Contents (Elt Ideal)) (x16 : (⟨S1, .f32⟩ : BufTy).Contents (Elt Ideal)) (r : Fin 100000) :
    val_main_v162 (F := Ideal) x0 x1 x2 x3 x4 x5 x6 x7 x8 x9 x10 x11 x12 x15 x16 (ix2 r (0 : Fin 1))
      = Cert.Spec.head 64 (by omega) (Cert.Spec.proj (val_main_v146 (F := Ideal) x0 x1 x2 x3 x4 x5 x6 x7 x8 x9 x10) x11 x12) x15 x16 r (0 : Fin 1) := by
  rw [val_main_v162_apply, val_main_v159_apply, val_main_v161_apply, val_main_v160_apply]
  have e1 : ∀ k : Fin 64, idx_main_v152 (lidx_main_v159 (ix2 r (0 : Fin 1)) k) = ix2 r (⟨64 + k.val, by omega⟩ : Fin 192) :=
    fun k => ix2_of _ _ _ rfl rfl
  have e2 : ∀ k : Fin 64, ridx_main_v159 (ix2 r (0 : Fin 1)) k = ix2 k (0 : Fin 1) := fun k => ix2_of _ _ _ rfl rfl
  have e3 : idx_main_v160 (idx_main_v161 (ix2 r (0 : Fin 1))) = ix1 (0 : Fin 1) := ix1_of _ _ rfl
  simp only [val_main_v152_apply, e1, e2, e3, nproj]
  rfl

/-- The head over columns 128 … 191 of the projection (this head has no sine), at row `r`. -/
theorem nhead2 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x11 : (⟨S64x192, .f32⟩ : BufTy).Contents (Elt Ideal)) (x12 : (⟨S192, .f32⟩ : BufTy).Contents (Elt Ideal)) (x17 : (⟨S64x1, .f32⟩ : BufTy).Contents (Elt Ideal)) (x18 : (⟨S1, .f32⟩ : BufTy).Contents (Elt Ideal)) (r : Fin 100000) :
    val_main_v167 (F := Ideal) x0 x1 x2 x3 x4 x5 x6 x7 x8 x9 x10 x11 x12 x17 x18 (ix2 r (0 : Fin 1))
      = Cert.Spec.head 128 (by omega) (Cert.Spec.proj (val_main_v146 (F := Ideal) x0 x1 x2 x3 x4 x5 x6 x7 x8 x9 x10) x11 x12) x17 x18 r (0 : Fin 1) := by
  rw [val_main_v167_apply, val_main_v164_apply, val_main_v166_apply, val_main_v165_apply]
  have e1 : ∀ k : Fin 64, idx_main_v153 (lidx_main_v164 (ix2 r (0 : Fin 1)) k) = ix2 r (⟨128 + k.val, by omega⟩ : Fin 192) :=
    fun k => ix2_of _ _ _ rfl rfl
  have e2 : ∀ k : Fin 64, ridx_main_v164 (ix2 r (0 : Fin 1)) k = ix2 k (0 : Fin 1) := fun k => ix2_of _ _ _ rfl rfl
  have e3 : idx_main_v165 (idx_main_v166 (ix2 r (0 : Fin 1))) = ix1 (0 : Fin 1) := ix1_of _ _ rfl
  simp only [val_main_v153_apply, e1, e2, e3, nproj]
  rfl

/-- The node decoder: the result's three columns are the three heads, the first two under a sine. -/
theorem ndec_eq (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x11 : (⟨S64x192, .f32⟩ : BufTy).Contents (Elt Ideal)) (x12 : (⟨S192, .f32⟩ : BufTy).Contents (Elt Ideal)) (x13 : (⟨S64x1, .f32⟩ : BufTy).Contents (Elt Ideal)) (x14 : (⟨S1, .f32⟩ : BufTy).Contents (Elt Ideal)) (x15 : (⟨S64x1, .f32⟩ : BufTy).Contents (Elt Ideal)) (x16 : (⟨S1, .f32⟩ : BufTy).Contents (Elt Ideal)) (x17 : (⟨S64x1, .f32⟩ : BufTy).Contents (Elt Ideal)) (x18 : (⟨S1, .f32⟩ : BufTy).Contents (Elt Ideal)) :
    val_main_v168 (F := Ideal) x0 x1 x2 x3 x4 x5 x6 x7 x8 x9 x10 x11 x12 x13 x14 x15 x16 x17 x18
      = Cert.Spec.ndec (val_main_v146 (F := Ideal) x0 x1 x2 x3 x4 x5 x6 x7 x8 x9 x10) x11 x12 x13 x14 x15 x16 x17 x18 := by
  funext i
  obtain ⟨r, c, rfl⟩ : ∃ (r : Fin 100000) (c : Fin 3), i = ix2 r c := ⟨i 0, i 1, eq_ix2 i⟩
  match c with
  | ⟨0, h⟩ =>
    have hc : val_main_v168 (F := Ideal) x0 x1 x2 x3 x4 x5 x6 x7 x8 x9 x10 x11 x12 x13 x14 x15 x16 x17 x18 (ix2 r ⟨0, h⟩) = val_main_v158 (F := Ideal) x0 x1 x2 x3 x4 x5 x6 x7 x8 x9 x10 x11 x12 x13 x14 (ix2 r (0 : Fin 1)) := by
      unfold val_main_v168
      exact concatenate_apply_piece (t := S100000x3) 1
        [⟨S100000x1, val_main_v158 (F := Ideal) x0 x1 x2 x3 x4 x5 x6 x7 x8 x9 x10 x11 x12 x13 x14⟩,
          ⟨S100000x1, val_main_v163 (F := Ideal) x0 x1 x2 x3 x4 x5 x6 x7 x8 x9 x10 x11 x12 x15 x16⟩,
          ⟨S100000x1, val_main_v167 (F := Ideal) x0 x1 x2 x3 x4 x5 x6 x7 x8 x9 x10 x11 x12 x17 x18⟩]
        concatenates_S100000x1_S100000x1_S100000x1_S100000x3_d1 _ 0 (show (0 : Nat) < 3 by omega) S100000x1 _ rfl rfl 0 rfl (ix2 r (0 : Fin 1))
        (fun b hb => by match b, hb with | ⟨0, _⟩, _ => rfl | ⟨1, _⟩, hb => exact absurd rfl hb) rfl
    rw [hc, val_main_v158_apply, nhead0]
    rfl
  | ⟨1, h⟩ =>
    have hc : val_main_v168 (F := Ideal) x0 x1 x2 x3 x4 x5 x6 x7 x8 x9 x10 x11 x12 x13 x14 x15 x16 x17 x18 (ix2 r ⟨1, h⟩) = val_main_v163 (F := Ideal) x0 x1 x2 x3 x4 x5 x6 x7 x8 x9 x10 x11 x12 x15 x16 (ix2 r (0 : Fin 1)) := by
      unfold val_main_v168
      exact concatenate_apply_piece (t := S100000x3) 1
        [⟨S100000x1, val_main_v158 (F := Ideal) x0 x1 x2 x3 x4 x5 x6 x7 x8 x9 x10 x11 x12 x13 x14⟩,
          ⟨S100000x1, val_main_v163 (F := Ideal) x0 x1 x2 x3 x4 x5 x6 x7 x8 x9 x10 x11 x12 x15 x16⟩,
          ⟨S100000x1, val_main_v167 (F := Ideal) x0 x1 x2 x3 x4 x5 x6 x7 x8 x9 x10 x11 x12 x17 x18⟩]
        concatenates_S100000x1_S100000x1_S100000x1_S100000x3_d1 _ 1 (show (1 : Nat) < 3 by omega) S100000x1 _ rfl rfl 1 rfl (ix2 r (0 : Fin 1))
        (fun b hb => by match b, hb with | ⟨0, _⟩, _ => rfl | ⟨1, _⟩, hb => exact absurd rfl hb) rfl
    rw [hc, val_main_v163_apply, nhead1]
    rfl
  | ⟨2, h⟩ =>
    have hc : val_main_v168 (F := Ideal) x0 x1 x2 x3 x4 x5 x6 x7 x8 x9 x10 x11 x12 x13 x14 x15 x16 x17 x18 (ix2 r ⟨2, h⟩) = val_main_v167 (F := Ideal) x0 x1 x2 x3 x4 x5 x6 x7 x8 x9 x10 x11 x12 x17 x18 (ix2 r (0 : Fin 1)) := by
      unfold val_main_v168
      exact concatenate_apply_piece (t := S100000x3) 1
        [⟨S100000x1, val_main_v158 (F := Ideal) x0 x1 x2 x3 x4 x5 x6 x7 x8 x9 x10 x11 x12 x13 x14⟩,
          ⟨S100000x1, val_main_v163 (F := Ideal) x0 x1 x2 x3 x4 x5 x6 x7 x8 x9 x10 x11 x12 x15 x16⟩,
          ⟨S100000x1, val_main_v167 (F := Ideal) x0 x1 x2 x3 x4 x5 x6 x7 x8 x9 x10 x11 x12 x17 x18⟩]
        concatenates_S100000x1_S100000x1_S100000x1_S100000x3_d1 _ 2 (show (2 : Nat) < 3 by omega) S100000x1 _ rfl rfl 2 rfl (ix2 r (0 : Fin 1))
        (fun b hb => by match b, hb with | ⟨0, _⟩, _ => rfl | ⟨1, _⟩, hb => exact absurd rfl hb) rfl
    rw [hc, nhead2]
    rfl

/-- The projection `x · W + b` as the reference computes it, at row `r`, column `c`. -/
theorem eproj (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x19 : (⟨S64x256, .f32⟩ : BufTy).Contents (Elt Ideal)) (x20 : (⟨S256, .f32⟩ : BufTy).Contents (Elt Ideal)) (r : Fin 1000000) (c : Fin 256) :
    val_main_v172 (F := Ideal) x0 x1 x2 x3 x4 x5 x6 x7 x8 x9 x10 x19 x20 (ix2 r c)
      = Cert.Spec.proj (val_main_v133 (F := Ideal) x0 x1 x2 x3 x4 x5 x6 x7 x8 x9 x10) x19 x20 r c := by
  rw [val_main_v172_apply, val_main_v169_apply, val_main_v171_apply, val_main_v170_apply]
  have e1 : ∀ k : Fin 64, lidx_main_v169 (ix2 r c) k = ix2 r k := fun k => ix2_of _ _ _ rfl rfl
  have e2 : ∀ k : Fin 64, ridx_main_v169 (ix2 r c) k = ix2 k c := fun k => ix2_of _ _ _ rfl rfl
  have e3 : idx_main_v170 (idx_main_v171 (ix2 r c)) = ix1 c := ix1_of _ _ rfl
  simp only [e1, e2, e3]
  rfl

/-- The head over columns 0 … 63 of the projection, before its sine, at row `r`. -/
theorem ehead0 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x19 : (⟨S64x256, .f32⟩ : BufTy).Contents (Elt Ideal)) (x20 : (⟨S256, .f32⟩ : BufTy).Contents (Elt Ideal)) (x21 : (⟨S64x1, .f32⟩ : BufTy).Contents (Elt Ideal)) (x22 : (⟨S1, .f32⟩ : BufTy).Contents (Elt Ideal)) (r : Fin 1000000) :
    val_main_v180 (F := Ideal) x0 x1 x2 x3 x4 x5 x6 x7 x8 x9 x10 x19 x20 x21 x22 (ix2 r (0 : Fin 1))
      = Cert.Spec.head 0 (by omega) (Cert.Spec.proj (val_main_v133 (F := Ideal) x0 x1 x2 x3 x4 x5 x6 x7 x8 x9 x10) x19 x20) x21 x22 r (0 : Fin 1) := by
  rw [val_main_v180_apply, val_main_v177_apply, val_main_v179_apply, val_main_v178_apply]
  have e1 : ∀ k : Fin 64, idx_main_v173 (lidx_main_v177 (ix2 r (0 : Fin 1)) k) = ix2 r (⟨0 + k.val, by omega⟩ : Fin 256) :=
    fun k => ix2_of _ _ _ rfl (Fin.ext (Nat.zero_add _).symm)
  have e2 : ∀ k : Fin 64, ridx_main_v177 (ix2 r (0 : Fin 1)) k = ix2 k (0 : Fin 1) := fun k => ix2_of _ _ _ rfl rfl
  have e3 : idx_main_v178 (idx_main_v179 (ix2 r (0 : Fin 1))) = ix1 (0 : Fin 1) := ix1_of _ _ rfl
  simp only [val_main_v173_apply, e1, e2, e3, eproj]
  rfl

/-- The head over columns 64 … 127 of the projection, before its sine, at row `r`. -/
theorem ehead1 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x19 : (⟨S64x256, .f32⟩ : BufTy).Contents (Elt Ideal)) (x20 : (⟨S256, .f32⟩ : BufTy).Contents (Elt Ideal)) (x23 : (⟨S64x1, .f32⟩ : BufTy).Contents (Elt Ideal)) (x24 : (⟨S1, .f32⟩ : BufTy).Contents (Elt Ideal)) (r : Fin 1000000) :
    val_main_v185 (F := Ideal) x0 x1 x2 x3 x4 x5 x6 x7 x8 x9 x10 x19 x20 x23 x24 (ix2 r (0 : Fin 1))
      = Cert.Spec.head 64 (by omega) (Cert.Spec.proj (val_main_v133 (F := Ideal) x0 x1 x2 x3 x4 x5 x6 x7 x8 x9 x10) x19 x20) x23 x24 r (0 : Fin 1) := by
  rw [val_main_v185_apply, val_main_v182_apply, val_main_v184_apply, val_main_v183_apply]
  have e1 : ∀ k : Fin 64, idx_main_v174 (lidx_main_v182 (ix2 r (0 : Fin 1)) k) = ix2 r (⟨64 + k.val, by omega⟩ : Fin 256) :=
    fun k => ix2_of _ _ _ rfl rfl
  have e2 : ∀ k : Fin 64, ridx_main_v182 (ix2 r (0 : Fin 1)) k = ix2 k (0 : Fin 1) := fun k => ix2_of _ _ _ rfl rfl
  have e3 : idx_main_v183 (idx_main_v184 (ix2 r (0 : Fin 1))) = ix1 (0 : Fin 1) := ix1_of _ _ rfl
  simp only [val_main_v174_apply, e1, e2, e3, eproj]
  rfl

/-- The head over columns 128 … 191 of the projection (this head has no sine), at row `r`. -/
theorem ehead2 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x19 : (⟨S64x256, .f32⟩ : BufTy).Contents (Elt Ideal)) (x20 : (⟨S256, .f32⟩ : BufTy).Contents (Elt Ideal)) (x25 : (⟨S64x1, .f32⟩ : BufTy).Contents (Elt Ideal)) (x26 : (⟨S1, .f32⟩ : BufTy).Contents (Elt Ideal)) (r : Fin 1000000) :
    val_main_v190 (F := Ideal) x0 x1 x2 x3 x4 x5 x6 x7 x8 x9 x10 x19 x20 x25 x26 (ix2 r (0 : Fin 1))
      = Cert.Spec.head 128 (by omega) (Cert.Spec.proj (val_main_v133 (F := Ideal) x0 x1 x2 x3 x4 x5 x6 x7 x8 x9 x10) x19 x20) x25 x26 r (0 : Fin 1) := by
  rw [val_main_v190_apply, val_main_v187_apply, val_main_v189_apply, val_main_v188_apply]
  have e1 : ∀ k : Fin 64, idx_main_v175 (lidx_main_v187 (ix2 r (0 : Fin 1)) k) = ix2 r (⟨128 + k.val, by omega⟩ : Fin 256) :=
    fun k => ix2_of _ _ _ rfl rfl
  have e2 : ∀ k : Fin 64, ridx_main_v187 (ix2 r (0 : Fin 1)) k = ix2 k (0 : Fin 1) := fun k => ix2_of _ _ _ rfl rfl
  have e3 : idx_main_v188 (idx_main_v189 (ix2 r (0 : Fin 1))) = ix1 (0 : Fin 1) := ix1_of _ _ rfl
  simp only [val_main_v175_apply, e1, e2, e3, eproj]
  rfl

/-- The head over columns 192 … 255 of the projection, before its sine, at row `r`. -/
theorem ehead3 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x19 : (⟨S64x256, .f32⟩ : BufTy).Contents (Elt Ideal)) (x20 : (⟨S256, .f32⟩ : BufTy).Contents (Elt Ideal)) (x27 : (⟨S64x3, .f32⟩ : BufTy).Contents (Elt Ideal)) (x28 : (⟨S3, .f32⟩ : BufTy).Contents (Elt Ideal)) (r : Fin 1000000) (j : Fin 3) :
    val_main_v194 (F := Ideal) x0 x1 x2 x3 x4 x5 x6 x7 x8 x9 x10 x19 x20 x27 x28 (ix2 r j)
      = Cert.Spec.head 192 (by omega) (Cert.Spec.proj (val_main_v133 (F := Ideal) x0 x1 x2 x3 x4 x5 x6 x7 x8 x9 x10) x19 x20) x27 x28 r j := by
  rw [val_main_v194_apply, val_main_v191_apply, val_main_v193_apply, val_main_v192_apply]
  have e1 : ∀ k : Fin 64, idx_main_v176 (lidx_main_v191 (ix2 r j) k) = ix2 r (⟨192 + k.val, by omega⟩ : Fin 256) :=
    fun k => ix2_of _ _ _ rfl rfl
  have e2 : ∀ k : Fin 64, ridx_main_v191 (ix2 r j) k = ix2 k j := fun k => ix2_of _ _ _ rfl rfl
  have e3 : idx_main_v192 (idx_main_v193 (ix2 r j)) = ix1 j := ix1_of _ _ rfl
  simp only [val_main_v176_apply, e1, e2, e3, eproj]
  rfl

/-- The edge decoder: the result's six columns are the four heads (the last three columns wide), all but the third under a sine. -/
theorem edec_eq (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) (x19 : (⟨S64x256, .f32⟩ : BufTy).Contents (Elt Ideal)) (x20 : (⟨S256, .f32⟩ : BufTy).Contents (Elt Ideal)) (x21 : (⟨S64x1, .f32⟩ : BufTy).Contents (Elt Ideal)) (x22 : (⟨S1, .f32⟩ : BufTy).Contents (Elt Ideal)) (x23 : (⟨S64x1, .f32⟩ : BufTy).Contents (Elt Ideal)) (x24 : (⟨S1, .f32⟩ : BufTy).Contents (Elt Ideal)) (x25 : (⟨S64x1, .f32⟩ : BufTy).Contents (Elt Ideal)) (x26 : (⟨S1, .f32⟩ : BufTy).Contents (Elt Ideal)) (x27 : (⟨S64x3, .f32⟩ : BufTy).Contents (Elt Ideal)) (x28 : (⟨S3, .f32⟩ : BufTy).Contents (Elt Ideal)) :
    val_main_v196 (F := Ideal) x0 x1 x2 x3 x4 x5 x6 x7 x8 x9 x10 x19 x20 x21 x22 x23 x24 x25 x26 x27 x28
      = Cert.Spec.edec (val_main_v133 (F := Ideal) x0 x1 x2 x3 x4 x5 x6 x7 x8 x9 x10) x19 x20 x21 x22 x23 x24 x25 x26 x27 x28 := by
  funext i
  obtain ⟨r, c, rfl⟩ : ∃ (r : Fin 1000000) (c : Fin 6), i = ix2 r c := ⟨i 0, i 1, eq_ix2 i⟩
  match c with
  | ⟨0, h⟩ =>
    have hc : val_main_v196 (F := Ideal) x0 x1 x2 x3 x4 x5 x6 x7 x8 x9 x10 x19 x20 x21 x22 x23 x24 x25 x26 x27 x28 (ix2 r ⟨0, h⟩) = val_main_v181 (F := Ideal) x0 x1 x2 x3 x4 x5 x6 x7 x8 x9 x10 x19 x20 x21 x22 (ix2 r (0 : Fin 1)) := by
      unfold val_main_v196
      exact concatenate_apply_piece (t := S1000000x6) 1
        [⟨S1000000x1, val_main_v181 (F := Ideal) x0 x1 x2 x3 x4 x5 x6 x7 x8 x9 x10 x19 x20 x21 x22⟩,
          ⟨S1000000x1, val_main_v186 (F := Ideal) x0 x1 x2 x3 x4 x5 x6 x7 x8 x9 x10 x19 x20 x23 x24⟩,
          ⟨S1000000x1, val_main_v190 (F := Ideal) x0 x1 x2 x3 x4 x5 x6 x7 x8 x9 x10 x19 x20 x25 x26⟩,
          ⟨S1000000x3, val_main_v195 (F := Ideal) x0 x1 x2 x3 x4 x5 x6 x7 x8 x9 x10 x19 x20 x27 x28⟩]
        concatenates_S1000000x1_S1000000x1_S1000000x1_S1000000x3_S1000000x6_d1 _ 0 (show (0 : Nat) < 4 by omega) S1000000x1 _ rfl rfl 0 rfl (ix2 r (0 : Fin 1))
        (fun b hb => by match b, hb with | ⟨0, _⟩, _ => rfl | ⟨1, _⟩, hb => exact absurd rfl hb) rfl
    rw [hc, val_main_v181_apply, ehead0]
    rfl
  | ⟨1, h⟩ =>
    have hc : val_main_v196 (F := Ideal) x0 x1 x2 x3 x4 x5 x6 x7 x8 x9 x10 x19 x20 x21 x22 x23 x24 x25 x26 x27 x28 (ix2 r ⟨1, h⟩) = val_main_v186 (F := Ideal) x0 x1 x2 x3 x4 x5 x6 x7 x8 x9 x10 x19 x20 x23 x24 (ix2 r (0 : Fin 1)) := by
      unfold val_main_v196
      exact concatenate_apply_piece (t := S1000000x6) 1
        [⟨S1000000x1, val_main_v181 (F := Ideal) x0 x1 x2 x3 x4 x5 x6 x7 x8 x9 x10 x19 x20 x21 x22⟩,
          ⟨S1000000x1, val_main_v186 (F := Ideal) x0 x1 x2 x3 x4 x5 x6 x7 x8 x9 x10 x19 x20 x23 x24⟩,
          ⟨S1000000x1, val_main_v190 (F := Ideal) x0 x1 x2 x3 x4 x5 x6 x7 x8 x9 x10 x19 x20 x25 x26⟩,
          ⟨S1000000x3, val_main_v195 (F := Ideal) x0 x1 x2 x3 x4 x5 x6 x7 x8 x9 x10 x19 x20 x27 x28⟩]
        concatenates_S1000000x1_S1000000x1_S1000000x1_S1000000x3_S1000000x6_d1 _ 1 (show (1 : Nat) < 4 by omega) S1000000x1 _ rfl rfl 1 rfl (ix2 r (0 : Fin 1))
        (fun b hb => by match b, hb with | ⟨0, _⟩, _ => rfl | ⟨1, _⟩, hb => exact absurd rfl hb) rfl
    rw [hc, val_main_v186_apply, ehead1]
    rfl
  | ⟨2, h⟩ =>
    have hc : val_main_v196 (F := Ideal) x0 x1 x2 x3 x4 x5 x6 x7 x8 x9 x10 x19 x20 x21 x22 x23 x24 x25 x26 x27 x28 (ix2 r ⟨2, h⟩) = val_main_v190 (F := Ideal) x0 x1 x2 x3 x4 x5 x6 x7 x8 x9 x10 x19 x20 x25 x26 (ix2 r (0 : Fin 1)) := by
      unfold val_main_v196
      exact concatenate_apply_piece (t := S1000000x6) 1
        [⟨S1000000x1, val_main_v181 (F := Ideal) x0 x1 x2 x3 x4 x5 x6 x7 x8 x9 x10 x19 x20 x21 x22⟩,
          ⟨S1000000x1, val_main_v186 (F := Ideal) x0 x1 x2 x3 x4 x5 x6 x7 x8 x9 x10 x19 x20 x23 x24⟩,
          ⟨S1000000x1, val_main_v190 (F := Ideal) x0 x1 x2 x3 x4 x5 x6 x7 x8 x9 x10 x19 x20 x25 x26⟩,
          ⟨S1000000x3, val_main_v195 (F := Ideal) x0 x1 x2 x3 x4 x5 x6 x7 x8 x9 x10 x19 x20 x27 x28⟩]
        concatenates_S1000000x1_S1000000x1_S1000000x1_S1000000x3_S1000000x6_d1 _ 2 (show (2 : Nat) < 4 by omega) S1000000x1 _ rfl rfl 2 rfl (ix2 r (0 : Fin 1))
        (fun b hb => by match b, hb with | ⟨0, _⟩, _ => rfl | ⟨1, _⟩, hb => exact absurd rfl hb) rfl
    rw [hc, ehead2]
    rfl
  | ⟨3, h⟩ =>
    have hc : val_main_v196 (F := Ideal) x0 x1 x2 x3 x4 x5 x6 x7 x8 x9 x10 x19 x20 x21 x22 x23 x24 x25 x26 x27 x28 (ix2 r ⟨3, h⟩) = val_main_v195 (F := Ideal) x0 x1 x2 x3 x4 x5 x6 x7 x8 x9 x10 x19 x20 x27 x28 (ix2 r (0 : Fin 3)) := by
      unfold val_main_v196
      exact concatenate_apply_piece (t := S1000000x6) 1
        [⟨S1000000x1, val_main_v181 (F := Ideal) x0 x1 x2 x3 x4 x5 x6 x7 x8 x9 x10 x19 x20 x21 x22⟩,
          ⟨S1000000x1, val_main_v186 (F := Ideal) x0 x1 x2 x3 x4 x5 x6 x7 x8 x9 x10 x19 x20 x23 x24⟩,
          ⟨S1000000x1, val_main_v190 (F := Ideal) x0 x1 x2 x3 x4 x5 x6 x7 x8 x9 x10 x19 x20 x25 x26⟩,
          ⟨S1000000x3, val_main_v195 (F := Ideal) x0 x1 x2 x3 x4 x5 x6 x7 x8 x9 x10 x19 x20 x27 x28⟩]
        concatenates_S1000000x1_S1000000x1_S1000000x1_S1000000x3_S1000000x6_d1 _ 3 (show (3 : Nat) < 4 by omega) S1000000x3 _ rfl rfl 3 rfl (ix2 r (0 : Fin 3))
        (fun b hb => by match b, hb with | ⟨0, _⟩, _ => rfl | ⟨1, _⟩, hb => exact absurd rfl hb) rfl
    rw [hc, val_main_v195_apply, ehead3]
    rfl
  | ⟨4, h⟩ =>
    have hc : val_main_v196 (F := Ideal) x0 x1 x2 x3 x4 x5 x6 x7 x8 x9 x10 x19 x20 x21 x22 x23 x24 x25 x26 x27 x28 (ix2 r ⟨4, h⟩) = val_main_v195 (F := Ideal) x0 x1 x2 x3 x4 x5 x6 x7 x8 x9 x10 x19 x20 x27 x28 (ix2 r (1 : Fin 3)) := by
      unfold val_main_v196
      exact concatenate_apply_piece (t := S1000000x6) 1
        [⟨S1000000x1, val_main_v181 (F := Ideal) x0 x1 x2 x3 x4 x5 x6 x7 x8 x9 x10 x19 x20 x21 x22⟩,
          ⟨S1000000x1, val_main_v186 (F := Ideal) x0 x1 x2 x3 x4 x5 x6 x7 x8 x9 x10 x19 x20 x23 x24⟩,
          ⟨S1000000x1, val_main_v190 (F := Ideal) x0 x1 x2 x3 x4 x5 x6 x7 x8 x9 x10 x19 x20 x25 x26⟩,
          ⟨S1000000x3, val_main_v195 (F := Ideal) x0 x1 x2 x3 x4 x5 x6 x7 x8 x9 x10 x19 x20 x27 x28⟩]
        concatenates_S1000000x1_S1000000x1_S1000000x1_S1000000x3_S1000000x6_d1 _ 3 (show (3 : Nat) < 4 by omega) S1000000x3 _ rfl rfl 3 rfl (ix2 r (1 : Fin 3))
        (fun b hb => by match b, hb with | ⟨0, _⟩, _ => rfl | ⟨1, _⟩, hb => exact absurd rfl hb) rfl
    rw [hc, val_main_v195_apply, ehead3]
    rfl
  | ⟨5, h⟩ =>
    have hc : val_main_v196 (F := Ideal) x0 x1 x2 x3 x4 x5 x6 x7 x8 x9 x10 x19 x20 x21 x22 x23 x24 x25 x26 x27 x28 (ix2 r ⟨5, h⟩) = val_main_v195 (F := Ideal) x0 x1 x2 x3 x4 x5 x6 x7 x8 x9 x10 x19 x20 x27 x28 (ix2 r (2 : Fin 3)) := by
      unfold val_main_v196
      exact concatenate_apply_piece (t := S1000000x6) 1
        [⟨S1000000x1, val_main_v181 (F := Ideal) x0 x1 x2 x3 x4 x5 x6 x7 x8 x9 x10 x19 x20 x21 x22⟩,
          ⟨S1000000x1, val_main_v186 (F := Ideal) x0 x1 x2 x3 x4 x5 x6 x7 x8 x9 x10 x19 x20 x23 x24⟩,
          ⟨S1000000x1, val_main_v190 (F := Ideal) x0 x1 x2 x3 x4 x5 x6 x7 x8 x9 x10 x19 x20 x25 x26⟩,
          ⟨S1000000x3, val_main_v195 (F := Ideal) x0 x1 x2 x3 x4 x5 x6 x7 x8 x9 x10 x19 x20 x27 x28⟩]
        concatenates_S1000000x1_S1000000x1_S1000000x1_S1000000x3_S1000000x6_d1 _ 3 (show (3 : Nat) < 4 by omega) S1000000x3 _ rfl rfl 3 rfl (ix2 r (2 : Fin 3))
        (fun b hb => by match b, hb with | ⟨0, _⟩, _ => rfl | ⟨1, _⟩, hb => exact absurd rfl hb) rfl
    rw [hc, val_main_v195_apply, ehead3]
    rfl

end Cert.ReferenceIdeal.RefSpec

end
-- ==== Proof.EdgeMsg0.lean ====
/-
  An edge-message region read as a function of whole arrays on the extended reals.
  Grid point t takes rows 8192·t … 8192·t + 8191 of the three padded edge-side arrays, the three 64 × 64 weight slices and
  the bias row, and writes the same rows of the padded output: entry (p, q) of the written block is
    max (Σ_k xs[p,k]·W0[k,q] + Σ_k xd[p,k]·W1[k,q] + Σ_k e[p,k]·W2[k,q] + b[q]) 0,
  each product of blocks into a zero accumulator being a plain sum over the contracted axis and the changes of float
  format the identity. The 123 row blocks tile the padded output, so after the region the output array is that formula
  at every row; on the first 1,000,000 rows, where the padded arrays are the layer's arrays, it is the layer's edge message.
-/
import proofs.«118118_j10582799417469_1_alg».proof.Proof.Gen.KernelIdeal.Frame
import proofs.«118118_j10582799417469_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.EdgeMsg

open Cert.KernelIdeal Cert.KernelIdeal.Gen Idealize.ShloMosaic Idealize.ShloMosaic.TcCoe Idealize.ShloMosaic.ValueIdx Idealize.SL.Sem
open Idealize.ShloMosaic.Pipeline (Dat)

/-! ## The stored value at an entry of the block -/

theorem mm0_lhs0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl

theorem mm0_lhs1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q

theorem mm0_rhs0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q

theorem mm0_rhs1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- A product of blocks into a zero accumulator, read at row p, column q: row p of the left block against column q of
    the right one. -/
theorem mm0_apply (l : FVec Ideal S8192x64 .bf16) (r : FVec Ideal S64x64 .bf16) (p : Fin 8192) (q : Fin 64) :
    matmul dot_S8192x64_S64x64_S8192x64_1_0_0_1_n_n none l r (constant S8192x64 .f32 0x00000000#32) (ix2 p q)
      = ∑ k : Fin 64, l (ix2 p k) * r (ix2 k q) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k := funext fun a => Fin.ext (by
    match a with
    | ⟨0, _⟩ => exact mm0_lhs0 _ _
    | ⟨1, _⟩ => exact (mm0_lhs1 _ _).trans hk)
  have er : dot_S8192x64_S64x64_S8192x64_1_0_0_1_n_n.rhsIdx (ix2 p q) ((contrEquiv1 dot_S8192x64_S64x64_S8192x64_1_0_0_1_n_n 64 rfl rfl).symm k) = ix2 k q := funext fun a => Fin.ext (by
    match a with
    | ⟨0, _⟩ => exact (mm0_rhs0 _ _).trans hk
    | ⟨1, _⟩ => exact mm0_rhs1 _ _)
  rw [el, er]

/-- The bias row laid along every row of the block. -/
theorem bias0_apply (x6 : Vec Ideal S1x64 .f32) (p : Fin 8192) (q : Fin 64) :
    broadcastTo S8192x64 (shapeCast S1x64 x6 shapeCasts_S1x64_S1x64) broadcasts_S1x64_S8192x64 (ix2 p q) = x6 (ix2 (0 : Fin 1) q) := by
  rw [shapeCast_self]
  refine broadcastTo_apply x6 broadcasts_S1x64_S8192x64 (ix2 p q) (ix2 (0 : Fin 1) q) (fun a => ?_)
  match a with
  | ⟨0, _⟩ => rfl
  | ⟨1, _⟩ => rfl

/-- The body's stored value at row p, column q of the block: the three products of a row with a column added, plus the
    bias entry, cut below at zero (the zero word is the real number zero). -/
theorem pay0_apply (x0 x1 x2 : Vec Ideal S8192x64 .f32) (x3 x4 x5 : Vec Ideal S64x64 .f32) (x6 : Vec Ideal S1x64 .f32)
    (p : Fin 8192) (q : Fin 64) :
    (k0_pay1 x0 x1 x2 x3 x4 x5 x6 : S8192x64.Idx → EReal) (ix2 p q)
      = max ((∑ k : Fin 64, x0 (ix2 p k) * x3 (ix2 k q)) + (∑ k : Fin 64, x1 (ix2 p k) * x4 (ix2 k q))
          + (∑ k : Fin 64, x2 (ix2 p k) * x5 (ix2 k q)) + x6 (ix2 (0 : Fin 1) q)) 0 := by
  unfold k0_pay1
  rw [maximumf_apply, addf_apply, addf_apply, addf_apply, mm0_apply, mm0_apply, mm0_apply, bias0_apply, broadcast_apply]
  simp only [truncf_apply, shapeCast_self]
  exact congrArg (max _) Ideal.ofBits_zero_f32

/-! ## From blocks to the array -/

theorem hz0 : (![0, 0] : Fin 2 → Nat) = fun _ => 0 := funext fun a => by fin_cases a <;> rfl

/-- The padded output as one function of the padded inputs, the three weight slices and the bias row: at row i 0,
    column i 1, the three row-by-column products added, plus the bias entry, cut below at zero. -/
def G0 (a0 a1 a2 : S1007616x64.Idx → EReal) (w0 w1 w2 : S64x64.Idx → EReal) (bb : S1x64.Idx → EReal) :
    S1007616x64.Idx → EReal := fun i =>
  max ((∑ k : Fin 64, a0 (ix2 (⟨(i 0).val, (i 0).isLt⟩ : Fin 1007616) k) * w0 (ix2 k (⟨(i 1).val, (i 1).isLt⟩ : Fin 64)))
      + (∑ k : Fin 64, a1 (ix2 (⟨(i 0).val, (i 0).isLt⟩ : Fin 1007616) k) * w1 (ix2 k (⟨(i 1).val, (i 1).isLt⟩ : Fin 64)))
      + (∑ k : Fin 64, a2 (ix2 (⟨(i 0).val, (i 0).isLt⟩ : Fin 1007616) k) * w2 (ix2 k (⟨(i 1).val, (i 1).isLt⟩ : Fin 64)))
      + bb (ix2 (0 : Fin 1) (⟨(i 1).val, (i 1).isLt⟩ : Fin 64))) 0

/-- One entry of a written block is the array function at the entry's place (r, q) in the array, when the loaded blocks
    are the arrays' rows and the weights' and bias's entries at that place. -/
theorem point0 (a0 a1 a2 : S1007616x64.Idx → EReal) (w0 w1 w2 : S64x64.Idx → EReal) (bb : S1x64.Idx → EReal)
    (x0 x1 x2 : Vec Ideal S8192x64 .f32) (x3 x4 x5 : Vec Ideal S64x64 .f32) (x6 : Vec Ideal S1x64 .f32)
    (p : Fin 8192) (q : Fin 64) (r : Fin 1007616) (i : S1007616x64.Idx) (hr : (i 0).val = r.val) (hq : (i 1).val = q.val)
    (h0 : ∀ k : Fin 64, x0 (ix2 p k) = a0 (ix2 r k)) (h1 : ∀ k : Fin 64, x1 (ix2 p k) = a1 (ix2 r k))
    (h2 : ∀ k : Fin 64, x2 (ix2 p k) = a2 (ix2 r k))
    (h3 : ∀ k l : Fin 64, x3 (ix2 k l) = w0 (ix2 k l)) (h4 : ∀ k l : Fin 64, x4 (ix2 k l) = w1 (ix2 k l))
    (h5 : ∀ k l : Fin 64, x5 (ix2 k l) = w2 (ix2 k l)) (h6 : ∀ l : Fin 64, x6 (ix2 (0 : Fin 1) l) = bb (ix2 (0 : Fin 1) l)) :
    (k0_pay1 x0 x1 x2 x3 x4 x5 x6 : S8192x64.Idx → EReal) (ix2 p q) = G0 a0 a1 a2 w0 w1 w2 bb i := by
  have er : (⟨(i 0).val, (i 0).isLt⟩ : Fin 1007616) = r := Fin.ext hr
  have eq : (⟨(i 1).val, (i 1).isLt⟩ : Fin 64) = q := Fin.ext hq
  rw [pay0_apply]
  unfold G0
  rw [er, eq]
  simp only [h0, h1, h2, h3, h4, h5, h6]

/-- The printed index maps over the grid: the three row-blocked inputs move with the output, whose block index is the
    point's number; the weight slices and the bias stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of block t is row 8192·t + p of the padded array. -/
theorem row_lt0 (t : Fin cfg0.N) (p : Fin 8192) : t.val * 8192 + p.val < 1007616 := by
  have h : t.val < 123 := Nat.lt_of_lt_of_eq t.isLt (show cfg0.N = 123 from N_0)
  omega

variable (V : (c : Dev nD) → (b : Ref sig .tc) → Buf (Elt Ideal) ((c : Thread nD τ).loc b))

/-- Entry (p, k) of window 0's block at point t is entry (8192·t + p, k) of its array. -/
theorem read0_0 (c : Dev nD) (t : Fin cfg0.N) (p : Fin 8192) (k : Fin 64) :
    (iblk0 V c 0 t : S8192x64.Idx → EReal) (ix2 p k)
      = (V c main_v54 : S1007616x64.Idx → EReal) (ix2 (⟨t.val * 8192 + p.val, row_lt0 t p⟩ : Fin 1007616) k) := by
  obtain ⟨e00, e01, e10, e11, e20, e21, -, -, -, -, -, -, -, -, -, -⟩ := idx_facts0 t
  show (V c main_v54 : S1007616x64.Idx → EReal) (((cfg0.win 0).blk t).view.emb (ix2 p k)) = _
  refine congrArg (V c main_v54 : S1007616x64.Idx → EReal) (funext fun a => Fin.ext ?_)
  match a with
  | ⟨0, _⟩ => show win0_0.index t (0 : Fin 2) * 8192 + 1 * p.val = t.val * 8192 + p.val; rw [e00]; omega
  | ⟨1, _⟩ => show win0_0.index t (1 : Fin 2) * 64 + 1 * k.val = k.val; rw [e01]; omega

/-- Entry (p, k) of window 1's block at point t is entry (8192·t + p, k) of its array. -/
theorem read0_1 (c : Dev nD) (t : Fin cfg0.N) (p : Fin 8192) (k : Fin 64) :
    (iblk0 V c 1 t : S8192x64.Idx → EReal) (ix2 p k)
      = (V c main_v55 : S1007616x64.Idx → EReal) (ix2 (⟨t.val * 8192 + p.val, row_lt0 t p⟩ : Fin 1007616) k) := by
  obtain ⟨e00, e01, e10, e11, e20, e21, -, -, -, -, -, -, -, -, -, -⟩ := idx_facts0 t
  show (V c main_v55 : S1007616x64.Idx → EReal) (((cfg0.win 1).blk t).view.emb (ix2 p k)) = _
  refine congrArg (V c main_v55 : S1007616x64.Idx → EReal) (funext fun a => Fin.ext ?_)
  match a with
  | ⟨0, _⟩ => show win0_1.index t (0 : Fin 2) * 8192 + 1 * p.val = t.val * 8192 + p.val; rw [e10]; omega
  | ⟨1, _⟩ => show win0_1.index t (1 : Fin 2) * 64 + 1 * k.val = k.val; rw [e11]; omega

/-- Entry (p, k) of window 2's block at point t is entry (8192·t + p, k) of its array. -/
theorem read0_2 (c : Dev nD) (t : Fin cfg0.N) (p : Fin 8192) (k : Fin 64) :
    (iblk0 V c 2 t : S8192x64.Idx → EReal) (ix2 p k)
      = (V c main_v56 : S1007616x64.Idx → EReal) (ix2 (⟨t.val * 8192 + p.val, row_lt0 t p⟩ : Fin 1007616) k) := by
  obtain ⟨e00, e01, e10, e11, e20, e21, -, -, -, -, -, -, -, -, -, -⟩ := idx_facts0 t
  show (V c main_v56 : S1007616x64.Idx → EReal) (((cfg0.win 2).blk t).view.emb (ix2 p k)) = _
  refine congrArg (V c main_v56 : S1007616x64.Idx → EReal) (funext fun a => Fin.ext ?_)
  match a with
  | ⟨0, _⟩ => show win0_2.index t (0 : Fin 2) * 8192 + 1 * p.val = t.val * 8192 + p.val; rw [e20]; omega
  | ⟨1, _⟩ => show win0_2.index t (1 : Fin 2) * 64 + 1 * k.val = k.val; rw [e21]; omega

/-- Window 3's block at any point is its whole 64 × 64 array. -/
theorem read0_3 (c : Dev nD) (t : Fin cfg0.N) (k l : Fin 64) :
    (iblk0 V c 3 t : S64x64.Idx → EReal) (ix2 k l) = (V c main_v57 : S64x64.Idx → EReal) (ix2 k l) := by
  obtain ⟨-, -, -, -, -, -, e30, e31, e40, e41, e50, e51, -, -, -, -⟩ := idx_facts0 t
  show (V c main_v57 : S64x64.Idx → EReal) (((cfg0.win 3).blk t).view.emb (ix2 k l)) = _
  refine congrArg (V c main_v57 : S64x64.Idx → EReal) (funext fun a => Fin.ext ?_)
  match a with
  | ⟨0, _⟩ => show win0_3.index t (0 : Fin 2) * 64 + 1 * k.val = k.val; rw [e30]; omega
  | ⟨1, _⟩ => show win0_3.index t (1 : Fin 2) * 64 + 1 * l.val = l.val; rw [e31]; omega

/-- Window 4's block at any point is its whole 64 × 64 array. -/
theorem read0_4 (c : Dev nD) (t : Fin cfg0.N) (k l : Fin 64) :
    (iblk0 V c 4 t : S64x64.Idx → EReal) (ix2 k l) = (V c main_v58 : S64x64.Idx → EReal) (ix2 k l) := by
  obtain ⟨-, -, -, -, -, -, e30, e31, e40, e41, e50, e51, -, -, -, -⟩ := idx_facts0 t
  show (V c main_v58 : S64x64.Idx → EReal) (((cfg0.win 4).blk t).view.emb (ix2 k l)) = _
  refine congrArg (V c main_v58 : S64x64.Idx → EReal) (funext fun a => Fin.ext ?_)
  match a with
  | ⟨0, _⟩ => show win0_4.index t (0 : Fin 2) * 64 + 1 * k.val = k.val; rw [e40]; omega
  | ⟨1, _⟩ => show win0_4.index t (1 : Fin 2) * 64 + 1 * l.val = l.val; rw [e41]; omega

/-- Window 5's block at any point is its whole 64 × 64 array. -/
theorem read0_5 (c : Dev nD) (t : Fin cfg0.N) (k l : Fin 64) :
    (iblk0 V c 5 t : S64x64.Idx → EReal) (ix2 k l) = (V c main_v59 : S64x64.Idx → EReal) (ix2 k l) := by
  obtain ⟨-, -, -, -, -, -, e30, e31, e40, e41, e50, e51, -, -, -, -⟩ := idx_facts0 t
  show (V c main_v59 : S64x64.Idx → EReal) (((cfg0.win 5).blk t).view.emb (ix2 k l)) = _
  refine congrArg (V c main_v59 : S64x64.Idx → EReal) (funext fun a => Fin.ext ?_)
  match a with
  | ⟨0, _⟩ => show win0_5.index t (0 : Fin 2) * 64 + 1 * k.val = k.val; rw [e50]; omega
  | ⟨1, _⟩ => show win0_5.index t (1 : Fin 2) * 64 + 1 * l.val = l.val; rw [e51]; omega

/-- The bias block at any point is the bias row. -/
theorem read0_6 (c : Dev nD) (t : Fin cfg0.N) (l : Fin 64) :
    (iblk0 V c 6 t : S1x64.Idx → EReal) (ix2 (0 : Fin 1) l) = (V c main_v60 : S1x64.Idx → EReal) (ix2 (0 : Fin 1) l) := by
  obtain ⟨-, -, -, -, -, -, -, -, -, -, -, -, e0, e1, -, -⟩ := idx_facts0 t
  show (V c main_v60 : S1x64.Idx → EReal) (((cfg0.win 6).blk t).view.emb (ix2 (0 : Fin 1) l)) = _
  refine congrArg (V c main_v60 : S1x64.Idx → EReal) (funext fun a => Fin.ext ?_)
  match a with
  | ⟨0, _⟩ => show win0_6.index t (0 : Fin 2) * 1 + 1 * 0 = 0; rw [e0]
  | ⟨1, _⟩ => show win0_6.index t (1 : Fin 2) * 64 + 1 * l.val = l.val; rw [e1]; omega

/-- What point t writes back is block t of the array function of the arrays as the region finds them. -/
theorem flushed0_eq (c : Dev nD) (t : Fin cfg0.N) :
    (dat0 (F := Ideal) V c).flushed 7 t = ((cfg0.win 7).blk t).view.read (Elt Ideal)
      (G0 (V c main_v54) (V c main_v55) (V c main_v56) (V c main_v57) (V c main_v58) (V c main_v59) (V c main_v60)) := by
  show (cfg0.win 7).cut (grid0.coords t) ((dat0 (F := Ideal) V c).after 7 t) = _
  rw [after0_7]
  unfold out0_7
  rw [View.canon_unit_zero hz0]
  simp only [View.ld_unit_zero (S := S8192x64) hz0, View.ld_unit_zero (S := S64x64) hz0, View.ld_unit_zero (S := S1x64) hz0]
  obtain ⟨-, -, -, -, -, -, -, -, -, -, -, -, -, -, e70, e71⟩ := idx_facts0 t
  funext j
  obtain ⟨p, q, rfl⟩ : ∃ (p : Fin 8192) (q : Fin 64), j = ix2 p q := ⟨j 0, j 1, eq_ix2 j⟩
  show (k0_pay1 (iblk0 V c 0 t) (iblk0 V c 1 t) (iblk0 V c 2 t) (iblk0 V c 3 t) (iblk0 V c 4 t) (iblk0 V c 5 t) (iblk0 V c 6 t) : S8192x64.Idx → EReal) (ix2 p q)
    = G0 (V c main_v54) (V c main_v55) (V c main_v56) (V c main_v57) (V c main_v58) (V c main_v59) (V c main_v60) (((cfg0.win 7).blk t).view.emb (ix2 p q))
  refine point0 (V c main_v54) (V c main_v55) (V c main_v56) (V c main_v57) (V c main_v58) (V c main_v59) (V c main_v60)
    (iblk0 V c 0 t) (iblk0 V c 1 t) (iblk0 V c 2 t) (iblk0 V c 3 t) (iblk0 V c 4 t) (iblk0 V c 5 t) (iblk0 V c 6 t) p q
    ⟨t.val * 8192 + p.val, row_lt0 t p⟩ (((cfg0.win 7).blk t).view.emb (ix2 p q)) ?_ ?_
    (read0_0 V c t p) (read0_1 V c t p) (read0_2 V c t p) (read0_3 V c t) (read0_4 V c t) (read0_5 V c t) (read0_6 V c t)
  · show win0_7.index t (0 : Fin 2) * 8192 + 1 * p.val = t.val * 8192 + p.val
    rw [e70]; omega
  · show win0_7.index t (1 : Fin 2) * 64 + 1 * q.val = q.val
    rw [e71]; omega

/-- An index of the padded output is in point t's block iff each coordinate is in the block's range on its axis. -/
theorem mem_blk0 (t : Fin cfg0.N) (i : S1007616x64.Idx) :
    i ∈ ((cfg0.win 7).blk t).view.set ↔ ∀ a : Fin 2, win0_7.index t a * S8192x64.size a ≤ (i a).val ∧ (i a).val < win0_7.index t a * S8192x64.size a + S8192x64.size a := by
  show i ∈ ((View.whole main_v61).slice (win0_7.rect t)).set ↔ _
  rw [View.set_slice_whole, Rect.mem_set_unit]
  exact Iff.rfl

/-- The 123 row blocks cover the padded output: row r is in block r / 8192. -/
theorem cover0 (i : S1007616x64.Idx) :
    ∃ t : Fin cfg0.N, (cfg0.win 7).flush t = true ∧ i ∈ ((cfg0.win 7).blk t).view.set := by
  have hN : cfg0.N = 123 := N_0
  have hi0 : (i 0).val < 1007616 := (i 0).isLt
  have hi1 : (i 1).val < 64 := (i 1).isLt
  have ht : (i 0).val / 8192 < cfg0.N := by rw [hN]; omega
  obtain ⟨-, -, -, -, -, -, -, -, -, -, -, -, -, -, e70, e71⟩ := idx_facts0 ⟨(i 0).val / 8192, ht⟩
  refine ⟨⟨(i 0).val / 8192, ht⟩, flush0_7 _, ?_⟩
  rw [mem_blk0]
  intro a
  match a with
  | ⟨0, _⟩ =>
    show win0_7.index ⟨(i 0).val / 8192, ht⟩ (0 : Fin 2) * 8192 ≤ (i 0).val ∧ (i 0).val < win0_7.index ⟨(i 0).val / 8192, ht⟩ (0 : Fin 2) * 8192 + 8192
    rw [e70]
    show (i 0).val / 8192 * 8192 ≤ (i 0).val ∧ (i 0).val < (i 0).val / 8192 * 8192 + 8192
    omega
  | ⟨1, _⟩ =>
    show win0_7.index ⟨(i 0).val / 8192, ht⟩ (1 : Fin 2) * 64 ≤ (i 1).val ∧ (i 1).val < win0_7.index ⟨(i 0).val / 8192, ht⟩ (1 : Fin 2) * 64 + 64
    rw [e71]
    omega

/-- After the region the padded output is the array function of the arrays the region found. -/
theorem final0 (c : Dev nD) :
    (dat0 (F := Ideal) V c).arrAt 7 cfg0.N
      = G0 (V c main_v54) (V c main_v55) (V c main_v56) (V c main_v57) (V c main_v58) (V c main_v59) (V c main_v60) :=
  (dat0 (F := Ideal) V c).arrAt_eq_of_cover 7
    (G0 (V c main_v54) (V c main_v55) (V c main_v56) (V c main_v57) (V c main_v58) (V c main_v59) (V c main_v60))
    (fun t _ => flushed0_eq V c t) cover0

/-! ## The region's value on the layer's rows -/

/-- The array function at a place (r, q), in coordinates. -/
theorem G0_apply (a0 a1 a2 : S1007616x64.Idx → EReal) (w0 w1 w2 : S64x64.Idx → EReal) (bb : S1x64.Idx → EReal)
    (r : Fin 1007616) (q : Fin 64) :
    G0 a0 a1 a2 w0 w1 w2 bb (ix2 r q)
      = max ((∑ k : Fin 64, a0 (ix2 r k) * w0 (ix2 k q)) + (∑ k : Fin 64, a1 (ix2 r k) * w1 (ix2 k q))
          + (∑ k : Fin 64, a2 (ix2 r k) * w2 (ix2 k q)) + bb (ix2 (0 : Fin 1) q)) 0 := rfl

/-- On the first 1,000,000 rows, where the padded arrays are the layer's arrays, the three slices are rows 0 … 63,
    64 … 127 and 128 … 191 of the layer's weight and the bias row is the layer's bias, the output after the region is
    the layer's edge message. Rows from 1,000,000 on are never looked at. -/
theorem value0 (c : Dev nD)
    (xs xd e : Cert.Spec.Arr (Cert.Spec.sh2 1000000 64)) (W : Cert.Spec.Arr (Cert.Spec.sh2 192 64)) (b : Cert.Spec.Arr (Cert.Spec.sh1 64))
    (hxs : ∀ (r : Fin 1000000) (k : Fin 64), (V c main_v54 : S1007616x64.Idx → EReal) (ix2 (⟨r.val, by omega⟩ : Fin 1007616) k) = xs (ix2 r k))
    (hxd : ∀ (r : Fin 1000000) (k : Fin 64), (V c main_v55 : S1007616x64.Idx → EReal) (ix2 (⟨r.val, by omega⟩ : Fin 1007616) k) = xd (ix2 r k))
    (he : ∀ (r : Fin 1000000) (k : Fin 64), (V c main_v56 : S1007616x64.Idx → EReal) (ix2 (⟨r.val, by omega⟩ : Fin 1007616) k) = e (ix2 r k))
    (hw0 : ∀ k j : Fin 64, (V c main_v57 : S64x64.Idx → EReal) (ix2 k j) = W (ix2 (⟨k.val, by omega⟩ : Fin 192) j))
    (hw1 : ∀ k j : Fin 64, (V c main_v58 : S64x64.Idx → EReal) (ix2 k j) = W (ix2 (⟨64 + k.val, by omega⟩ : Fin 192) j))
    (hw2 : ∀ k j : Fin 64, (V c main_v59 : S64x64.Idx → EReal) (ix2 k j) = W (ix2 (⟨128 + k.val, by omega⟩ : Fin 192) j))
    (hb : ∀ j : Fin 64, (V c main_v60 : S1x64.Idx → EReal) (ix2 (0 : Fin 1) j) = b (ix1 j)) :
    ∀ (r : Fin 1000000) (j : Fin 64),
      ((dat0 (F := Ideal) V c).arrAt 7 cfg0.N : S1007616x64.Idx → EReal) (ix2 (⟨r.val, by omega⟩ : Fin 1007616) j)
        = Cert.Spec.msg xs xd e W b (ix2 r j) := by
  intro r j
  rw [final0, G0_apply]
  show _ = max (Cert.Spec.rowDot 0 (by omega) xs W r j + Cert.Spec.rowDot 64 (by omega) xd W r j
    + Cert.Spec.rowDot 128 (by omega) e W r j + b (ix1 j)) 0
  unfold Cert.Spec.rowDot
  simp only [hxs, hxd, he, hw0, hw1, hw2, hb, Nat.zero_add]

end Cert.KernelIdeal.EdgeMsg

end
-- ==== Proof.RefMsg.lean ====
/-
  The reference's edge message is the specification's. The reference joins the three 64-wide rows
  `x_src`, `x_dst`, `e` of an edge into one 192-wide row and multiplies it with the 192 × 64 weight matrix:
  a sum over the 192 joined columns is the sum of three 64-wide sums, and within each run of 64 columns the
  joined row reads its own part. The bias is broadcast along the rows and the rectifier's zero is the zero word.
-/
import proofs.«118118_j10582799417469_1_alg».proof.Proof.Spec
import proofs.«118118_j10582799417469_1_alg».proof.Proof.ReadP

noncomputable section

open scoped BigOperators

namespace Cert.ReferenceIdeal.RefSpec

open Cert.ReferenceIdeal Cert.ReferenceIdeal.Gen Cert.ReferenceIdeal.ReadP Idealize.ShloMosaic Idealize.ShloMosaic.ValueIdx
open Cert.Spec (Arr sh1 sh2 rowDot)

/-- A sum of 192 terms in three runs of 64 (any additive commutative monoid). -/
theorem sum192 {M : Type*} [AddCommMonoid M] (f : Fin 192 → M) :
    ∑ k, f k = ∑ k : Fin 64, f ⟨0 + k.val, by omega⟩ + ∑ k : Fin 64, f ⟨64 + k.val, by omega⟩
      + ∑ k : Fin 64, f ⟨128 + k.val, by omega⟩ := by
  have h1 := Fin.sum_univ_add (a := 128) (b := 64) f
  have h2 := Fin.sum_univ_add (a := 64) (b := 64) (fun i : Fin 128 => f (Fin.castAdd 64 i))
  rw [h1, h2]
  refine congrArg₂ (· + ·) (congrArg₂ (· + ·) ?_ rfl) rfl
  exact Finset.sum_congr rfl fun k _ => congrArg f (Fin.ext (Nat.zero_add _).symm)

/-- The three rows joined along the columns. -/
abbrev join3 (xs xd e : Arr (sh2 1000000 64)) : Arr (sh2 1000000 192) :=
  concatenate S1000000x192 1 [⟨S1000000x64, xs⟩, ⟨S1000000x64, xd⟩, ⟨S1000000x64, e⟩]
    concatenates_S1000000x64_S1000000x64_S1000000x64_S1000000x192_d1

/-- Columns 0 … 63 of the joined row are the first part. -/
theorem join3_0 (xs xd e : Arr (sh2 1000000 64)) (r : Fin 1000000) (k : Fin 64) :
    join3 xs xd e (ix2 r (⟨0 + k.val, by omega⟩ : Fin 192)) = xs (ix2 r k) :=
  concatenate_apply_piece (t := S1000000x192) 1 [⟨S1000000x64, xs⟩, ⟨S1000000x64, xd⟩, ⟨S1000000x64, e⟩]
    concatenates_S1000000x64_S1000000x64_S1000000x64_S1000000x192_d1 _ 0 (show (0 : Nat) < 3 by omega)
    S1000000x64 xs rfl rfl 0 rfl (ix2 r k)
    (fun b hb => by match b, hb with | ⟨0, _⟩, _ => rfl | ⟨1, _⟩, hb => exact absurd rfl hb) rfl

/-- Columns 64 … 127 are the second part. -/
theorem join3_1 (xs xd e : Arr (sh2 1000000 64)) (r : Fin 1000000) (k : Fin 64) :
    join3 xs xd e (ix2 r (⟨64 + k.val, by omega⟩ : Fin 192)) = xd (ix2 r k) :=
  concatenate_apply_piece (t := S1000000x192) 1 [⟨S1000000x64, xs⟩, ⟨S1000000x64, xd⟩, ⟨S1000000x64, e⟩]
    concatenates_S1000000x64_S1000000x64_S1000000x64_S1000000x192_d1 _ 1 (show (1 : Nat) < 3 by omega)
    S1000000x64 xd rfl rfl 64 rfl (ix2 r k)
    (fun b hb => by match b, hb with | ⟨0, _⟩, _ => rfl | ⟨1, _⟩, hb => exact absurd rfl hb) rfl

/-- Columns 128 … 191 are the third part. -/
theorem join3_2 (xs xd e : Arr (sh2 1000000 64)) (r : Fin 1000000) (k : Fin 64) :
    join3 xs xd e (ix2 r (⟨128 + k.val, by omega⟩ : Fin 192)) = e (ix2 r k) :=
  concatenate_apply_piece (t := S1000000x192) 1 [⟨S1000000x64, xs⟩, ⟨S1000000x64, xd⟩, ⟨S1000000x64, e⟩]
    concatenates_S1000000x64_S1000000x64_S1000000x64_S1000000x192_d1 _ 2 (show (2 : Nat) < 3 by omega)
    S1000000x64 e rfl rfl 128 rfl (ix2 r k)
    (fun b hb => by match b, hb with | ⟨0, _⟩, _ => rfl | ⟨1, _⟩, hb => exact absurd rfl hb) rfl

/-- The joined row against the weight matrix is the three parts against their blocks of rows. -/
theorem join3_dot (xs xd e : Arr (sh2 1000000 64)) (W : Arr (sh2 192 64)) (r : Fin 1000000) (j : Fin 64) :
    ∑ k : Fin 192, join3 xs xd e (ix2 r k) * W (ix2 k j)
      = rowDot 0 (by omega) xs W r j + rowDot 64 (by omega) xd W r j + rowDot 128 (by omega) e W r j := by
  rw [sum192]
  simp only [join3_0, join3_1, join3_2]
  rfl

/-- The reference's product of a 192-wide array with a 192 × 64 matrix, at row `r`, column `j`. -/
theorem dot192_apply (y : Arr (sh2 1000000 192)) (W : Arr (sh2 192 64)) (r : Fin 1000000) (j : Fin 64) :
    Host.dotGeneral (F := Ideal) (φ₁ := .f32) (φ₂ := .f32) dot_S1000000x192_S192x64_S1000000x64_1_0_0_1_n_n none y W (ix2 r j)
      = ∑ k : Fin 192, y (ix2 r k) * W (ix2 k j) := by
  simp only [Host.dotGeneral]
  rw [Ideal.dotGeneral_apply, ← Equiv.sum_comp (ValueIdx.contrEquiv1 dot_S1000000x192_S192x64_S1000000x64_1_0_0_1_n_n 192 rfl rfl).symm]
  refine Finset.sum_congr rfl fun k _ => ?_
  have hk := ValueIdx.contrEquiv1_symm_val dot_S1000000x192_S192x64_S1000000x64_1_0_0_1_n_n 192 rfl rfl k
  have el : dot_S1000000x192_S192x64_S1000000x64_1_0_0_1_n_n.lhsIdx (ix2 r j) ((ValueIdx.contrEquiv1 dot_S1000000x192_S192x64_S1000000x64_1_0_0_1_n_n 192 rfl rfl).symm k) = ix2 r k :=
    funext fun a => Fin.ext (by
      match a with
      | ⟨0, _⟩ => exact lhs_main_v53_0 _ _
      | ⟨1, _⟩ => exact (lhs_main_v53_1 _ _).trans hk)
  have er : dot_S1000000x192_S192x64_S1000000x64_1_0_0_1_n_n.rhsIdx (ix2 r j) ((ValueIdx.contrEquiv1 dot_S1000000x192_S192x64_S1000000x64_1_0_0_1_n_n 192 rfl rfl).symm k) = ix2 k j :=
    funext fun a => Fin.ext (by
      match a with
      | ⟨0, _⟩ => exact (rhs_main_v53_0 _ _).trans hk
      | ⟨1, _⟩ => exact rhs_main_v53_1 _ _)
  rw [el, er]

/-- A 64-wide bias broadcast along the 1,000,000 rows, at row `r`, column `j`. -/
theorem bias_apply (b : Arr (sh1 64)) (r : Fin 1000000) (j : Fin 64) :
    broadcastInDim S1000000x64 ![0, 1] bcast_S1x64_S1000000x64_0_1 (broadcastInDim S1x64 ![1] bcast_S64_S1x64_1 b) (ix2 r j)
      = b (ix1 j) := by
  rw [broadcastInDim_apply _ bcast_S1x64_S1000000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])]
  exact broadcastInDim_apply _ bcast_S64_S1x64_1 b _ (ix1 j) (fun a => match a with
    | ⟨0, _⟩ => by show j.val = if (64 : Nat) = 1 then 0 else j.val; rw [if_neg (by decide)])

/-- The rectifier's zero array, at an index. -/
theorem zero_apply (i : S1000000x64.Idx) :
    broadcastInDim S1000000x64 ![] bcast_S_S1000000x64 (constant (F := Ideal) S_ .f32 0x00000000#32) i = (0 : EReal) := by
  rw [broadcastInDim_apply _ bcast_S_S1000000x64 _ i (fun a => a.elim0) (fun a => a.elim0)]
  exact Ideal.ofBits_zero_f32

/-- One layer's edge message as the reference computes it, over arbitrary operand arrays, is the specification's. -/
theorem msg_eq (xs xd e : Arr (sh2 1000000 64)) (W : Arr (sh2 192 64)) (b : Arr (sh1 64)) :
    maximumf (F := Ideal) (s := S1000000x64) (φ := .f32)
        (addf (Host.dotGeneral (F := Ideal) (φ₁ := .f32) (φ₂ := .f32) dot_S1000000x192_S192x64_S1000000x64_1_0_0_1_n_n none (join3 xs xd e) W)
          (broadcastInDim S1000000x64 ![0, 1] bcast_S1x64_S1000000x64_0_1 (broadcastInDim S1x64 ![1] bcast_S64_S1x64_1 b)))
        (broadcastInDim S1000000x64 ![] bcast_S_S1000000x64 (constant (F := Ideal) S_ .f32 0x00000000#32))
      = Cert.Spec.msg xs xd e W b := by
  funext i
  obtain ⟨r, j, rfl⟩ : ∃ (r : Fin 1000000) (j : Fin 64), i = ix2 r j := ⟨i 0, i 1, eq_ix2 i⟩
  show max (Host.dotGeneral (F := Ideal) (φ₁ := .f32) (φ₂ := .f32) dot_S1000000x192_S192x64_S1000000x64_1_0_0_1_n_n none (join3 xs xd e) W (ix2 r j)
      + broadcastInDim S1000000x64 ![0, 1] bcast_S1x64_S1000000x64_0_1 (broadcastInDim S1x64 ![1] bcast_S64_S1x64_1 b) (ix2 r j))
      (broadcastInDim S1000000x64 ![] bcast_S_S1000000x64 (constant (F := Ideal) S_ .f32 0x00000000#32) (ix2 r j)) = _
  rw [dot192_apply, bias_apply, zero_apply, join3_dot]
  rfl

/-- Layer 0's edge message. -/
theorem msg0 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) :
    val_main_v59 (F := Ideal) x0 x1 x2 x3 x4 x5 x6 x7 x8
      = Cert.Spec.msg (val_main_v42 (F := Ideal) x0 x1 x2 x3 x4 x5 x6) (val_main_v49 (F := Ideal) x0 x1 x2 x3 x4 x5 x6) (val_main_v35 (F := Ideal) x0 x1 x2 x3 x4 x5 x6)
          (val_main_v52 (F := Ideal) x7) (val_main_v55 (F := Ideal) x8) :=
  msg_eq _ _ _ _ _

/-- Layer 1's edge message. -/
theorem msg1 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) :
    val_main_v96 (F := Ideal) x0 x1 x2 x3 x4 x5 x6 x7 x8 x9 x10
      = Cert.Spec.msg (val_main_v79 (F := Ideal) x0 x1 x2 x3 x4 x5 x6 x7 x8 x9 x10) (val_main_v86 (F := Ideal) x0 x1 x2 x3 x4 x5 x6 x7 x8 x9 x10) (val_main_v59 (F := Ideal) x0 x1 x2 x3 x4 x5 x6 x7 x8)
          (val_main_v89 (F := Ideal) x7) (val_main_v92 (F := Ideal) x8) :=
  msg_eq _ _ _ _ _

/-- Layer 2's edge message. -/
theorem msg2 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) :
    val_main_v133 (F := Ideal) x0 x1 x2 x3 x4 x5 x6 x7 x8 x9 x10
      = Cert.Spec.msg (val_main_v116 (F := Ideal) x0 x1 x2 x3 x4 x5 x6 x7 x8 x9 x10) (val_main_v123 (F := Ideal) x0 x1 x2 x3 x4 x5 x6 x7 x8 x9 x10) (val_main_v96 (F := Ideal) x0 x1 x2 x3 x4 x5 x6 x7 x8 x9 x10)
          (val_main_v126 (F := Ideal) x7) (val_main_v129 (F := Ideal) x8) :=
  msg_eq _ _ _ _ _

end Cert.ReferenceIdeal.RefSpec

end
-- ==== Proof.KL0.lean ====
/-
  Layer 0's edge message in the idealized kernel program. When the first region is entered its seven operand arrays hold:
  the gathered source rows, the gathered destination rows and the unpooled edge features, each padded below with rows of
  zeros; the three 64-row blocks of the layer's 192 × 64 weight; and the layer's bias as one row. These are the host
  operations' terms, the same terms the reference computes. The region's result, with the padding rows cut off, is then
  the reference's edge message.
-/
import proofs.«118118_j10582799417469_1_alg».proof.Proof.KRun
import proofs.«118118_j10582799417469_1_alg».proof.Proof.KEval
import proofs.«118118_j10582799417469_1_alg».proof.Proof.ReadP
import proofs.«118118_j10582799417469_1_alg».proof.Proof.Rows
import proofs.«118118_j10582799417469_1_alg».proof.Proof.Spec
import proofs.«118118_j10582799417469_1_alg».proof.Proof.EdgeMsg0
import proofs.«118118_j10582799417469_1_alg».proof.Proof.RefMsg
import Idealize.ShloMosaic.PureOps.Ideal
import Idealize.ShloMosaic.Lib.ValueLayout

set_option maxRecDepth 16384

noncomputable section

namespace Cert.KernelIdeal.KL0

open Cert.KernelIdeal Cert.KernelIdeal.Gen Cert.KernelIdeal.KEval
open Idealize.ShloMosaic Idealize.ShloMosaic.TcCoe Idealize.ShloMosaic.Tactic Idealize.SL.Sem Idealize.ShloMosaic.ValueIdx
open Cert.ReferenceIdeal.ReadP

variable (m : (ℓ : Loc nD τ sig) → Buf (Elt Ideal) ℓ) (ρ : Dev nD → PrngReg)

theorem e54 (c : Dev nD) : ∃ v : (⟨S_, .f32⟩ : BufTy).Contents (Elt Ideal), W9 m ρ c (Proc.devRef .tc main_v54) = pad S1007616x64 ![0, 0] ![7616, 0] ![0, 0] (val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) v pads_S1000000x64_S1007616x64_076160_000 h_S_ := by
  refine ⟨?v, ?h⟩
  case h =>
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7]
    rfl

theorem e55 (c : Dev nD) : ∃ v : (⟨S_, .f32⟩ : BufTy).Contents (Elt Ideal), W9 m ρ c (Proc.devRef .tc main_v55) = pad S1007616x64 ![0, 0] ![7616, 0] ![0, 0] (val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) v pads_S1000000x64_S1007616x64_076160_000 h_S_ := by
  refine ⟨?v, ?h⟩
  case h =>
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7]
    rfl

theorem e56 (c : Dev nD) : ∃ v : (⟨S_, .f32⟩ : BufTy).Contents (Elt Ideal), W9 m ρ c (Proc.devRef .tc main_v56) = pad S1007616x64 ![0, 0] ![7616, 0] ![0, 0] (val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) v pads_S1000000x64_S1007616x64_076160_000 h_S_ := by
  refine ⟨?v, ?h⟩
  case h =>
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7]
    rfl

theorem e57 (c : Dev nD) : W9 m ρ c (Proc.devRef .tc main_v57) = extractStridedSlice S64x64 ![0, 0] (val_main_v52 (F := Ideal) (m ((c.tc : Thread nD τ).loc main_arg7))) slices_S192x64_S64x64_0_0 := by
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7]
  rfl

theorem e58 (c : Dev nD) : W9 m ρ c (Proc.devRef .tc main_v58) = extractStridedSlice S64x64 ![64, 0] (val_main_v52 (F := Ideal) (m ((c.tc : Thread nD τ).loc main_arg7))) slices_S192x64_S64x64_64_0 := by
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7]
  rfl

theorem e59 (c : Dev nD) : W9 m ρ c (Proc.devRef .tc main_v59) = extractStridedSlice S64x64 ![128, 0] (val_main_v52 (F := Ideal) (m ((c.tc : Thread nD τ).loc main_arg7))) slices_S192x64_S64x64_128_0 := by
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7]
  rfl

theorem e60 (c : Dev nD) : W9 m ρ c (Proc.devRef .tc main_v60) = shapeCast S1x64 (val_main_v55 (F := Ideal) (m ((c.tc : Thread nD τ).loc main_arg8))) shapeCasts_S64_S1x64 := by
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7]
  rfl

/-- The first region's result, its padding rows cut off, is the reference's edge message of layer 0. -/
theorem M0 (c : Dev nD) :
    extractStridedSlice S1000000x64 ![0, 0] (W10 m ρ c (Proc.devRef .tc main_v61)) slices_S1007616x64_S1000000x64_0_0
      = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Cert.ReferenceIdeal.RefSpec.msg0]
  obtain ⟨v54, h54⟩ := e54 m ρ c
  obtain ⟨v55, h55⟩ := e55 m ρ c
  obtain ⟨v56, h56⟩ := e56 m ρ c
  funext i
  obtain ⟨r, j, rfl⟩ : ∃ (r : Fin 1000000) (j : Fin 64), i = ix2 r j := ⟨i 0, i 1, eq_ix2 i⟩
  refine (Cert.Rows.slice_rows (P := 1007616) _ _ r j (by omega)).trans ?_
  rw [show W10 m ρ c (Proc.devRef .tc main_v61) = (dat0 (V9 m ρ) c).arrAt 7 cfg0.N from W10_arr m ρ c 7]
  exact Cert.KernelIdeal.EdgeMsg.value0 (V9 m ρ) c _ _ _ _ _
    (fun r k => by
      show W9 m ρ c (Proc.devRef .tc main_v54) _ = _
      rw [h54]
      exact Cert.Rows.pad_rows _ _ _ _ r k _)
    (fun r k => by
      show W9 m ρ c (Proc.devRef .tc main_v55) _ = _
      rw [h55]
      exact Cert.Rows.pad_rows _ _ _ _ r k _)
    (fun r k => by
      show W9 m ρ c (Proc.devRef .tc main_v56) _ = _
      rw [h56]
      exact Cert.Rows.pad_rows _ _ _ _ r k _)
    (fun k j => by
      show W9 m ρ c (Proc.devRef .tc main_v57) _ = _
      rw [e57 m ρ c]
      exact slice2_axis0_apply 0 _ _ k j _ (by show k.val = 0 + k.val; omega))
    (fun k j => by
      show W9 m ρ c (Proc.devRef .tc main_v58) _ = _
      rw [e58 m ρ c]
      exact slice2_axis0_apply 64 _ _ k j _ (by show 64 + k.val = 64 + k.val; rfl))
    (fun k j => by
      show W9 m ρ c (Proc.devRef .tc main_v59) _ = _
      rw [e59 m ρ c]
      exact slice2_axis0_apply 128 _ _ k j _ (by show 128 + k.val = 128 + k.val; rfl))
    (fun j => by
      show W9 m ρ c (Proc.devRef .tc main_v60) _ = _
      rw [e60 m ρ c]
      exact shapeCast_a_1a_apply _ _ 0 j)
    r j

end Cert.KernelIdeal.KL0

end
-- ==== Proof.NodeUpd1.lean ====
/-
  A node-update region read as a function of whole arrays on the extended reals.
  Grid point t takes rows 8192·t … 8192·t + 8191 of the padded node array and of the padded aggregate, the two 64 × 64
  weight slices and the bias row, and writes the same rows of the padded output: entry (p, q) of the written block is
    max (Σ_k x[p,k]·W0[k,q] + Σ_k agg[p,k]·W1[k,q] + b[q]) 0,
  each product of blocks into a zero accumulator being a plain sum over the contracted axis and the changes of float
  format the identity. The 13 row blocks tile the padded output, so after the region the output array is that formula
  at every row; on the first 100,000 rows, where the padded arrays are the layer's arrays, it is the layer's node update.
-/
import proofs.«118118_j10582799417469_1_alg».proof.Proof.Gen.KernelIdeal.Frame
import proofs.«118118_j10582799417469_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.NodeUpd

open Cert.KernelIdeal Cert.KernelIdeal.Gen Idealize.ShloMosaic Idealize.ShloMosaic.TcCoe Idealize.ShloMosaic.ValueIdx Idealize.SL.Sem
open Idealize.ShloMosaic.Pipeline (Dat)

/-! ## The stored value at an entry of the block -/

theorem mm1_lhs0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl

theorem mm1_lhs1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q

theorem mm1_rhs0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q

theorem mm1_rhs1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- A product of blocks into a zero accumulator, read at row p, column q: row p of the left block against column q of
    the right one. -/
theorem mm1_apply (l : FVec Ideal S8192x64 .bf16) (r : FVec Ideal S64x64 .bf16) (p : Fin 8192) (q : Fin 64) :
    matmul dot_S8192x64_S64x64_S8192x64_1_0_0_1_n_n none l r (constant S8192x64 .f32 0x00000000#32) (ix2 p q)
      = ∑ k : Fin 64, l (ix2 p k) * r (ix2 k q) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k := funext fun a => Fin.ext (by
    match a with
    | ⟨0, _⟩ => exact mm1_lhs0 _ _
    | ⟨1, _⟩ => exact (mm1_lhs1 _ _).trans hk)
  have er : dot_S8192x64_S64x64_S8192x64_1_0_0_1_n_n.rhsIdx (ix2 p q) ((contrEquiv1 dot_S8192x64_S64x64_S8192x64_1_0_0_1_n_n 64 rfl rfl).symm k) = ix2 k q := funext fun a => Fin.ext (by
    match a with
    | ⟨0, _⟩ => exact (mm1_rhs0 _ _).trans hk
    | ⟨1, _⟩ => exact mm1_rhs1 _ _)
  rw [el, er]

/-- The bias row laid along every row of the block. -/
theorem bias1_apply (x4 : Vec Ideal S1x64 .f32) (p : Fin 8192) (q : Fin 64) :
    broadcastTo S8192x64 (shapeCast S1x64 x4 shapeCasts_S1x64_S1x64) broadcasts_S1x64_S8192x64 (ix2 p q) = x4 (ix2 (0 : Fin 1) q) := by
  rw [shapeCast_self]
  refine broadcastTo_apply x4 broadcasts_S1x64_S8192x64 (ix2 p q) (ix2 (0 : Fin 1) q) (fun a => ?_)
  match a with
  | ⟨0, _⟩ => rfl
  | ⟨1, _⟩ => rfl

/-- The body's stored value at row p, column q of the block: the two products of a row with a column added, plus the
    bias entry, cut below at zero (the zero word is the real number zero). -/
theorem pay1_apply (x0 x1 : Vec Ideal S8192x64 .f32) (x2 x3 : Vec Ideal S64x64 .f32) (x4 : Vec Ideal S1x64 .f32)
    (p : Fin 8192) (q : Fin 64) :
    (k1_pay1 x0 x1 x2 x3 x4 : S8192x64.Idx → EReal) (ix2 p q)
      = max ((∑ k : Fin 64, x0 (ix2 p k) * x2 (ix2 k q)) + (∑ k : Fin 64, x1 (ix2 p k) * x3 (ix2 k q))
          + x4 (ix2 (0 : Fin 1) q)) 0 := by
  unfold k1_pay1
  rw [maximumf_apply, addf_apply, addf_apply, mm1_apply, mm1_apply, bias1_apply, broadcast_apply]
  simp only [truncf_apply, shapeCast_self]
  exact congrArg (max _) Ideal.ofBits_zero_f32

/-! ## From blocks to the array -/

theorem hz1 : (![0, 0] : Fin 2 → Nat) = fun _ => 0 := funext fun a => by fin_cases a <;> rfl

/-- The padded output as one function of the two padded inputs, the two weight slices and the bias row: at row i 0,
    column i 1, the two row-by-column products added, plus the bias entry, cut below at zero. -/
def G1 (a0 a1 : S106496x64.Idx → EReal) (w0 w1 : S64x64.Idx → EReal) (bb : S1x64.Idx → EReal) :
    S106496x64.Idx → EReal := fun i =>
  max ((∑ k : Fin 64, a0 (ix2 (⟨(i 0).val, (i 0).isLt⟩ : Fin 106496) k) * w0 (ix2 k (⟨(i 1).val, (i 1).isLt⟩ : Fin 64)))
      + (∑ k : Fin 64, a1 (ix2 (⟨(i 0).val, (i 0).isLt⟩ : Fin 106496) k) * w1 (ix2 k (⟨(i 1).val, (i 1).isLt⟩ : Fin 64)))
      + bb (ix2 (0 : Fin 1) (⟨(i 1).val, (i 1).isLt⟩ : Fin 64))) 0

/-- One entry of a written block is the array function at the entry's place (r, q) in the array, when the loaded blocks
    are the arrays' rows and the weights' and bias's entries at that place. -/
theorem point1 (a0 a1 : S106496x64.Idx → EReal) (w0 w1 : S64x64.Idx → EReal) (bb : S1x64.Idx → EReal)
    (x0 x1 : Vec Ideal S8192x64 .f32) (x2 x3 : Vec Ideal S64x64 .f32) (x4 : Vec Ideal S1x64 .f32)
    (p : Fin 8192) (q : Fin 64) (r : Fin 106496) (i : S106496x64.Idx) (hr : (i 0).val = r.val) (hq : (i 1).val = q.val)
    (h0 : ∀ k : Fin 64, x0 (ix2 p k) = a0 (ix2 r k)) (h1 : ∀ k : Fin 64, x1 (ix2 p k) = a1 (ix2 r k))
    (h2 : ∀ k l : Fin 64, x2 (ix2 k l) = w0 (ix2 k l)) (h3 : ∀ k l : Fin 64, x3 (ix2 k l) = w1 (ix2 k l))
    (h4 : ∀ l : Fin 64, x4 (ix2 (0 : Fin 1) l) = bb (ix2 (0 : Fin 1) l)) :
    (k1_pay1 x0 x1 x2 x3 x4 : S8192x64.Idx → EReal) (ix2 p q) = G1 a0 a1 w0 w1 bb i := by
  have er : (⟨(i 0).val, (i 0).isLt⟩ : Fin 106496) = r := Fin.ext hr
  have eq : (⟨(i 1).val, (i 1).isLt⟩ : Fin 64) = q := Fin.ext hq
  rw [pay1_apply]
  unfold G1
  rw [er, eq]
  simp only [h0, h1, h2, h3, h4]

/-- The printed index maps over the grid: the two row-blocked inputs move with the output, whose block index is the
    point's number; the weight slices and the bias stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is row 8192·t + p of the padded array. -/
theorem row_lt1 (t : Fin cfg1.N) (p : Fin 8192) : t.val * 8192 + p.val < 106496 := by
  have h : t.val < 13 := Nat.lt_of_lt_of_eq t.isLt (show cfg1.N = 13 from N_1)
  omega

variable (V : (c : Dev nD) → (b : Ref sig .tc) → Buf (Elt Ideal) ((c : Thread nD τ).loc b))

/-- Entry (p, k) of window 0's block at point t is entry (8192·t + p, k) of its array. -/
theorem read1_0 (c : Dev nD) (t : Fin cfg1.N) (p : Fin 8192) (k : Fin 64) :
    (iblk1 V c 0 t : S8192x64.Idx → EReal) (ix2 p k)
      = (V c main_v70 : S106496x64.Idx → EReal) (ix2 (⟨t.val * 8192 + p.val, row_lt1 t p⟩ : Fin 106496) k) := by
  obtain ⟨e00, e01, e10, e11, -, -, -, -, -, -, -, -⟩ := idx_facts1 t
  show (V c main_v70 : S106496x64.Idx → EReal) (((cfg1.win 0).blk t).view.emb (ix2 p k)) = _
  refine congrArg (V c main_v70 : S106496x64.Idx → EReal) (funext fun a => Fin.ext ?_)
  match a with
  | ⟨0, _⟩ => show win1_0.index t (0 : Fin 2) * 8192 + 1 * p.val = t.val * 8192 + p.val; rw [e00]; omega
  | ⟨1, _⟩ => show win1_0.index t (1 : Fin 2) * 64 + 1 * k.val = k.val; rw [e01]; omega

/-- Entry (p, k) of window 1's block at point t is entry (8192·t + p, k) of its array. -/
theorem read1_1 (c : Dev nD) (t : Fin cfg1.N) (p : Fin 8192) (k : Fin 64) :
    (iblk1 V c 1 t : S8192x64.Idx → EReal) (ix2 p k)
      = (V c main_v71 : S106496x64.Idx → EReal) (ix2 (⟨t.val * 8192 + p.val, row_lt1 t p⟩ : Fin 106496) k) := by
  obtain ⟨e00, e01, e10, e11, -, -, -, -, -, -, -, -⟩ := idx_facts1 t
  show (V c main_v71 : S106496x64.Idx → EReal) (((cfg1.win 1).blk t).view.emb (ix2 p k)) = _
  refine congrArg (V c main_v71 : S106496x64.Idx → EReal) (funext fun a => Fin.ext ?_)
  match a with
  | ⟨0, _⟩ => show win1_1.index t (0 : Fin 2) * 8192 + 1 * p.val = t.val * 8192 + p.val; rw [e10]; omega
  | ⟨1, _⟩ => show win1_1.index t (1 : Fin 2) * 64 + 1 * k.val = k.val; rw [e11]; omega

/-- Window 2's block at any point is its whole 64 × 64 array. -/
theorem read1_2 (c : Dev nD) (t : Fin cfg1.N) (k l : Fin 64) :
    (iblk1 V c 2 t : S64x64.Idx → EReal) (ix2 k l) = (V c main_v72 : S64x64.Idx → EReal) (ix2 k l) := by
  obtain ⟨-, -, -, -, e20, e21, e30, e31, -, -, -, -⟩ := idx_facts1 t
  show (V c main_v72 : S64x64.Idx → EReal) (((cfg1.win 2).blk t).view.emb (ix2 k l)) = _
  refine congrArg (V c main_v72 : S64x64.Idx → EReal) (funext fun a => Fin.ext ?_)
  match a with
  | ⟨0, _⟩ => show win1_2.index t (0 : Fin 2) * 64 + 1 * k.val = k.val; rw [e20]; omega
  | ⟨1, _⟩ => show win1_2.index t (1 : Fin 2) * 64 + 1 * l.val = l.val; rw [e21]; omega

/-- Window 3's block at any point is its whole 64 × 64 array. -/
theorem read1_3 (c : Dev nD) (t : Fin cfg1.N) (k l : Fin 64) :
    (iblk1 V c 3 t : S64x64.Idx → EReal) (ix2 k l) = (V c main_v73 : S64x64.Idx → EReal) (ix2 k l) := by
  obtain ⟨-, -, -, -, e20, e21, e30, e31, -, -, -, -⟩ := idx_facts1 t
  show (V c main_v73 : S64x64.Idx → EReal) (((cfg1.win 3).blk t).view.emb (ix2 k l)) = _
  refine congrArg (V c main_v73 : S64x64.Idx → EReal) (funext fun a => Fin.ext ?_)
  match a with
  | ⟨0, _⟩ => show win1_3.index t (0 : Fin 2) * 64 + 1 * k.val = k.val; rw [e30]; omega
  | ⟨1, _⟩ => show win1_3.index t (1 : Fin 2) * 64 + 1 * l.val = l.val; rw [e31]; omega

/-- The bias block at any point is the bias row. -/
theorem read1_4 (c : Dev nD) (t : Fin cfg1.N) (l : Fin 64) :
    (iblk1 V c 4 t : S1x64.Idx → EReal) (ix2 (0 : Fin 1) l) = (V c main_v74 : S1x64.Idx → EReal) (ix2 (0 : Fin 1) l) := by
  obtain ⟨-, -, -, -, -, -, -, -, e0, e1, -, -⟩ := idx_facts1 t
  show (V c main_v74 : S1x64.Idx → EReal) (((cfg1.win 4).blk t).view.emb (ix2 (0 : Fin 1) l)) = _
  refine congrArg (V c main_v74 : S1x64.Idx → EReal) (funext fun a => Fin.ext ?_)
  match a with
  | ⟨0, _⟩ => show win1_4.index t (0 : Fin 2) * 1 + 1 * 0 = 0; rw [e0]
  | ⟨1, _⟩ => show win1_4.index t (1 : Fin 2) * 64 + 1 * l.val = l.val; rw [e1]; omega

/-- What point t writes back is block t of the array function of the arrays as the region finds them. -/
theorem flushed1_eq (c : Dev nD) (t : Fin cfg1.N) :
    (dat1 (F := Ideal) V c).flushed 5 t = ((cfg1.win 5).blk t).view.read (Elt Ideal)
      (G1 (V c main_v70) (V c main_v71) (V c main_v72) (V c main_v73) (V c main_v74)) := by
  show (cfg1.win 5).cut (grid1.coords t) ((dat1 (F := Ideal) V c).after 5 t) = _
  rw [after1_5]
  unfold out1_5
  rw [View.canon_unit_zero hz1]
  simp only [View.ld_unit_zero (S := S8192x64) hz1, View.ld_unit_zero (S := S64x64) hz1, View.ld_unit_zero (S := S1x64) hz1]
  obtain ⟨-, -, -, -, -, -, -, -, -, -, e50, e51⟩ := idx_facts1 t
  funext j
  obtain ⟨p, q, rfl⟩ : ∃ (p : Fin 8192) (q : Fin 64), j = ix2 p q := ⟨j 0, j 1, eq_ix2 j⟩
  show (k1_pay1 (iblk1 V c 0 t) (iblk1 V c 1 t) (iblk1 V c 2 t) (iblk1 V c 3 t) (iblk1 V c 4 t) : S8192x64.Idx → EReal) (ix2 p q)
    = G1 (V c main_v70) (V c main_v71) (V c main_v72) (V c main_v73) (V c main_v74) (((cfg1.win 5).blk t).view.emb (ix2 p q))
  refine point1 (V c main_v70) (V c main_v71) (V c main_v72) (V c main_v73) (V c main_v74)
    (iblk1 V c 0 t) (iblk1 V c 1 t) (iblk1 V c 2 t) (iblk1 V c 3 t) (iblk1 V c 4 t) p q
    ⟨t.val * 8192 + p.val, row_lt1 t p⟩ (((cfg1.win 5).blk t).view.emb (ix2 p q)) ?_ ?_
    (read1_0 V c t p) (read1_1 V c t p) (read1_2 V c t) (read1_3 V c t) (read1_4 V c t)
  · show win1_5.index t (0 : Fin 2) * 8192 + 1 * p.val = t.val * 8192 + p.val
    rw [e50]; omega
  · show win1_5.index t (1 : Fin 2) * 64 + 1 * q.val = q.val
    rw [e51]; omega

/-- An index of the padded output is in point t's block iff each coordinate is in the block's range on its axis. -/
theorem mem_blk1 (t : Fin cfg1.N) (i : S106496x64.Idx) :
    i ∈ ((cfg1.win 5).blk t).view.set ↔ ∀ a : Fin 2, win1_5.index t a * S8192x64.size a ≤ (i a).val ∧ (i a).val < win1_5.index t a * S8192x64.size a + S8192x64.size a := by
  show i ∈ ((View.whole main_v75).slice (win1_5.rect t)).set ↔ _
  rw [View.set_slice_whole, Rect.mem_set_unit]
  exact Iff.rfl

/-- The 13 row blocks cover the padded output: row r is in block r / 8192. -/
theorem cover1 (i : S106496x64.Idx) :
    ∃ t : Fin cfg1.N, (cfg1.win 5).flush t = true ∧ i ∈ ((cfg1.win 5).blk t).view.set := by
  have hN : cfg1.N = 13 := N_1
  have hi0 : (i 0).val < 106496 := (i 0).isLt
  have hi1 : (i 1).val < 64 := (i 1).isLt
  have ht : (i 0).val / 8192 < cfg1.N := by rw [hN]; omega
  obtain ⟨-, -, -, -, -, -, -, -, -, -, e50, e51⟩ := idx_facts1 ⟨(i 0).val / 8192, ht⟩
  refine ⟨⟨(i 0).val / 8192, ht⟩, flush1_5 _, ?_⟩
  rw [mem_blk1]
  intro a
  match a with
  | ⟨0, _⟩ =>
    show win1_5.index ⟨(i 0).val / 8192, ht⟩ (0 : Fin 2) * 8192 ≤ (i 0).val ∧ (i 0).val < win1_5.index ⟨(i 0).val / 8192, ht⟩ (0 : Fin 2) * 8192 + 8192
    rw [e50]
    show (i 0).val / 8192 * 8192 ≤ (i 0).val ∧ (i 0).val < (i 0).val / 8192 * 8192 + 8192
    omega
  | ⟨1, _⟩ =>
    show win1_5.index ⟨(i 0).val / 8192, ht⟩ (1 : Fin 2) * 64 ≤ (i 1).val ∧ (i 1).val < win1_5.index ⟨(i 0).val / 8192, ht⟩ (1 : Fin 2) * 64 + 64
    rw [e51]
    omega

/-- After the region the padded output is the array function of the arrays the region found. -/
theorem final1 (c : Dev nD) :
    (dat1 (F := Ideal) V c).arrAt 5 cfg1.N
      = G1 (V c main_v70) (V c main_v71) (V c main_v72) (V c main_v73) (V c main_v74) :=
  (dat1 (F := Ideal) V c).arrAt_eq_of_cover 5
    (G1 (V c main_v70) (V c main_v71) (V c main_v72) (V c main_v73) (V c main_v74))
    (fun t _ => flushed1_eq V c t) cover1

/-! ## The region's value on the layer's rows -/

/-- The array function at a place (r, q), in coordinates. -/
theorem G1_apply (a0 a1 : S106496x64.Idx → EReal) (w0 w1 : S64x64.Idx → EReal) (bb : S1x64.Idx → EReal)
    (r : Fin 106496) (q : Fin 64) :
    G1 a0 a1 w0 w1 bb (ix2 r q)
      = max ((∑ k : Fin 64, a0 (ix2 r k) * w0 (ix2 k q)) + (∑ k : Fin 64, a1 (ix2 r k) * w1 (ix2 k q))
          + bb (ix2 (0 : Fin 1) q)) 0 := rfl

/-- On the first 100,000 rows, where the padded arrays are the layer's arrays, the two slices are rows 0 … 63 and
    64 … 127 of the layer's weight and the bias row is the layer's bias, the output after the region is the layer's
    node update. Rows from 100,000 on are never looked at. -/
theorem value1 (c : Dev nD)
    (x agg : Cert.Spec.Arr (Cert.Spec.sh2 100000 64)) (W : Cert.Spec.Arr (Cert.Spec.sh2 128 64)) (b : Cert.Spec.Arr (Cert.Spec.sh1 64))
    (hx : ∀ (r : Fin 100000) (k : Fin 64), (V c main_v70 : S106496x64.Idx → EReal) (ix2 (⟨r.val, by omega⟩ : Fin 106496) k) = x (ix2 r k))
    (hagg : ∀ (r : Fin 100000) (k : Fin 64), (V c main_v71 : S106496x64.Idx → EReal) (ix2 (⟨r.val, by omega⟩ : Fin 106496) k) = agg (ix2 r k))
    (hw0 : ∀ k j : Fin 64, (V c main_v72 : S64x64.Idx → EReal) (ix2 k j) = W (ix2 (⟨k.val, by omega⟩ : Fin 128) j))
    (hw1 : ∀ k j : Fin 64, (V c main_v73 : S64x64.Idx → EReal) (ix2 k j) = W (ix2 (⟨64 + k.val, by omega⟩ : Fin 128) j))
    (hb : ∀ j : Fin 64, (V c main_v74 : S1x64.Idx → EReal) (ix2 (0 : Fin 1) j) = b (ix1 j)) :
    ∀ (r : Fin 100000) (j : Fin 64),
      ((dat1 (F := Ideal) V c).arrAt 5 cfg1.N : S106496x64.Idx → EReal) (ix2 (⟨r.val, by omega⟩ : Fin 106496) j)
        = Cert.Spec.upd x agg W b (ix2 r j) := by
  intro r j
  rw [final1, G1_apply]
  show _ = max (Cert.Spec.rowDot 0 (by omega) x W r j + Cert.Spec.rowDot 64 (by omega) agg W r j + b (ix1 j)) 0
  unfold Cert.Spec.rowDot
  simp only [hx, hagg, hw0, hw1, hb, Nat.zero_add]

end Cert.KernelIdeal.NodeUpd

end
-- ==== Proof.RefUpd.lean ====
/-
  The reference's node update is the specification's. The reference joins a node's 64-wide row `x` and its
  64-wide aggregate into one 128-wide row and multiplies it with the 128 × 64 weight matrix: a sum over the 128
  joined columns is the sum of two 64-wide sums, and each half of the joined row reads its own array.
-/
import proofs.«118118_j10582799417469_1_alg».proof.Proof.Spec
import proofs.«118118_j10582799417469_1_alg».proof.Proof.ReadP

noncomputable section

open scoped BigOperators

namespace Cert.ReferenceIdeal.RefSpec

open Cert.ReferenceIdeal Cert.ReferenceIdeal.Gen Cert.ReferenceIdeal.ReadP Idealize.ShloMosaic Idealize.ShloMosaic.ValueIdx
open Cert.Spec (Arr sh1 sh2 rowDot)

/-- A sum of 128 terms in two runs of 64 (any additive commutative monoid). -/
theorem sum128 {M : Type*} [AddCommMonoid M] (f : Fin 128 → M) :
    ∑ k, f k = ∑ k : Fin 64, f ⟨0 + k.val, by omega⟩ + ∑ k : Fin 64, f ⟨64 + k.val, by omega⟩ := by
  rw [Fin.sum_univ_add (a := 64) (b := 64) f]
  refine congrArg₂ (· + ·) ?_ rfl
  exact Finset.sum_congr rfl fun k _ => congrArg f (Fin.ext (Nat.zero_add _).symm)

/-- The two rows joined along the columns. -/
abbrev join2 (x agg : Arr (sh2 100000 64)) : Arr (sh2 100000 128) :=
  concatenate S100000x128 1 [⟨S100000x64, x⟩, ⟨S100000x64, agg⟩] concatenates_S100000x64_S100000x64_S100000x128_d1

/-- Columns 0 … 63 of the joined row are the first part. -/
theorem join2_0 (x agg : Arr (sh2 100000 64)) (r : Fin 100000) (k : Fin 64) :
    join2 x agg (ix2 r (⟨0 + k.val, by omega⟩ : Fin 128)) = x (ix2 r k) :=
  concatenate_apply_piece (t := S100000x128) 1 [⟨S100000x64, x⟩, ⟨S100000x64, agg⟩]
    concatenates_S100000x64_S100000x64_S100000x128_d1 _ 0 (show (0 : Nat) < 2 by omega)
    S100000x64 x rfl rfl 0 rfl (ix2 r k)
    (fun b hb => by match b, hb with | ⟨0, _⟩, _ => rfl | ⟨1, _⟩, hb => exact absurd rfl hb) rfl

/-- Columns 64 … 127 are the second part. -/
theorem join2_1 (x agg : Arr (sh2 100000 64)) (r : Fin 100000) (k : Fin 64) :
    join2 x agg (ix2 r (⟨64 + k.val, by omega⟩ : Fin 128)) = agg (ix2 r k) :=
  concatenate_apply_piece (t := S100000x128) 1 [⟨S100000x64, x⟩, ⟨S100000x64, agg⟩]
    concatenates_S100000x64_S100000x64_S100000x128_d1 _ 1 (show (1 : Nat) < 2 by omega)
    S100000x64 agg rfl rfl 64 rfl (ix2 r k)
    (fun b hb => by match b, hb with | ⟨0, _⟩, _ => rfl | ⟨1, _⟩, hb => exact absurd rfl hb) rfl

/-- The joined row against the weight matrix is the two parts against their blocks of rows. -/
theorem join2_dot (x agg : Arr (sh2 100000 64)) (W : Arr (sh2 128 64)) (r : Fin 100000) (j : Fin 64) :
    ∑ k : Fin 128, join2 x agg (ix2 r k) * W (ix2 k j)
      = rowDot 0 (by omega) x W r j + rowDot 64 (by omega) agg W r j := by
  rw [sum128]
  simp only [join2_0, join2_1]
  rfl

/-- The reference's product of a 128-wide array with a 128 × 64 matrix, at row `r`, column `j`. -/
theorem dot128_apply (y : Arr (sh2 100000 128)) (W : Arr (sh2 128 64)) (r : Fin 100000) (j : Fin 64) :
    Host.dotGeneral (F := Ideal) (φ₁ := .f32) (φ₂ := .f32) dot_S100000x128_S128x64_S100000x64_1_0_0_1_n_n none y W (ix2 r j)
      = ∑ k : Fin 128, y (ix2 r k) * W (ix2 k j) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r j) ((ValueIdx.contrEquiv1 dot_S100000x128_S128x64_S100000x64_1_0_0_1_n_n 128 rfl rfl).symm k) = ix2 r k :=
    funext fun a => Fin.ext (by
      match a with
      | ⟨0, _⟩ => exact lhs_main_v66_0 _ _
      | ⟨1, _⟩ => exact (lhs_main_v66_1 _ _).trans hk)
  have er : dot_S100000x128_S128x64_S100000x64_1_0_0_1_n_n.rhsIdx (ix2 r j) ((ValueIdx.contrEquiv1 dot_S100000x128_S128x64_S100000x64_1_0_0_1_n_n 128 rfl rfl).symm k) = ix2 k j :=
    funext fun a => Fin.ext (by
      match a with
      | ⟨0, _⟩ => exact (rhs_main_v66_0 _ _).trans hk
      | ⟨1, _⟩ => exact rhs_main_v66_1 _ _)
  rw [el, er]

/-- A 64-wide bias broadcast along the 100,000 rows, at row `r`, column `j`. -/
theorem nbias_apply (b : Arr (sh1 64)) (r : Fin 100000) (j : Fin 64) :
    broadcastInDim S100000x64 ![0, 1] bcast_S1x64_S100000x64_0_1 (broadcastInDim S1x64 ![1] bcast_S64_S1x64_1 b) (ix2 r j)
      = b (ix1 j) := by
  rw [broadcastInDim_apply _ bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])]
  exact broadcastInDim_apply _ bcast_S64_S1x64_1 b _ (ix1 j) (fun a => match a with
    | ⟨0, _⟩ => by show j.val = if (64 : Nat) = 1 then 0 else j.val; rw [if_neg (by decide)])

/-- The rectifier's zero array, at an index. -/
theorem nzero_apply (i : S100000x64.Idx) :
    broadcastInDim S100000x64 ![] bcast_S_S100000x64 (constant (F := Ideal) S_ .f32 0x00000000#32) i = (0 : EReal) := by
  rw [broadcastInDim_apply _ bcast_S_S100000x64 _ i (fun a => a.elim0) (fun a => a.elim0)]
  exact Ideal.ofBits_zero_f32

/-- One layer's node update as the reference computes it, over arbitrary operand arrays, is the specification's. -/
theorem upd_eq (x agg : Arr (sh2 100000 64)) (W : Arr (sh2 128 64)) (b : Arr (sh1 64)) :
    maximumf (F := Ideal) (s := S100000x64) (φ := .f32)
        (addf (Host.dotGeneral (F := Ideal) (φ₁ := .f32) (φ₂ := .f32) dot_S100000x128_S128x64_S100000x64_1_0_0_1_n_n none (join2 x agg) W)
          (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32))
      = Cert.Spec.upd x agg W b := by
  funext i
  obtain ⟨r, j, rfl⟩ : ∃ (r : Fin 100000) (j : Fin 64), i = ix2 r j := ⟨i 0, i 1, eq_ix2 i⟩
  show max (Host.dotGeneral (F := Ideal) (φ₁ := .f32) (φ₂ := .f32) dot_S100000x128_S128x64_S100000x64_1_0_0_1_n_n none (join2 x agg) W (ix2 r j)
      + broadcastInDim S100000x64 ![0, 1] bcast_S1x64_S100000x64_0_1 (broadcastInDim S1x64 ![1] bcast_S64_S1x64_1 b) (ix2 r j))
      (broadcastInDim S100000x64 ![] bcast_S_S100000x64 (constant (F := Ideal) S_ .f32 0x00000000#32) (ix2 r j)) = _
  rw [dot128_apply, nbias_apply, nzero_apply, join2_dot]
  rfl

/-- Layer 0's node update. -/
theorem upd0 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) :
    val_main_v72 (F := Ideal) x0 x1 x2 x3 x4 x5 x6 x7 x8 x9 x10
      = Cert.Spec.upd (val_main_v21 (F := Ideal) x0 x1 x3 x4 x5 x6) (val_main_v62 (F := Ideal) x0 x1 x2 x3 x4 x5 x6 x7 x8)
          (val_main_v65 (F := Ideal) x9) (val_main_v68 (F := Ideal) x10) :=
  upd_eq _ _ _ _

/-- Layer 1's node update. -/
theorem upd1 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) :
    val_main_v109 (F := Ideal) x0 x1 x2 x3 x4 x5 x6 x7 x8 x9 x10
      = Cert.Spec.upd (val_main_v72 (F := Ideal) x0 x1 x2 x3 x4 x5 x6 x7 x8 x9 x10) (val_main_v99 (F := Ideal) x0 x1 x2 x3 x4 x5 x6 x7 x8 x9 x10)
          (val_main_v102 (F := Ideal) x9) (val_main_v105 (F := Ideal) x10) :=
  upd_eq _ _ _ _

/-- Layer 2's node update. -/
theorem upd2 (x0 : (⟨S100x64, .f32⟩ : BufTy).Contents (Elt Ideal)) (x1 : (⟨S100000, .i32⟩ : BufTy).Contents (Elt Ideal)) (x2 : (⟨S2x1000000, .i32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S3x192x64, .f32⟩ : BufTy).Contents (Elt Ideal)) (x8 : (⟨S3x64, .f32⟩ : BufTy).Contents (Elt Ideal)) (x9 : (⟨S3x128x64, .f32⟩ : BufTy).Contents (Elt Ideal)) (x10 : (⟨S3x64, .f32⟩ : BufTy).Contents (Elt Ideal)) :
    val_main_v146 (F := Ideal) x0 x1 x2 x3 x4 x5 x6 x7 x8 x9 x10
      = Cert.Spec.upd (val_main_v109 (F := Ideal) x0 x1 x2 x3 x4 x5 x6 x7 x8 x9 x10) (val_main_v136 (F := Ideal) x0 x1 x2 x3 x4 x5 x6 x7 x8 x9 x10)
          (val_main_v139 (F := Ideal) x9) (val_main_v142 (F := Ideal) x10) :=
  upd_eq _ _ _ _

end Cert.ReferenceIdeal.RefSpec

end
-- ==== Proof.KL1.lean ====
/-
  Layer 0's node update in the idealized kernel program. When the second region is entered its operands are the unpooled
  node features and the sum of the layer's edge messages over each node's incoming edges, both padded below with rows of
  zeros, the two 64-row blocks of the layer's 128 × 64 weight, and the bias as one row; the aggregate is the reference's
  because the edge message is (the previous module). The region's result, padding cut off, is the reference's updated nodes.
-/
import proofs.«118118_j10582799417469_1_alg».proof.Proof.KRun
import proofs.«118118_j10582799417469_1_alg».proof.Proof.KEval
import proofs.«118118_j10582799417469_1_alg».proof.Proof.ReadP
import proofs.«118118_j10582799417469_1_alg».proof.Proof.Rows
import proofs.«118118_j10582799417469_1_alg».proof.Proof.Spec
import proofs.«118118_j10582799417469_1_alg».proof.Proof.NodeUpd1
import proofs.«118118_j10582799417469_1_alg».proof.Proof.RefUpd
import proofs.«118118_j10582799417469_1_alg».proof.Proof.KL0
import Idealize.ShloMosaic.PureOps.Ideal
import Idealize.ShloMosaic.Lib.ValueLayout

set_option maxRecDepth 16384

noncomputable section

namespace Cert.KernelIdeal.KL1

open Cert.KernelIdeal Cert.KernelIdeal.Gen Cert.KernelIdeal.KEval
open Idealize.ShloMosaic Idealize.ShloMosaic.TcCoe Idealize.ShloMosaic.Tactic Idealize.SL.Sem Idealize.ShloMosaic.ValueIdx
open Cert.ReferenceIdeal.ReadP

variable (m : (ℓ : Loc nD τ sig) → Buf (Elt Ideal) ℓ) (ρ : Dev nD → PrngReg)
open Cert.KernelIdeal.KL0

theorem s21_15 (c : Dev nD) : W15 m ρ c (Proc.devRef .tc main_v21) = val_main_v21 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c]) <;> rfl

theorem strip70 (X : (⟨S100000x64, .f32⟩ : BufTy).Contents (Elt Ideal)) (V : (⟨S_, .f32⟩ : BufTy).Contents (Elt Ideal)) (p h1 h2 p' h1' h2') :
    (StableHlo.TRef.of (T := ⟨S106496x64, .f32⟩) main_v70 p h1 h2).toBuf (pad S106496x64 ![0, 0] ![6496, 0] ![0, 0] ((StableHlo.TRef.of (T := ⟨S100000x64, .f32⟩) main_v21 p' h1' h2').ofBuf X) V pads_S100000x64_S106496x64_064960_000 h_S_)
      = pad S106496x64 ![0, 0] ![6496, 0] ![0, 0] X V pads_S100000x64_S106496x64_064960_000 h_S_ := rfl

theorem e70 (c : Dev nD) : ∃ v : (⟨S_, .f32⟩ : BufTy).Contents (Elt Ideal), W15 m ρ c (Proc.devRef .tc main_v70) = pad S106496x64 ![0, 0] ![6496, 0] ![0, 0] (val_main_v21 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) v pads_S100000x64_S106496x64_064960_000 h_S_ := by
  refine ⟨?v, ?h⟩
  case h =>
    rw [← s21_15 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c]
    exact strip70 _ _ _ _ _ _ _ _

theorem s65_15 (c : Dev nD) : W15 m ρ c (Proc.devRef .tc main_v65) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c]) <;> rfl

theorem strip71 (X : (⟨S100000x64, .f32⟩ : BufTy).Contents (Elt Ideal)) (V : (⟨S_, .f32⟩ : BufTy).Contents (Elt Ideal)) (p h1 h2 p' h1' h2') :
    (StableHlo.TRef.of (T := ⟨S106496x64, .f32⟩) main_v71 p h1 h2).toBuf (pad S106496x64 ![0, 0] ![6496, 0] ![0, 0] ((StableHlo.TRef.of (T := ⟨S100000x64, .f32⟩) main_v65 p' h1' h2').ofBuf X) V pads_S100000x64_S106496x64_064960_000 h_S_)
      = pad S106496x64 ![0, 0] ![6496, 0] ![0, 0] X V pads_S100000x64_S106496x64_064960_000 h_S_ := rfl

theorem e71 (c : Dev nD) : ∃ v : (⟨S_, .f32⟩ : BufTy).Contents (Elt Ideal), W15 m ρ c (Proc.devRef .tc main_v71) = pad S106496x64 ![0, 0] ![6496, 0] ![0, 0] (val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) v pads_S100000x64_S106496x64_064960_000 h_S_ := by
  refine ⟨?v, ?h⟩
  case h =>
    rw [← s65_15 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c]
    exact strip71 _ _ _ _ _ _ _ _

theorem e72 (c : Dev nD) : W15 m ρ c (Proc.devRef .tc main_v72) = extractStridedSlice S64x64 ![0, 0] (val_main_v65 (F := Ideal) (m ((c.tc : Thread nD τ).loc main_arg9))) slices_S128x64_S64x64_0_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c]) <;> rfl

theorem e73 (c : Dev nD) : W15 m ρ c (Proc.devRef .tc main_v73) = extractStridedSlice S64x64 ![64, 0] (val_main_v65 (F := Ideal) (m ((c.tc : Thread nD τ).loc main_arg9))) slices_S128x64_S64x64_64_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c]) <;> rfl

theorem e74 (c : Dev nD) : W15 m ρ c (Proc.devRef .tc main_v74) = shapeCast S1x64 (val_main_v68 (F := Ideal) (m ((c.tc : Thread nD τ).loc main_arg10))) shapeCasts_S64_S1x64 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c]) <;> rfl

/-- The second region's result, its padding rows cut off, is the reference's node features after layer 0. -/
theorem X1 (c : Dev nD) :
    extractStridedSlice S100000x64 ![0, 0] (W16 m ρ c (Proc.devRef .tc main_v75)) slices_S106496x64_S100000x64_0_0
      = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.ReferenceIdeal.RefSpec.upd0]
  obtain ⟨v70, h70⟩ := e70 m ρ c
  obtain ⟨v71, h71⟩ := e71 m ρ c
  funext i
  obtain ⟨r, j, rfl⟩ : ∃ (r : Fin 100000) (j : Fin 64), i = ix2 r j := ⟨i 0, i 1, eq_ix2 i⟩
  refine (Cert.Rows.slice_rows (P := 106496) _ _ r j (by omega)).trans ?_
  rw [show W16 m ρ c (Proc.devRef .tc main_v75) = (dat1 (V15 m ρ) c).arrAt 5 cfg1.N from W16_arr m ρ c 5]
  exact Cert.KernelIdeal.NodeUpd.value1 (V15 m ρ) c _ _ _ _
    (fun r k => by
      show W15 m ρ c (Proc.devRef .tc main_v70) _ = _
      rw [h70]
      exact Cert.Rows.pad_rows _ _ _ _ r k _)
    (fun r k => by
      show W15 m ρ c (Proc.devRef .tc main_v71) _ = _
      rw [h71]
      exact Cert.Rows.pad_rows _ _ _ _ r k _)
    (fun k j => by
      show W15 m ρ c (Proc.devRef .tc main_v72) _ = _
      rw [e72 m ρ c]
      exact slice2_axis0_apply 0 _ _ k j _ (by show k.val = 0 + k.val; omega))
    (fun k j => by
      show W15 m ρ c (Proc.devRef .tc main_v73) _ = _
      rw [e73 m ρ c]
      exact slice2_axis0_apply 64 _ _ k j _ (by show 64 + k.val = 64 + k.val; rfl))
    (fun j => by
      show W15 m ρ c (Proc.devRef .tc main_v74) _ = _
      rw [e74 m ρ c]
      exact shapeCast_a_1a_apply _ _ 0 j)
    r j

end Cert.KernelIdeal.KL1

end
-- ==== Proof.EdgeMsg2.lean ====
/-
  An edge-message region read as a function of whole arrays on the extended reals.
  Grid point t takes rows 8192·t … 8192·t + 8191 of the three padded edge-side arrays, the three 64 × 64 weight slices and
  the bias row, and writes the same rows of the padded output: entry (p, q) of the written block is
    max (Σ_k xs[p,k]·W0[k,q] + Σ_k xd[p,k]·W1[k,q] + Σ_k e[p,k]·W2[k,q] + b[q]) 0,
  each product of blocks into a zero accumulator being a plain sum over the contracted axis and the changes of float
  format the identity. The 123 row blocks tile the padded output, so after the region the output array is that formula
  at every row; on the first 1,000,000 rows, where the padded arrays are the layer's arrays, it is the layer's edge message.
-/
import proofs.«118118_j10582799417469_1_alg».proof.Proof.Gen.KernelIdeal.Frame
import proofs.«118118_j10582799417469_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.EdgeMsg

open Cert.KernelIdeal Cert.KernelIdeal.Gen Idealize.ShloMosaic Idealize.ShloMosaic.TcCoe Idealize.ShloMosaic.ValueIdx Idealize.SL.Sem
open Idealize.ShloMosaic.Pipeline (Dat)

/-! ## The stored value at an entry of the block -/

theorem mm2_lhs0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl

theorem mm2_lhs1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q

theorem mm2_rhs0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q

theorem mm2_rhs1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- A product of blocks into a zero accumulator, read at row p, column q: row p of the left block against column q of
    the right one. -/
theorem mm2_apply (l : FVec Ideal S8192x64 .bf16) (r : FVec Ideal S64x64 .bf16) (p : Fin 8192) (q : Fin 64) :
    matmul dot_S8192x64_S64x64_S8192x64_1_0_0_1_n_n none l r (constant S8192x64 .f32 0x00000000#32) (ix2 p q)
      = ∑ k : Fin 64, l (ix2 p k) * r (ix2 k q) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k := funext fun a => Fin.ext (by
    match a with
    | ⟨0, _⟩ => exact mm2_lhs0 _ _
    | ⟨1, _⟩ => exact (mm2_lhs1 _ _).trans hk)
  have er : dot_S8192x64_S64x64_S8192x64_1_0_0_1_n_n.rhsIdx (ix2 p q) ((contrEquiv1 dot_S8192x64_S64x64_S8192x64_1_0_0_1_n_n 64 rfl rfl).symm k) = ix2 k q := funext fun a => Fin.ext (by
    match a with
    | ⟨0, _⟩ => exact (mm2_rhs0 _ _).trans hk
    | ⟨1, _⟩ => exact mm2_rhs1 _ _)
  rw [el, er]

/-- The bias row laid along every row of the block. -/
theorem bias2_apply (x6 : Vec Ideal S1x64 .f32) (p : Fin 8192) (q : Fin 64) :
    broadcastTo S8192x64 (shapeCast S1x64 x6 shapeCasts_S1x64_S1x64) broadcasts_S1x64_S8192x64 (ix2 p q) = x6 (ix2 (0 : Fin 1) q) := by
  rw [shapeCast_self]
  refine broadcastTo_apply x6 broadcasts_S1x64_S8192x64 (ix2 p q) (ix2 (0 : Fin 1) q) (fun a => ?_)
  match a with
  | ⟨0, _⟩ => rfl
  | ⟨1, _⟩ => rfl

/-- The body's stored value at row p, column q of the block: the three products of a row with a column added, plus the
    bias entry, cut below at zero (the zero word is the real number zero). -/
theorem pay2_apply (x0 x1 x2 : Vec Ideal S8192x64 .f32) (x3 x4 x5 : Vec Ideal S64x64 .f32) (x6 : Vec Ideal S1x64 .f32)
    (p : Fin 8192) (q : Fin 64) :
    (k2_pay1 x0 x1 x2 x3 x4 x5 x6 : S8192x64.Idx → EReal) (ix2 p q)
      = max ((∑ k : Fin 64, x0 (ix2 p k) * x3 (ix2 k q)) + (∑ k : Fin 64, x1 (ix2 p k) * x4 (ix2 k q))
          + (∑ k : Fin 64, x2 (ix2 p k) * x5 (ix2 k q)) + x6 (ix2 (0 : Fin 1) q)) 0 := by
  unfold k2_pay1
  rw [maximumf_apply, addf_apply, addf_apply, addf_apply, mm2_apply, mm2_apply, mm2_apply, bias2_apply, broadcast_apply]
  simp only [truncf_apply, shapeCast_self]
  exact congrArg (max _) Ideal.ofBits_zero_f32

/-! ## From blocks to the array -/

theorem hz2 : (![0, 0] : Fin 2 → Nat) = fun _ => 0 := funext fun a => by fin_cases a <;> rfl

/-- The padded output as one function of the padded inputs, the three weight slices and the bias row: at row i 0,
    column i 1, the three row-by-column products added, plus the bias entry, cut below at zero. -/
def G2 (a0 a1 a2 : S1007616x64.Idx → EReal) (w0 w1 w2 : S64x64.Idx → EReal) (bb : S1x64.Idx → EReal) :
    S1007616x64.Idx → EReal := fun i =>
  max ((∑ k : Fin 64, a0 (ix2 (⟨(i 0).val, (i 0).isLt⟩ : Fin 1007616) k) * w0 (ix2 k (⟨(i 1).val, (i 1).isLt⟩ : Fin 64)))
      + (∑ k : Fin 64, a1 (ix2 (⟨(i 0).val, (i 0).isLt⟩ : Fin 1007616) k) * w1 (ix2 k (⟨(i 1).val, (i 1).isLt⟩ : Fin 64)))
      + (∑ k : Fin 64, a2 (ix2 (⟨(i 0).val, (i 0).isLt⟩ : Fin 1007616) k) * w2 (ix2 k (⟨(i 1).val, (i 1).isLt⟩ : Fin 64)))
      + bb (ix2 (0 : Fin 1) (⟨(i 1).val, (i 1).isLt⟩ : Fin 64))) 0

/-- One entry of a written block is the array function at the entry's place (r, q) in the array, when the loaded blocks
    are the arrays' rows and the weights' and bias's entries at that place. -/
theorem point2 (a0 a1 a2 : S1007616x64.Idx → EReal) (w0 w1 w2 : S64x64.Idx → EReal) (bb : S1x64.Idx → EReal)
    (x0 x1 x2 : Vec Ideal S8192x64 .f32) (x3 x4 x5 : Vec Ideal S64x64 .f32) (x6 : Vec Ideal S1x64 .f32)
    (p : Fin 8192) (q : Fin 64) (r : Fin 1007616) (i : S1007616x64.Idx) (hr : (i 0).val = r.val) (hq : (i 1).val = q.val)
    (h0 : ∀ k : Fin 64, x0 (ix2 p k) = a0 (ix2 r k)) (h1 : ∀ k : Fin 64, x1 (ix2 p k) = a1 (ix2 r k))
    (h2 : ∀ k : Fin 64, x2 (ix2 p k) = a2 (ix2 r k))
    (h3 : ∀ k l : Fin 64, x3 (ix2 k l) = w0 (ix2 k l)) (h4 : ∀ k l : Fin 64, x4 (ix2 k l) = w1 (ix2 k l))
    (h5 : ∀ k l : Fin 64, x5 (ix2 k l) = w2 (ix2 k l)) (h6 : ∀ l : Fin 64, x6 (ix2 (0 : Fin 1) l) = bb (ix2 (0 : Fin 1) l)) :
    (k2_pay1 x0 x1 x2 x3 x4 x5 x6 : S8192x64.Idx → EReal) (ix2 p q) = G2 a0 a1 a2 w0 w1 w2 bb i := by
  have er : (⟨(i 0).val, (i 0).isLt⟩ : Fin 1007616) = r := Fin.ext hr
  have eq : (⟨(i 1).val, (i 1).isLt⟩ : Fin 64) = q := Fin.ext hq
  rw [pay2_apply]
  unfold G2
  rw [er, eq]
  simp only [h0, h1, h2, h3, h4, h5, h6]

/-- The printed index maps over the grid: the three row-blocked inputs move with the output, whose block index is the
    point's number; the weight slices and the bias stay at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row p of block t is row 8192·t + p of the padded array. -/
theorem row_lt2 (t : Fin cfg2.N) (p : Fin 8192) : t.val * 8192 + p.val < 1007616 := by
  have h : t.val < 123 := Nat.lt_of_lt_of_eq t.isLt (show cfg2.N = 123 from N_2)
  omega

variable (V : (c : Dev nD) → (b : Ref sig .tc) → Buf (Elt Ideal) ((c : Thread nD τ).loc b))

/-- Entry (p, k) of window 0's block at point t is entry (8192·t + p, k) of its array. -/
theorem read2_0 (c : Dev nD) (t : Fin cfg2.N) (p : Fin 8192) (k : Fin 64) :
    (iblk2 V c 0 t : S8192x64.Idx → EReal) (ix2 p k)
      = (V c main_v95 : S1007616x64.Idx → EReal) (ix2 (⟨t.val * 8192 + p.val, row_lt2 t p⟩ : Fin 1007616) k) := by
  obtain ⟨e00, e01, e10, e11, e20, e21, -, -, -, -, -, -, -, -, -, -⟩ := idx_facts2 t
  show (V c main_v95 : S1007616x64.Idx → EReal) (((cfg2.win 0).blk t).view.emb (ix2 p k)) = _
  refine congrArg (V c main_v95 : S1007616x64.Idx → EReal) (funext fun a => Fin.ext ?_)
  match a with
  | ⟨0, _⟩ => show win2_0.index t (0 : Fin 2) * 8192 + 1 * p.val = t.val * 8192 + p.val; rw [e00]; omega
  | ⟨1, _⟩ => show win2_0.index t (1 : Fin 2) * 64 + 1 * k.val = k.val; rw [e01]; omega

/-- Entry (p, k) of window 1's block at point t is entry (8192·t + p, k) of its array. -/
theorem read2_1 (c : Dev nD) (t : Fin cfg2.N) (p : Fin 8192) (k : Fin 64) :
    (iblk2 V c 1 t : S8192x64.Idx → EReal) (ix2 p k)
      = (V c main_v96 : S1007616x64.Idx → EReal) (ix2 (⟨t.val * 8192 + p.val, row_lt2 t p⟩ : Fin 1007616) k) := by
  obtain ⟨e00, e01, e10, e11, e20, e21, -, -, -, -, -, -, -, -, -, -⟩ := idx_facts2 t
  show (V c main_v96 : S1007616x64.Idx → EReal) (((cfg2.win 1).blk t).view.emb (ix2 p k)) = _
  refine congrArg (V c main_v96 : S1007616x64.Idx → EReal) (funext fun a => Fin.ext ?_)
  match a with
  | ⟨0, _⟩ => show win2_1.index t (0 : Fin 2) * 8192 + 1 * p.val = t.val * 8192 + p.val; rw [e10]; omega
  | ⟨1, _⟩ => show win2_1.index t (1 : Fin 2) * 64 + 1 * k.val = k.val; rw [e11]; omega

/-- Entry (p, k) of window 2's block at point t is entry (8192·t + p, k) of its array. -/
theorem read2_2 (c : Dev nD) (t : Fin cfg2.N) (p : Fin 8192) (k : Fin 64) :
    (iblk2 V c 2 t : S8192x64.Idx → EReal) (ix2 p k)
      = (V c main_v97 : S1007616x64.Idx → EReal) (ix2 (⟨t.val * 8192 + p.val, row_lt2 t p⟩ : Fin 1007616) k) := by
  obtain ⟨e00, e01, e10, e11, e20, e21, -, -, -, -, -, -, -, -, -, -⟩ := idx_facts2 t
  show (V c main_v97 : S1007616x64.Idx → EReal) (((cfg2.win 2).blk t).view.emb (ix2 p k)) = _
  refine congrArg (V c main_v97 : S1007616x64.Idx → EReal) (funext fun a => Fin.ext ?_)
  match a with
  | ⟨0, _⟩ => show win2_2.index t (0 : Fin 2) * 8192 + 1 * p.val = t.val * 8192 + p.val; rw [e20]; omega
  | ⟨1, _⟩ => show win2_2.index t (1 : Fin 2) * 64 + 1 * k.val = k.val; rw [e21]; omega

/-- Window 3's block at any point is its whole 64 × 64 array. -/
theorem read2_3 (c : Dev nD) (t : Fin cfg2.N) (k l : Fin 64) :
    (iblk2 V c 3 t : S64x64.Idx → EReal) (ix2 k l) = (V c main_v98 : S64x64.Idx → EReal) (ix2 k l) := by
  obtain ⟨-, -, -, -, -, -, e30, e31, e40, e41, e50, e51, -, -, -, -⟩ := idx_facts2 t
  show (V c main_v98 : S64x64.Idx → EReal) (((cfg2.win 3).blk t).view.emb (ix2 k l)) = _
  refine congrArg (V c main_v98 : S64x64.Idx → EReal) (funext fun a => Fin.ext ?_)
  match a with
  | ⟨0, _⟩ => show win2_3.index t (0 : Fin 2) * 64 + 1 * k.val = k.val; rw [e30]; omega
  | ⟨1, _⟩ => show win2_3.index t (1 : Fin 2) * 64 + 1 * l.val = l.val; rw [e31]; omega

/-- Window 4's block at any point is its whole 64 × 64 array. -/
theorem read2_4 (c : Dev nD) (t : Fin cfg2.N) (k l : Fin 64) :
    (iblk2 V c 4 t : S64x64.Idx → EReal) (ix2 k l) = (V c main_v99 : S64x64.Idx → EReal) (ix2 k l) := by
  obtain ⟨-, -, -, -, -, -, e30, e31, e40, e41, e50, e51, -, -, -, -⟩ := idx_facts2 t
  show (V c main_v99 : S64x64.Idx → EReal) (((cfg2.win 4).blk t).view.emb (ix2 k l)) = _
  refine congrArg (V c main_v99 : S64x64.Idx → EReal) (funext fun a => Fin.ext ?_)
  match a with
  | ⟨0, _⟩ => show win2_4.index t (0 : Fin 2) * 64 + 1 * k.val = k.val; rw [e40]; omega
  | ⟨1, _⟩ => show win2_4.index t (1 : Fin 2) * 64 + 1 * l.val = l.val; rw [e41]; omega

/-- Window 5's block at any point is its whole 64 × 64 array. -/
theorem read2_5 (c : Dev nD) (t : Fin cfg2.N) (k l : Fin 64) :
    (iblk2 V c 5 t : S64x64.Idx → EReal) (ix2 k l) = (V c main_v100 : S64x64.Idx → EReal) (ix2 k l) := by
  obtain ⟨-, -, -, -, -, -, e30, e31, e40, e41, e50, e51, -, -, -, -⟩ := idx_facts2 t
  show (V c main_v100 : S64x64.Idx → EReal) (((cfg2.win 5).blk t).view.emb (ix2 k l)) = _
  refine congrArg (V c main_v100 : S64x64.Idx → EReal) (funext fun a => Fin.ext ?_)
  match a with
  | ⟨0, _⟩ => show win2_5.index t (0 : Fin 2) * 64 + 1 * k.val = k.val; rw [e50]; omega
  | ⟨1, _⟩ => show win2_5.index t (1 : Fin 2) * 64 + 1 * l.val = l.val; rw [e51]; omega

/-- The bias block at any point is the bias row. -/
theorem read2_6 (c : Dev nD) (t : Fin cfg2.N) (l : Fin 64) :
    (iblk2 V c 6 t : S1x64.Idx → EReal) (ix2 (0 : Fin 1) l) = (V c main_v101 : S1x64.Idx → EReal) (ix2 (0 : Fin 1) l) := by
  obtain ⟨-, -, -, -, -, -, -, -, -, -, -, -, e0, e1, -, -⟩ := idx_facts2 t
  show (V c main_v101 : S1x64.Idx → EReal) (((cfg2.win 6).blk t).view.emb (ix2 (0 : Fin 1) l)) = _
  refine congrArg (V c main_v101 : S1x64.Idx → EReal) (funext fun a => Fin.ext ?_)
  match a with
  | ⟨0, _⟩ => show win2_6.index t (0 : Fin 2) * 1 + 1 * 0 = 0; rw [e0]
  | ⟨1, _⟩ => show win2_6.index t (1 : Fin 2) * 64 + 1 * l.val = l.val; rw [e1]; omega

/-- What point t writes back is block t of the array function of the arrays as the region finds them. -/
theorem flushed2_eq (c : Dev nD) (t : Fin cfg2.N) :
    (dat2 (F := Ideal) V c).flushed 7 t = ((cfg2.win 7).blk t).view.read (Elt Ideal)
      (G2 (V c main_v95) (V c main_v96) (V c main_v97) (V c main_v98) (V c main_v99) (V c main_v100) (V c main_v101)) := by
  show (cfg2.win 7).cut (grid2.coords t) ((dat2 (F := Ideal) V c).after 7 t) = _
  rw [after2_7]
  unfold out2_7
  rw [View.canon_unit_zero hz2]
  simp only [View.ld_unit_zero (S := S8192x64) hz2, View.ld_unit_zero (S := S64x64) hz2, View.ld_unit_zero (S := S1x64) hz2]
  obtain ⟨-, -, -, -, -, -, -, -, -, -, -, -, -, -, e70, e71⟩ := idx_facts2 t
  funext j
  obtain ⟨p, q, rfl⟩ : ∃ (p : Fin 8192) (q : Fin 64), j = ix2 p q := ⟨j 0, j 1, eq_ix2 j⟩
  show (k2_pay1 (iblk2 V c 0 t) (iblk2 V c 1 t) (iblk2 V c 2 t) (iblk2 V c 3 t) (iblk2 V c 4 t) (iblk2 V c 5 t) (iblk2 V c 6 t) : S8192x64.Idx → EReal) (ix2 p q)
    = G2 (V c main_v95) (V c main_v96) (V c main_v97) (V c main_v98) (V c main_v99) (V c main_v100) (V c main_v101) (((cfg2.win 7).blk t).view.emb (ix2 p q))
  refine point2 (V c main_v95) (V c main_v96) (V c main_v97) (V c main_v98) (V c main_v99) (V c main_v100) (V c main_v101)
    (iblk2 V c 0 t) (iblk2 V c 1 t) (iblk2 V c 2 t) (iblk2 V c 3 t) (iblk2 V c 4 t) (iblk2 V c 5 t) (iblk2 V c 6 t) p q
    ⟨t.val * 8192 + p.val, row_lt2 t p⟩ (((cfg2.win 7).blk t).view.emb (ix2 p q)) ?_ ?_
    (read2_0 V c t p) (read2_1 V c t p) (read2_2 V c t p) (read2_3 V c t) (read2_4 V c t) (read2_5 V c t) (read2_6 V c t)
  · show win2_7.index t (0 : Fin 2) * 8192 + 1 * p.val = t.val * 8192 + p.val
    rw [e70]; omega
  · show win2_7.index t (1 : Fin 2) * 64 + 1 * q.val = q.val
    rw [e71]; omega

/-- An index of the padded output is in point t's block iff each coordinate is in the block's range on its axis. -/
theorem mem_blk2 (t : Fin cfg2.N) (i : S1007616x64.Idx) :
    i ∈ ((cfg2.win 7).blk t).view.set ↔ ∀ a : Fin 2, win2_7.index t a * S8192x64.size a ≤ (i a).val ∧ (i a).val < win2_7.index t a * S8192x64.size a + S8192x64.size a := by
  show i ∈ ((View.whole main_v102).slice (win2_7.rect t)).set ↔ _
  rw [View.set_slice_whole, Rect.mem_set_unit]
  exact Iff.rfl

/-- The 123 row blocks cover the padded output: row r is in block r / 8192. -/
theorem cover2 (i : S1007616x64.Idx) :
    ∃ t : Fin cfg2.N, (cfg2.win 7).flush t = true ∧ i ∈ ((cfg2.win 7).blk t).view.set := by
  have hN : cfg2.N = 123 := N_2
  have hi0 : (i 0).val < 1007616 := (i 0).isLt
  have hi1 : (i 1).val < 64 := (i 1).isLt
  have ht : (i 0).val / 8192 < cfg2.N := by rw [hN]; omega
  obtain ⟨-, -, -, -, -, -, -, -, -, -, -, -, -, -, e70, e71⟩ := idx_facts2 ⟨(i 0).val / 8192, ht⟩
  refine ⟨⟨(i 0).val / 8192, ht⟩, flush2_7 _, ?_⟩
  rw [mem_blk2]
  intro a
  match a with
  | ⟨0, _⟩ =>
    show win2_7.index ⟨(i 0).val / 8192, ht⟩ (0 : Fin 2) * 8192 ≤ (i 0).val ∧ (i 0).val < win2_7.index ⟨(i 0).val / 8192, ht⟩ (0 : Fin 2) * 8192 + 8192
    rw [e70]
    show (i 0).val / 8192 * 8192 ≤ (i 0).val ∧ (i 0).val < (i 0).val / 8192 * 8192 + 8192
    omega
  | ⟨1, _⟩ =>
    show win2_7.index ⟨(i 0).val / 8192, ht⟩ (1 : Fin 2) * 64 ≤ (i 1).val ∧ (i 1).val < win2_7.index ⟨(i 0).val / 8192, ht⟩ (1 : Fin 2) * 64 + 64
    rw [e71]
    omega

/-- After the region the padded output is the array function of the arrays the region found. -/
theorem final2 (c : Dev nD) :
    (dat2 (F := Ideal) V c).arrAt 7 cfg2.N
      = G2 (V c main_v95) (V c main_v96) (V c main_v97) (V c main_v98) (V c main_v99) (V c main_v100) (V c main_v101) :=
  (dat2 (F := Ideal) V c).arrAt_eq_of_cover 7
    (G2 (V c main_v95) (V c main_v96) (V c main_v97) (V c main_v98) (V c main_v99) (V c main_v100) (V c main_v101))
    (fun t _ => flushed2_eq V c t) cover2

/-! ## The region's value on the layer's rows -/

/-- The array function at a place (r, q), in coordinates. -/
theorem G2_apply (a0 a1 a2 : S1007616x64.Idx → EReal) (w0 w1 w2 : S64x64.Idx → EReal) (bb : S1x64.Idx → EReal)
    (r : Fin 1007616) (q : Fin 64) :
    G2 a0 a1 a2 w0 w1 w2 bb (ix2 r q)
      = max ((∑ k : Fin 64, a0 (ix2 r k) * w0 (ix2 k q)) + (∑ k : Fin 64, a1 (ix2 r k) * w1 (ix2 k q))
          + (∑ k : Fin 64, a2 (ix2 r k) * w2 (ix2 k q)) + bb (ix2 (0 : Fin 1) q)) 0 := rfl

/-- On the first 1,000,000 rows, where the padded arrays are the layer's arrays, the three slices are rows 0 … 63,
    64 … 127 and 128 … 191 of the layer's weight and the bias row is the layer's bias, the output after the region is
    the layer's edge message. Rows from 1,000,000 on are never looked at. -/
theorem value2 (c : Dev nD)
    (xs xd e : Cert.Spec.Arr (Cert.Spec.sh2 1000000 64)) (W : Cert.Spec.Arr (Cert.Spec.sh2 192 64)) (b : Cert.Spec.Arr (Cert.Spec.sh1 64))
    (hxs : ∀ (r : Fin 1000000) (k : Fin 64), (V c main_v95 : S1007616x64.Idx → EReal) (ix2 (⟨r.val, by omega⟩ : Fin 1007616) k) = xs (ix2 r k))
    (hxd : ∀ (r : Fin 1000000) (k : Fin 64), (V c main_v96 : S1007616x64.Idx → EReal) (ix2 (⟨r.val, by omega⟩ : Fin 1007616) k) = xd (ix2 r k))
    (he : ∀ (r : Fin 1000000) (k : Fin 64), (V c main_v97 : S1007616x64.Idx → EReal) (ix2 (⟨r.val, by omega⟩ : Fin 1007616) k) = e (ix2 r k))
    (hw0 : ∀ k j : Fin 64, (V c main_v98 : S64x64.Idx → EReal) (ix2 k j) = W (ix2 (⟨k.val, by omega⟩ : Fin 192) j))
    (hw1 : ∀ k j : Fin 64, (V c main_v99 : S64x64.Idx → EReal) (ix2 k j) = W (ix2 (⟨64 + k.val, by omega⟩ : Fin 192) j))
    (hw2 : ∀ k j : Fin 64, (V c main_v100 : S64x64.Idx → EReal) (ix2 k j) = W (ix2 (⟨128 + k.val, by omega⟩ : Fin 192) j))
    (hb : ∀ j : Fin 64, (V c main_v101 : S1x64.Idx → EReal) (ix2 (0 : Fin 1) j) = b (ix1 j)) :
    ∀ (r : Fin 1000000) (j : Fin 64),
      ((dat2 (F := Ideal) V c).arrAt 7 cfg2.N : S1007616x64.Idx → EReal) (ix2 (⟨r.val, by omega⟩ : Fin 1007616) j)
        = Cert.Spec.msg xs xd e W b (ix2 r j) := by
  intro r j
  rw [final2, G2_apply]
  show _ = max (Cert.Spec.rowDot 0 (by omega) xs W r j + Cert.Spec.rowDot 64 (by omega) xd W r j
    + Cert.Spec.rowDot 128 (by omega) e W r j + b (ix1 j)) 0
  unfold Cert.Spec.rowDot
  simp only [hxs, hxd, he, hw0, hw1, hw2, hb, Nat.zero_add]

end Cert.KernelIdeal.EdgeMsg

end
-- ==== Proof.KL2.lean ====
/-
  Layer 1's edge message. The third region's operands are rows of the updated node features gathered at the edges' sources
  and destinations and the previous layer's edge message, padded; the blocks of layer 1's edge weight; its bias.
-/
import proofs.«118118_j10582799417469_1_alg».proof.Proof.KRun
import proofs.«118118_j10582799417469_1_alg».proof.Proof.KEval
import proofs.«118118_j10582799417469_1_alg».proof.Proof.ReadP
import proofs.«118118_j10582799417469_1_alg».proof.Proof.Rows
import proofs.«118118_j10582799417469_1_alg».proof.Proof.Spec
import proofs.«118118_j10582799417469_1_alg».proof.Proof.EdgeMsg2
import proofs.«118118_j10582799417469_1_alg».proof.Proof.RefMsg
import proofs.«118118_j10582799417469_1_alg».proof.Proof.KL0
import proofs.«118118_j10582799417469_1_alg».proof.Proof.KL1
import Idealize.ShloMosaic.PureOps.Ideal
import Idealize.ShloMosaic.Lib.ValueLayout

set_option maxRecDepth 16384

noncomputable section

namespace Cert.KernelIdeal.KL2

open Cert.KernelIdeal Cert.KernelIdeal.Gen Cert.KernelIdeal.KEval
open Idealize.ShloMosaic Idealize.ShloMosaic.TcCoe Idealize.ShloMosaic.Tactic Idealize.SL.Sem Idealize.ShloMosaic.ValueIdx
open Cert.ReferenceIdeal.ReadP

variable (m : (ℓ : Loc nD τ sig) → Buf (Elt Ideal) ℓ) (ρ : Dev nD → PrngReg)
open Cert.KernelIdeal.KL0 Cert.KernelIdeal.KL1

theorem s83_23 (c : Dev nD) : W23 m ρ c (Proc.devRef .tc main_v83) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c]) <;> rfl

theorem strip95 (X : (⟨S1000000x64, .f32⟩ : BufTy).Contents (Elt Ideal)) (V : (⟨S_, .f32⟩ : BufTy).Contents (Elt Ideal)) (p h1 h2 p' h1' h2') :
    (StableHlo.TRef.of (T := ⟨S1007616x64, .f32⟩) main_v95 p h1 h2).toBuf (pad S1007616x64 ![0, 0] ![7616, 0] ![0, 0] ((StableHlo.TRef.of (T := ⟨S1000000x64, .f32⟩) main_v83 p' h1' h2').ofBuf X) V pads_S1000000x64_S1007616x64_076160_000 h_S_)
      = pad S1007616x64 ![0, 0] ![7616, 0] ![0, 0] X V pads_S1000000x64_S1007616x64_076160_000 h_S_ := rfl

theorem e95 (c : Dev nD) : ∃ v : (⟨S_, .f32⟩ : BufTy).Contents (Elt Ideal), W23 m ρ c (Proc.devRef .tc main_v95) = pad S1007616x64 ![0, 0] ![7616, 0] ![0, 0] (val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S1000000x64_S1007616x64_076160_000 h_S_ := by
  refine ⟨?v, ?h⟩
  case h =>
    rw [← s83_23 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c]
    exact strip95 _ _ _ _ _ _ _ _

theorem s90_23 (c : Dev nD) : W23 m ρ c (Proc.devRef .tc main_v90) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c]) <;> rfl

theorem strip96 (X : (⟨S1000000x64, .f32⟩ : BufTy).Contents (Elt Ideal)) (V : (⟨S_, .f32⟩ : BufTy).Contents (Elt Ideal)) (p h1 h2 p' h1' h2') :
    (StableHlo.TRef.of (T := ⟨S1007616x64, .f32⟩) main_v96 p h1 h2).toBuf (pad S1007616x64 ![0, 0] ![7616, 0] ![0, 0] ((StableHlo.TRef.of (T := ⟨S1000000x64, .f32⟩) main_v90 p' h1' h2').ofBuf X) V pads_S1000000x64_S1007616x64_076160_000 h_S_)
      = pad S1007616x64 ![0, 0] ![7616, 0] ![0, 0] X V pads_S1000000x64_S1007616x64_076160_000 h_S_ := rfl

theorem e96 (c : Dev nD) : ∃ v : (⟨S_, .f32⟩ : BufTy).Contents (Elt Ideal), W23 m ρ c (Proc.devRef .tc main_v96) = pad S1007616x64 ![0, 0] ![7616, 0] ![0, 0] (val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S1000000x64_S1007616x64_076160_000 h_S_ := by
  refine ⟨?v, ?h⟩
  case h =>
    rw [← s90_23 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c]
    exact strip96 _ _ _ _ _ _ _ _

theorem s62_23 (c : Dev nD) : W23 m ρ c (Proc.devRef .tc main_v62) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c]) <;> rfl

theorem strip97 (X : (⟨S1000000x64, .f32⟩ : BufTy).Contents (Elt Ideal)) (V : (⟨S_, .f32⟩ : BufTy).Contents (Elt Ideal)) (p h1 h2 p' h1' h2') :
    (StableHlo.TRef.of (T := ⟨S1007616x64, .f32⟩) main_v97 p h1 h2).toBuf (pad S1007616x64 ![0, 0] ![7616, 0] ![0, 0] ((StableHlo.TRef.of (T := ⟨S1000000x64, .f32⟩) main_v62 p' h1' h2').ofBuf X) V pads_S1000000x64_S1007616x64_076160_000 h_S_)
      = pad S1007616x64 ![0, 0] ![7616, 0] ![0, 0] X V pads_S1000000x64_S1007616x64_076160_000 h_S_ := rfl

theorem e97 (c : Dev nD) : ∃ v : (⟨S_, .f32⟩ : BufTy).Contents (Elt Ideal), W23 m ρ c (Proc.devRef .tc main_v97) = pad S1007616x64 ![0, 0] ![7616, 0] ![0, 0] (val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) v pads_S1000000x64_S1007616x64_076160_000 h_S_ := by
  refine ⟨?v, ?h⟩
  case h =>
    rw [← s62_23 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c]
    exact strip97 _ _ _ _ _ _ _ _

theorem e98 (c : Dev nD) : W23 m ρ c (Proc.devRef .tc main_v98) = extractStridedSlice S64x64 ![0, 0] (val_main_v89 (F := Ideal) (m ((c.tc : Thread nD τ).loc main_arg7))) slices_S192x64_S64x64_0_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c]) <;> rfl

theorem e99 (c : Dev nD) : W23 m ρ c (Proc.devRef .tc main_v99) = extractStridedSlice S64x64 ![64, 0] (val_main_v89 (F := Ideal) (m ((c.tc : Thread nD τ).loc main_arg7))) slices_S192x64_S64x64_64_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c]) <;> rfl

theorem e100 (c : Dev nD) : W23 m ρ c (Proc.devRef .tc main_v100) = extractStridedSlice S64x64 ![128, 0] (val_main_v89 (F := Ideal) (m ((c.tc : Thread nD τ).loc main_arg7))) slices_S192x64_S64x64_128_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c]) <;> rfl

theorem e101 (c : Dev nD) : W23 m ρ c (Proc.devRef .tc main_v101) = shapeCast S1x64 (val_main_v92 (F := Ideal) (m ((c.tc : Thread nD τ).loc main_arg8))) shapeCasts_S64_S1x64 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c]) <;> rfl

/-- The third region's result, its padding rows cut off, is the reference's edge message of layer 1. -/
theorem M1 (c : Dev nD) :
    extractStridedSlice S1000000x64 ![0, 0] (W24 m ρ c (Proc.devRef .tc main_v102)) slices_S1007616x64_S1000000x64_0_0
      = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.ReferenceIdeal.RefSpec.msg1]
  obtain ⟨v95, h95⟩ := e95 m ρ c
  obtain ⟨v96, h96⟩ := e96 m ρ c
  obtain ⟨v97, h97⟩ := e97 m ρ c
  funext i
  obtain ⟨r, j, rfl⟩ : ∃ (r : Fin 1000000) (j : Fin 64), i = ix2 r j := ⟨i 0, i 1, eq_ix2 i⟩
  refine (Cert.Rows.slice_rows (P := 1007616) _ _ r j (by omega)).trans ?_
  rw [show W24 m ρ c (Proc.devRef .tc main_v102) = (dat2 (V23 m ρ) c).arrAt 7 cfg2.N from W24_arr m ρ c 7]
  exact Cert.KernelIdeal.EdgeMsg.value2 (V23 m ρ) c _ _ _ _ _
    (fun r k => by
      show W23 m ρ c (Proc.devRef .tc main_v95) _ = _
      rw [h95]
      exact Cert.Rows.pad_rows _ _ _ _ r k _)
    (fun r k => by
      show W23 m ρ c (Proc.devRef .tc main_v96) _ = _
      rw [h96]
      exact Cert.Rows.pad_rows _ _ _ _ r k _)
    (fun r k => by
      show W23 m ρ c (Proc.devRef .tc main_v97) _ = _
      rw [h97]
      exact Cert.Rows.pad_rows _ _ _ _ r k _)
    (fun k j => by
      show W23 m ρ c (Proc.devRef .tc main_v98) _ = _
      rw [e98 m ρ c]
      exact slice2_axis0_apply 0 _ _ k j _ (by show k.val = 0 + k.val; omega))
    (fun k j => by
      show W23 m ρ c (Proc.devRef .tc main_v99) _ = _
      rw [e99 m ρ c]
      exact slice2_axis0_apply 64 _ _ k j _ (by show 64 + k.val = 64 + k.val; rfl))
    (fun k j => by
      show W23 m ρ c (Proc.devRef .tc main_v100) _ = _
      rw [e100 m ρ c]
      exact slice2_axis0_apply 128 _ _ k j _ (by show 128 + k.val = 128 + k.val; rfl))
    (fun j => by
      show W23 m ρ c (Proc.devRef .tc main_v101) _ = _
      rw [e101 m ρ c]
      exact shapeCast_a_1a_apply _ _ 0 j)
    r j

end Cert.KernelIdeal.KL2

end
-- ==== Proof.NodeUpd3.lean ====
/-
  A node-update region read as a function of whole arrays on the extended reals.
  Grid point t takes rows 8192·t … 8192·t + 8191 of the padded node array and of the padded aggregate, the two 64 × 64
  weight slices and the bias row, and writes the same rows of the padded output: entry (p, q) of the written block is
    max (Σ_k x[p,k]·W0[k,q] + Σ_k agg[p,k]·W1[k,q] + b[q]) 0,
  each product of blocks into a zero accumulator being a plain sum over the contracted axis and the changes of float
  format the identity. The 13 row blocks tile the padded output, so after the region the output array is that formula
  at every row; on the first 100,000 rows, where the padded arrays are the layer's arrays, it is the layer's node update.
-/
import proofs.«118118_j10582799417469_1_alg».proof.Proof.Gen.KernelIdeal.Frame
import proofs.«118118_j10582799417469_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.NodeUpd

open Cert.KernelIdeal Cert.KernelIdeal.Gen Idealize.ShloMosaic Idealize.ShloMosaic.TcCoe Idealize.ShloMosaic.ValueIdx Idealize.SL.Sem
open Idealize.ShloMosaic.Pipeline (Dat)

/-! ## The stored value at an entry of the block -/

theorem mm3_lhs0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl

theorem mm3_lhs1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q

theorem mm3_rhs0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q

theorem mm3_rhs1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- A product of blocks into a zero accumulator, read at row p, column q: row p of the left block against column q of
    the right one. -/
theorem mm3_apply (l : FVec Ideal S8192x64 .bf16) (r : FVec Ideal S64x64 .bf16) (p : Fin 8192) (q : Fin 64) :
    matmul dot_S8192x64_S64x64_S8192x64_1_0_0_1_n_n none l r (constant S8192x64 .f32 0x00000000#32) (ix2 p q)
      = ∑ k : Fin 64, l (ix2 p k) * r (ix2 k q) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k := funext fun a => Fin.ext (by
    match a with
    | ⟨0, _⟩ => exact mm3_lhs0 _ _
    | ⟨1, _⟩ => exact (mm3_lhs1 _ _).trans hk)
  have er : dot_S8192x64_S64x64_S8192x64_1_0_0_1_n_n.rhsIdx (ix2 p q) ((contrEquiv1 dot_S8192x64_S64x64_S8192x64_1_0_0_1_n_n 64 rfl rfl).symm k) = ix2 k q := funext fun a => Fin.ext (by
    match a with
    | ⟨0, _⟩ => exact (mm3_rhs0 _ _).trans hk
    | ⟨1, _⟩ => exact mm3_rhs1 _ _)
  rw [el, er]

/-- The bias row laid along every row of the block. -/
theorem bias3_apply (x4 : Vec Ideal S1x64 .f32) (p : Fin 8192) (q : Fin 64) :
    broadcastTo S8192x64 (shapeCast S1x64 x4 shapeCasts_S1x64_S1x64) broadcasts_S1x64_S8192x64 (ix2 p q) = x4 (ix2 (0 : Fin 1) q) := by
  rw [shapeCast_self]
  refine broadcastTo_apply x4 broadcasts_S1x64_S8192x64 (ix2 p q) (ix2 (0 : Fin 1) q) (fun a => ?_)
  match a with
  | ⟨0, _⟩ => rfl
  | ⟨1, _⟩ => rfl

/-- The body's stored value at row p, column q of the block: the two products of a row with a column added, plus the
    bias entry, cut below at zero (the zero word is the real number zero). -/
theorem pay3_apply (x0 x1 : Vec Ideal S8192x64 .f32) (x2 x3 : Vec Ideal S64x64 .f32) (x4 : Vec Ideal S1x64 .f32)
    (p : Fin 8192) (q : Fin 64) :
    (k3_pay1 x0 x1 x2 x3 x4 : S8192x64.Idx → EReal) (ix2 p q)
      = max ((∑ k : Fin 64, x0 (ix2 p k) * x2 (ix2 k q)) + (∑ k : Fin 64, x1 (ix2 p k) * x3 (ix2 k q))
          + x4 (ix2 (0 : Fin 1) q)) 0 := by
  unfold k3_pay1
  rw [maximumf_apply, addf_apply, addf_apply, mm3_apply, mm3_apply, bias3_apply, broadcast_apply]
  simp only [truncf_apply, shapeCast_self]
  exact congrArg (max _) Ideal.ofBits_zero_f32

/-! ## From blocks to the array -/

theorem hz3 : (![0, 0] : Fin 2 → Nat) = fun _ => 0 := funext fun a => by fin_cases a <;> rfl

/-- The padded output as one function of the two padded inputs, the two weight slices and the bias row: at row i 0,
    column i 1, the two row-by-column products added, plus the bias entry, cut below at zero. -/
def G3 (a0 a1 : S106496x64.Idx → EReal) (w0 w1 : S64x64.Idx → EReal) (bb : S1x64.Idx → EReal) :
    S106496x64.Idx → EReal := fun i =>
  max ((∑ k : Fin 64, a0 (ix2 (⟨(i 0).val, (i 0).isLt⟩ : Fin 106496) k) * w0 (ix2 k (⟨(i 1).val, (i 1).isLt⟩ : Fin 64)))
      + (∑ k : Fin 64, a1 (ix2 (⟨(i 0).val, (i 0).isLt⟩ : Fin 106496) k) * w1 (ix2 k (⟨(i 1).val, (i 1).isLt⟩ : Fin 64)))
      + bb (ix2 (0 : Fin 1) (⟨(i 1).val, (i 1).isLt⟩ : Fin 64))) 0

/-- One entry of a written block is the array function at the entry's place (r, q) in the array, when the loaded blocks
    are the arrays' rows and the weights' and bias's entries at that place. -/
theorem point3 (a0 a1 : S106496x64.Idx → EReal) (w0 w1 : S64x64.Idx → EReal) (bb : S1x64.Idx → EReal)
    (x0 x1 : Vec Ideal S8192x64 .f32) (x2 x3 : Vec Ideal S64x64 .f32) (x4 : Vec Ideal S1x64 .f32)
    (p : Fin 8192) (q : Fin 64) (r : Fin 106496) (i : S106496x64.Idx) (hr : (i 0).val = r.val) (hq : (i 1).val = q.val)
    (h0 : ∀ k : Fin 64, x0 (ix2 p k) = a0 (ix2 r k)) (h1 : ∀ k : Fin 64, x1 (ix2 p k) = a1 (ix2 r k))
    (h2 : ∀ k l : Fin 64, x2 (ix2 k l) = w0 (ix2 k l)) (h3 : ∀ k l : Fin 64, x3 (ix2 k l) = w1 (ix2 k l))
    (h4 : ∀ l : Fin 64, x4 (ix2 (0 : Fin 1) l) = bb (ix2 (0 : Fin 1) l)) :
    (k3_pay1 x0 x1 x2 x3 x4 : S8192x64.Idx → EReal) (ix2 p q) = G3 a0 a1 w0 w1 bb i := by
  have er : (⟨(i 0).val, (i 0).isLt⟩ : Fin 106496) = r := Fin.ext hr
  have eq : (⟨(i 1).val, (i 1).isLt⟩ : Fin 64) = q := Fin.ext hq
  rw [pay3_apply]
  unfold G3
  rw [er, eq]
  simp only [h0, h1, h2, h3, h4]

/-- The printed index maps over the grid: the two row-blocked inputs move with the output, whose block index is the
    point's number; the weight slices and the bias stay at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of block t is row 8192·t + p of the padded array. -/
theorem row_lt3 (t : Fin cfg3.N) (p : Fin 8192) : t.val * 8192 + p.val < 106496 := by
  have h : t.val < 13 := Nat.lt_of_lt_of_eq t.isLt (show cfg3.N = 13 from N_3)
  omega

variable (V : (c : Dev nD) → (b : Ref sig .tc) → Buf (Elt Ideal) ((c : Thread nD τ).loc b))

/-- Entry (p, k) of window 0's block at point t is entry (8192·t + p, k) of its array. -/
theorem read3_0 (c : Dev nD) (t : Fin cfg3.N) (p : Fin 8192) (k : Fin 64) :
    (iblk3 V c 0 t : S8192x64.Idx → EReal) (ix2 p k)
      = (V c main_v111 : S106496x64.Idx → EReal) (ix2 (⟨t.val * 8192 + p.val, row_lt3 t p⟩ : Fin 106496) k) := by
  obtain ⟨e00, e01, e10, e11, -, -, -, -, -, -, -, -⟩ := idx_facts3 t
  show (V c main_v111 : S106496x64.Idx → EReal) (((cfg3.win 0).blk t).view.emb (ix2 p k)) = _
  refine congrArg (V c main_v111 : S106496x64.Idx → EReal) (funext fun a => Fin.ext ?_)
  match a with
  | ⟨0, _⟩ => show win3_0.index t (0 : Fin 2) * 8192 + 1 * p.val = t.val * 8192 + p.val; rw [e00]; omega
  | ⟨1, _⟩ => show win3_0.index t (1 : Fin 2) * 64 + 1 * k.val = k.val; rw [e01]; omega

/-- Entry (p, k) of window 1's block at point t is entry (8192·t + p, k) of its array. -/
theorem read3_1 (c : Dev nD) (t : Fin cfg3.N) (p : Fin 8192) (k : Fin 64) :
    (iblk3 V c 1 t : S8192x64.Idx → EReal) (ix2 p k)
      = (V c main_v112 : S106496x64.Idx → EReal) (ix2 (⟨t.val * 8192 + p.val, row_lt3 t p⟩ : Fin 106496) k) := by
  obtain ⟨e00, e01, e10, e11, -, -, -, -, -, -, -, -⟩ := idx_facts3 t
  show (V c main_v112 : S106496x64.Idx → EReal) (((cfg3.win 1).blk t).view.emb (ix2 p k)) = _
  refine congrArg (V c main_v112 : S106496x64.Idx → EReal) (funext fun a => Fin.ext ?_)
  match a with
  | ⟨0, _⟩ => show win3_1.index t (0 : Fin 2) * 8192 + 1 * p.val = t.val * 8192 + p.val; rw [e10]; omega
  | ⟨1, _⟩ => show win3_1.index t (1 : Fin 2) * 64 + 1 * k.val = k.val; rw [e11]; omega

/-- Window 2's block at any point is its whole 64 × 64 array. -/
theorem read3_2 (c : Dev nD) (t : Fin cfg3.N) (k l : Fin 64) :
    (iblk3 V c 2 t : S64x64.Idx → EReal) (ix2 k l) = (V c main_v113 : S64x64.Idx → EReal) (ix2 k l) := by
  obtain ⟨-, -, -, -, e20, e21, e30, e31, -, -, -, -⟩ := idx_facts3 t
  show (V c main_v113 : S64x64.Idx → EReal) (((cfg3.win 2).blk t).view.emb (ix2 k l)) = _
  refine congrArg (V c main_v113 : S64x64.Idx → EReal) (funext fun a => Fin.ext ?_)
  match a with
  | ⟨0, _⟩ => show win3_2.index t (0 : Fin 2) * 64 + 1 * k.val = k.val; rw [e20]; omega
  | ⟨1, _⟩ => show win3_2.index t (1 : Fin 2) * 64 + 1 * l.val = l.val; rw [e21]; omega

/-- Window 3's block at any point is its whole 64 × 64 array. -/
theorem read3_3 (c : Dev nD) (t : Fin cfg3.N) (k l : Fin 64) :
    (iblk3 V c 3 t : S64x64.Idx → EReal) (ix2 k l) = (V c main_v114 : S64x64.Idx → EReal) (ix2 k l) := by
  obtain ⟨-, -, -, -, e20, e21, e30, e31, -, -, -, -⟩ := idx_facts3 t
  show (V c main_v114 : S64x64.Idx → EReal) (((cfg3.win 3).blk t).view.emb (ix2 k l)) = _
  refine congrArg (V c main_v114 : S64x64.Idx → EReal) (funext fun a => Fin.ext ?_)
  match a with
  | ⟨0, _⟩ => show win3_3.index t (0 : Fin 2) * 64 + 1 * k.val = k.val; rw [e30]; omega
  | ⟨1, _⟩ => show win3_3.index t (1 : Fin 2) * 64 + 1 * l.val = l.val; rw [e31]; omega

/-- The bias block at any point is the bias row. -/
theorem read3_4 (c : Dev nD) (t : Fin cfg3.N) (l : Fin 64) :
    (iblk3 V c 4 t : S1x64.Idx → EReal) (ix2 (0 : Fin 1) l) = (V c main_v115 : S1x64.Idx → EReal) (ix2 (0 : Fin 1) l) := by
  obtain ⟨-, -, -, -, -, -, -, -, e0, e1, -, -⟩ := idx_facts3 t
  show (V c main_v115 : S1x64.Idx → EReal) (((cfg3.win 4).blk t).view.emb (ix2 (0 : Fin 1) l)) = _
  refine congrArg (V c main_v115 : S1x64.Idx → EReal) (funext fun a => Fin.ext ?_)
  match a with
  | ⟨0, _⟩ => show win3_4.index t (0 : Fin 2) * 1 + 1 * 0 = 0; rw [e0]
  | ⟨1, _⟩ => show win3_4.index t (1 : Fin 2) * 64 + 1 * l.val = l.val; rw [e1]; omega

/-- What point t writes back is block t of the array function of the arrays as the region finds them. -/
theorem flushed3_eq (c : Dev nD) (t : Fin cfg3.N) :
    (dat3 (F := Ideal) V c).flushed 5 t = ((cfg3.win 5).blk t).view.read (Elt Ideal)
      (G3 (V c main_v111) (V c main_v112) (V c main_v113) (V c main_v114) (V c main_v115)) := by
  show (cfg3.win 5).cut (grid3.coords t) ((dat3 (F := Ideal) V c).after 5 t) = _
  rw [after3_5]
  unfold out3_5
  rw [View.canon_unit_zero hz3]
  simp only [View.ld_unit_zero (S := S8192x64) hz3, View.ld_unit_zero (S := S64x64) hz3, View.ld_unit_zero (S := S1x64) hz3]
  obtain ⟨-, -, -, -, -, -, -, -, -, -, e50, e51⟩ := idx_facts3 t
  funext j
  obtain ⟨p, q, rfl⟩ : ∃ (p : Fin 8192) (q : Fin 64), j = ix2 p q := ⟨j 0, j 1, eq_ix2 j⟩
  show (k3_pay1 (iblk3 V c 0 t) (iblk3 V c 1 t) (iblk3 V c 2 t) (iblk3 V c 3 t) (iblk3 V c 4 t) : S8192x64.Idx → EReal) (ix2 p q)
    = G3 (V c main_v111) (V c main_v112) (V c main_v113) (V c main_v114) (V c main_v115) (((cfg3.win 5).blk t).view.emb (ix2 p q))
  refine point3 (V c main_v111) (V c main_v112) (V c main_v113) (V c main_v114) (V c main_v115)
    (iblk3 V c 0 t) (iblk3 V c 1 t) (iblk3 V c 2 t) (iblk3 V c 3 t) (iblk3 V c 4 t) p q
    ⟨t.val * 8192 + p.val, row_lt3 t p⟩ (((cfg3.win 5).blk t).view.emb (ix2 p q)) ?_ ?_
    (read3_0 V c t p) (read3_1 V c t p) (read3_2 V c t) (read3_3 V c t) (read3_4 V c t)
  · show win3_5.index t (0 : Fin 2) * 8192 + 1 * p.val = t.val * 8192 + p.val
    rw [e50]; omega
  · show win3_5.index t (1 : Fin 2) * 64 + 1 * q.val = q.val
    rw [e51]; omega

/-- An index of the padded output is in point t's block iff each coordinate is in the block's range on its axis. -/
theorem mem_blk3 (t : Fin cfg3.N) (i : S106496x64.Idx) :
    i ∈ ((cfg3.win 5).blk t).view.set ↔ ∀ a : Fin 2, win3_5.index t a * S8192x64.size a ≤ (i a).val ∧ (i a).val < win3_5.index t a * S8192x64.size a + S8192x64.size a := by
  show i ∈ ((View.whole main_v116).slice (win3_5.rect t)).set ↔ _
  rw [View.set_slice_whole, Rect.mem_set_unit]
  exact Iff.rfl

/-- The 13 row blocks cover the padded output: row r is in block r / 8192. -/
theorem cover3 (i : S106496x64.Idx) :
    ∃ t : Fin cfg3.N, (cfg3.win 5).flush t = true ∧ i ∈ ((cfg3.win 5).blk t).view.set := by
  have hN : cfg3.N = 13 := N_3
  have hi0 : (i 0).val < 106496 := (i 0).isLt
  have hi1 : (i 1).val < 64 := (i 1).isLt
  have ht : (i 0).val / 8192 < cfg3.N := by rw [hN]; omega
  obtain ⟨-, -, -, -, -, -, -, -, -, -, e50, e51⟩ := idx_facts3 ⟨(i 0).val / 8192, ht⟩
  refine ⟨⟨(i 0).val / 8192, ht⟩, flush3_5 _, ?_⟩
  rw [mem_blk3]
  intro a
  match a with
  | ⟨0, _⟩ =>
    show win3_5.index ⟨(i 0).val / 8192, ht⟩ (0 : Fin 2) * 8192 ≤ (i 0).val ∧ (i 0).val < win3_5.index ⟨(i 0).val / 8192, ht⟩ (0 : Fin 2) * 8192 + 8192
    rw [e50]
    show (i 0).val / 8192 * 8192 ≤ (i 0).val ∧ (i 0).val < (i 0).val / 8192 * 8192 + 8192
    omega
  | ⟨1, _⟩ =>
    show win3_5.index ⟨(i 0).val / 8192, ht⟩ (1 : Fin 2) * 64 ≤ (i 1).val ∧ (i 1).val < win3_5.index ⟨(i 0).val / 8192, ht⟩ (1 : Fin 2) * 64 + 64
    rw [e51]
    omega

/-- After the region the padded output is the array function of the arrays the region found. -/
theorem final3 (c : Dev nD) :
    (dat3 (F := Ideal) V c).arrAt 5 cfg3.N
      = G3 (V c main_v111) (V c main_v112) (V c main_v113) (V c main_v114) (V c main_v115) :=
  (dat3 (F := Ideal) V c).arrAt_eq_of_cover 5
    (G3 (V c main_v111) (V c main_v112) (V c main_v113) (V c main_v114) (V c main_v115))
    (fun t _ => flushed3_eq V c t) cover3

/-! ## The region's value on the layer's rows -/

/-- The array function at a place (r, q), in coordinates. -/
theorem G3_apply (a0 a1 : S106496x64.Idx → EReal) (w0 w1 : S64x64.Idx → EReal) (bb : S1x64.Idx → EReal)
    (r : Fin 106496) (q : Fin 64) :
    G3 a0 a1 w0 w1 bb (ix2 r q)
      = max ((∑ k : Fin 64, a0 (ix2 r k) * w0 (ix2 k q)) + (∑ k : Fin 64, a1 (ix2 r k) * w1 (ix2 k q))
          + bb (ix2 (0 : Fin 1) q)) 0 := rfl

/-- On the first 100,000 rows, where the padded arrays are the layer's arrays, the two slices are rows 0 … 63 and
    64 … 127 of the layer's weight and the bias row is the layer's bias, the output after the region is the layer's
    node update. Rows from 100,000 on are never looked at. -/
theorem value3 (c : Dev nD)
    (x agg : Cert.Spec.Arr (Cert.Spec.sh2 100000 64)) (W : Cert.Spec.Arr (Cert.Spec.sh2 128 64)) (b : Cert.Spec.Arr (Cert.Spec.sh1 64))
    (hx : ∀ (r : Fin 100000) (k : Fin 64), (V c main_v111 : S106496x64.Idx → EReal) (ix2 (⟨r.val, by omega⟩ : Fin 106496) k) = x (ix2 r k))
    (hagg : ∀ (r : Fin 100000) (k : Fin 64), (V c main_v112 : S106496x64.Idx → EReal) (ix2 (⟨r.val, by omega⟩ : Fin 106496) k) = agg (ix2 r k))
    (hw0 : ∀ k j : Fin 64, (V c main_v113 : S64x64.Idx → EReal) (ix2 k j) = W (ix2 (⟨k.val, by omega⟩ : Fin 128) j))
    (hw1 : ∀ k j : Fin 64, (V c main_v114 : S64x64.Idx → EReal) (ix2 k j) = W (ix2 (⟨64 + k.val, by omega⟩ : Fin 128) j))
    (hb : ∀ j : Fin 64, (V c main_v115 : S1x64.Idx → EReal) (ix2 (0 : Fin 1) j) = b (ix1 j)) :
    ∀ (r : Fin 100000) (j : Fin 64),
      ((dat3 (F := Ideal) V c).arrAt 5 cfg3.N : S106496x64.Idx → EReal) (ix2 (⟨r.val, by omega⟩ : Fin 106496) j)
        = Cert.Spec.upd x agg W b (ix2 r j) := by
  intro r j
  rw [final3, G3_apply]
  show _ = max (Cert.Spec.rowDot 0 (by omega) x W r j + Cert.Spec.rowDot 64 (by omega) agg W r j + b (ix1 j)) 0
  unfold Cert.Spec.rowDot
  simp only [hx, hagg, hw0, hw1, hb, Nat.zero_add]

end Cert.KernelIdeal.NodeUpd

end
-- ==== Proof.KL3.lean ====
/-
  Layer 1's node update: the fourth region's operands are the node features after layer 0 and the aggregate of layer 1's
  edge messages, padded; the blocks of layer 1's node weight; its bias.
-/
import proofs.«118118_j10582799417469_1_alg».proof.Proof.KRun
import proofs.«118118_j10582799417469_1_alg».proof.Proof.KEval
import proofs.«118118_j10582799417469_1_alg».proof.Proof.ReadP
import proofs.«118118_j10582799417469_1_alg».proof.Proof.Rows
import proofs.«118118_j10582799417469_1_alg».proof.Proof.Spec
import proofs.«118118_j10582799417469_1_alg».proof.Proof.NodeUpd3
import proofs.«118118_j10582799417469_1_alg».proof.Proof.RefUpd
import proofs.«118118_j10582799417469_1_alg».proof.Proof.KL0
import proofs.«118118_j10582799417469_1_alg».proof.Proof.KL1
import proofs.«118118_j10582799417469_1_alg».proof.Proof.KL2
import Idealize.ShloMosaic.PureOps.Ideal
import Idealize.ShloMosaic.Lib.ValueLayout

set_option maxRecDepth 16384

noncomputable section

namespace Cert.KernelIdeal.KL3

open Cert.KernelIdeal Cert.KernelIdeal.Gen Cert.KernelIdeal.KEval
open Idealize.ShloMosaic Idealize.ShloMosaic.TcCoe Idealize.ShloMosaic.Tactic Idealize.SL.Sem Idealize.ShloMosaic.ValueIdx
open Cert.ReferenceIdeal.ReadP

variable (m : (ℓ : Loc nD τ sig) → Buf (Elt Ideal) ℓ) (ρ : Dev nD → PrngReg)
open Cert.KernelIdeal.KL0 Cert.KernelIdeal.KL1 Cert.KernelIdeal.KL2

theorem s76_29 (c : Dev nD) : W29 m ρ c (Proc.devRef .tc main_v76) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c]) <;> rfl

theorem strip111 (X : (⟨S100000x64, .f32⟩ : BufTy).Contents (Elt Ideal)) (V : (⟨S_, .f32⟩ : BufTy).Contents (Elt Ideal)) (p h1 h2 p' h1' h2') :
    (StableHlo.TRef.of (T := ⟨S106496x64, .f32⟩) main_v111 p h1 h2).toBuf (pad S106496x64 ![0, 0] ![6496, 0] ![0, 0] ((StableHlo.TRef.of (T := ⟨S100000x64, .f32⟩) main_v76 p' h1' h2').ofBuf X) V pads_S100000x64_S106496x64_064960_000 h_S_)
      = pad S106496x64 ![0, 0] ![6496, 0] ![0, 0] X V pads_S100000x64_S106496x64_064960_000 h_S_ := rfl

theorem e111 (c : Dev nD) : ∃ v : (⟨S_, .f32⟩ : BufTy).Contents (Elt Ideal), W29 m ρ c (Proc.devRef .tc main_v111) = pad S106496x64 ![0, 0] ![6496, 0] ![0, 0] (val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S100000x64_S106496x64_064960_000 h_S_ := by
  refine ⟨?v, ?h⟩
  case h =>
    rw [← s76_29 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c]
    exact strip111 _ _ _ _ _ _ _ _

theorem s106_29 (c : Dev nD) : W29 m ρ c (Proc.devRef .tc main_v106) = val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c]) <;> rfl

theorem strip112 (X : (⟨S100000x64, .f32⟩ : BufTy).Contents (Elt Ideal)) (V : (⟨S_, .f32⟩ : BufTy).Contents (Elt Ideal)) (p h1 h2 p' h1' h2') :
    (StableHlo.TRef.of (T := ⟨S106496x64, .f32⟩) main_v112 p h1 h2).toBuf (pad S106496x64 ![0, 0] ![6496, 0] ![0, 0] ((StableHlo.TRef.of (T := ⟨S100000x64, .f32⟩) main_v106 p' h1' h2').ofBuf X) V pads_S100000x64_S106496x64_064960_000 h_S_)
      = pad S106496x64 ![0, 0] ![6496, 0] ![0, 0] X V pads_S100000x64_S106496x64_064960_000 h_S_ := rfl

theorem e112 (c : Dev nD) : ∃ v : (⟨S_, .f32⟩ : BufTy).Contents (Elt Ideal), W29 m ρ c (Proc.devRef .tc main_v112) = pad S106496x64 ![0, 0] ![6496, 0] ![0, 0] (val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S100000x64_S106496x64_064960_000 h_S_ := by
  refine ⟨?v, ?h⟩
  case h =>
    rw [← s106_29 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c]
    exact strip112 _ _ _ _ _ _ _ _

theorem e113 (c : Dev nD) : W29 m ρ c (Proc.devRef .tc main_v113) = extractStridedSlice S64x64 ![0, 0] (val_main_v102 (F := Ideal) (m ((c.tc : Thread nD τ).loc main_arg9))) slices_S128x64_S64x64_0_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c]) <;> rfl

theorem e114 (c : Dev nD) : W29 m ρ c (Proc.devRef .tc main_v114) = extractStridedSlice S64x64 ![64, 0] (val_main_v102 (F := Ideal) (m ((c.tc : Thread nD τ).loc main_arg9))) slices_S128x64_S64x64_64_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c]) <;> rfl

theorem e115 (c : Dev nD) : W29 m ρ c (Proc.devRef .tc main_v115) = shapeCast S1x64 (val_main_v105 (F := Ideal) (m ((c.tc : Thread nD τ).loc main_arg10))) shapeCasts_S64_S1x64 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c]) <;> rfl

/-- The fourth region's result, its padding rows cut off, is the reference's node features after layer 1. -/
theorem X2 (c : Dev nD) :
    extractStridedSlice S100000x64 ![0, 0] (W30 m ρ c (Proc.devRef .tc main_v116)) slices_S106496x64_S100000x64_0_0
      = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.ReferenceIdeal.RefSpec.upd1]
  obtain ⟨v111, h111⟩ := e111 m ρ c
  obtain ⟨v112, h112⟩ := e112 m ρ c
  funext i
  obtain ⟨r, j, rfl⟩ : ∃ (r : Fin 100000) (j : Fin 64), i = ix2 r j := ⟨i 0, i 1, eq_ix2 i⟩
  refine (Cert.Rows.slice_rows (P := 106496) _ _ r j (by omega)).trans ?_
  rw [show W30 m ρ c (Proc.devRef .tc main_v116) = (dat3 (V29 m ρ) c).arrAt 5 cfg3.N from W30_arr m ρ c 5]
  exact Cert.KernelIdeal.NodeUpd.value3 (V29 m ρ) c _ _ _ _
    (fun r k => by
      show W29 m ρ c (Proc.devRef .tc main_v111) _ = _
      rw [h111]
      exact Cert.Rows.pad_rows _ _ _ _ r k _)
    (fun r k => by
      show W29 m ρ c (Proc.devRef .tc main_v112) _ = _
      rw [h112]
      exact Cert.Rows.pad_rows _ _ _ _ r k _)
    (fun k j => by
      show W29 m ρ c (Proc.devRef .tc main_v113) _ = _
      rw [e113 m ρ c]
      exact slice2_axis0_apply 0 _ _ k j _ (by show k.val = 0 + k.val; omega))
    (fun k j => by
      show W29 m ρ c (Proc.devRef .tc main_v114) _ = _
      rw [e114 m ρ c]
      exact slice2_axis0_apply 64 _ _ k j _ (by show 64 + k.val = 64 + k.val; rfl))
    (fun j => by
      show W29 m ρ c (Proc.devRef .tc main_v115) _ = _
      rw [e115 m ρ c]
      exact shapeCast_a_1a_apply _ _ 0 j)
    r j

end Cert.KernelIdeal.KL3

end
-- ==== Proof.EdgeMsg4.lean ====
/-
  An edge-message region read as a function of whole arrays on the extended reals.
  Grid point t takes rows 8192·t … 8192·t + 8191 of the three padded edge-side arrays, the three 64 × 64 weight slices and
  the bias row, and writes the same rows of the padded output: entry (p, q) of the written block is
    max (Σ_k xs[p,k]·W0[k,q] + Σ_k xd[p,k]·W1[k,q] + Σ_k e[p,k]·W2[k,q] + b[q]) 0,
  each product of blocks into a zero accumulator being a plain sum over the contracted axis and the changes of float
  format the identity. The 123 row blocks tile the padded output, so after the region the output array is that formula
  at every row; on the first 1,000,000 rows, where the padded arrays are the layer's arrays, it is the layer's edge message.
-/
import proofs.«118118_j10582799417469_1_alg».proof.Proof.Gen.KernelIdeal.Frame
import proofs.«118118_j10582799417469_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.EdgeMsg

open Cert.KernelIdeal Cert.KernelIdeal.Gen Idealize.ShloMosaic Idealize.ShloMosaic.TcCoe Idealize.ShloMosaic.ValueIdx Idealize.SL.Sem
open Idealize.ShloMosaic.Pipeline (Dat)

/-! ## The stored value at an entry of the block -/

theorem mm4_lhs0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl

theorem mm4_lhs1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q

theorem mm4_rhs0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q

theorem mm4_rhs1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- A product of blocks into a zero accumulator, read at row p, column q: row p of the left block against column q of
    the right one. -/
theorem mm4_apply (l : FVec Ideal S8192x64 .bf16) (r : FVec Ideal S64x64 .bf16) (p : Fin 8192) (q : Fin 64) :
    matmul dot_S8192x64_S64x64_S8192x64_1_0_0_1_n_n none l r (constant S8192x64 .f32 0x00000000#32) (ix2 p q)
      = ∑ k : Fin 64, l (ix2 p k) * r (ix2 k q) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k := funext fun a => Fin.ext (by
    match a with
    | ⟨0, _⟩ => exact mm4_lhs0 _ _
    | ⟨1, _⟩ => exact (mm4_lhs1 _ _).trans hk)
  have er : dot_S8192x64_S64x64_S8192x64_1_0_0_1_n_n.rhsIdx (ix2 p q) ((contrEquiv1 dot_S8192x64_S64x64_S8192x64_1_0_0_1_n_n 64 rfl rfl).symm k) = ix2 k q := funext fun a => Fin.ext (by
    match a with
    | ⟨0, _⟩ => exact (mm4_rhs0 _ _).trans hk
    | ⟨1, _⟩ => exact mm4_rhs1 _ _)
  rw [el, er]

/-- The bias row laid along every row of the block. -/
theorem bias4_apply (x6 : Vec Ideal S1x64 .f32) (p : Fin 8192) (q : Fin 64) :
    broadcastTo S8192x64 (shapeCast S1x64 x6 shapeCasts_S1x64_S1x64) broadcasts_S1x64_S8192x64 (ix2 p q) = x6 (ix2 (0 : Fin 1) q) := by
  rw [shapeCast_self]
  refine broadcastTo_apply x6 broadcasts_S1x64_S8192x64 (ix2 p q) (ix2 (0 : Fin 1) q) (fun a => ?_)
  match a with
  | ⟨0, _⟩ => rfl
  | ⟨1, _⟩ => rfl

/-- The body's stored value at row p, column q of the block: the three products of a row with a column added, plus the
    bias entry, cut below at zero (the zero word is the real number zero). -/
theorem pay4_apply (x0 x1 x2 : Vec Ideal S8192x64 .f32) (x3 x4 x5 : Vec Ideal S64x64 .f32) (x6 : Vec Ideal S1x64 .f32)
    (p : Fin 8192) (q : Fin 64) :
    (k4_pay1 x0 x1 x2 x3 x4 x5 x6 : S8192x64.Idx → EReal) (ix2 p q)
      = max ((∑ k : Fin 64, x0 (ix2 p k) * x3 (ix2 k q)) + (∑ k : Fin 64, x1 (ix2 p k) * x4 (ix2 k q))
          + (∑ k : Fin 64, x2 (ix2 p k) * x5 (ix2 k q)) + x6 (ix2 (0 : Fin 1) q)) 0 := by
  unfold k4_pay1
  rw [maximumf_apply, addf_apply, addf_apply, addf_apply, mm4_apply, mm4_apply, mm4_apply, bias4_apply, broadcast_apply]
  simp only [truncf_apply, shapeCast_self]
  exact congrArg (max _) Ideal.ofBits_zero_f32

/-! ## From blocks to the array -/

theorem hz4 : (![0, 0] : Fin 2 → Nat) = fun _ => 0 := funext fun a => by fin_cases a <;> rfl

/-- The padded output as one function of the padded inputs, the three weight slices and the bias row: at row i 0,
    column i 1, the three row-by-column products added, plus the bias entry, cut below at zero. -/
def G4 (a0 a1 a2 : S1007616x64.Idx → EReal) (w0 w1 w2 : S64x64.Idx → EReal) (bb : S1x64.Idx → EReal) :
    S1007616x64.Idx → EReal := fun i =>
  max ((∑ k : Fin 64, a0 (ix2 (⟨(i 0).val, (i 0).isLt⟩ : Fin 1007616) k) * w0 (ix2 k (⟨(i 1).val, (i 1).isLt⟩ : Fin 64)))
      + (∑ k : Fin 64, a1 (ix2 (⟨(i 0).val, (i 0).isLt⟩ : Fin 1007616) k) * w1 (ix2 k (⟨(i 1).val, (i 1).isLt⟩ : Fin 64)))
      + (∑ k : Fin 64, a2 (ix2 (⟨(i 0).val, (i 0).isLt⟩ : Fin 1007616) k) * w2 (ix2 k (⟨(i 1).val, (i 1).isLt⟩ : Fin 64)))
      + bb (ix2 (0 : Fin 1) (⟨(i 1).val, (i 1).isLt⟩ : Fin 64))) 0

/-- One entry of a written block is the array function at the entry's place (r, q) in the array, when the loaded blocks
    are the arrays' rows and the weights' and bias's entries at that place. -/
theorem point4 (a0 a1 a2 : S1007616x64.Idx → EReal) (w0 w1 w2 : S64x64.Idx → EReal) (bb : S1x64.Idx → EReal)
    (x0 x1 x2 : Vec Ideal S8192x64 .f32) (x3 x4 x5 : Vec Ideal S64x64 .f32) (x6 : Vec Ideal S1x64 .f32)
    (p : Fin 8192) (q : Fin 64) (r : Fin 1007616) (i : S1007616x64.Idx) (hr : (i 0).val = r.val) (hq : (i 1).val = q.val)
    (h0 : ∀ k : Fin 64, x0 (ix2 p k) = a0 (ix2 r k)) (h1 : ∀ k : Fin 64, x1 (ix2 p k) = a1 (ix2 r k))
    (h2 : ∀ k : Fin 64, x2 (ix2 p k) = a2 (ix2 r k))
    (h3 : ∀ k l : Fin 64, x3 (ix2 k l) = w0 (ix2 k l)) (h4 : ∀ k l : Fin 64, x4 (ix2 k l) = w1 (ix2 k l))
    (h5 : ∀ k l : Fin 64, x5 (ix2 k l) = w2 (ix2 k l)) (h6 : ∀ l : Fin 64, x6 (ix2 (0 : Fin 1) l) = bb (ix2 (0 : Fin 1) l)) :
    (k4_pay1 x0 x1 x2 x3 x4 x5 x6 : S8192x64.Idx → EReal) (ix2 p q) = G4 a0 a1 a2 w0 w1 w2 bb i := by
  have er : (⟨(i 0).val, (i 0).isLt⟩ : Fin 1007616) = r := Fin.ext hr
  have eq : (⟨(i 1).val, (i 1).isLt⟩ : Fin 64) = q := Fin.ext hq
  rw [pay4_apply]
  unfold G4
  rw [er, eq]
  simp only [h0, h1, h2, h3, h4, h5, h6]

/-- The printed index maps over the grid: the three row-blocked inputs move with the output, whose block index is the
    point's number; the weight slices and the bias stay at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row p of block t is row 8192·t + p of the padded array. -/
theorem row_lt4 (t : Fin cfg4.N) (p : Fin 8192) : t.val * 8192 + p.val < 1007616 := by
  have h : t.val < 123 := Nat.lt_of_lt_of_eq t.isLt (show cfg4.N = 123 from N_4)
  omega

variable (V : (c : Dev nD) → (b : Ref sig .tc) → Buf (Elt Ideal) ((c : Thread nD τ).loc b))

/-- Entry (p, k) of window 0's block at point t is entry (8192·t + p, k) of its array. -/
theorem read4_0 (c : Dev nD) (t : Fin cfg4.N) (p : Fin 8192) (k : Fin 64) :
    (iblk4 V c 0 t : S8192x64.Idx → EReal) (ix2 p k)
      = (V c main_v136 : S1007616x64.Idx → EReal) (ix2 (⟨t.val * 8192 + p.val, row_lt4 t p⟩ : Fin 1007616) k) := by
  obtain ⟨e00, e01, e10, e11, e20, e21, -, -, -, -, -, -, -, -, -, -⟩ := idx_facts4 t
  show (V c main_v136 : S1007616x64.Idx → EReal) (((cfg4.win 0).blk t).view.emb (ix2 p k)) = _
  refine congrArg (V c main_v136 : S1007616x64.Idx → EReal) (funext fun a => Fin.ext ?_)
  match a with
  | ⟨0, _⟩ => show win4_0.index t (0 : Fin 2) * 8192 + 1 * p.val = t.val * 8192 + p.val; rw [e00]; omega
  | ⟨1, _⟩ => show win4_0.index t (1 : Fin 2) * 64 + 1 * k.val = k.val; rw [e01]; omega

/-- Entry (p, k) of window 1's block at point t is entry (8192·t + p, k) of its array. -/
theorem read4_1 (c : Dev nD) (t : Fin cfg4.N) (p : Fin 8192) (k : Fin 64) :
    (iblk4 V c 1 t : S8192x64.Idx → EReal) (ix2 p k)
      = (V c main_v137 : S1007616x64.Idx → EReal) (ix2 (⟨t.val * 8192 + p.val, row_lt4 t p⟩ : Fin 1007616) k) := by
  obtain ⟨e00, e01, e10, e11, e20, e21, -, -, -, -, -, -, -, -, -, -⟩ := idx_facts4 t
  show (V c main_v137 : S1007616x64.Idx → EReal) (((cfg4.win 1).blk t).view.emb (ix2 p k)) = _
  refine congrArg (V c main_v137 : S1007616x64.Idx → EReal) (funext fun a => Fin.ext ?_)
  match a with
  | ⟨0, _⟩ => show win4_1.index t (0 : Fin 2) * 8192 + 1 * p.val = t.val * 8192 + p.val; rw [e10]; omega
  | ⟨1, _⟩ => show win4_1.index t (1 : Fin 2) * 64 + 1 * k.val = k.val; rw [e11]; omega

/-- Entry (p, k) of window 2's block at point t is entry (8192·t + p, k) of its array. -/
theorem read4_2 (c : Dev nD) (t : Fin cfg4.N) (p : Fin 8192) (k : Fin 64) :
    (iblk4 V c 2 t : S8192x64.Idx → EReal) (ix2 p k)
      = (V c main_v138 : S1007616x64.Idx → EReal) (ix2 (⟨t.val * 8192 + p.val, row_lt4 t p⟩ : Fin 1007616) k) := by
  obtain ⟨e00, e01, e10, e11, e20, e21, -, -, -, -, -, -, -, -, -, -⟩ := idx_facts4 t
  show (V c main_v138 : S1007616x64.Idx → EReal) (((cfg4.win 2).blk t).view.emb (ix2 p k)) = _
  refine congrArg (V c main_v138 : S1007616x64.Idx → EReal) (funext fun a => Fin.ext ?_)
  match a with
  | ⟨0, _⟩ => show win4_2.index t (0 : Fin 2) * 8192 + 1 * p.val = t.val * 8192 + p.val; rw [e20]; omega
  | ⟨1, _⟩ => show win4_2.index t (1 : Fin 2) * 64 + 1 * k.val = k.val; rw [e21]; omega

/-- Window 3's block at any point is its whole 64 × 64 array. -/
theorem read4_3 (c : Dev nD) (t : Fin cfg4.N) (k l : Fin 64) :
    (iblk4 V c 3 t : S64x64.Idx → EReal) (ix2 k l) = (V c main_v139 : S64x64.Idx → EReal) (ix2 k l) := by
  obtain ⟨-, -, -, -, -, -, e30, e31, e40, e41, e50, e51, -, -, -, -⟩ := idx_facts4 t
  show (V c main_v139 : S64x64.Idx → EReal) (((cfg4.win 3).blk t).view.emb (ix2 k l)) = _
  refine congrArg (V c main_v139 : S64x64.Idx → EReal) (funext fun a => Fin.ext ?_)
  match a with
  | ⟨0, _⟩ => show win4_3.index t (0 : Fin 2) * 64 + 1 * k.val = k.val; rw [e30]; omega
  | ⟨1, _⟩ => show win4_3.index t (1 : Fin 2) * 64 + 1 * l.val = l.val; rw [e31]; omega

/-- Window 4's block at any point is its whole 64 × 64 array. -/
theorem read4_4 (c : Dev nD) (t : Fin cfg4.N) (k l : Fin 64) :
    (iblk4 V c 4 t : S64x64.Idx → EReal) (ix2 k l) = (V c main_v140 : S64x64.Idx → EReal) (ix2 k l) := by
  obtain ⟨-, -, -, -, -, -, e30, e31, e40, e41, e50, e51, -, -, -, -⟩ := idx_facts4 t
  show (V c main_v140 : S64x64.Idx → EReal) (((cfg4.win 4).blk t).view.emb (ix2 k l)) = _
  refine congrArg (V c main_v140 : S64x64.Idx → EReal) (funext fun a => Fin.ext ?_)
  match a with
  | ⟨0, _⟩ => show win4_4.index t (0 : Fin 2) * 64 + 1 * k.val = k.val; rw [e40]; omega
  | ⟨1, _⟩ => show win4_4.index t (1 : Fin 2) * 64 + 1 * l.val = l.val; rw [e41]; omega

/-- Window 5's block at any point is its whole 64 × 64 array. -/
theorem read4_5 (c : Dev nD) (t : Fin cfg4.N) (k l : Fin 64) :
    (iblk4 V c 5 t : S64x64.Idx → EReal) (ix2 k l) = (V c main_v141 : S64x64.Idx → EReal) (ix2 k l) := by
  obtain ⟨-, -, -, -, -, -, e30, e31, e40, e41, e50, e51, -, -, -, -⟩ := idx_facts4 t
  show (V c main_v141 : S64x64.Idx → EReal) (((cfg4.win 5).blk t).view.emb (ix2 k l)) = _
  refine congrArg (V c main_v141 : S64x64.Idx → EReal) (funext fun a => Fin.ext ?_)
  match a with
  | ⟨0, _⟩ => show win4_5.index t (0 : Fin 2) * 64 + 1 * k.val = k.val; rw [e50]; omega
  | ⟨1, _⟩ => show win4_5.index t (1 : Fin 2) * 64 + 1 * l.val = l.val; rw [e51]; omega

/-- The bias block at any point is the bias row. -/
theorem read4_6 (c : Dev nD) (t : Fin cfg4.N) (l : Fin 64) :
    (iblk4 V c 6 t : S1x64.Idx → EReal) (ix2 (0 : Fin 1) l) = (V c main_v142 : S1x64.Idx → EReal) (ix2 (0 : Fin 1) l) := by
  obtain ⟨-, -, -, -, -, -, -, -, -, -, -, -, e0, e1, -, -⟩ := idx_facts4 t
  show (V c main_v142 : S1x64.Idx → EReal) (((cfg4.win 6).blk t).view.emb (ix2 (0 : Fin 1) l)) = _
  refine congrArg (V c main_v142 : S1x64.Idx → EReal) (funext fun a => Fin.ext ?_)
  match a with
  | ⟨0, _⟩ => show win4_6.index t (0 : Fin 2) * 1 + 1 * 0 = 0; rw [e0]
  | ⟨1, _⟩ => show win4_6.index t (1 : Fin 2) * 64 + 1 * l.val = l.val; rw [e1]; omega

/-- What point t writes back is block t of the array function of the arrays as the region finds them. -/
theorem flushed4_eq (c : Dev nD) (t : Fin cfg4.N) :
    (dat4 (F := Ideal) V c).flushed 7 t = ((cfg4.win 7).blk t).view.read (Elt Ideal)
      (G4 (V c main_v136) (V c main_v137) (V c main_v138) (V c main_v139) (V c main_v140) (V c main_v141) (V c main_v142)) := by
  show (cfg4.win 7).cut (grid4.coords t) ((dat4 (F := Ideal) V c).after 7 t) = _
  rw [after4_7]
  unfold out4_7
  rw [View.canon_unit_zero hz4]
  simp only [View.ld_unit_zero (S := S8192x64) hz4, View.ld_unit_zero (S := S64x64) hz4, View.ld_unit_zero (S := S1x64) hz4]
  obtain ⟨-, -, -, -, -, -, -, -, -, -, -, -, -, -, e70, e71⟩ := idx_facts4 t
  funext j
  obtain ⟨p, q, rfl⟩ : ∃ (p : Fin 8192) (q : Fin 64), j = ix2 p q := ⟨j 0, j 1, eq_ix2 j⟩
  show (k4_pay1 (iblk4 V c 0 t) (iblk4 V c 1 t) (iblk4 V c 2 t) (iblk4 V c 3 t) (iblk4 V c 4 t) (iblk4 V c 5 t) (iblk4 V c 6 t) : S8192x64.Idx → EReal) (ix2 p q)
    = G4 (V c main_v136) (V c main_v137) (V c main_v138) (V c main_v139) (V c main_v140) (V c main_v141) (V c main_v142) (((cfg4.win 7).blk t).view.emb (ix2 p q))
  refine point4 (V c main_v136) (V c main_v137) (V c main_v138) (V c main_v139) (V c main_v140) (V c main_v141) (V c main_v142)
    (iblk4 V c 0 t) (iblk4 V c 1 t) (iblk4 V c 2 t) (iblk4 V c 3 t) (iblk4 V c 4 t) (iblk4 V c 5 t) (iblk4 V c 6 t) p q
    ⟨t.val * 8192 + p.val, row_lt4 t p⟩ (((cfg4.win 7).blk t).view.emb (ix2 p q)) ?_ ?_
    (read4_0 V c t p) (read4_1 V c t p) (read4_2 V c t p) (read4_3 V c t) (read4_4 V c t) (read4_5 V c t) (read4_6 V c t)
  · show win4_7.index t (0 : Fin 2) * 8192 + 1 * p.val = t.val * 8192 + p.val
    rw [e70]; omega
  · show win4_7.index t (1 : Fin 2) * 64 + 1 * q.val = q.val
    rw [e71]; omega

/-- An index of the padded output is in point t's block iff each coordinate is in the block's range on its axis. -/
theorem mem_blk4 (t : Fin cfg4.N) (i : S1007616x64.Idx) :
    i ∈ ((cfg4.win 7).blk t).view.set ↔ ∀ a : Fin 2, win4_7.index t a * S8192x64.size a ≤ (i a).val ∧ (i a).val < win4_7.index t a * S8192x64.size a + S8192x64.size a := by
  show i ∈ ((View.whole main_v143).slice (win4_7.rect t)).set ↔ _
  rw [View.set_slice_whole, Rect.mem_set_unit]
  exact Iff.rfl

/-- The 123 row blocks cover the padded output: row r is in block r / 8192. -/
theorem cover4 (i : S1007616x64.Idx) :
    ∃ t : Fin cfg4.N, (cfg4.win 7).flush t = true ∧ i ∈ ((cfg4.win 7).blk t).view.set := by
  have hN : cfg4.N = 123 := N_4
  have hi0 : (i 0).val < 1007616 := (i 0).isLt
  have hi1 : (i 1).val < 64 := (i 1).isLt
  have ht : (i 0).val / 8192 < cfg4.N := by rw [hN]; omega
  obtain ⟨-, -, -, -, -, -, -, -, -, -, -, -, -, -, e70, e71⟩ := idx_facts4 ⟨(i 0).val / 8192, ht⟩
  refine ⟨⟨(i 0).val / 8192, ht⟩, flush4_7 _, ?_⟩
  rw [mem_blk4]
  intro a
  match a with
  | ⟨0, _⟩ =>
    show win4_7.index ⟨(i 0).val / 8192, ht⟩ (0 : Fin 2) * 8192 ≤ (i 0).val ∧ (i 0).val < win4_7.index ⟨(i 0).val / 8192, ht⟩ (0 : Fin 2) * 8192 + 8192
    rw [e70]
    show (i 0).val / 8192 * 8192 ≤ (i 0).val ∧ (i 0).val < (i 0).val / 8192 * 8192 + 8192
    omega
  | ⟨1, _⟩ =>
    show win4_7.index ⟨(i 0).val / 8192, ht⟩ (1 : Fin 2) * 64 ≤ (i 1).val ∧ (i 1).val < win4_7.index ⟨(i 0).val / 8192, ht⟩ (1 : Fin 2) * 64 + 64
    rw [e71]
    omega

/-- After the region the padded output is the array function of the arrays the region found. -/
theorem final4 (c : Dev nD) :
    (dat4 (F := Ideal) V c).arrAt 7 cfg4.N
      = G4 (V c main_v136) (V c main_v137) (V c main_v138) (V c main_v139) (V c main_v140) (V c main_v141) (V c main_v142) :=
  (dat4 (F := Ideal) V c).arrAt_eq_of_cover 7
    (G4 (V c main_v136) (V c main_v137) (V c main_v138) (V c main_v139) (V c main_v140) (V c main_v141) (V c main_v142))
    (fun t _ => flushed4_eq V c t) cover4

/-! ## The region's value on the layer's rows -/

/-- The array function at a place (r, q), in coordinates. -/
theorem G4_apply (a0 a1 a2 : S1007616x64.Idx → EReal) (w0 w1 w2 : S64x64.Idx → EReal) (bb : S1x64.Idx → EReal)
    (r : Fin 1007616) (q : Fin 64) :
    G4 a0 a1 a2 w0 w1 w2 bb (ix2 r q)
      = max ((∑ k : Fin 64, a0 (ix2 r k) * w0 (ix2 k q)) + (∑ k : Fin 64, a1 (ix2 r k) * w1 (ix2 k q))
          + (∑ k : Fin 64, a2 (ix2 r k) * w2 (ix2 k q)) + bb (ix2 (0 : Fin 1) q)) 0 := rfl

/-- On the first 1,000,000 rows, where the padded arrays are the layer's arrays, the three slices are rows 0 … 63,
    64 … 127 and 128 … 191 of the layer's weight and the bias row is the layer's bias, the output after the region is
    the layer's edge message. Rows from 1,000,000 on are never looked at. -/
theorem value4 (c : Dev nD)
    (xs xd e : Cert.Spec.Arr (Cert.Spec.sh2 1000000 64)) (W : Cert.Spec.Arr (Cert.Spec.sh2 192 64)) (b : Cert.Spec.Arr (Cert.Spec.sh1 64))
    (hxs : ∀ (r : Fin 1000000) (k : Fin 64), (V c main_v136 : S1007616x64.Idx → EReal) (ix2 (⟨r.val, by omega⟩ : Fin 1007616) k) = xs (ix2 r k))
    (hxd : ∀ (r : Fin 1000000) (k : Fin 64), (V c main_v137 : S1007616x64.Idx → EReal) (ix2 (⟨r.val, by omega⟩ : Fin 1007616) k) = xd (ix2 r k))
    (he : ∀ (r : Fin 1000000) (k : Fin 64), (V c main_v138 : S1007616x64.Idx → EReal) (ix2 (⟨r.val, by omega⟩ : Fin 1007616) k) = e (ix2 r k))
    (hw0 : ∀ k j : Fin 64, (V c main_v139 : S64x64.Idx → EReal) (ix2 k j) = W (ix2 (⟨k.val, by omega⟩ : Fin 192) j))
    (hw1 : ∀ k j : Fin 64, (V c main_v140 : S64x64.Idx → EReal) (ix2 k j) = W (ix2 (⟨64 + k.val, by omega⟩ : Fin 192) j))
    (hw2 : ∀ k j : Fin 64, (V c main_v141 : S64x64.Idx → EReal) (ix2 k j) = W (ix2 (⟨128 + k.val, by omega⟩ : Fin 192) j))
    (hb : ∀ j : Fin 64, (V c main_v142 : S1x64.Idx → EReal) (ix2 (0 : Fin 1) j) = b (ix1 j)) :
    ∀ (r : Fin 1000000) (j : Fin 64),
      ((dat4 (F := Ideal) V c).arrAt 7 cfg4.N : S1007616x64.Idx → EReal) (ix2 (⟨r.val, by omega⟩ : Fin 1007616) j)
        = Cert.Spec.msg xs xd e W b (ix2 r j) := by
  intro r j
  rw [final4, G4_apply]
  show _ = max (Cert.Spec.rowDot 0 (by omega) xs W r j + Cert.Spec.rowDot 64 (by omega) xd W r j
    + Cert.Spec.rowDot 128 (by omega) e W r j + b (ix1 j)) 0
  unfold Cert.Spec.rowDot
  simp only [hxs, hxd, he, hw0, hw1, hw2, hb, Nat.zero_add]

end Cert.KernelIdeal.EdgeMsg

end
-- ==== Proof.KL4.lean ====
/-
  Layer 2's edge message: the fifth region's operands are rows of the node features after layer 1 gathered at the edges'
  ends and layer 1's edge message, padded; the blocks of layer 2's edge weight; its bias.
-/
import proofs.«118118_j10582799417469_1_alg».proof.Proof.KRun
import proofs.«118118_j10582799417469_1_alg».proof.Proof.KEval
import proofs.«118118_j10582799417469_1_alg».proof.Proof.ReadP
import proofs.«118118_j10582799417469_1_alg».proof.Proof.Rows
import proofs.«118118_j10582799417469_1_alg».proof.Proof.Spec
import proofs.«118118_j10582799417469_1_alg».proof.Proof.EdgeMsg4
import proofs.«118118_j10582799417469_1_alg».proof.Proof.RefMsg
import proofs.«118118_j10582799417469_1_alg».proof.Proof.KL0
import proofs.«118118_j10582799417469_1_alg».proof.Proof.KL1
import proofs.«118118_j10582799417469_1_alg».proof.Proof.KL2
import proofs.«118118_j10582799417469_1_alg».proof.Proof.KL3
import Idealize.ShloMosaic.PureOps.Ideal
import Idealize.ShloMosaic.Lib.ValueLayout

set_option maxRecDepth 16384

noncomputable section

namespace Cert.KernelIdeal.KL4

open Cert.KernelIdeal Cert.KernelIdeal.Gen Cert.KernelIdeal.KEval
open Idealize.ShloMosaic Idealize.ShloMosaic.TcCoe Idealize.ShloMosaic.Tactic Idealize.SL.Sem Idealize.ShloMosaic.ValueIdx
open Cert.ReferenceIdeal.ReadP

variable (m : (ℓ : Loc nD τ sig) → Buf (Elt Ideal) ℓ) (ρ : Dev nD → PrngReg)
open Cert.KernelIdeal.KL0 Cert.KernelIdeal.KL1 Cert.KernelIdeal.KL2 Cert.KernelIdeal.KL3

theorem s124_37 (c : Dev nD) : W37 m ρ c (Proc.devRef .tc main_v124) = val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c]) <;> rfl

theorem strip136 (X : (⟨S1000000x64, .f32⟩ : BufTy).Contents (Elt Ideal)) (V : (⟨S_, .f32⟩ : BufTy).Contents (Elt Ideal)) (p h1 h2 p' h1' h2') :
    (StableHlo.TRef.of (T := ⟨S1007616x64, .f32⟩) main_v136 p h1 h2).toBuf (pad S1007616x64 ![0, 0] ![7616, 0] ![0, 0] ((StableHlo.TRef.of (T := ⟨S1000000x64, .f32⟩) main_v124 p' h1' h2').ofBuf X) V pads_S1000000x64_S1007616x64_076160_000 h_S_)
      = pad S1007616x64 ![0, 0] ![7616, 0] ![0, 0] X V pads_S1000000x64_S1007616x64_076160_000 h_S_ := rfl

theorem e136 (c : Dev nD) : ∃ v : (⟨S_, .f32⟩ : BufTy).Contents (Elt Ideal), W37 m ρ c (Proc.devRef .tc main_v136) = pad S1007616x64 ![0, 0] ![7616, 0] ![0, 0] (val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S1000000x64_S1007616x64_076160_000 h_S_ := by
  refine ⟨?v, ?h⟩
  case h =>
    rw [← s124_37 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c]
    exact strip136 _ _ _ _ _ _ _ _

theorem s131_37 (c : Dev nD) : W37 m ρ c (Proc.devRef .tc main_v131) = val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c]) <;> rfl

theorem strip137 (X : (⟨S1000000x64, .f32⟩ : BufTy).Contents (Elt Ideal)) (V : (⟨S_, .f32⟩ : BufTy).Contents (Elt Ideal)) (p h1 h2 p' h1' h2') :
    (StableHlo.TRef.of (T := ⟨S1007616x64, .f32⟩) main_v137 p h1 h2).toBuf (pad S1007616x64 ![0, 0] ![7616, 0] ![0, 0] ((StableHlo.TRef.of (T := ⟨S1000000x64, .f32⟩) main_v131 p' h1' h2').ofBuf X) V pads_S1000000x64_S1007616x64_076160_000 h_S_)
      = pad S1007616x64 ![0, 0] ![7616, 0] ![0, 0] X V pads_S1000000x64_S1007616x64_076160_000 h_S_ := rfl

theorem e137 (c : Dev nD) : ∃ v : (⟨S_, .f32⟩ : BufTy).Contents (Elt Ideal), W37 m ρ c (Proc.devRef .tc main_v137) = pad S1007616x64 ![0, 0] ![7616, 0] ![0, 0] (val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S1000000x64_S1007616x64_076160_000 h_S_ := by
  refine ⟨?v, ?h⟩
  case h =>
    rw [← s131_37 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c]
    exact strip137 _ _ _ _ _ _ _ _

theorem s103_37 (c : Dev nD) : W37 m ρ c (Proc.devRef .tc main_v103) = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c]) <;> rfl

theorem strip138 (X : (⟨S1000000x64, .f32⟩ : BufTy).Contents (Elt Ideal)) (V : (⟨S_, .f32⟩ : BufTy).Contents (Elt Ideal)) (p h1 h2 p' h1' h2') :
    (StableHlo.TRef.of (T := ⟨S1007616x64, .f32⟩) main_v138 p h1 h2).toBuf (pad S1007616x64 ![0, 0] ![7616, 0] ![0, 0] ((StableHlo.TRef.of (T := ⟨S1000000x64, .f32⟩) main_v103 p' h1' h2').ofBuf X) V pads_S1000000x64_S1007616x64_076160_000 h_S_)
      = pad S1007616x64 ![0, 0] ![7616, 0] ![0, 0] X V pads_S1000000x64_S1007616x64_076160_000 h_S_ := rfl

theorem e138 (c : Dev nD) : ∃ v : (⟨S_, .f32⟩ : BufTy).Contents (Elt Ideal), W37 m ρ c (Proc.devRef .tc main_v138) = pad S1007616x64 ![0, 0] ![7616, 0] ![0, 0] (val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S1000000x64_S1007616x64_076160_000 h_S_ := by
  refine ⟨?v, ?h⟩
  case h =>
    rw [← s103_37 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c]
    exact strip138 _ _ _ _ _ _ _ _

theorem e139 (c : Dev nD) : W37 m ρ c (Proc.devRef .tc main_v139) = extractStridedSlice S64x64 ![0, 0] (val_main_v126 (F := Ideal) (m ((c.tc : Thread nD τ).loc main_arg7))) slices_S192x64_S64x64_0_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c]) <;> rfl

theorem e140 (c : Dev nD) : W37 m ρ c (Proc.devRef .tc main_v140) = extractStridedSlice S64x64 ![64, 0] (val_main_v126 (F := Ideal) (m ((c.tc : Thread nD τ).loc main_arg7))) slices_S192x64_S64x64_64_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c]) <;> rfl

theorem e141 (c : Dev nD) : W37 m ρ c (Proc.devRef .tc main_v141) = extractStridedSlice S64x64 ![128, 0] (val_main_v126 (F := Ideal) (m ((c.tc : Thread nD τ).loc main_arg7))) slices_S192x64_S64x64_128_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c]) <;> rfl

theorem e142 (c : Dev nD) : W37 m ρ c (Proc.devRef .tc main_v142) = shapeCast S1x64 (val_main_v129 (F := Ideal) (m ((c.tc : Thread nD τ).loc main_arg8))) shapeCasts_S64_S1x64 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c]) <;> rfl

/-- The fifth region's result, its padding rows cut off, is the reference's edge message of layer 2. -/
theorem M2 (c : Dev nD) :
    extractStridedSlice S1000000x64 ![0, 0] (W38 m ρ c (Proc.devRef .tc main_v143)) slices_S1007616x64_S1000000x64_0_0
      = val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.ReferenceIdeal.RefSpec.msg2]
  obtain ⟨v136, h136⟩ := e136 m ρ c
  obtain ⟨v137, h137⟩ := e137 m ρ c
  obtain ⟨v138, h138⟩ := e138 m ρ c
  funext i
  obtain ⟨r, j, rfl⟩ : ∃ (r : Fin 1000000) (j : Fin 64), i = ix2 r j := ⟨i 0, i 1, eq_ix2 i⟩
  refine (Cert.Rows.slice_rows (P := 1007616) _ _ r j (by omega)).trans ?_
  rw [show W38 m ρ c (Proc.devRef .tc main_v143) = (dat4 (V37 m ρ) c).arrAt 7 cfg4.N from W38_arr m ρ c 7]
  exact Cert.KernelIdeal.EdgeMsg.value4 (V37 m ρ) c _ _ _ _ _
    (fun r k => by
      show W37 m ρ c (Proc.devRef .tc main_v136) _ = _
      rw [h136]
      exact Cert.Rows.pad_rows _ _ _ _ r k _)
    (fun r k => by
      show W37 m ρ c (Proc.devRef .tc main_v137) _ = _
      rw [h137]
      exact Cert.Rows.pad_rows _ _ _ _ r k _)
    (fun r k => by
      show W37 m ρ c (Proc.devRef .tc main_v138) _ = _
      rw [h138]
      exact Cert.Rows.pad_rows _ _ _ _ r k _)
    (fun k j => by
      show W37 m ρ c (Proc.devRef .tc main_v139) _ = _
      rw [e139 m ρ c]
      exact slice2_axis0_apply 0 _ _ k j _ (by show k.val = 0 + k.val; omega))
    (fun k j => by
      show W37 m ρ c (Proc.devRef .tc main_v140) _ = _
      rw [e140 m ρ c]
      exact slice2_axis0_apply 64 _ _ k j _ (by show 64 + k.val = 64 + k.val; rfl))
    (fun k j => by
      show W37 m ρ c (Proc.devRef .tc main_v141) _ = _
      rw [e141 m ρ c]
      exact slice2_axis0_apply 128 _ _ k j _ (by show 128 + k.val = 128 + k.val; rfl))
    (fun j => by
      show W37 m ρ c (Proc.devRef .tc main_v142) _ = _
      rw [e142 m ρ c]
      exact shapeCast_a_1a_apply _ _ 0 j)
    r j

end Cert.KernelIdeal.KL4

end
-- ==== Proof.NodeUpd5.lean ====
/-
  A node-update region read as a function of whole arrays on the extended reals.
  Grid point t takes rows 8192·t … 8192·t + 8191 of the padded node array and of the padded aggregate, the two 64 × 64
  weight slices and the bias row, and writes the same rows of the padded output: entry (p, q) of the written block is
    max (Σ_k x[p,k]·W0[k,q] + Σ_k agg[p,k]·W1[k,q] + b[q]) 0,
  each product of blocks into a zero accumulator being a plain sum over the contracted axis and the changes of float
  format the identity. The 13 row blocks tile the padded output, so after the region the output array is that formula
  at every row; on the first 100,000 rows, where the padded arrays are the layer's arrays, it is the layer's node update.
-/
import proofs.«118118_j10582799417469_1_alg».proof.Proof.Gen.KernelIdeal.Frame
import proofs.«118118_j10582799417469_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.NodeUpd

open Cert.KernelIdeal Cert.KernelIdeal.Gen Idealize.ShloMosaic Idealize.ShloMosaic.TcCoe Idealize.ShloMosaic.ValueIdx Idealize.SL.Sem
open Idealize.ShloMosaic.Pipeline (Dat)

/-! ## The stored value at an entry of the block -/

theorem mm5_lhs0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl

theorem mm5_lhs1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q

theorem mm5_rhs0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q

theorem mm5_rhs1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- A product of blocks into a zero accumulator, read at row p, column q: row p of the left block against column q of
    the right one. -/
theorem mm5_apply (l : FVec Ideal S8192x64 .bf16) (r : FVec Ideal S64x64 .bf16) (p : Fin 8192) (q : Fin 64) :
    matmul dot_S8192x64_S64x64_S8192x64_1_0_0_1_n_n none l r (constant S8192x64 .f32 0x00000000#32) (ix2 p q)
      = ∑ k : Fin 64, l (ix2 p k) * r (ix2 k q) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k := funext fun a => Fin.ext (by
    match a with
    | ⟨0, _⟩ => exact mm5_lhs0 _ _
    | ⟨1, _⟩ => exact (mm5_lhs1 _ _).trans hk)
  have er : dot_S8192x64_S64x64_S8192x64_1_0_0_1_n_n.rhsIdx (ix2 p q) ((contrEquiv1 dot_S8192x64_S64x64_S8192x64_1_0_0_1_n_n 64 rfl rfl).symm k) = ix2 k q := funext fun a => Fin.ext (by
    match a with
    | ⟨0, _⟩ => exact (mm5_rhs0 _ _).trans hk
    | ⟨1, _⟩ => exact mm5_rhs1 _ _)
  rw [el, er]

/-- The bias row laid along every row of the block. -/
theorem bias5_apply (x4 : Vec Ideal S1x64 .f32) (p : Fin 8192) (q : Fin 64) :
    broadcastTo S8192x64 (shapeCast S1x64 x4 shapeCasts_S1x64_S1x64) broadcasts_S1x64_S8192x64 (ix2 p q) = x4 (ix2 (0 : Fin 1) q) := by
  rw [shapeCast_self]
  refine broadcastTo_apply x4 broadcasts_S1x64_S8192x64 (ix2 p q) (ix2 (0 : Fin 1) q) (fun a => ?_)
  match a with
  | ⟨0, _⟩ => rfl
  | ⟨1, _⟩ => rfl

/-- The body's stored value at row p, column q of the block: the two products of a row with a column added, plus the
    bias entry, cut below at zero (the zero word is the real number zero). -/
theorem pay5_apply (x0 x1 : Vec Ideal S8192x64 .f32) (x2 x3 : Vec Ideal S64x64 .f32) (x4 : Vec Ideal S1x64 .f32)
    (p : Fin 8192) (q : Fin 64) :
    (k5_pay1 x0 x1 x2 x3 x4 : S8192x64.Idx → EReal) (ix2 p q)
      = max ((∑ k : Fin 64, x0 (ix2 p k) * x2 (ix2 k q)) + (∑ k : Fin 64, x1 (ix2 p k) * x3 (ix2 k q))
          + x4 (ix2 (0 : Fin 1) q)) 0 := by
  unfold k5_pay1
  rw [maximumf_apply, addf_apply, addf_apply, mm5_apply, mm5_apply, bias5_apply, broadcast_apply]
  simp only [truncf_apply, shapeCast_self]
  exact congrArg (max _) Ideal.ofBits_zero_f32

/-! ## From blocks to the array -/

theorem hz5 : (![0, 0] : Fin 2 → Nat) = fun _ => 0 := funext fun a => by fin_cases a <;> rfl

/-- The padded output as one function of the two padded inputs, the two weight slices and the bias row: at row i 0,
    column i 1, the two row-by-column products added, plus the bias entry, cut below at zero. -/
def G5 (a0 a1 : S106496x64.Idx → EReal) (w0 w1 : S64x64.Idx → EReal) (bb : S1x64.Idx → EReal) :
    S106496x64.Idx → EReal := fun i =>
  max ((∑ k : Fin 64, a0 (ix2 (⟨(i 0).val, (i 0).isLt⟩ : Fin 106496) k) * w0 (ix2 k (⟨(i 1).val, (i 1).isLt⟩ : Fin 64)))
      + (∑ k : Fin 64, a1 (ix2 (⟨(i 0).val, (i 0).isLt⟩ : Fin 106496) k) * w1 (ix2 k (⟨(i 1).val, (i 1).isLt⟩ : Fin 64)))
      + bb (ix2 (0 : Fin 1) (⟨(i 1).val, (i 1).isLt⟩ : Fin 64))) 0

/-- One entry of a written block is the array function at the entry's place (r, q) in the array, when the loaded blocks
    are the arrays' rows and the weights' and bias's entries at that place. -/
theorem point5 (a0 a1 : S106496x64.Idx → EReal) (w0 w1 : S64x64.Idx → EReal) (bb : S1x64.Idx → EReal)
    (x0 x1 : Vec Ideal S8192x64 .f32) (x2 x3 : Vec Ideal S64x64 .f32) (x4 : Vec Ideal S1x64 .f32)
    (p : Fin 8192) (q : Fin 64) (r : Fin 106496) (i : S106496x64.Idx) (hr : (i 0).val = r.val) (hq : (i 1).val = q.val)
    (h0 : ∀ k : Fin 64, x0 (ix2 p k) = a0 (ix2 r k)) (h1 : ∀ k : Fin 64, x1 (ix2 p k) = a1 (ix2 r k))
    (h2 : ∀ k l : Fin 64, x2 (ix2 k l) = w0 (ix2 k l)) (h3 : ∀ k l : Fin 64, x3 (ix2 k l) = w1 (ix2 k l))
    (h4 : ∀ l : Fin 64, x4 (ix2 (0 : Fin 1) l) = bb (ix2 (0 : Fin 1) l)) :
    (k5_pay1 x0 x1 x2 x3 x4 : S8192x64.Idx → EReal) (ix2 p q) = G5 a0 a1 w0 w1 bb i := by
  have er : (⟨(i 0).val, (i 0).isLt⟩ : Fin 106496) = r := Fin.ext hr
  have eq : (⟨(i 1).val, (i 1).isLt⟩ : Fin 64) = q := Fin.ext hq
  rw [pay5_apply]
  unfold G5
  rw [er, eq]
  simp only [h0, h1, h2, h3, h4]

/-- The printed index maps over the grid: the two row-blocked inputs move with the output, whose block index is the
    point's number; the weight slices and the bias stay at block (0, 0). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row p of block t is row 8192·t + p of the padded array. -/
theorem row_lt5 (t : Fin cfg5.N) (p : Fin 8192) : t.val * 8192 + p.val < 106496 := by
  have h : t.val < 13 := Nat.lt_of_lt_of_eq t.isLt (show cfg5.N = 13 from N_5)
  omega

variable (V : (c : Dev nD) → (b : Ref sig .tc) → Buf (Elt Ideal) ((c : Thread nD τ).loc b))

/-- Entry (p, k) of window 0's block at point t is entry (8192·t + p, k) of its array. -/
theorem read5_0 (c : Dev nD) (t : Fin cfg5.N) (p : Fin 8192) (k : Fin 64) :
    (iblk5 V c 0 t : S8192x64.Idx → EReal) (ix2 p k)
      = (V c main_v152 : S106496x64.Idx → EReal) (ix2 (⟨t.val * 8192 + p.val, row_lt5 t p⟩ : Fin 106496) k) := by
  obtain ⟨e00, e01, e10, e11, -, -, -, -, -, -, -, -⟩ := idx_facts5 t
  show (V c main_v152 : S106496x64.Idx → EReal) (((cfg5.win 0).blk t).view.emb (ix2 p k)) = _
  refine congrArg (V c main_v152 : S106496x64.Idx → EReal) (funext fun a => Fin.ext ?_)
  match a with
  | ⟨0, _⟩ => show win5_0.index t (0 : Fin 2) * 8192 + 1 * p.val = t.val * 8192 + p.val; rw [e00]; omega
  | ⟨1, _⟩ => show win5_0.index t (1 : Fin 2) * 64 + 1 * k.val = k.val; rw [e01]; omega

/-- Entry (p, k) of window 1's block at point t is entry (8192·t + p, k) of its array. -/
theorem read5_1 (c : Dev nD) (t : Fin cfg5.N) (p : Fin 8192) (k : Fin 64) :
    (iblk5 V c 1 t : S8192x64.Idx → EReal) (ix2 p k)
      = (V c main_v153 : S106496x64.Idx → EReal) (ix2 (⟨t.val * 8192 + p.val, row_lt5 t p⟩ : Fin 106496) k) := by
  obtain ⟨e00, e01, e10, e11, -, -, -, -, -, -, -, -⟩ := idx_facts5 t
  show (V c main_v153 : S106496x64.Idx → EReal) (((cfg5.win 1).blk t).view.emb (ix2 p k)) = _
  refine congrArg (V c main_v153 : S106496x64.Idx → EReal) (funext fun a => Fin.ext ?_)
  match a with
  | ⟨0, _⟩ => show win5_1.index t (0 : Fin 2) * 8192 + 1 * p.val = t.val * 8192 + p.val; rw [e10]; omega
  | ⟨1, _⟩ => show win5_1.index t (1 : Fin 2) * 64 + 1 * k.val = k.val; rw [e11]; omega

/-- Window 2's block at any point is its whole 64 × 64 array. -/
theorem read5_2 (c : Dev nD) (t : Fin cfg5.N) (k l : Fin 64) :
    (iblk5 V c 2 t : S64x64.Idx → EReal) (ix2 k l) = (V c main_v154 : S64x64.Idx → EReal) (ix2 k l) := by
  obtain ⟨-, -, -, -, e20, e21, e30, e31, -, -, -, -⟩ := idx_facts5 t
  show (V c main_v154 : S64x64.Idx → EReal) (((cfg5.win 2).blk t).view.emb (ix2 k l)) = _
  refine congrArg (V c main_v154 : S64x64.Idx → EReal) (funext fun a => Fin.ext ?_)
  match a with
  | ⟨0, _⟩ => show win5_2.index t (0 : Fin 2) * 64 + 1 * k.val = k.val; rw [e20]; omega
  | ⟨1, _⟩ => show win5_2.index t (1 : Fin 2) * 64 + 1 * l.val = l.val; rw [e21]; omega

/-- Window 3's block at any point is its whole 64 × 64 array. -/
theorem read5_3 (c : Dev nD) (t : Fin cfg5.N) (k l : Fin 64) :
    (iblk5 V c 3 t : S64x64.Idx → EReal) (ix2 k l) = (V c main_v155 : S64x64.Idx → EReal) (ix2 k l) := by
  obtain ⟨-, -, -, -, e20, e21, e30, e31, -, -, -, -⟩ := idx_facts5 t
  show (V c main_v155 : S64x64.Idx → EReal) (((cfg5.win 3).blk t).view.emb (ix2 k l)) = _
  refine congrArg (V c main_v155 : S64x64.Idx → EReal) (funext fun a => Fin.ext ?_)
  match a with
  | ⟨0, _⟩ => show win5_3.index t (0 : Fin 2) * 64 + 1 * k.val = k.val; rw [e30]; omega
  | ⟨1, _⟩ => show win5_3.index t (1 : Fin 2) * 64 + 1 * l.val = l.val; rw [e31]; omega

/-- The bias block at any point is the bias row. -/
theorem read5_4 (c : Dev nD) (t : Fin cfg5.N) (l : Fin 64) :
    (iblk5 V c 4 t : S1x64.Idx → EReal) (ix2 (0 : Fin 1) l) = (V c main_v156 : S1x64.Idx → EReal) (ix2 (0 : Fin 1) l) := by
  obtain ⟨-, -, -, -, -, -, -, -, e0, e1, -, -⟩ := idx_facts5 t
  show (V c main_v156 : S1x64.Idx → EReal) (((cfg5.win 4).blk t).view.emb (ix2 (0 : Fin 1) l)) = _
  refine congrArg (V c main_v156 : S1x64.Idx → EReal) (funext fun a => Fin.ext ?_)
  match a with
  | ⟨0, _⟩ => show win5_4.index t (0 : Fin 2) * 1 + 1 * 0 = 0; rw [e0]
  | ⟨1, _⟩ => show win5_4.index t (1 : Fin 2) * 64 + 1 * l.val = l.val; rw [e1]; omega

/-- What point t writes back is block t of the array function of the arrays as the region finds them. -/
theorem flushed5_eq (c : Dev nD) (t : Fin cfg5.N) :
    (dat5 (F := Ideal) V c).flushed 5 t = ((cfg5.win 5).blk t).view.read (Elt Ideal)
      (G5 (V c main_v152) (V c main_v153) (V c main_v154) (V c main_v155) (V c main_v156)) := by
  show (cfg5.win 5).cut (grid5.coords t) ((dat5 (F := Ideal) V c).after 5 t) = _
  rw [after5_5]
  unfold out5_5
  rw [View.canon_unit_zero hz5]
  simp only [View.ld_unit_zero (S := S8192x64) hz5, View.ld_unit_zero (S := S64x64) hz5, View.ld_unit_zero (S := S1x64) hz5]
  obtain ⟨-, -, -, -, -, -, -, -, -, -, e50, e51⟩ := idx_facts5 t
  funext j
  obtain ⟨p, q, rfl⟩ : ∃ (p : Fin 8192) (q : Fin 64), j = ix2 p q := ⟨j 0, j 1, eq_ix2 j⟩
  show (k5_pay1 (iblk5 V c 0 t) (iblk5 V c 1 t) (iblk5 V c 2 t) (iblk5 V c 3 t) (iblk5 V c 4 t) : S8192x64.Idx → EReal) (ix2 p q)
    = G5 (V c main_v152) (V c main_v153) (V c main_v154) (V c main_v155) (V c main_v156) (((cfg5.win 5).blk t).view.emb (ix2 p q))
  refine point5 (V c main_v152) (V c main_v153) (V c main_v154) (V c main_v155) (V c main_v156)
    (iblk5 V c 0 t) (iblk5 V c 1 t) (iblk5 V c 2 t) (iblk5 V c 3 t) (iblk5 V c 4 t) p q
    ⟨t.val * 8192 + p.val, row_lt5 t p⟩ (((cfg5.win 5).blk t).view.emb (ix2 p q)) ?_ ?_
    (read5_0 V c t p) (read5_1 V c t p) (read5_2 V c t) (read5_3 V c t) (read5_4 V c t)
  · show win5_5.index t (0 : Fin 2) * 8192 + 1 * p.val = t.val * 8192 + p.val
    rw [e50]; omega
  · show win5_5.index t (1 : Fin 2) * 64 + 1 * q.val = q.val
    rw [e51]; omega

/-- An index of the padded output is in point t's block iff each coordinate is in the block's range on its axis. -/
theorem mem_blk5 (t : Fin cfg5.N) (i : S106496x64.Idx) :
    i ∈ ((cfg5.win 5).blk t).view.set ↔ ∀ a : Fin 2, win5_5.index t a * S8192x64.size a ≤ (i a).val ∧ (i a).val < win5_5.index t a * S8192x64.size a + S8192x64.size a := by
  show i ∈ ((View.whole main_v157).slice (win5_5.rect t)).set ↔ _
  rw [View.set_slice_whole, Rect.mem_set_unit]
  exact Iff.rfl

/-- The 13 row blocks cover the padded output: row r is in block r / 8192. -/
theorem cover5 (i : S106496x64.Idx) :
    ∃ t : Fin cfg5.N, (cfg5.win 5).flush t = true ∧ i ∈ ((cfg5.win 5).blk t).view.set := by
  have hN : cfg5.N = 13 := N_5
  have hi0 : (i 0).val < 106496 := (i 0).isLt
  have hi1 : (i 1).val < 64 := (i 1).isLt
  have ht : (i 0).val / 8192 < cfg5.N := by rw [hN]; omega
  obtain ⟨-, -, -, -, -, -, -, -, -, -, e50, e51⟩ := idx_facts5 ⟨(i 0).val / 8192, ht⟩
  refine ⟨⟨(i 0).val / 8192, ht⟩, flush5_5 _, ?_⟩
  rw [mem_blk5]
  intro a
  match a with
  | ⟨0, _⟩ =>
    show win5_5.index ⟨(i 0).val / 8192, ht⟩ (0 : Fin 2) * 8192 ≤ (i 0).val ∧ (i 0).val < win5_5.index ⟨(i 0).val / 8192, ht⟩ (0 : Fin 2) * 8192 + 8192
    rw [e50]
    show (i 0).val / 8192 * 8192 ≤ (i 0).val ∧ (i 0).val < (i 0).val / 8192 * 8192 + 8192
    omega
  | ⟨1, _⟩ =>
    show win5_5.index ⟨(i 0).val / 8192, ht⟩ (1 : Fin 2) * 64 ≤ (i 1).val ∧ (i 1).val < win5_5.index ⟨(i 0).val / 8192, ht⟩ (1 : Fin 2) * 64 + 64
    rw [e51]
    omega

/-- After the region the padded output is the array function of the arrays the region found. -/
theorem final5 (c : Dev nD) :
    (dat5 (F := Ideal) V c).arrAt 5 cfg5.N
      = G5 (V c main_v152) (V c main_v153) (V c main_v154) (V c main_v155) (V c main_v156) :=
  (dat5 (F := Ideal) V c).arrAt_eq_of_cover 5
    (G5 (V c main_v152) (V c main_v153) (V c main_v154) (V c main_v155) (V c main_v156))
    (fun t _ => flushed5_eq V c t) cover5

/-! ## The region's value on the layer's rows -/

/-- The array function at a place (r, q), in coordinates. -/
theorem G5_apply (a0 a1 : S106496x64.Idx → EReal) (w0 w1 : S64x64.Idx → EReal) (bb : S1x64.Idx → EReal)
    (r : Fin 106496) (q : Fin 64) :
    G5 a0 a1 w0 w1 bb (ix2 r q)
      = max ((∑ k : Fin 64, a0 (ix2 r k) * w0 (ix2 k q)) + (∑ k : Fin 64, a1 (ix2 r k) * w1 (ix2 k q))
          + bb (ix2 (0 : Fin 1) q)) 0 := rfl

/-- On the first 100,000 rows, where the padded arrays are the layer's arrays, the two slices are rows 0 … 63 and
    64 … 127 of the layer's weight and the bias row is the layer's bias, the output after the region is the layer's
    node update. Rows from 100,000 on are never looked at. -/
theorem value5 (c : Dev nD)
    (x agg : Cert.Spec.Arr (Cert.Spec.sh2 100000 64)) (W : Cert.Spec.Arr (Cert.Spec.sh2 128 64)) (b : Cert.Spec.Arr (Cert.Spec.sh1 64))
    (hx : ∀ (r : Fin 100000) (k : Fin 64), (V c main_v152 : S106496x64.Idx → EReal) (ix2 (⟨r.val, by omega⟩ : Fin 106496) k) = x (ix2 r k))
    (hagg : ∀ (r : Fin 100000) (k : Fin 64), (V c main_v153 : S106496x64.Idx → EReal) (ix2 (⟨r.val, by omega⟩ : Fin 106496) k) = agg (ix2 r k))
    (hw0 : ∀ k j : Fin 64, (V c main_v154 : S64x64.Idx → EReal) (ix2 k j) = W (ix2 (⟨k.val, by omega⟩ : Fin 128) j))
    (hw1 : ∀ k j : Fin 64, (V c main_v155 : S64x64.Idx → EReal) (ix2 k j) = W (ix2 (⟨64 + k.val, by omega⟩ : Fin 128) j))
    (hb : ∀ j : Fin 64, (V c main_v156 : S1x64.Idx → EReal) (ix2 (0 : Fin 1) j) = b (ix1 j)) :
    ∀ (r : Fin 100000) (j : Fin 64),
      ((dat5 (F := Ideal) V c).arrAt 5 cfg5.N : S106496x64.Idx → EReal) (ix2 (⟨r.val, by omega⟩ : Fin 106496) j)
        = Cert.Spec.upd x agg W b (ix2 r j) := by
  intro r j
  rw [final5, G5_apply]
  show _ = max (Cert.Spec.rowDot 0 (by omega) x W r j + Cert.Spec.rowDot 64 (by omega) agg W r j + b (ix1 j)) 0
  unfold Cert.Spec.rowDot
  simp only [hx, hagg, hw0, hw1, hb, Nat.zero_add]

end Cert.KernelIdeal.NodeUpd

end
-- ==== Proof.KL5.lean ====
/-
  Layer 2's node update: the sixth region's operands are the node features after layer 1 and the aggregate of layer 2's
  edge messages, padded; the blocks of layer 2's node weight; its bias.
-/
import proofs.«118118_j10582799417469_1_alg».proof.Proof.KRun
import proofs.«118118_j10582799417469_1_alg».proof.Proof.KEval
import proofs.«118118_j10582799417469_1_alg».proof.Proof.ReadP
import proofs.«118118_j10582799417469_1_alg».proof.Proof.Rows
import proofs.«118118_j10582799417469_1_alg».proof.Proof.Spec
import proofs.«118118_j10582799417469_1_alg».proof.Proof.NodeUpd5
import proofs.«118118_j10582799417469_1_alg».proof.Proof.RefUpd
import proofs.«118118_j10582799417469_1_alg».proof.Proof.KL0
import proofs.«118118_j10582799417469_1_alg».proof.Proof.KL1
import proofs.«118118_j10582799417469_1_alg».proof.Proof.KL2
import proofs.«118118_j10582799417469_1_alg».proof.Proof.KL3
import proofs.«118118_j10582799417469_1_alg».proof.Proof.KL4
import Idealize.ShloMosaic.PureOps.Ideal
import Idealize.ShloMosaic.Lib.ValueLayout

set_option maxRecDepth 16384

noncomputable section

namespace Cert.KernelIdeal.KL5

open Cert.KernelIdeal Cert.KernelIdeal.Gen Cert.KernelIdeal.KEval
open Idealize.ShloMosaic Idealize.ShloMosaic.TcCoe Idealize.ShloMosaic.Tactic Idealize.SL.Sem Idealize.ShloMosaic.ValueIdx
open Cert.ReferenceIdeal.ReadP

variable (m : (ℓ : Loc nD τ sig) → Buf (Elt Ideal) ℓ) (ρ : Dev nD → PrngReg)
open Cert.KernelIdeal.KL0 Cert.KernelIdeal.KL1 Cert.KernelIdeal.KL2 Cert.KernelIdeal.KL3 Cert.KernelIdeal.KL4

theorem s117_43 (c : Dev nD) : W43 m ρ c (Proc.devRef .tc main_v117) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem strip152 (X : (⟨S100000x64, .f32⟩ : BufTy).Contents (Elt Ideal)) (V : (⟨S_, .f32⟩ : BufTy).Contents (Elt Ideal)) (p h1 h2 p' h1' h2') :
    (StableHlo.TRef.of (T := ⟨S106496x64, .f32⟩) main_v152 p h1 h2).toBuf (pad S106496x64 ![0, 0] ![6496, 0] ![0, 0] ((StableHlo.TRef.of (T := ⟨S100000x64, .f32⟩) main_v117 p' h1' h2').ofBuf X) V pads_S100000x64_S106496x64_064960_000 h_S_)
      = pad S106496x64 ![0, 0] ![6496, 0] ![0, 0] X V pads_S100000x64_S106496x64_064960_000 h_S_ := rfl

theorem e152 (c : Dev nD) : ∃ v : (⟨S_, .f32⟩ : BufTy).Contents (Elt Ideal), W43 m ρ c (Proc.devRef .tc main_v152) = pad S106496x64 ![0, 0] ![6496, 0] ![0, 0] (val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S100000x64_S106496x64_064960_000 h_S_ := by
  refine ⟨?v, ?h⟩
  case h =>
    rw [← s117_43 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]
    exact strip152 _ _ _ _ _ _ _ _

theorem s147_43 (c : Dev nD) : W43 m ρ c (Proc.devRef .tc main_v147) = val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem strip153 (X : (⟨S100000x64, .f32⟩ : BufTy).Contents (Elt Ideal)) (V : (⟨S_, .f32⟩ : BufTy).Contents (Elt Ideal)) (p h1 h2 p' h1' h2') :
    (StableHlo.TRef.of (T := ⟨S106496x64, .f32⟩) main_v153 p h1 h2).toBuf (pad S106496x64 ![0, 0] ![6496, 0] ![0, 0] ((StableHlo.TRef.of (T := ⟨S100000x64, .f32⟩) main_v147 p' h1' h2').ofBuf X) V pads_S100000x64_S106496x64_064960_000 h_S_)
      = pad S106496x64 ![0, 0] ![6496, 0] ![0, 0] X V pads_S100000x64_S106496x64_064960_000 h_S_ := rfl

theorem e153 (c : Dev nD) : ∃ v : (⟨S_, .f32⟩ : BufTy).Contents (Elt Ideal), W43 m ρ c (Proc.devRef .tc main_v153) = pad S106496x64 ![0, 0] ![6496, 0] ![0, 0] (val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S100000x64_S106496x64_064960_000 h_S_ := by
  refine ⟨?v, ?h⟩
  case h =>
    rw [← s147_43 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]
    exact strip153 _ _ _ _ _ _ _ _

theorem e154 (c : Dev nD) : W43 m ρ c (Proc.devRef .tc main_v154) = extractStridedSlice S64x64 ![0, 0] (val_main_v139 (F := Ideal) (m ((c.tc : Thread nD τ).loc main_arg9))) slices_S128x64_S64x64_0_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem e155 (c : Dev nD) : W43 m ρ c (Proc.devRef .tc main_v155) = extractStridedSlice S64x64 ![64, 0] (val_main_v139 (F := Ideal) (m ((c.tc : Thread nD τ).loc main_arg9))) slices_S128x64_S64x64_64_0 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem e156 (c : Dev nD) : W43 m ρ c (Proc.devRef .tc main_v156) = shapeCast S1x64 (val_main_v142 (F := Ideal) (m ((c.tc : Thread nD τ).loc main_arg10))) shapeCasts_S64_S1x64 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

/-- The sixth region's result, its padding rows cut off, is the reference's node features after layer 2. -/
theorem X3 (c : Dev nD) :
    extractStridedSlice S100000x64 ![0, 0] (W44 m ρ c (Proc.devRef .tc main_v157)) slices_S106496x64_S100000x64_0_0
      = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.ReferenceIdeal.RefSpec.upd2]
  obtain ⟨v152, h152⟩ := e152 m ρ c
  obtain ⟨v153, h153⟩ := e153 m ρ c
  funext i
  obtain ⟨r, j, rfl⟩ : ∃ (r : Fin 100000) (j : Fin 64), i = ix2 r j := ⟨i 0, i 1, eq_ix2 i⟩
  refine (Cert.Rows.slice_rows (P := 106496) _ _ r j (by omega)).trans ?_
  rw [show W44 m ρ c (Proc.devRef .tc main_v157) = (dat5 (V43 m ρ) c).arrAt 5 cfg5.N from W44_arr m ρ c 5]
  exact Cert.KernelIdeal.NodeUpd.value5 (V43 m ρ) c _ _ _ _
    (fun r k => by
      show W43 m ρ c (Proc.devRef .tc main_v152) _ = _
      rw [h152]
      exact Cert.Rows.pad_rows _ _ _ _ r k _)
    (fun r k => by
      show W43 m ρ c (Proc.devRef .tc main_v153) _ = _
      rw [h153]
      exact Cert.Rows.pad_rows _ _ _ _ r k _)
    (fun k j => by
      show W43 m ρ c (Proc.devRef .tc main_v154) _ = _
      rw [e154 m ρ c]
      exact slice2_axis0_apply 0 _ _ k j _ (by show k.val = 0 + k.val; omega))
    (fun k j => by
      show W43 m ρ c (Proc.devRef .tc main_v155) _ = _
      rw [e155 m ρ c]
      exact slice2_axis0_apply 64 _ _ k j _ (by show 64 + k.val = 64 + k.val; rfl))
    (fun j => by
      show W43 m ρ c (Proc.devRef .tc main_v156) _ = _
      rw [e156 m ρ c]
      exact shapeCast_a_1a_apply _ _ 0 j)
    r j

end Cert.KernelIdeal.KL5

end
-- ==== Proof.KD6.lean ====
/-
  The node decoder in the idealized kernel program. The seventh region's operands are the node features after layer 2,
  padded below with rows of zeros, the decoder's projection weight and bias (the bias as one row) and the three heads'
  weights and biases, the arguments themselves. Its result, padding cut off, is the program's first result.
-/
import proofs.«118118_j10582799417469_1_alg».proof.Proof.KRun
import proofs.«118118_j10582799417469_1_alg».proof.Proof.KEval
import proofs.«118118_j10582799417469_1_alg».proof.Proof.ReadP
import proofs.«118118_j10582799417469_1_alg».proof.Proof.Rows
import proofs.«118118_j10582799417469_1_alg».proof.Proof.Spec
import proofs.«118118_j10582799417469_1_alg».proof.Proof.NodeDec
import proofs.«118118_j10582799417469_1_alg».proof.Proof.RefDec
import proofs.«118118_j10582799417469_1_alg».proof.Proof.KL0
import proofs.«118118_j10582799417469_1_alg».proof.Proof.KL1
import proofs.«118118_j10582799417469_1_alg».proof.Proof.KL2
import proofs.«118118_j10582799417469_1_alg».proof.Proof.KL3
import proofs.«118118_j10582799417469_1_alg».proof.Proof.KL4
import proofs.«118118_j10582799417469_1_alg».proof.Proof.KL5
import Idealize.ShloMosaic.PureOps.Ideal
import Idealize.ShloMosaic.Lib.ValueLayout

set_option maxRecDepth 16384

noncomputable section

namespace Cert.KernelIdeal.KD6

open Cert.KernelIdeal Cert.KernelIdeal.Gen Cert.KernelIdeal.KEval
open Idealize.ShloMosaic Idealize.ShloMosaic.TcCoe Idealize.ShloMosaic.Tactic Idealize.SL.Sem Idealize.ShloMosaic.ValueIdx
open Cert.ReferenceIdeal.ReadP

variable (m : (ℓ : Loc nD τ sig) → Buf (Elt Ideal) ℓ) (ρ : Dev nD → PrngReg)
open Cert.KernelIdeal.KL0 Cert.KernelIdeal.KL1 Cert.KernelIdeal.KL2 Cert.KernelIdeal.KL3 Cert.KernelIdeal.KL4 Cert.KernelIdeal.KL5

theorem s158_47 (c : Dev nD) : W47 m ρ c (Proc.devRef .tc main_v158) = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]) <;> rfl

theorem strip159 (X : (⟨S100000x64, .f32⟩ : BufTy).Contents (Elt Ideal)) (V : (⟨S_, .f32⟩ : BufTy).Contents (Elt Ideal)) (p h1 h2 p' h1' h2') :
    (StableHlo.TRef.of (T := ⟨S106496x64, .f32⟩) main_v159 p h1 h2).toBuf (pad S106496x64 ![0, 0] ![6496, 0] ![0, 0] ((StableHlo.TRef.of (T := ⟨S100000x64, .f32⟩) main_v158 p' h1' h2').ofBuf X) V pads_S100000x64_S106496x64_064960_000 h_S_)
      = pad S106496x64 ![0, 0] ![6496, 0] ![0, 0] X V pads_S100000x64_S106496x64_064960_000 h_S_ := rfl

theorem e159 (c : Dev nD) : ∃ v : (⟨S_, .f32⟩ : BufTy).Contents (Elt Ideal), W47 m ρ c (Proc.devRef .tc main_v159) = pad S106496x64 ![0, 0] ![6496, 0] ![0, 0] (val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S100000x64_S106496x64_064960_000 h_S_ := by
  refine ⟨?v, ?h⟩
  case h =>
    rw [← s158_47 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]
    exact strip159 _ _ _ _ _ _ _ _

theorem eA11_47 (c : Dev nD) : W47 m ρ c (Proc.devRef .tc main_arg11) = (m ((c.tc : Thread nD τ).loc main_arg11)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]) <;> rfl

theorem eA13_47 (c : Dev nD) : W47 m ρ c (Proc.devRef .tc main_arg13) = (m ((c.tc : Thread nD τ).loc main_arg13)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]) <;> rfl

theorem eA15_47 (c : Dev nD) : W47 m ρ c (Proc.devRef .tc main_arg15) = (m ((c.tc : Thread nD τ).loc main_arg15)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]) <;> rfl

theorem eA17_47 (c : Dev nD) : W47 m ρ c (Proc.devRef .tc main_arg17) = (m ((c.tc : Thread nD τ).loc main_arg17)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]) <;> rfl

theorem e160 (c : Dev nD) : W47 m ρ c (Proc.devRef .tc main_v160) = shapeCast S1x192 ((m ((c.tc : Thread nD τ).loc main_arg12))) shapeCasts_S192_S1x192 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]) <;> rfl

theorem e161 (c : Dev nD) : W47 m ρ c (Proc.devRef .tc main_v161) = shapeCast S1x1 ((m ((c.tc : Thread nD τ).loc main_arg14))) shapeCasts_S1_S1x1 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]) <;> rfl

theorem e162 (c : Dev nD) : W47 m ρ c (Proc.devRef .tc main_v162) = shapeCast S1x1 ((m ((c.tc : Thread nD τ).loc main_arg16))) shapeCasts_S1_S1x1 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]) <;> rfl

theorem e163 (c : Dev nD) : W47 m ρ c (Proc.devRef .tc main_v163) = shapeCast S1x1 ((m ((c.tc : Thread nD τ).loc main_arg18))) shapeCasts_S1_S1x1 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]) <;> rfl

/-- The first result of the idealized kernel program is the reference's: the seventh region's rows, padding cut off,
    are the node decoder of the node features after layer 2. -/
theorem K165 (c : Dev nD) : W53 m ρ c (Proc.devRef .tc main_v165) = val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  have h0 : W53 m ρ c (Proc.devRef .tc main_v165)
      = extractStridedSlice S100000x3 ![0, 0] (W48 m ρ c (Proc.devRef .tc main_v164)) slices_S106496x3_S100000x3_0_0 := by
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c, X3 m ρ c]
  rw [h0, Cert.ReferenceIdeal.RefSpec.ndec_eq]
  obtain ⟨v159, h159⟩ := e159 m ρ c
  funext i
  obtain ⟨r, j, rfl⟩ : ∃ (r : Fin 100000) (j : Fin 3), i = ix2 r j := ⟨i 0, i 1, eq_ix2 i⟩
  refine (Cert.Rows.slice_rows (P := 106496) _ _ r j (by omega)).trans ?_
  rw [show W48 m ρ c (Proc.devRef .tc main_v164) = (dat6 (V47 m ρ) c).arrAt 9 cfg6.N from W48_arr m ρ c 9]
  exact Cert.KernelIdeal.NodeDec.value6 (V47 m ρ) c _ _ _ _ _ _ _ _ _
    (fun r k => by
      show W47 m ρ c (Proc.devRef .tc main_v159) _ = _
      rw [h159]
      exact Cert.Rows.pad_rows _ _ _ _ r k _)
    (eA11_47 m ρ c)
    (fun j => by
      show W47 m ρ c (Proc.devRef .tc main_v160) _ = _
      rw [e160 m ρ c]
      exact shapeCast_a_1a_apply _ _ 0 j)
    (eA13_47 m ρ c)
    (by
      show W47 m ρ c (Proc.devRef .tc main_v161) _ = _
      rw [e161 m ρ c]
      exact shapeCast_a_1a_apply _ _ 0 0)
    (eA15_47 m ρ c)
    (by
      show W47 m ρ c (Proc.devRef .tc main_v162) _ = _
      rw [e162 m ρ c]
      exact shapeCast_a_1a_apply _ _ 0 0)
    (eA17_47 m ρ c)
    (by
      show W47 m ρ c (Proc.devRef .tc main_v163) _ = _
      rw [e163 m ρ c]
      exact shapeCast_a_1a_apply _ _ 0 0)
    r j

end Cert.KernelIdeal.KD6

end
-- ==== Proof.EdgeDec.lean ====
/-
  The edge decoder's region, read as one function of whole arrays on the extended reals.
  Each grid point takes a block of 8192 rows of the padded edge array, projects every 64-wide row to 256 columns
  (`e · W + b`), cuts the projection into four 64-wide groups and sends each group through its own map plus a bias
  (three maps 64 × 1, the last 64 × 3), with a sine on all heads but the third; the results are the six columns of the
  output block (one column for each of the first three heads, three for the last). Every matrix product accumulates
  into zero, so on the extended reals it is the plain sum over the shared coordinate, and a row of the output depends
  on the same row of the input only. Hence the padded output array is, row by row, the row decoder `rowDec` of the
  padded input's row, and on the first 1,000,000 rows this is the specification's `edec`.
-/
import proofs.«118118_j10582799417469_1_alg».proof.Proof.Gen.KernelIdeal.Frame
import proofs.«118118_j10582799417469_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.EdgeDec

open Cert.KernelIdeal Cert.KernelIdeal.Gen Idealize.ShloMosaic Idealize.ShloMosaic.ValueIdx Idealize.ShloMosaic.TcCoe Idealize.SL.Sem
open Idealize.ShloMosaic.Tactic
open Idealize.ShloMosaic.Pipeline (Dat)

/-! ## The decoder on one row -/

/-- The projection of one 64-wide row, at column `c`. -/
def xpRow (xr : Fin 64 → EReal) (W : S64x256.Idx → EReal) (B : Fin 256 → EReal) (c : Fin 256) : EReal :=
  (∑ k : Fin 64, xr k * W (ix2 k c)) + B c

/-- One head of a projected row: the 64-wide group at column `off` against column `j` of a 64 × C map, plus a bias. -/
def headRow {C : Nat} (off : Nat) (h : off + 64 ≤ 256) (xp : Fin 256 → EReal) (w : (⟨2, ![64, C]⟩ : Shape).Idx → EReal) (b : EReal)
    (j : Fin C) : EReal :=
  (∑ k : Fin 64, xp (⟨off + k.val, by omega⟩ : Fin 256) * w (ix2 k j)) + b

/-- The six decoded columns of one row: sine on all heads but the third; the last head is three columns wide. -/
def rowDec (xr : Fin 64 → EReal) (W : S64x256.Idx → EReal) (B : Fin 256 → EReal) (w0 w1 w2 : S64x1.Idx → EReal)
    (w3 : S64x3.Idx → EReal) (b0 b1 b2 : EReal) (b3 : Fin 3 → EReal) (j : Fin 6) : EReal :=
  if j.val = 0 then Ideal.sin (headRow 0 (by omega) (xpRow xr W B) w0 b0 0)
  else if j.val = 1 then Ideal.sin (headRow 64 (by omega) (xpRow xr W B) w1 b1 0)
  else if j.val = 2 then headRow 128 (by omega) (xpRow xr W B) w2 b2 0
  else Ideal.sin (headRow 192 (by omega) (xpRow xr W B) w3 (b3 (⟨(j.val - 3) % 3, Nat.mod_lt _ (by omega)⟩ : Fin 3))
    (⟨(j.val - 3) % 3, Nat.mod_lt _ (by omega)⟩ : Fin 3))

/-- The specification's edge decoder at row `r`, column `j`, is the row decoder of row `r`. -/
theorem edec_eq (e : Cert.Spec.Arr (Cert.Spec.sh2 1000000 64)) (epW : Cert.Spec.Arr (Cert.Spec.sh2 64 256)) (epb : Cert.Spec.Arr (Cert.Spec.sh1 256))
    (weW : Cert.Spec.Arr (Cert.Spec.sh2 64 1)) (web : Cert.Spec.Arr (Cert.Spec.sh1 1)) (elW : Cert.Spec.Arr (Cert.Spec.sh2 64 1)) (elb : Cert.Spec.Arr (Cert.Spec.sh1 1))
    (etW : Cert.Spec.Arr (Cert.Spec.sh2 64 1)) (etb : Cert.Spec.Arr (Cert.Spec.sh1 1)) (cpW : Cert.Spec.Arr (Cert.Spec.sh2 64 3)) (cpb : Cert.Spec.Arr (Cert.Spec.sh1 3))
    (r : Fin 1000000) (j : Fin 6) :
    Cert.Spec.edec e epW epb weW web elW elb etW etb cpW cpb (ix2 r j)
      = rowDec (fun k => e (ix2 r k)) epW (fun c => epb (ix1 c)) weW elW etW cpW (web (ix1 0)) (elb (ix1 0)) (etb (ix1 0))
          (fun q => cpb (ix1 q)) j := rfl

/-- The decoder of a whole array of `R` rows, row by row (the biases as the 1 × n arrays the region stages). -/
def decAt {R : Nat} (X : (⟨2, ![R, 64]⟩ : Shape).Idx → EReal) (W : S64x256.Idx → EReal) (B : S1x256.Idx → EReal)
    (w0 : S64x1.Idx → EReal) (b0 : S1x1.Idx → EReal) (w1 : S64x1.Idx → EReal) (b1 : S1x1.Idx → EReal)
    (w2 : S64x1.Idx → EReal) (b2 : S1x1.Idx → EReal) (w3 : S64x3.Idx → EReal) (b3 : S1x3.Idx → EReal) :
    (⟨2, ![R, 6]⟩ : Shape).Idx → EReal :=
  fun i => rowDec (fun k => X (ix2 (⟨(i 0).val, idx2_lt0 i⟩ : Fin R) k)) W (fun c => B (ix2 0 c)) w0 w1 w2 w3
    (b0 (ix2 0 0)) (b1 (ix2 0 0)) (b2 (ix2 0 0)) (fun q => b3 (ix2 0 q)) (⟨(i 1).val, idx2_lt1 i⟩ : Fin 6)

/-- At an index whose coordinates are `p` and `q`. -/
theorem decAt_at {R : Nat} (X : (⟨2, ![R, 64]⟩ : Shape).Idx → EReal) (W : S64x256.Idx → EReal) (B : S1x256.Idx → EReal)
    (w0 : S64x1.Idx → EReal) (b0 : S1x1.Idx → EReal) (w1 : S64x1.Idx → EReal) (b1 : S1x1.Idx → EReal)
    (w2 : S64x1.Idx → EReal) (b2 : S1x1.Idx → EReal) (w3 : S64x3.Idx → EReal) (b3 : S1x3.Idx → EReal)
    (i : (⟨2, ![R, 6]⟩ : Shape).Idx) (p : Fin R) (q : Fin 6) (hp : (i 0).val = p.val) (hq : (i 1).val = q.val) :
    decAt X W B w0 b0 w1 b1 w2 b2 w3 b3 i
      = rowDec (fun k => X (ix2 p k)) W (fun c => B (ix2 0 c)) w0 w1 w2 w3 (b0 (ix2 0 0)) (b1 (ix2 0 0)) (b2 (ix2 0 0))
          (fun q => b3 (ix2 0 q)) q := by
  have e0 : (⟨(i 0).val, idx2_lt0 i⟩ : Fin R) = p := Fin.ext hp
  have e1 : (⟨(i 1).val, idx2_lt1 i⟩ : Fin 6) = q := Fin.ext hq
  unfold decAt
  rw [e0, e1]

/-! ## The body's payloads at an index -/

theorem mm256_l0 (i : S8192x256.Idx) (q : dot_S8192x64_S64x256_S8192x256_1_0_0_1_n_n.contr.Idx) : (dot_S8192x64_S64x256_S8192x256_1_0_0_1_n_n.lhsIdx i q 0).val = (i 0).val := by
  unfold DotDims.lhsIdx
  rw [dif_neg (show ¬(0 : Fin S8192x64.rank) ∈ dot_S8192x64_S64x256_S8192x256_1_0_0_1_n_n.lhsBatch by decide), dif_pos (show (0 : Fin S8192x64.rank) ∈ dot_S8192x64_S64x256_S8192x256_1_0_0_1_n_n.lhsNonContracting by decide)]
  rfl
theorem mm256_r1 (i : S8192x256.Idx) (q : dot_S8192x64_S64x256_S8192x256_1_0_0_1_n_n.contr.Idx) : (dot_S8192x64_S64x256_S8192x256_1_0_0_1_n_n.rhsIdx i q 1).val = (i 1).val := by
  unfold DotDims.rhsIdx
  rw [dif_neg (show ¬(1 : Fin S64x256.rank) ∈ dot_S8192x64_S64x256_S8192x256_1_0_0_1_n_n.rhsBatch by decide), dif_pos (show (1 : Fin S64x256.rank) ∈ dot_S8192x64_S64x256_S8192x256_1_0_0_1_n_n.rhsNonContracting by decide)]
  rfl
/-- The projection's matrix product into a zero accumulator, read at row `p`, column `c`: the plain sum over the 64 shared coordinates. -/
theorem mm256 (a : FVec Ideal S8192x64 .bf16) (b : FVec Ideal S64x256 .bf16) (p : Fin 8192) (c : Fin 256) :
    matmul dot_S8192x64_S64x256_S8192x256_1_0_0_1_n_n none a b (constant (F := Ideal) S8192x256 .f32 0x00000000#32) (ix2 p c)
      = ∑ k : Fin 64, a (ix2 p k) * b (ix2 k c) := by
  simp only [matmul]
  rw [Ideal.matmul_constant_zero_apply, ← Equiv.sum_comp (contrEquiv1 dot_S8192x64_S64x256_S8192x256_1_0_0_1_n_n 64 rfl rfl).symm]
  refine Finset.sum_congr rfl fun k _ => ?_
  have hk := contrEquiv1_symm_val dot_S8192x64_S64x256_S8192x256_1_0_0_1_n_n 64 rfl rfl k
  have el : dot_S8192x64_S64x256_S8192x256_1_0_0_1_n_n.lhsIdx (ix2 p c) ((contrEquiv1 dot_S8192x64_S64x256_S8192x256_1_0_0_1_n_n 64 rfl rfl).symm k) = ix2 p k :=
    funext fun a => Fin.ext (by
      match a with
      | ⟨0, _⟩ => exact mm256_l0 _ _
      | ⟨1, _⟩ => exact (dot_S8192x64_S64x256_S8192x256_1_0_0_1_n_n.lhsIdx_val_of_single rfl _ _).trans hk)
  have er : dot_S8192x64_S64x256_S8192x256_1_0_0_1_n_n.rhsIdx (ix2 p c) ((contrEquiv1 dot_S8192x64_S64x256_S8192x256_1_0_0_1_n_n 64 rfl rfl).symm k) = ix2 k c :=
    funext fun a => Fin.ext (by
      match a with
      | ⟨0, _⟩ => exact (dot_S8192x64_S64x256_S8192x256_1_0_0_1_n_n.rhsIdx_val_of_single rfl _ _).trans hk
      | ⟨1, _⟩ => exact mm256_r1 _ _)
  rw [el, er]

theorem mm1_l0 (i : S8192x1.Idx) (q : dot_S8192x64_S64x1_S8192x1_1_0_0_1_n_n.contr.Idx) : (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch by decide), dif_pos (show (0 : Fin S8192x64.rank) ∈ dot_S8192x64_S64x1_S8192x1_1_0_0_1_n_n.lhsNonContracting by decide)]
  rfl
theorem mm1_r1 (i : S8192x1.Idx) (q : dot_S8192x64_S64x1_S8192x1_1_0_0_1_n_n.contr.Idx) : (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch by decide), dif_pos (show (1 : Fin S64x1.rank) ∈ dot_S8192x64_S64x1_S8192x1_1_0_0_1_n_n.rhsNonContracting by decide)]
  rfl
/-- A one-column head's matrix product into a zero accumulator, read at row `p`: the sum over the 64 coordinates of the group. -/
theorem mm1 (a : FVec Ideal S8192x64 .bf16) (b : FVec Ideal S64x1 .bf16) (p : Fin 8192) (c : Fin 1) :
    matmul dot_S8192x64_S64x1_S8192x1_1_0_0_1_n_n none a b (constant (F := Ideal) S8192x1 .f32 0x00000000#32) (ix2 p c)
      = ∑ k : Fin 64, a (ix2 p k) * b (ix2 k c) := by
  simp only [matmul]
  rw [Ideal.matmul_constant_zero_apply, ← Equiv.sum_comp (contrEquiv1 dot_S8192x64_S64x1_S8192x1_1_0_0_1_n_n 64 rfl rfl).symm]
  refine Finset.sum_congr rfl fun k _ => ?_
  have hk := contrEquiv1_symm_val dot_S8192x64_S64x1_S8192x1_1_0_0_1_n_n 64 rfl rfl k
  have el : dot_S8192x64_S64x1_S8192x1_1_0_0_1_n_n.lhsIdx (ix2 p c) ((contrEquiv1 dot_S8192x64_S64x1_S8192x1_1_0_0_1_n_n 64 rfl rfl).symm k) = ix2 p k :=
    funext fun a => Fin.ext (by
      match a with
      | ⟨0, _⟩ => exact mm1_l0 _ _
      | ⟨1, _⟩ => exact (dot_S8192x64_S64x1_S8192x1_1_0_0_1_n_n.lhsIdx_val_of_single rfl _ _).trans hk)
  have er : dot_S8192x64_S64x1_S8192x1_1_0_0_1_n_n.rhsIdx (ix2 p c) ((contrEquiv1 dot_S8192x64_S64x1_S8192x1_1_0_0_1_n_n 64 rfl rfl).symm k) = ix2 k c :=
    funext fun a => Fin.ext (by
      match a with
      | ⟨0, _⟩ => exact (dot_S8192x64_S64x1_S8192x1_1_0_0_1_n_n.rhsIdx_val_of_single rfl _ _).trans hk
      | ⟨1, _⟩ => exact mm1_r1 _ _)
  rw [el, er]

theorem mm3_l0 (i : S8192x3.Idx) (q : dot_S8192x64_S64x3_S8192x3_1_0_0_1_n_n.contr.Idx) : (dot_S8192x64_S64x3_S8192x3_1_0_0_1_n_n.lhsIdx i q 0).val = (i 0).val := by
  unfold DotDims.lhsIdx
  rw [dif_neg (show ¬(0 : Fin S8192x64.rank) ∈ dot_S8192x64_S64x3_S8192x3_1_0_0_1_n_n.lhsBatch by decide), dif_pos (show (0 : Fin S8192x64.rank) ∈ dot_S8192x64_S64x3_S8192x3_1_0_0_1_n_n.lhsNonContracting by decide)]
  rfl
theorem mm3_r1 (i : S8192x3.Idx) (q : dot_S8192x64_S64x3_S8192x3_1_0_0_1_n_n.contr.Idx) : (dot_S8192x64_S64x3_S8192x3_1_0_0_1_n_n.rhsIdx i q 1).val = (i 1).val := by
  unfold DotDims.rhsIdx
  rw [dif_neg (show ¬(1 : Fin S64x3.rank) ∈ dot_S8192x64_S64x3_S8192x3_1_0_0_1_n_n.rhsBatch by decide), dif_pos (show (1 : Fin S64x3.rank) ∈ dot_S8192x64_S64x3_S8192x3_1_0_0_1_n_n.rhsNonContracting by decide)]
  rfl
/-- The three-column head's matrix product into a zero accumulator, read at row `p`, column `c`. -/
theorem mm3 (a : FVec Ideal S8192x64 .bf16) (b : FVec Ideal S64x3 .bf16) (p : Fin 8192) (c : Fin 3) :
    matmul dot_S8192x64_S64x3_S8192x3_1_0_0_1_n_n none a b (constant (F := Ideal) S8192x3 .f32 0x00000000#32) (ix2 p c)
      = ∑ k : Fin 64, a (ix2 p k) * b (ix2 k c) := by
  simp only [matmul]
  rw [Ideal.matmul_constant_zero_apply, ← Equiv.sum_comp (contrEquiv1 dot_S8192x64_S64x3_S8192x3_1_0_0_1_n_n 64 rfl rfl).symm]
  refine Finset.sum_congr rfl fun k _ => ?_
  have hk := contrEquiv1_symm_val dot_S8192x64_S64x3_S8192x3_1_0_0_1_n_n 64 rfl rfl k
  have el : dot_S8192x64_S64x3_S8192x3_1_0_0_1_n_n.lhsIdx (ix2 p c) ((contrEquiv1 dot_S8192x64_S64x3_S8192x3_1_0_0_1_n_n 64 rfl rfl).symm k) = ix2 p k :=
    funext fun a => Fin.ext (by
      match a with
      | ⟨0, _⟩ => exact mm3_l0 _ _
      | ⟨1, _⟩ => exact (dot_S8192x64_S64x3_S8192x3_1_0_0_1_n_n.lhsIdx_val_of_single rfl _ _).trans hk)
  have er : dot_S8192x64_S64x3_S8192x3_1_0_0_1_n_n.rhsIdx (ix2 p c) ((contrEquiv1 dot_S8192x64_S64x3_S8192x3_1_0_0_1_n_n 64 rfl rfl).symm k) = ix2 k c :=
    funext fun a => Fin.ext (by
      match a with
      | ⟨0, _⟩ => exact (dot_S8192x64_S64x3_S8192x3_1_0_0_1_n_n.rhsIdx_val_of_single rfl _ _).trans hk
      | ⟨1, _⟩ => exact mm3_r1 _ _)
  rw [el, er]

/-- The projection `e · W + b` as the body computes it on one block, at row `p`, column `c`. -/
theorem pay3_apply (v0 : Vec Ideal S8192x64 .f32) (v3 : Vec Ideal S64x256 .f32) (v6 : Vec Ideal S1x256 .f32) (p : Fin 8192) (c : Fin 256) :
    k7_pay3 v0 v3 v6 (ix2 p c) = xpRow (fun k => v0 (ix2 p k)) v3 (fun c => v6 (ix2 0 c)) c := by
  unfold k7_pay3
  rw [shapeCast_self, shapeCast_self]
  refine (addf_apply _ _ _).trans ?_
  rw [mm256]
  refine congrArg₂ (· + ·) rfl ?_
  exact broadcastTo_apply _ _ _ (ix2 0 c) (fun a => by
    match a with
    | ⟨0, _⟩ => rfl
    | ⟨1, _⟩ => rfl)

/-- A sine of a vector, at an index. -/
theorem sin_apply {s : Shape} {φ : FTy} (a : FVec Ideal s φ) (i : s.Idx) : sin a i = Ideal.sin (a i) := rfl

/-- A 1-column head's matrix product: the 64-wide group of the projected block `P` that starts at column `off`, against a
    64 × 1 map, into a zero accumulator, at row `p`, column `q`. -/
theorem headmm1_apply (off : Nat) (hoff : off + 64 ≤ 256) (P : FVec Ideal S8192x256 .f32) (hs : S8192x256.Slices ![0, off] S8192x64)
    (w : Vec Ideal S64x1 .f32) (h1 : FTy.bits .bf16 < FTy.bits .f32) (p : Fin 8192) (q : Fin 1) :
    matmul dot_S8192x64_S64x1_S8192x1_1_0_0_1_n_n none (truncf .bf16 (extractStridedSlice S8192x64 ![0, off] P hs) h1)
        (truncf .bf16 w h1) (constant (F := Ideal) S8192x1 .f32 0x00000000#32) (ix2 p q)
      = ∑ k : Fin 64, P (ix2 p (⟨off + k.val, by omega⟩ : Fin 256)) * w (ix2 k q) := by
  rw [mm1]
  refine Finset.sum_congr rfl fun k _ => ?_
  refine congrArg₂ (· * ·) ?_ rfl
  show extractStridedSlice S8192x64 ![0, off] P hs (ix2 p k) = _
  exact extractStridedSlice_apply _ _ _ (ix2 p k) (ix2 p (⟨off + k.val, by omega⟩ : Fin 256)) (fun a => by
    match a with
    | ⟨0, _⟩ => exact (Nat.zero_add _).symm
    | ⟨1, _⟩ => rfl)

/-- A 1 × 1 bias broadcast down the rows reads the bias of the column. -/
theorem bias1_apply (b : FVec Ideal S1x1 .f32) (hb : S1x1.Broadcasts S8192x1) (p : Fin 8192) (q : Fin 1) :
    broadcastTo S8192x1 b hb (ix2 p q) = b (ix2 0 q) :=
  broadcastTo_apply _ _ _ (ix2 0 q) (fun a => by
    match a with
    | ⟨0, _⟩ => rfl
    | ⟨1, _⟩ => exact (Fin.val_eq_zero q).symm ▸ rfl)

/-- A 1-column head of the projected block is the head of the projected row. -/
theorem head1_apply (off : Nat) (hoff : off + 64 ≤ 256) (v0 : Vec Ideal S8192x64 .f32) (v3 : Vec Ideal S64x256 .f32) (v6 : Vec Ideal S1x256 .f32)
    (hs : S8192x256.Slices ![0, off] S8192x64) (w : Vec Ideal S64x1 .f32) (h1 : FTy.bits .bf16 < FTy.bits .f32)
    (b : FVec Ideal S1x1 .f32) (hb : S1x1.Broadcasts S8192x1) (p : Fin 8192) (q : Fin 1) :
    matmul dot_S8192x64_S64x1_S8192x1_1_0_0_1_n_n none (truncf .bf16 (extractStridedSlice S8192x64 ![0, off] (k7_pay3 v0 v3 v6) hs) h1)
        (truncf .bf16 w h1) (constant (F := Ideal) S8192x1 .f32 0x00000000#32) (ix2 p q) + broadcastTo S8192x1 b hb (ix2 p q)
      = headRow off hoff (xpRow (fun k => v0 (ix2 p k)) v3 (fun c => v6 (ix2 0 c))) w (b (ix2 0 q)) q :=
  congrArg₂ (· + ·)
    ((headmm1_apply off hoff _ hs w h1 p q).trans (Finset.sum_congr rfl fun k _ => congrArg₂ (· * ·) (pay3_apply v0 v3 v6 p _) rfl))
    (bias1_apply b hb p q)

/-- A 3-column head's matrix product: the 64-wide group of the projected block `P` that starts at column `off`, against a
    64 × 3 map, into a zero accumulator, at row `p`, column `q`. -/
theorem headmm3_apply (off : Nat) (hoff : off + 64 ≤ 256) (P : FVec Ideal S8192x256 .f32) (hs : S8192x256.Slices ![0, off] S8192x64)
    (w : Vec Ideal S64x3 .f32) (h1 : FTy.bits .bf16 < FTy.bits .f32) (p : Fin 8192) (q : Fin 3) :
    matmul dot_S8192x64_S64x3_S8192x3_1_0_0_1_n_n none (truncf .bf16 (extractStridedSlice S8192x64 ![0, off] P hs) h1)
        (truncf .bf16 w h1) (constant (F := Ideal) S8192x3 .f32 0x00000000#32) (ix2 p q)
      = ∑ k : Fin 64, P (ix2 p (⟨off + k.val, by omega⟩ : Fin 256)) * w (ix2 k q) := by
  rw [mm3]
  refine Finset.sum_congr rfl fun k _ => ?_
  refine congrArg₂ (· * ·) ?_ rfl
  show extractStridedSlice S8192x64 ![0, off] P hs (ix2 p k) = _
  exact extractStridedSlice_apply _ _ _ (ix2 p k) (ix2 p (⟨off + k.val, by omega⟩ : Fin 256)) (fun a => by
    match a with
    | ⟨0, _⟩ => exact (Nat.zero_add _).symm
    | ⟨1, _⟩ => rfl)

/-- A 1 × 3 bias broadcast down the rows reads the bias of the column. -/
theorem bias3_apply (b : FVec Ideal S1x3 .f32) (hb : S1x3.Broadcasts S8192x3) (p : Fin 8192) (q : Fin 3) :
    broadcastTo S8192x3 b hb (ix2 p q) = b (ix2 0 q) :=
  broadcastTo_apply _ _ _ (ix2 0 q) (fun a => by
    match a with
    | ⟨0, _⟩ => rfl
    | ⟨1, _⟩ => rfl)

/-- A 3-column head of the projected block is the head of the projected row. -/
theorem head3_apply (off : Nat) (hoff : off + 64 ≤ 256) (v0 : Vec Ideal S8192x64 .f32) (v3 : Vec Ideal S64x256 .f32) (v6 : Vec Ideal S1x256 .f32)
    (hs : S8192x256.Slices ![0, off] S8192x64) (w : Vec Ideal S64x3 .f32) (h1 : FTy.bits .bf16 < FTy.bits .f32)
    (b : FVec Ideal S1x3 .f32) (hb : S1x3.Broadcasts S8192x3) (p : Fin 8192) (q : Fin 3) :
    matmul dot_S8192x64_S64x3_S8192x3_1_0_0_1_n_n none (truncf .bf16 (extractStridedSlice S8192x64 ![0, off] (k7_pay3 v0 v3 v6) hs) h1)
        (truncf .bf16 w h1) (constant (F := Ideal) S8192x3 .f32 0x00000000#32) (ix2 p q) + broadcastTo S8192x3 b hb (ix2 p q)
      = headRow off hoff (xpRow (fun k => v0 (ix2 p k)) v3 (fun c => v6 (ix2 0 c))) w (b (ix2 0 q)) q :=
  congrArg₂ (· + ·)
    ((headmm3_apply off hoff _ hs w h1 p q).trans (Finset.sum_congr rfl fun k _ => congrArg₂ (· * ·) (pay3_apply v0 v3 v6 p _) rfl))
    (bias3_apply b hb p q)

/-- The first head: sine of the group at column 0 against its map, plus its bias. -/
theorem pay7_apply (v0 : Vec Ideal S8192x64 .f32) (v3 : Vec Ideal S64x256 .f32) (v6 : Vec Ideal S1x256 .f32) (v14 : Vec Ideal S64x1 .f32)
    (v24 : Vec Ideal S1x1 .f32) (p : Fin 8192) :
    k7_pay7 v0 v3 v6 v14 v24 (ix2 p 0)
      = Ideal.sin (headRow 0 (by omega) (xpRow (fun k => v0 (ix2 p k)) v3 (fun c => v6 (ix2 0 c))) v14 (v24 (ix2 0 0)) 0) := by
  unfold k7_pay7
  rw [shapeCast_self]
  refine (sin_apply _ _).trans (congrArg Ideal.sin ?_)
  refine (addf_apply _ _ _).trans ?_
  exact head1_apply 0 (by omega) v0 v3 v6 _ v14 _ v24 _ p 0

/-- The second head: the group at column 64. -/
theorem pay8_apply (v0 : Vec Ideal S8192x64 .f32) (v3 : Vec Ideal S64x256 .f32) (v6 : Vec Ideal S1x256 .f32) (v16 : Vec Ideal S64x1 .f32)
    (v31 : Vec Ideal S1x1 .f32) (p : Fin 8192) :
    k7_pay8 v0 v3 v6 v16 v31 (ix2 p 0)
      = Ideal.sin (headRow 64 (by omega) (xpRow (fun k => v0 (ix2 p k)) v3 (fun c => v6 (ix2 0 c))) v16 (v31 (ix2 0 0)) 0) := by
  unfold k7_pay8
  rw [shapeCast_self]
  refine (sin_apply _ _).trans (congrArg Ideal.sin ?_)
  refine (addf_apply _ _ _).trans ?_
  exact head1_apply 64 (by omega) v0 v3 v6 _ v16 _ v31 _ p 0

/-- The third head: the group at column 128, no sine. -/
theorem pay1_apply (v0 : Vec Ideal S8192x64 .f32) (v3 : Vec Ideal S64x256 .f32) (v6 : Vec Ideal S1x256 .f32) (v18 : Vec Ideal S64x1 .f32)
    (v38 : Vec Ideal S1x1 .f32) (p : Fin 8192) :
    k7_pay1 (k7_pay5 v18) (k7_pay9 v0 v3 v6) (constant (F := Ideal) S8192x1 .f32 0x00000000#32) v38 (ix2 p 0)
      = headRow 128 (by omega) (xpRow (fun k => v0 (ix2 p k)) v3 (fun c => v6 (ix2 0 c))) v18 (v38 (ix2 0 0)) 0 := by
  unfold k7_pay1 k7_pay5 k7_pay9
  rw [shapeCast_self]
  refine (addf_apply _ _ _).trans ?_
  exact head1_apply 128 (by omega) v0 v3 v6 _ v18 _ v38 _ p 0

/-- The fourth head, three columns wide: sine of the group at column 192 against column `q` of its map, plus that column's bias. -/
theorem pay2_apply (v0 : Vec Ideal S8192x64 .f32) (v3 : Vec Ideal S64x256 .f32) (v6 : Vec Ideal S1x256 .f32) (v20 : Vec Ideal S64x3 .f32)
    (v44 : Vec Ideal S1x3 .f32) (p : Fin 8192) (q : Fin 3) :
    k7_pay2 (k7_pay4 v0 v3 v6) (k7_pay6 v20) v44 (ix2 p q)
      = Ideal.sin (headRow 192 (by omega) (xpRow (fun k => v0 (ix2 p k)) v3 (fun c => v6 (ix2 0 c))) v20 (v44 (ix2 0 q)) q) := by
  unfold k7_pay2 k7_pay4 k7_pay6
  rw [shapeCast_self]
  refine (sin_apply _ _).trans (congrArg Ideal.sin ?_)
  refine (addf_apply _ _ _).trans ?_
  exact head3_apply 192 (by omega) v0 v3 v6 _ v20 _ v44 _ p q

/-! ## From blocks to the array -/

theorem hz : (![0, 0] : Fin 2 → Nat) = fun _ => 0 := funext fun a => by fin_cases a <;> rfl

/-- The printed index maps, decided over the 123 grid points: the row windows sit at block `t`, every other window at block 0. -/
theorem idx_facts : ∀ t : Fin cfg7.N,
    (win7_0.index t (0 : Fin 2) = t.val ∧ win7_0.index t (1 : Fin 2) = 0)
    ∧ (win7_11.index t (0 : Fin 2) = t.val ∧ win7_11.index t (1 : Fin 2) = 0)
    ∧ (win7_1.index t (0 : Fin 2) = 0 ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0)
    ∧ (win7_6.index t (0 : Fin 2) = 0 ∧ win7_6.index t (1 : Fin 2) = 0)
    ∧ (win7_7.index t (0 : Fin 2) = 0 ∧ win7_7.index t (1 : Fin 2) = 0)
    ∧ (win7_8.index t (0 : Fin 2) = 0 ∧ win7_8.index t (1 : Fin 2) = 0)
    ∧ (win7_9.index t (0 : Fin 2) = 0 ∧ win7_9.index t (1 : Fin 2) = 0)
    ∧ (win7_10.index t (0 : Fin 2) = 0 ∧ win7_10.index t (1 : Fin 2) = 0) :=
  (by decide +kernel : ∀ t : Fin grid7.N, _)

/-- Window 1 stages its whole array at every point. -/
theorem blk1 (V : (c : Dev nD) → (b : Ref sig .tc) → Buf (Elt Ideal) ((c : Thread nD τ).loc b)) (c : Dev nD) (t : Fin cfg7.N) :
    iblk7 V c 1 t = (V c main_arg19 : S64x256.Idx → EReal) := by
  obtain ⟨-, -, ⟨e0, e1⟩, -, -, -, -, -, -, -, -, -⟩ := idx_facts t
  funext j
  show V c main_arg19 (((cfg7.win 1).blk t).view.emb j) = V c main_arg19 j
  refine congrArg _ (funext fun a => Fin.ext ?_)
  match a with
  | ⟨0, _⟩ => show win7_1.index t (0 : Fin 2) * 64 + 1 * (j 0).val = (j 0).val; omega
  | ⟨1, _⟩ => show win7_1.index t (1 : Fin 2) * 256 + 1 * (j 1).val = (j 1).val; omega

/-- Window 2 stages its whole array at every point. -/
theorem blk2 (V : (c : Dev nD) → (b : Ref sig .tc) → Buf (Elt Ideal) ((c : Thread nD τ).loc b)) (c : Dev nD) (t : Fin cfg7.N) :
    iblk7 V c 2 t = (V c main_v167 : S1x256.Idx → EReal) := by
  obtain ⟨-, -, -, ⟨e0, e1⟩, -, -, -, -, -, -, -, -⟩ := idx_facts t
  funext j
  show V c main_v167 (((cfg7.win 2).blk t).view.emb j) = V c main_v167 j
  refine congrArg _ (funext fun a => Fin.ext ?_)
  match a with
  | ⟨0, _⟩ => show win7_2.index t (0 : Fin 2) * 1 + 1 * (j 0).val = (j 0).val; omega
  | ⟨1, _⟩ => show win7_2.index t (1 : Fin 2) * 256 + 1 * (j 1).val = (j 1).val; omega

/-- Window 3 stages its whole array at every point. -/
theorem blk3 (V : (c : Dev nD) → (b : Ref sig .tc) → Buf (Elt Ideal) ((c : Thread nD τ).loc b)) (c : Dev nD) (t : Fin cfg7.N) :
    iblk7 V c 3 t = (V c main_arg21 : S64x1.Idx → EReal) := by
  obtain ⟨-, -, -, -, ⟨e0, e1⟩, -, -, -, -, -, -, -⟩ := idx_facts t
  funext j
  show V c main_arg21 (((cfg7.win 3).blk t).view.emb j) = V c main_arg21 j
  refine congrArg _ (funext fun a => Fin.ext ?_)
  match a with
  | ⟨0, _⟩ => show win7_3.index t (0 : Fin 2) * 64 + 1 * (j 0).val = (j 0).val; omega
  | ⟨1, _⟩ => show win7_3.index t (1 : Fin 2) * 1 + 1 * (j 1).val = (j 1).val; omega

/-- Window 4 stages its whole array at every point. -/
theorem blk4 (V : (c : Dev nD) → (b : Ref sig .tc) → Buf (Elt Ideal) ((c : Thread nD τ).loc b)) (c : Dev nD) (t : Fin cfg7.N) :
    iblk7 V c 4 t = (V c main_v168 : S1x1.Idx → EReal) := by
  obtain ⟨-, -, -, -, -, ⟨e0, e1⟩, -, -, -, -, -, -⟩ := idx_facts t
  funext j
  show V c main_v168 (((cfg7.win 4).blk t).view.emb j) = V c main_v168 j
  refine congrArg _ (funext fun a => Fin.ext ?_)
  match a with
  | ⟨0, _⟩ => show win7_4.index t (0 : Fin 2) * 1 + 1 * (j 0).val = (j 0).val; omega
  | ⟨1, _⟩ => show win7_4.index t (1 : Fin 2) * 1 + 1 * (j 1).val = (j 1).val; omega

/-- Window 5 stages its whole array at every point. -/
theorem blk5 (V : (c : Dev nD) → (b : Ref sig .tc) → Buf (Elt Ideal) ((c : Thread nD τ).loc b)) (c : Dev nD) (t : Fin cfg7.N) :
    iblk7 V c 5 t = (V c main_arg23 : S64x1.Idx → EReal) := by
  obtain ⟨-, -, -, -, -, -, ⟨e0, e1⟩, -, -, -, -, -⟩ := idx_facts t
  funext j
  show V c main_arg23 (((cfg7.win 5).blk t).view.emb j) = V c main_arg23 j
  refine congrArg _ (funext fun a => Fin.ext ?_)
  match a with
  | ⟨0, _⟩ => show win7_5.index t (0 : Fin 2) * 64 + 1 * (j 0).val = (j 0).val; omega
  | ⟨1, _⟩ => show win7_5.index t (1 : Fin 2) * 1 + 1 * (j 1).val = (j 1).val; omega

/-- Window 6 stages its whole array at every point. -/
theorem blk6 (V : (c : Dev nD) → (b : Ref sig .tc) → Buf (Elt Ideal) ((c : Thread nD τ).loc b)) (c : Dev nD) (t : Fin cfg7.N) :
    iblk7 V c 6 t = (V c main_v169 : S1x1.Idx → EReal) := by
  obtain ⟨-, -, -, -, -, -, -, ⟨e0, e1⟩, -, -, -, -⟩ := idx_facts t
  funext j
  show V c main_v169 (((cfg7.win 6).blk t).view.emb j) = V c main_v169 j
  refine congrArg _ (funext fun a => Fin.ext ?_)
  match a with
  | ⟨0, _⟩ => show win7_6.index t (0 : Fin 2) * 1 + 1 * (j 0).val = (j 0).val; omega
  | ⟨1, _⟩ => show win7_6.index t (1 : Fin 2) * 1 + 1 * (j 1).val = (j 1).val; omega

/-- Window 7 stages its whole array at every point. -/
theorem blk7 (V : (c : Dev nD) → (b : Ref sig .tc) → Buf (Elt Ideal) ((c : Thread nD τ).loc b)) (c : Dev nD) (t : Fin cfg7.N) :
    iblk7 V c 7 t = (V c main_arg25 : S64x1.Idx → EReal) := by
  obtain ⟨-, -, -, -, -, -, -, -, ⟨e0, e1⟩, -, -, -⟩ := idx_facts t
  funext j
  show V c main_arg25 (((cfg7.win 7).blk t).view.emb j) = V c main_arg25 j
  refine congrArg _ (funext fun a => Fin.ext ?_)
  match a with
  | ⟨0, _⟩ => show win7_7.index t (0 : Fin 2) * 64 + 1 * (j 0).val = (j 0).val; omega
  | ⟨1, _⟩ => show win7_7.index t (1 : Fin 2) * 1 + 1 * (j 1).val = (j 1).val; omega

/-- Window 8 stages its whole array at every point. -/
theorem blk8 (V : (c : Dev nD) → (b : Ref sig .tc) → Buf (Elt Ideal) ((c : Thread nD τ).loc b)) (c : Dev nD) (t : Fin cfg7.N) :
    iblk7 V c 8 t = (V c main_v170 : S1x1.Idx → EReal) := by
  obtain ⟨-, -, -, -, -, -, -, -, -, ⟨e0, e1⟩, -, -⟩ := idx_facts t
  funext j
  show V c main_v170 (((cfg7.win 8).blk t).view.emb j) = V c main_v170 j
  refine congrArg _ (funext fun a => Fin.ext ?_)
  match a with
  | ⟨0, _⟩ => show win7_8.index t (0 : Fin 2) * 1 + 1 * (j 0).val = (j 0).val; omega
  | ⟨1, _⟩ => show win7_8.index t (1 : Fin 2) * 1 + 1 * (j 1).val = (j 1).val; omega

/-- Window 9 stages its whole array at every point. -/
theorem blk9 (V : (c : Dev nD) → (b : Ref sig .tc) → Buf (Elt Ideal) ((c : Thread nD τ).loc b)) (c : Dev nD) (t : Fin cfg7.N) :
    iblk7 V c 9 t = (V c main_arg27 : S64x3.Idx → EReal) := by
  obtain ⟨-, -, -, -, -, -, -, -, -, -, ⟨e0, e1⟩, -⟩ := idx_facts t
  funext j
  show V c main_arg27 (((cfg7.win 9).blk t).view.emb j) = V c main_arg27 j
  refine congrArg _ (funext fun a => Fin.ext ?_)
  match a with
  | ⟨0, _⟩ => show win7_9.index t (0 : Fin 2) * 64 + 1 * (j 0).val = (j 0).val; omega
  | ⟨1, _⟩ => show win7_9.index t (1 : Fin 2) * 3 + 1 * (j 1).val = (j 1).val; omega

/-- Window 10 stages its whole array at every point. -/
theorem blk10 (V : (c : Dev nD) → (b : Ref sig .tc) → Buf (Elt Ideal) ((c : Thread nD τ).loc b)) (c : Dev nD) (t : Fin cfg7.N) :
    iblk7 V c 10 t = (V c main_v171 : S1x3.Idx → EReal) := by
  obtain ⟨-, -, -, -, -, -, -, -, -, -, -, ⟨e0, e1⟩⟩ := idx_facts t
  funext j
  show V c main_v171 (((cfg7.win 10).blk t).view.emb j) = V c main_v171 j
  refine congrArg _ (funext fun a => Fin.ext ?_)
  match a with
  | ⟨0, _⟩ => show win7_10.index t (0 : Fin 2) * 1 + 1 * (j 0).val = (j 0).val; omega
  | ⟨1, _⟩ => show win7_10.index t (1 : Fin 2) * 3 + 1 * (j 1).val = (j 1).val; omega

/-- Window 0's block at point `t` is rows `8192 t … 8192 t + 8191` of the padded array. -/
theorem blk0 (V : (c : Dev nD) → (b : Ref sig .tc) → Buf (Elt Ideal) ((c : Thread nD τ).loc b)) (c : Dev nD) (t : Fin cfg7.N) (p : Fin 8192) (k : Fin 64) (R : Fin 1007616)
    (hR : R.val = t.val * 8192 + p.val) :
    iblk7 V c 0 t (ix2 p k) = (V c main_v166 : S1007616x64.Idx → EReal) (ix2 R k) := by
  obtain ⟨⟨e0, e1⟩, -⟩ := idx_facts t
  show V c main_v166 (((cfg7.win 0).blk t).view.emb (ix2 p k)) = V c main_v166 (ix2 R k)
  refine congrArg _ (funext fun a => Fin.ext ?_)
  match a with
  | ⟨0, _⟩ => show win7_0.index t (0 : Fin 2) * 8192 + 1 * p.val = R.val; omega
  | ⟨1, _⟩ => show win7_0.index t (1 : Fin 2) * 64 + 1 * k.val = k.val; omega

/-- The body's four stores tile the output block: three single columns and one block of three columns. -/
theorem cover_out (p0 : Vec Ideal S8192x3 .f32) (p1 p2 p3 : Vec Ideal S8192x1 .f32) (y : S8192x6.Idx) :
    ∃ pc ∈ ([⟨Rect.unit ![0, 3] ![8192, 3] inb_S8192x6_S8192x3_0_3, p0⟩, ⟨Rect.unit ![0, 2] ![8192, 1] inb_S8192x6_S8192x1_0_2, p1⟩,
        ⟨Rect.unit ![0, 1] ![8192, 1] inb_S8192x6_S8192x1_0_1, p2⟩, ⟨Rect.unit ![0, 0] ![8192, 1] inb_S8192x6_S8192x1_0_0, p3⟩] :
        List (View.Piece (Elt Ideal) S8192x6 .f32)), y ∈ pc.1.set :=
  View.cover_of_tiledBy _ ![8192, 1] (by sl_kernel_rfl) y

/-- What the body leaves in the output block is the row decoder of the input block, row by row: the four stores
    write the six columns, each the matching head of the row. -/
theorem out_apply (c : Dev nD) (i : grid7.Coords) (arg1 : Memref sig .tc .vmem S8192x64 .f32) (harg1 : arg1.IsWhole) (arg2 : Memref sig .tc .vmem S64x256 .f32) (harg2 : arg2.IsWhole) (arg3 : Memref sig .tc .vmem S1x256 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S64x3 .f32) (harg10 : arg10.IsWhole) (arg11 : Memref sig .tc .vmem S1x3 .f32) (harg11 : arg11.IsWhole) (arg12 : Memref sig .tc .vmem S8192x6 .f32) (harg12 : arg12.IsWhole)
    (x0 : Vec Ideal S8192x64 .f32) (x1 : Vec Ideal S64x256 .f32) (x2 : Vec Ideal S1x256 .f32) (x3 : Vec Ideal S64x1 .f32) (x4 : Vec Ideal S1x1 .f32) (x5 : Vec Ideal S64x1 .f32) (x6 : Vec Ideal S1x1 .f32) (x7 : Vec Ideal S64x1 .f32) (x8 : Vec Ideal S1x1 .f32) (x9 : Vec Ideal S64x3 .f32) (x10 : Vec Ideal S1x3 .f32) (y : S8192x6.Idx) :
    out7_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 y = decAt (R := 8192) x0 x1 x2 x3 x4 x5 x6 x7 x8 x9 x10 y := by
  unfold out7_A_11
  rw [View.read_writes_eq_canon _ _ _ (cover7_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold kernelRun7_A
  dsimp only
  sl_unfold_run_names
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S8192x64) hz, View.ld_unit_zero (S := S64x256) hz, View.ld_unit_zero (S := S1x256) hz,
    View.ld_unit_zero (S := S64x1) hz, View.ld_unit_zero (S := S1x1) hz, View.ld_unit_zero (S := S64x3) hz, View.ld_unit_zero (S := S1x3) hz]
  refine View.canon_apply_of_pieces (Val := Elt Ideal) (S := S8192x6) (e := .f32) (decAt (R := 8192) x0 x1 x2 x3 x4 x5 x6 x7 x8 x9 x10) _ ?_ y (cover_out _ _ _ _ y)
  intro pc hpc
  simp only [List.mem_cons, List.not_mem_nil, or_false] at hpc
  rcases hpc with rfl | rfl | rfl | rfl
  · intro x
    obtain ⟨p, q, rfl⟩ : ∃ (p : Fin 8192) (q : Fin 3), x = ix2 p q := ⟨x 0, x 1, eq_ix2 x⟩
    refine (pay2_apply x0 x1 x2 x9 x10 p q).trans ?_
    refine ((decAt_at x0 x1 x2 x3 x4 x5 x6 x7 x8 x9 x10 _ p (⟨3 + q.val, by omega⟩ : Fin 6) ?_ ?_).trans ?_).symm
    · show 0 + 1 * p.val = p.val; omega
    · show 3 + 1 * q.val = 3 + q.val; omega
    · have e : (⟨(3 + q.val - 3) % 3, Nat.mod_lt _ (by omega)⟩ : Fin 3) = q := Fin.ext (by show (3 + q.val - 3) % 3 = q.val; omega)
      unfold rowDec
      rw [if_neg (by show ¬ 3 + q.val = 0; omega), if_neg (by show ¬ 3 + q.val = 1; omega), if_neg (by show ¬ 3 + q.val = 2; omega)]
      show Ideal.sin (headRow 192 _ _ x9 (x10 (ix2 0 (⟨(3 + q.val - 3) % 3, _⟩ : Fin 3))) (⟨(3 + q.val - 3) % 3, _⟩ : Fin 3)) = _
      rw [e]
  · intro x
    obtain ⟨p, q, rfl⟩ : ∃ (p : Fin 8192) (q : Fin 1), x = ix2 p q := ⟨x 0, x 1, eq_ix2 x⟩
    obtain rfl : q = 0 := Subsingleton.elim _ _
    refine (pay1_apply x0 x1 x2 x7 x8 p).trans ?_
    refine ((decAt_at x0 x1 x2 x3 x4 x5 x6 x7 x8 x9 x10 _ p 2 ?_ ?_).trans ?_).symm
    · show 0 + 1 * p.val = p.val; omega
    · rfl
    · rfl
  · intro x
    obtain ⟨p, q, rfl⟩ : ∃ (p : Fin 8192) (q : Fin 1), x = ix2 p q := ⟨x 0, x 1, eq_ix2 x⟩
    obtain rfl : q = 0 := Subsingleton.elim _ _
    refine (pay8_apply x0 x1 x2 x5 x6 p).trans ?_
    refine ((decAt_at x0 x1 x2 x3 x4 x5 x6 x7 x8 x9 x10 _ p 1 ?_ ?_).trans ?_).symm
    · show 0 + 1 * p.val = p.val; omega
    · rfl
    · rfl
  · intro x
    obtain ⟨p, q, rfl⟩ : ∃ (p : Fin 8192) (q : Fin 1), x = ix2 p q := ⟨x 0, x 1, eq_ix2 x⟩
    obtain rfl : q = 0 := Subsingleton.elim _ _
    refine (pay7_apply x0 x1 x2 x3 x4 p).trans ?_
    refine ((decAt_at x0 x1 x2 x3 x4 x5 x6 x7 x8 x9 x10 _ p 0 ?_ ?_).trans ?_).symm
    · show 0 + 1 * p.val = p.val; omega
    · rfl
    · rfl

/-- What point `t` writes back is block `t` of the row-by-row decoder of the arrays as the region finds them. -/
theorem flushed_eq (V : (c : Dev nD) → (b : Ref sig .tc) → Buf (Elt Ideal) ((c : Thread nD τ).loc b)) (c : Dev nD) (t : Fin cfg7.N) :
    (dat7 (F := Ideal) V c).flushed 11 t = ((cfg7.win 11).blk t).view.read (Elt Ideal)
      (decAt (R := 1007616) (V c main_v166) (V c main_arg19) (V c main_v167) (V c main_arg21) (V c main_v168) (V c main_arg23) (V c main_v169) (V c main_arg25) (V c main_v170) (V c main_arg27) (V c main_v171)) := by
  show (cfg7.win 11).cut (grid7.coords t) ((dat7 V c).after 11 t) = _
  rw [after7_11]
  unfold outsAt7
  rw [blk1, blk2, blk3, blk4, blk5, blk6, blk7, blk8, blk9, blk10]
  obtain ⟨-, ⟨e0, e1⟩, -⟩ := idx_facts t
  funext y
  obtain ⟨p, q, rfl⟩ : ∃ (p : Fin 8192) (q : Fin 6), y = ix2 p q := ⟨y 0, y 1, eq_ix2 y⟩
  have hR : t.val * 8192 + p.val < 1007616 := by
    have hN : grid7.N = 123 := N_7
    have ht : t.val < grid7.N := t.isLt
    omega
  refine (out_apply c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (iblk7 V c 0 t) (V c main_arg19) (V c main_v167) (V c main_arg21) (V c main_v168) (V c main_arg23) (V c main_v169) (V c main_arg25) (V c main_v170) (V c main_arg27) (V c main_v171) (ix2 p q)).trans ?_
  refine (decAt_at (R := 8192) (iblk7 V c 0 t) (V c main_arg19) (V c main_v167) (V c main_arg21) (V c main_v168) (V c main_arg23) (V c main_v169) (V c main_arg25) (V c main_v170) (V c main_arg27) (V c main_v171) (ix2 p q) p q rfl rfl).trans ?_
  refine Eq.symm ((decAt_at (R := 1007616) (V c main_v166) (V c main_arg19) (V c main_v167) (V c main_arg21) (V c main_v168) (V c main_arg23) (V c main_v169) (V c main_arg25) (V c main_v170) (V c main_arg27) (V c main_v171) (((cfg7.win 11).blk t).view.emb (ix2 p q)) ⟨t.val * 8192 + p.val, hR⟩ q ?_ ?_).trans ?_)
  · show win7_11.index t (0 : Fin 2) * 8192 + 1 * p.val = t.val * 8192 + p.val; omega
  · show win7_11.index t (1 : Fin 2) * 6 + 1 * q.val = q.val; omega
  · have e : (fun k => (V c main_v166 : S1007616x64.Idx → EReal) (ix2 (⟨t.val * 8192 + p.val, hR⟩ : Fin 1007616) k))
        = fun k => iblk7 V c 0 t (ix2 p k) := funext fun k => (blk0 V c t p k ⟨t.val * 8192 + p.val, hR⟩ rfl).symm
    rw [e]

/-- An index of the padded output is in point `t`'s block iff each coordinate is in the block's range on its axis. -/
theorem mem_blk (t : Fin cfg7.N) (i : S1007616x6.Idx) :
    i ∈ ((cfg7.win 11).blk t).view.set ↔ ∀ a : Fin 2, win7_11.index t a * S8192x6.size a ≤ (i a).val ∧ (i a).val < win7_11.index t a * S8192x6.size a + S8192x6.size a := by
  show i ∈ ((View.whole main_v172).slice (win7_11.rect t)).set ↔ _
  rw [View.set_slice_whole, Rect.mem_set_unit]
  exact Iff.rfl

/-- The 123 blocks of 8192 rows cover the 1,007,616 rows: row `r` is in block `r / 8192`. -/
theorem cover (i : S1007616x6.Idx) : ∃ t : Fin cfg7.N, (cfg7.win 11).flush t = true ∧ i ∈ ((cfg7.win 11).blk t).view.set := by
  have hi0 : (i 0).val < 1007616 := idx2_lt0 i
  have hi1 : (i 1).val < 6 := idx2_lt1 i
  have hN : grid7.N = 123 := N_7
  have ht : (i 0).val / 8192 < grid7.N := by omega
  obtain ⟨-, ⟨e0, e1⟩, -⟩ := idx_facts ⟨(i 0).val / 8192, ht⟩
  refine ⟨⟨(i 0).val / 8192, ht⟩, flush7_11 _, ?_⟩
  rw [mem_blk]
  intro a
  match a with
  | ⟨0, _⟩ =>
    show win7_11.index ⟨(i 0).val / 8192, ht⟩ (0 : Fin 2) * 8192 ≤ (i 0).val ∧ (i 0).val < win7_11.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win7_11.index ⟨(i 0).val / 8192, ht⟩ (1 : Fin 2) * 6 ≤ (i 1).val ∧ (i 1).val < win7_11.index ⟨(i 0).val / 8192, ht⟩ (1 : Fin 2) * 6 + 6
    rw [e1]; omega

/-- The padded output array after the region: the row-by-row decoder of the arrays as the region finds them. -/
theorem final (V : (c : Dev nD) → (b : Ref sig .tc) → Buf (Elt Ideal) ((c : Thread nD τ).loc b)) (c : Dev nD) :
    (dat7 (F := Ideal) V c).arrAt 11 cfg7.N = decAt (R := 1007616) (V c main_v166) (V c main_arg19) (V c main_v167) (V c main_arg21) (V c main_v168) (V c main_arg23) (V c main_v169) (V c main_arg25) (V c main_v170) (V c main_arg27) (V c main_v171) :=
  (dat7 (F := Ideal) V c).arrAt_eq_of_cover 11 _ (fun t _ => flushed_eq V c t) cover

/-! ## The region's value -/

/-- REGION 7, READ: whatever the buffers hold when the region is entered, if the first 1,000,000 rows of the padded edge
    array are `e` and the ten parameter arrays are the decoder's, then after the region the first 1,000,000 rows of
    the padded output are the specification's edge decoder of them. -/
theorem value7 (V : (c : Dev nD) → (b : Ref sig .tc) → Buf (Elt Ideal) ((c : Thread nD τ).loc b)) (c : Dev nD)
    (e : Cert.Spec.Arr (Cert.Spec.sh2 1000000 64)) (epW : Cert.Spec.Arr (Cert.Spec.sh2 64 256)) (epb : Cert.Spec.Arr (Cert.Spec.sh1 256))
    (weW : Cert.Spec.Arr (Cert.Spec.sh2 64 1)) (web : Cert.Spec.Arr (Cert.Spec.sh1 1))
    (elW : Cert.Spec.Arr (Cert.Spec.sh2 64 1)) (elb : Cert.Spec.Arr (Cert.Spec.sh1 1))
    (etW : Cert.Spec.Arr (Cert.Spec.sh2 64 1)) (etb : Cert.Spec.Arr (Cert.Spec.sh1 1))
    (cpW : Cert.Spec.Arr (Cert.Spec.sh2 64 3)) (cpb : Cert.Spec.Arr (Cert.Spec.sh1 3))
    (he : ∀ (r : Fin 1000000) (k : Fin 64), (V c main_v166 : S1007616x64.Idx → EReal) (ix2 (⟨r.val, by omega⟩ : Fin 1007616) k) = e (ix2 r k))
    (hepW : (V c main_arg19 : S64x256.Idx → EReal) = epW)
    (hepb : ∀ j : Fin 256, (V c main_v167 : S1x256.Idx → EReal) (ix2 0 j) = epb (ix1 j))
    (hweW : (V c main_arg21 : S64x1.Idx → EReal) = weW) (hweb : (V c main_v168 : S1x1.Idx → EReal) (ix2 0 0) = web (ix1 0))
    (helW : (V c main_arg23 : S64x1.Idx → EReal) = elW) (helb : (V c main_v169 : S1x1.Idx → EReal) (ix2 0 0) = elb (ix1 0))
    (hetW : (V c main_arg25 : S64x1.Idx → EReal) = etW) (hetb : (V c main_v170 : S1x1.Idx → EReal) (ix2 0 0) = etb (ix1 0))
    (hcpW : (V c main_arg27 : S64x3.Idx → EReal) = cpW)
    (hcpb : ∀ q : Fin 3, (V c main_v171 : S1x3.Idx → EReal) (ix2 0 q) = cpb (ix1 q)) :
    ∀ (r : Fin 1000000) (j : Fin 6),
      ((dat7 (F := Ideal) V c).arrAt 11 cfg7.N : S1007616x6.Idx → EReal) (ix2 (⟨r.val, by omega⟩ : Fin 1007616) j)
        = Cert.Spec.edec e epW epb weW web elW elb etW etb cpW cpb (ix2 r j) := by
  intro r j
  rw [final, edec_eq, decAt_at (R := 1007616) (V c main_v166) (V c main_arg19) (V c main_v167) (V c main_arg21) (V c main_v168) (V c main_arg23) (V c main_v169) (V c main_arg25) (V c main_v170) (V c main_arg27) (V c main_v171) (ix2 (⟨r.val, by omega⟩ : Fin 1007616) j) ⟨r.val, by omega⟩ j rfl rfl]
  have e1 : (fun k => (V c main_v166 : S1007616x64.Idx → EReal) (ix2 (⟨r.val, by omega⟩ : Fin 1007616) k)) = fun k => e (ix2 r k) :=
    funext fun k => he r k
  have e2 : (fun j => (V c main_v167 : S1x256.Idx → EReal) (ix2 0 j)) = fun j => epb (ix1 j) := funext hepb
  have e3 : (fun q => (V c main_v171 : S1x3.Idx → EReal) (ix2 0 q)) = fun q => cpb (ix1 q) := funext hcpb
  rw [e1, e2, e3, hepW, hweW, hweb, helW, helb, hetW, hetb, hcpW]

end Cert.KernelIdeal.EdgeDec

end
-- ==== Proof.KD7.lean ====
/-
  The edge decoder in the idealized kernel program. The eighth region's operands are layer 2's edge message, padded below
  with rows of zeros, the decoder's projection weight and bias (the bias as one row) and the four heads' weights and
  biases, the arguments themselves. Its result, padding cut off, is the program's second result.
-/
import proofs.«118118_j10582799417469_1_alg».proof.Proof.KRun
import proofs.«118118_j10582799417469_1_alg».proof.Proof.KEval
import proofs.«118118_j10582799417469_1_alg».proof.Proof.ReadP
import proofs.«118118_j10582799417469_1_alg».proof.Proof.Rows
import proofs.«118118_j10582799417469_1_alg».proof.Proof.Spec
import proofs.«118118_j10582799417469_1_alg».proof.Proof.EdgeDec
import proofs.«118118_j10582799417469_1_alg».proof.Proof.RefDec
import proofs.«118118_j10582799417469_1_alg».proof.Proof.KL0
import proofs.«118118_j10582799417469_1_alg».proof.Proof.KL1
import proofs.«118118_j10582799417469_1_alg».proof.Proof.KL2
import proofs.«118118_j10582799417469_1_alg».proof.Proof.KL3
import proofs.«118118_j10582799417469_1_alg».proof.Proof.KL4
import Idealize.ShloMosaic.PureOps.Ideal
import Idealize.ShloMosaic.Lib.ValueLayout

set_option maxRecDepth 16384

noncomputable section

namespace Cert.KernelIdeal.KD7

open Cert.KernelIdeal Cert.KernelIdeal.Gen Cert.KernelIdeal.KEval
open Idealize.ShloMosaic Idealize.ShloMosaic.TcCoe Idealize.ShloMosaic.Tactic Idealize.SL.Sem Idealize.ShloMosaic.ValueIdx
open Cert.ReferenceIdeal.ReadP

variable (m : (ℓ : Loc nD τ sig) → Buf (Elt Ideal) ℓ) (ρ : Dev nD → PrngReg)
open Cert.KernelIdeal.KL0 Cert.KernelIdeal.KL1 Cert.KernelIdeal.KL2 Cert.KernelIdeal.KL3 Cert.KernelIdeal.KL4

theorem s144_51 (c : Dev nD) : W51 m ρ c (Proc.devRef .tc main_v144) = val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem strip166 (X : (⟨S1000000x64, .f32⟩ : BufTy).Contents (Elt Ideal)) (V : (⟨S_, .f32⟩ : BufTy).Contents (Elt Ideal)) (p h1 h2 p' h1' h2') :
    (StableHlo.TRef.of (T := ⟨S1007616x64, .f32⟩) main_v166 p h1 h2).toBuf (pad S1007616x64 ![0, 0] ![7616, 0] ![0, 0] ((StableHlo.TRef.of (T := ⟨S1000000x64, .f32⟩) main_v144 p' h1' h2').ofBuf X) V pads_S1000000x64_S1007616x64_076160_000 h_S_)
      = pad S1007616x64 ![0, 0] ![7616, 0] ![0, 0] X V pads_S1000000x64_S1007616x64_076160_000 h_S_ := rfl

theorem e166 (c : Dev nD) : ∃ v : (⟨S_, .f32⟩ : BufTy).Contents (Elt Ideal), W51 m ρ c (Proc.devRef .tc main_v166) = pad S1007616x64 ![0, 0] ![7616, 0] ![0, 0] (val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) v pads_S1000000x64_S1007616x64_076160_000 h_S_ := by
  refine ⟨?v, ?h⟩
  case h =>
    rw [← s144_51 m ρ c]
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]
    exact strip166 _ _ _ _ _ _ _ _

theorem eA19_51 (c : Dev nD) : W51 m ρ c (Proc.devRef .tc main_arg19) = (m ((c.tc : Thread nD τ).loc main_arg19)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem eA21_51 (c : Dev nD) : W51 m ρ c (Proc.devRef .tc main_arg21) = (m ((c.tc : Thread nD τ).loc main_arg21)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem eA23_51 (c : Dev nD) : W51 m ρ c (Proc.devRef .tc main_arg23) = (m ((c.tc : Thread nD τ).loc main_arg23)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem eA25_51 (c : Dev nD) : W51 m ρ c (Proc.devRef .tc main_arg25) = (m ((c.tc : Thread nD τ).loc main_arg25)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem eA27_51 (c : Dev nD) : W51 m ρ c (Proc.devRef .tc main_arg27) = (m ((c.tc : Thread nD τ).loc main_arg27)) := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem e167 (c : Dev nD) : W51 m ρ c (Proc.devRef .tc main_v167) = shapeCast S1x256 ((m ((c.tc : Thread nD τ).loc main_arg20))) shapeCasts_S256_S1x256 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem e168 (c : Dev nD) : W51 m ρ c (Proc.devRef .tc main_v168) = shapeCast S1x1 ((m ((c.tc : Thread nD τ).loc main_arg22))) shapeCasts_S1_S1x1 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem e169 (c : Dev nD) : W51 m ρ c (Proc.devRef .tc main_v169) = shapeCast S1x1 ((m ((c.tc : Thread nD τ).loc main_arg24))) shapeCasts_S1_S1x1 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem e170 (c : Dev nD) : W51 m ρ c (Proc.devRef .tc main_v170) = shapeCast S1x1 ((m ((c.tc : Thread nD τ).loc main_arg26))) shapeCasts_S1_S1x1 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

theorem e171 (c : Dev nD) : W51 m ρ c (Proc.devRef .tc main_v171) = shapeCast S1x3 ((m ((c.tc : Thread nD τ).loc main_arg28))) shapeCasts_S3_S1x3 := by
  (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]) <;> rfl

/-- The second result of the idealized kernel program is the reference's: the eighth region's rows, padding cut off,
    are the edge decoder of layer 2's edge message. -/
theorem K173 (c : Dev nD) : W53 m ρ c (Proc.devRef .tc main_v173) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  have h0 : W53 m ρ c (Proc.devRef .tc main_v173)
      = extractStridedSlice S1000000x6 ![0, 0] (W52 m ρ c (Proc.devRef .tc main_v172)) slices_S1007616x6_S1000000x6_0_0 := by
    simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', keep0, keep1, keep2, keep3, keep4, keep5, keep6, keep7, M0 m ρ c, X1 m ρ c, M1 m ρ c, X2 m ρ c, M2 m ρ c]
  rw [h0, Cert.ReferenceIdeal.RefSpec.edec_eq]
  obtain ⟨v166, h166⟩ := e166 m ρ c
  funext i
  obtain ⟨r, j, rfl⟩ : ∃ (r : Fin 1000000) (j : Fin 6), i = ix2 r j := ⟨i 0, i 1, eq_ix2 i⟩
  refine (Cert.Rows.slice_rows (P := 1007616) _ _ r j (by omega)).trans ?_
  rw [show W52 m ρ c (Proc.devRef .tc main_v172) = (dat7 (V51 m ρ) c).arrAt 11 cfg7.N from W52_arr m ρ c 11]
  exact Cert.KernelIdeal.EdgeDec.value7 (V51 m ρ) c _ _ _ _ _ _ _ _ _ _ _
    (fun r k => by
      show W51 m ρ c (Proc.devRef .tc main_v166) _ = _
      rw [h166]
      exact Cert.Rows.pad_rows _ _ _ _ r k _)
    (eA19_51 m ρ c)
    (fun j => by
      show W51 m ρ c (Proc.devRef .tc main_v167) _ = _
      rw [e167 m ρ c]
      exact shapeCast_a_1a_apply _ _ 0 j)
    (eA21_51 m ρ c)
    (by
      show W51 m ρ c (Proc.devRef .tc main_v168) _ = _
      rw [e168 m ρ c]
      exact shapeCast_a_1a_apply _ _ 0 0)
    (eA23_51 m ρ c)
    (by
      show W51 m ρ c (Proc.devRef .tc main_v169) _ = _
      rw [e169 m ρ c]
      exact shapeCast_a_1a_apply _ _ 0 0)
    (eA25_51 m ρ c)
    (by
      show W51 m ρ c (Proc.devRef .tc main_v170) _ = _
      rw [e170 m ρ c]
      exact shapeCast_a_1a_apply _ _ 0 0)
    (eA27_51 m ρ c)
    (fun j => by
      show W51 m ρ c (Proc.devRef .tc main_v171) _ = _
      rw [e171 m ρ c]
      exact shapeCast_a_1a_apply _ _ 0 j)
    r j

end Cert.KernelIdeal.KD7

end
-- ==== Proof.RefRun.lean ====
/-
  The reference program's run, read window by window. Its 232 operations are cut into 50 consecutive windows;
  the buffer contents after a window are the window's operations folded over the contents before it. A window
  leaves every buffer it does not write as it was — in particular the arguments, which no operation writes —, and
  each buffer a later window reads holds, after the window that writes it, the stage function of that buffer applied
  to the arguments' launch contents: within a window an operation's result is its function of its operands'
  contents, and the operands are earlier results of the same window or buffers already read off before it.
  Joined end to end the windows are the whole program, so after the run the two result buffers hold their stage
  functions of the arguments and the arguments are unchanged.
-/
import proofs.«118118_j10582799417469_1_alg».proof.Proof.RunOps
import proofs.«118118_j10582799417469_1_alg».proof.Proof.ReadP

noncomputable section

namespace Cert.ReferenceIdeal.RefRun

open Cert.ReferenceIdeal Cert.ReferenceIdeal.Gen Cert.ReferenceIdeal.ReadP Cert.ReferenceIdeal.ValueP Idealize.ShloMosaic Idealize.ShloMosaic.TcCoe Idealize.SL.Sem Idealize.ShloMosaic.StableHlo

variable {F : FTy → Type} [FloatOps F]

/-- Folding over a list joined from two is folding over the first, then over the second. -/
theorem after_app : ∀ (l₁ l₂ : List (HloOp τ sig (Elt F))) (V : Valuation τ sig (Elt F)),
    after (l₁ ++ l₂) V = after l₂ (after l₁ V)
  | [], _, _ => rfl
  | _ :: l₁, l₂, V => after_app l₁ l₂ _

/-- The buffer contents before the first window. -/
def st0 (V0 : Valuation τ sig (Elt F)) : Valuation τ sig (Elt F) := V0
/-- No window has run: no buffer is written yet. -/
abbrev preW0 : List (Ref sig .tc) := []
theorem st0_arg (V0 : Valuation τ sig (Elt F)) (r : Ref sig .tc) (h : r ∉ preW0) :
    st0 V0 (no_index (Proc.devRef .tc r)) = V0 (Proc.devRef .tc r) := rfl

/-- Window 1: operations 0 … 3. -/
abbrev w1 : List (HloOp τ sig (Elt F)) :=
  [ unary main_arg2 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg2 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000 ]
/-- The buffers window 1 writes. -/
abbrev w1_W : List (Ref sig .tc) := [main_v0, main_v1, main_v2, main_v3]
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 1 window. -/
def st1 (V0 : Valuation τ sig (Elt F)) : Valuation τ sig (Elt F) := after w1 (st0 V0)
/-- A buffer window 1 does not write keeps its contents through it. -/
theorem st1_keep (V0 : Valuation τ sig (Elt F)) (r : Ref sig .tc) (h : r ∉ w1_W) :
    st1 V0 (Proc.devRef .tc r) = st0 V0 (Proc.devRef .tc r) :=
  after_of_writes_sub w1 _ w1_writes h
/-- The buffers the first 1 window write. -/
abbrev preW1 : List (Ref sig .tc) := preW0 ++ w1_W
/-- A buffer none of them writes (an argument) still holds its launch contents. -/
theorem st1_arg (V0 : Valuation τ sig (Elt F)) (r : Ref sig .tc) (h : r ∉ preW1) :
    st1 V0 (no_index (Proc.devRef .tc r)) = V0 (Proc.devRef .tc r) :=
  (st1_keep V0 r fun hm => h (List.mem_append_right _ hm)).trans (st0_arg V0 r fun hm => h (List.mem_append_left _ hm))
theorem st1_main_v1 (V0 : Valuation τ sig (Elt F)) :
    st1 V0 (no_index (Proc.devRef .tc main_v1)) = val_main_v1 (F := F) (V0 (Proc.devRef .tc main_arg2)) := by
  unfold st1
  simp only [w1]
  after_results_simp
  simp only [st0_arg V0 main_arg2 (by decide)] <;> rfl
theorem st1_main_v3 (V0 : Valuation τ sig (Elt F)) :
    st1 V0 (no_index (Proc.devRef .tc main_v3)) = val_main_v3 (F := F) (V0 (Proc.devRef .tc main_arg2)) := by
  unfold st1
  simp only [w1]
  after_results_simp
  simp only [st0_arg V0 main_arg2 (by decide)] <;> rfl

/-- Window 2: operations 4 … 10. -/
abbrev w2 : List (HloOp τ sig (Elt F)) :=
  [ binary main_arg0 main_arg3 main_v4 ((fun l r => Host.dotGeneral dot_S100x64_S64x64_S100x64_1_0_0_1_n_n none l r) : (⟨S100x64, .f32⟩ : BufTy).Contents (Elt F) → (⟨S64x64, .f32⟩ : BufTy).Contents (Elt F) → (⟨S100x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S100x64 ![0, 1] bcast_S1x64_S100x64_0_1 : (⟨S1x64, .f32⟩ : BufTy).Contents (Elt F) → (⟨S100x64, .f32⟩ : BufTy).Contents (Elt F)),
    binary main_v4 main_v6 main_v7 (addf : (⟨S100x64, .f32⟩ : BufTy).Contents (Elt F) → (⟨S100x64, .f32⟩ : BufTy).Contents (Elt F) → (⟨S100x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100x64, .f32⟩) main_call0_v0) (broadcastInDim S100x64 ![] bcast_S_S100x64),
    TRef.binary (TRef.of (T := ⟨S100x64, .f32⟩) main_v7) (TRef.of (T := ⟨S100x64, .f32⟩) main_call0_v0) (TRef.of (T := ⟨S100x64, .f32⟩) main_v8) maximumf ]
/-- The buffers window 2 writes. -/
abbrev w2_W : List (Ref sig .tc) := [main_v4, main_v5, main_v6, main_v7, main_call0_cst, main_call0_v0, main_v8]
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 2 windows. -/
def st2 (V0 : Valuation τ sig (Elt F)) : Valuation τ sig (Elt F) := after w2 (st1 V0)
/-- A buffer window 2 does not write keeps its contents through it. -/
theorem st2_keep (V0 : Valuation τ sig (Elt F)) (r : Ref sig .tc) (h : r ∉ w2_W) :
    st2 V0 (Proc.devRef .tc r) = st1 V0 (Proc.devRef .tc r) :=
  after_of_writes_sub w2 _ w2_writes h
/-- The buffers the first 2 windows write. -/
abbrev preW2 : List (Ref sig .tc) := preW1 ++ w2_W
/-- A buffer none of them writes (an argument) still holds its launch contents. -/
theorem st2_arg (V0 : Valuation τ sig (Elt F)) (r : Ref sig .tc) (h : r ∉ preW2) :
    st2 V0 (no_index (Proc.devRef .tc r)) = V0 (Proc.devRef .tc r) :=
  (st2_keep V0 r fun hm => h (List.mem_append_right _ hm)).trans (st1_arg V0 r fun hm => h (List.mem_append_left _ hm))
theorem st2_main_v1 (V0 : Valuation τ sig (Elt F)) :
    st2 V0 (no_index (Proc.devRef .tc main_v1)) = val_main_v1 (F := F) (V0 (Proc.devRef .tc main_arg2)) :=
  (st2_keep V0 main_v1 (by decide)).trans (st1_main_v1 V0)
theorem st2_main_v3 (V0 : Valuation τ sig (Elt F)) :
    st2 V0 (no_index (Proc.devRef .tc main_v3)) = val_main_v3 (F := F) (V0 (Proc.devRef .tc main_arg2)) :=
  (st2_keep V0 main_v3 (by decide)).trans (st1_main_v3 V0)
theorem st2_main_v8 (V0 : Valuation τ sig (Elt F)) :
    st2 V0 (no_index (Proc.devRef .tc main_v8)) = val_main_v8 (F := F) (V0 (Proc.devRef .tc main_arg0)) (V0 (Proc.devRef .tc main_arg3)) (V0 (Proc.devRef .tc main_arg4)) := by
  unfold st2
  simp only [w2]
  after_results_simp
  simp only [st1_arg V0 main_arg4 (by decide), st1_arg V0 main_arg3 (by decide), st1_arg V0 main_arg0 (by decide)] <;> rfl

/-- Window 3: operations 11 … 16. -/
abbrev w3 : List (HloOp τ sig (Elt F)) :=
  [ binary main_v8 main_arg5 main_v9 ((fun l r => Host.dotGeneral dot_S100x64_S64x128_S100x128_1_0_0_1_n_n none l r) : (⟨S100x64, .f32⟩ : BufTy).Contents (Elt F) → (⟨S64x128, .f32⟩ : BufTy).Contents (Elt F) → (⟨S100x128, .f32⟩ : BufTy).Contents (Elt F)),
    unary main_arg6 main_v10 (broadcastInDim S1x128 ![1] bcast_S128_S1x128_1 : (⟨S128, .f32⟩ : BufTy).Contents (Elt F) → (⟨S1x128, .f32⟩ : BufTy).Contents (Elt F)),
    unary main_v10 main_v11 (broadcastInDim S100x128 ![0, 1] bcast_S1x128_S100x128_0_1 : (⟨S1x128, .f32⟩ : BufTy).Contents (Elt F) → (⟨S100x128, .f32⟩ : BufTy).Contents (Elt F)),
    binary main_v9 main_v11 main_v12 (addf : (⟨S100x128, .f32⟩ : BufTy).Contents (Elt F) → (⟨S100x128, .f32⟩ : BufTy).Contents (Elt F) → (⟨S100x128, .f32⟩ : BufTy).Contents (Elt F)),
    unary main_v12 main_v13 ((extractStridedSlice S100x64 ![0, 0] · slices_S100x128_S100x64_0_0) : (⟨S100x128, .f32⟩ : BufTy).Contents (Elt F) → (⟨S100x64, .f32⟩ : BufTy).Contents (Elt F)),
    unary main_v12 main_v14 ((extractStridedSlice S100x64 ![0, 64] · slices_S100x128_S100x64_0_64) : (⟨S100x128, .f32⟩ : BufTy).Contents (Elt F) → (⟨S100x64, .f32⟩ : BufTy).Contents (Elt F)) ]
/-- The buffers window 3 writes. -/
abbrev w3_W : List (Ref sig .tc) := [main_v9, main_v10, main_v11, main_v12, main_v13, main_v14]
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 3 windows. -/
def st3 (V0 : Valuation τ sig (Elt F)) : Valuation τ sig (Elt F) := after w3 (st2 V0)
/-- A buffer window 3 does not write keeps its contents through it. -/
theorem st3_keep (V0 : Valuation τ sig (Elt F)) (r : Ref sig .tc) (h : r ∉ w3_W) :
    st3 V0 (Proc.devRef .tc r) = st2 V0 (Proc.devRef .tc r) :=
  after_of_writes_sub w3 _ w3_writes h
/-- The buffers the first 3 windows write. -/
abbrev preW3 : List (Ref sig .tc) := preW2 ++ w3_W
/-- A buffer none of them writes (an argument) still holds its launch contents. -/
theorem st3_arg (V0 : Valuation τ sig (Elt F)) (r : Ref sig .tc) (h : r ∉ preW3) :
    st3 V0 (no_index (Proc.devRef .tc r)) = V0 (Proc.devRef .tc r) :=
  (st3_keep V0 r fun hm => h (List.mem_append_right _ hm)).trans (st2_arg V0 r fun hm => h (List.mem_append_left _ hm))
theorem st3_main_v1 (V0 : Valuation τ sig (Elt F)) :
    st3 V0 (no_index (Proc.devRef .tc main_v1)) = val_main_v1 (F := F) (V0 (Proc.devRef .tc main_arg2)) :=
  (st3_keep V0 main_v1 (by decide)).trans (st2_main_v1 V0)
theorem st3_main_v3 (V0 : Valuation τ sig (Elt F)) :
    st3 V0 (no_index (Proc.devRef .tc main_v3)) = val_main_v3 (F := F) (V0 (Proc.devRef .tc main_arg2)) :=
  (st3_keep V0 main_v3 (by decide)).trans (st2_main_v3 V0)
theorem st3_main_v13 (V0 : Valuation τ sig (Elt F)) :
    st3 V0 (no_index (Proc.devRef .tc main_v13)) = val_main_v13 (F := F) (V0 (Proc.devRef .tc main_arg0)) (V0 (Proc.devRef .tc main_arg3)) (V0 (Proc.devRef .tc main_arg4)) (V0 (Proc.devRef .tc main_arg5)) (V0 (Proc.devRef .tc main_arg6)) := by
  unfold st3
  simp only [w3]
  after_results_simp
  simp only [st2_arg V0 main_arg6 (by decide), st2_arg V0 main_arg5 (by decide), st2_main_v8] <;> rfl
theorem st3_main_v14 (V0 : Valuation τ sig (Elt F)) :
    st3 V0 (no_index (Proc.devRef .tc main_v14)) = val_main_v14 (F := F) (V0 (Proc.devRef .tc main_arg0)) (V0 (Proc.devRef .tc main_arg3)) (V0 (Proc.devRef .tc main_arg4)) (V0 (Proc.devRef .tc main_arg5)) (V0 (Proc.devRef .tc main_arg6)) := by
  unfold st3
  simp only [w3]
  after_results_simp
  simp only [st2_arg V0 main_arg6 (by decide), st2_arg V0 main_arg5 (by decide), st2_main_v8] <;> rfl

/-- Window 4: operations 17 … 24. -/
abbrev w4 : List (HloOp τ sig (Elt F)) :=
  [ nullary main_c (constantI S_ 32 0#32),
    unary main_c main_v15 (broadcastInDim S100000 ![] bcast_S_S100000 : (⟨S_, .i32⟩ : BufTy).Contents (Elt F) → (⟨S100000, .i32⟩ : BufTy).Contents (Elt F)),
    binary main_arg1 main_v15 main_v16 (cmpi .slt : (⟨S100000, .i32⟩ : BufTy).Contents (Elt F) → (⟨S100000, .i32⟩ : BufTy).Contents (Elt F) → (⟨S100000, .i1⟩ : BufTy).Contents (Elt F)),
    nullary main_c_0 (constantI S_ 32 100#32),
    unary main_c_0 main_v17 (broadcastInDim S100000 ![] bcast_S_S100000 : (⟨S_, .i32⟩ : BufTy).Contents (Elt F) → (⟨S100000, .i32⟩ : BufTy).Contents (Elt F)),
    binary main_arg1 main_v17 main_v18 (addi : (⟨S100000, .i32⟩ : BufTy).Contents (Elt F) → (⟨S100000, .i32⟩ : BufTy).Contents (Elt F) → (⟨S100000, .i32⟩ : BufTy).Contents (Elt F)),
    ternary main_v16 main_v18 main_arg1 main_v19 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v19 main_v20 (broadcastInDim S100000x1 ![0] bcast_S100000_S100000x1_0 : (⟨S100000, .i32⟩ : BufTy).Contents (Elt F) → (⟨S100000x1, .i32⟩ : BufTy).Contents (Elt F)) ]
/-- The buffers window 4 writes. -/
abbrev w4_W : List (Ref sig .tc) := [main_c, main_v15, main_v16, main_c_0, main_v17, main_v18, main_v19, main_v20]
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 4 windows. -/
def st4 (V0 : Valuation τ sig (Elt F)) : Valuation τ sig (Elt F) := after w4 (st3 V0)
/-- A buffer window 4 does not write keeps its contents through it. -/
theorem st4_keep (V0 : Valuation τ sig (Elt F)) (r : Ref sig .tc) (h : r ∉ w4_W) :
    st4 V0 (Proc.devRef .tc r) = st3 V0 (Proc.devRef .tc r) :=
  after_of_writes_sub w4 _ w4_writes h
/-- The buffers the first 4 windows write. -/
abbrev preW4 : List (Ref sig .tc) := preW3 ++ w4_W
/-- A buffer none of them writes (an argument) still holds its launch contents. -/
theorem st4_arg (V0 : Valuation τ sig (Elt F)) (r : Ref sig .tc) (h : r ∉ preW4) :
    st4 V0 (no_index (Proc.devRef .tc r)) = V0 (Proc.devRef .tc r) :=
  (st4_keep V0 r fun hm => h (List.mem_append_right _ hm)).trans (st3_arg V0 r fun hm => h (List.mem_append_left _ hm))
theorem st4_main_v1 (V0 : Valuation τ sig (Elt F)) :
    st4 V0 (no_index (Proc.devRef .tc main_v1)) = val_main_v1 (F := F) (V0 (Proc.devRef .tc main_arg2)) :=
  (st4_keep V0 main_v1 (by decide)).trans (st3_main_v1 V0)
theorem st4_main_v3 (V0 : Valuation τ sig (Elt F)) :
    st4 V0 (no_index (Proc.devRef .tc main_v3)) = val_main_v3 (F := F) (V0 (Proc.devRef .tc main_arg2)) :=
  (st4_keep V0 main_v3 (by decide)).trans (st3_main_v3 V0)
theorem st4_main_v13 (V0 : Valuation τ sig (Elt F)) :
    st4 V0 (no_index (Proc.devRef .tc main_v13)) = val_main_v13 (F := F) (V0 (Proc.devRef .tc main_arg0)) (V0 (Proc.devRef .tc main_arg3)) (V0 (Proc.devRef .tc main_arg4)) (V0 (Proc.devRef .tc main_arg5)) (V0 (Proc.devRef .tc main_arg6)) :=
  (st4_keep V0 main_v13 (by decide)).trans (st3_main_v13 V0)
theorem st4_main_v14 (V0 : Valuation τ sig (Elt F)) :
    st4 V0 (no_index (Proc.devRef .tc main_v14)) = val_main_v14 (F := F) (V0 (Proc.devRef .tc main_arg0)) (V0 (Proc.devRef .tc main_arg3)) (V0 (Proc.devRef .tc main_arg4)) (V0 (Proc.devRef .tc main_arg5)) (V0 (Proc.devRef .tc main_arg6)) :=
  (st4_keep V0 main_v14 (by decide)).trans (st3_main_v14 V0)
theorem st4_main_v20 (V0 : Valuation τ sig (Elt F)) :
    st4 V0 (no_index (Proc.devRef .tc main_v20)) = val_main_v20 (F := F) (V0 (Proc.devRef .tc main_arg1)) := by
  unfold st4
  simp only [w4]
  after_results_simp
  simp only [st3_arg V0 main_arg1 (by decide)] <;> rfl

/-- Window 5: operations 25 … 25. -/
abbrev w5 : List (HloOp τ sig (Elt F)) :=
  [ binary main_v13 main_v20 main_v21 ((fun x i => Host.gather gather_S100x64_S100000x1_S100000x64_1_0_n_n_0_1_164 x i) : (⟨S100x64, .f32⟩ : BufTy).Contents (Elt F) → (⟨S100000x1, .i32⟩ : BufTy).Contents (Elt F) → (⟨S100000x64, .f32⟩ : BufTy).Contents (Elt F)) ]
/-- The buffers window 5 writes. -/
abbrev w5_W : List (Ref sig .tc) := [main_v21]
theorem w5_writes : (w5 : List (HloOp τ sig (Elt F))).Forall fun op => op.writes ⊆ (w5_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 5 windows. -/
def st5 (V0 : Valuation τ sig (Elt F)) : Valuation τ sig (Elt F) := after w5 (st4 V0)
/-- A buffer window 5 does not write keeps its contents through it. -/
theorem st5_keep (V0 : Valuation τ sig (Elt F)) (r : Ref sig .tc) (h : r ∉ w5_W) :
    st5 V0 (Proc.devRef .tc r) = st4 V0 (Proc.devRef .tc r) :=
  after_of_writes_sub w5 _ w5_writes h
/-- The buffers the first 5 windows write. -/
abbrev preW5 : List (Ref sig .tc) := preW4 ++ w5_W
/-- A buffer none of them writes (an argument) still holds its launch contents. -/
theorem st5_arg (V0 : Valuation τ sig (Elt F)) (r : Ref sig .tc) (h : r ∉ preW5) :
    st5 V0 (no_index (Proc.devRef .tc r)) = V0 (Proc.devRef .tc r) :=
  (st5_keep V0 r fun hm => h (List.mem_append_right _ hm)).trans (st4_arg V0 r fun hm => h (List.mem_append_left _ hm))
theorem st5_main_v1 (V0 : Valuation τ sig (Elt F)) :
    st5 V0 (no_index (Proc.devRef .tc main_v1)) = val_main_v1 (F := F) (V0 (Proc.devRef .tc main_arg2)) :=
  (st5_keep V0 main_v1 (by decide)).trans (st4_main_v1 V0)
theorem st5_main_v3 (V0 : Valuation τ sig (Elt F)) :
    st5 V0 (no_index (Proc.devRef .tc main_v3)) = val_main_v3 (F := F) (V0 (Proc.devRef .tc main_arg2)) :=
  (st5_keep V0 main_v3 (by decide)).trans (st4_main_v3 V0)
theorem st5_main_v14 (V0 : Valuation τ sig (Elt F)) :
    st5 V0 (no_index (Proc.devRef .tc main_v14)) = val_main_v14 (F := F) (V0 (Proc.devRef .tc main_arg0)) (V0 (Proc.devRef .tc main_arg3)) (V0 (Proc.devRef .tc main_arg4)) (V0 (Proc.devRef .tc main_arg5)) (V0 (Proc.devRef .tc main_arg6)) :=
  (st5_keep V0 main_v14 (by decide)).trans (st4_main_v14 V0)
theorem st5_main_v21 (V0 : Valuation τ sig (Elt F)) :
    st5 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold st5
  simp only [w5]
  after_results_simp
  simp only [st4_main_v20, st4_main_v13] <;> rfl

/-- Window 6: operations 26 … 33. -/
abbrev w6 : List (HloOp τ sig (Elt F)) :=
  [ nullary main_c_1 (constantI S_ 32 0#32),
    unary main_c_1 main_v22 (broadcastInDim S1000000 ![] bcast_S_S1000000 : (⟨S_, .i32⟩ : BufTy).Contents (Elt F) → (⟨S1000000, .i32⟩ : BufTy).Contents (Elt F)),
    binary main_v1 main_v22 main_v23 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 100000#32),
    unary main_c_2 main_v24 (broadcastInDim S1000000 ![] bcast_S_S1000000 : (⟨S_, .i32⟩ : BufTy).Contents (Elt F) → (⟨S1000000, .i32⟩ : BufTy).Contents (Elt F)),
    binary main_v1 main_v24 main_v25 (addi : (⟨S1000000, .i32⟩ : BufTy).Contents (Elt F) → (⟨S1000000, .i32⟩ : BufTy).Contents (Elt F) → (⟨S1000000, .i32⟩ : BufTy).Contents (Elt F)),
    ternary main_v23 main_v25 main_v1 main_v26 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v26 main_v27 (broadcastInDim S1000000x1 ![0] bcast_S1000000_S1000000x1_0 : (⟨S1000000, .i32⟩ : BufTy).Contents (Elt F) → (⟨S1000000x1, .i32⟩ : BufTy).Contents (Elt F)) ]
/-- The buffers window 6 writes. -/
abbrev w6_W : List (Ref sig .tc) := [main_c_1, main_v22, main_v23, main_c_2, main_v24, main_v25, main_v26, main_v27]
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 6 windows. -/
def st6 (V0 : Valuation τ sig (Elt F)) : Valuation τ sig (Elt F) := after w6 (st5 V0)
/-- A buffer window 6 does not write keeps its contents through it. -/
theorem st6_keep (V0 : Valuation τ sig (Elt F)) (r : Ref sig .tc) (h : r ∉ w6_W) :
    st6 V0 (Proc.devRef .tc r) = st5 V0 (Proc.devRef .tc r) :=
  after_of_writes_sub w6 _ w6_writes h
/-- The buffers the first 6 windows write. -/
abbrev preW6 : List (Ref sig .tc) := preW5 ++ w6_W
/-- A buffer none of them writes (an argument) still holds its launch contents. -/
theorem st6_arg (V0 : Valuation τ sig (Elt F)) (r : Ref sig .tc) (h : r ∉ preW6) :
    st6 V0 (no_index (Proc.devRef .tc r)) = V0 (Proc.devRef .tc r) :=
  (st6_keep V0 r fun hm => h (List.mem_append_right _ hm)).trans (st5_arg V0 r fun hm => h (List.mem_append_left _ hm))
theorem st6_main_v1 (V0 : Valuation τ sig (Elt F)) :
    st6 V0 (no_index (Proc.devRef .tc main_v1)) = val_main_v1 (F := F) (V0 (Proc.devRef .tc main_arg2)) :=
  (st6_keep V0 main_v1 (by decide)).trans (st5_main_v1 V0)
theorem st6_main_v3 (V0 : Valuation τ sig (Elt F)) :
    st6 V0 (no_index (Proc.devRef .tc main_v3)) = val_main_v3 (F := F) (V0 (Proc.devRef .tc main_arg2)) :=
  (st6_keep V0 main_v3 (by decide)).trans (st5_main_v3 V0)
theorem st6_main_v14 (V0 : Valuation τ sig (Elt F)) :
    st6 V0 (no_index (Proc.devRef .tc main_v14)) = val_main_v14 (F := F) (V0 (Proc.devRef .tc main_arg0)) (V0 (Proc.devRef .tc main_arg3)) (V0 (Proc.devRef .tc main_arg4)) (V0 (Proc.devRef .tc main_arg5)) (V0 (Proc.devRef .tc main_arg6)) :=
  (st6_keep V0 main_v14 (by decide)).trans (st5_main_v14 V0)
theorem st6_main_v21 (V0 : Valuation τ sig (Elt F)) :
    st6 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st6_keep V0 main_v21 (by decide)).trans (st5_main_v21 V0)
theorem st6_main_v27 (V0 : Valuation τ sig (Elt F)) :
    st6 V0 (no_index (Proc.devRef .tc main_v27)) = val_main_v27 (F := F) (V0 (Proc.devRef .tc main_arg2)) := by
  unfold st6
  simp only [w6]
  after_results_simp
  simp only [st5_main_v1] <;> rfl

/-- Window 7: operations 34 … 34. -/
abbrev w7 : List (HloOp τ sig (Elt F)) :=
  [ binary main_arg1 main_v27 main_v28 ((fun x i => Host.gather gather_S100000_S1000000x1_S1000000_n_0_n_n_0_1_1 x i) : (⟨S100000, .i32⟩ : BufTy).Contents (Elt F) → (⟨S1000000x1, .i32⟩ : BufTy).Contents (Elt F) → (⟨S1000000, .i32⟩ : BufTy).Contents (Elt F)) ]
/-- The buffers window 7 writes. -/
abbrev w7_W : List (Ref sig .tc) := [main_v28]
theorem w7_writes : (w7 : List (HloOp τ sig (Elt F))).Forall fun op => op.writes ⊆ (w7_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 7 windows. -/
def st7 (V0 : Valuation τ sig (Elt F)) : Valuation τ sig (Elt F) := after w7 (st6 V0)
/-- A buffer window 7 does not write keeps its contents through it. -/
theorem st7_keep (V0 : Valuation τ sig (Elt F)) (r : Ref sig .tc) (h : r ∉ w7_W) :
    st7 V0 (Proc.devRef .tc r) = st6 V0 (Proc.devRef .tc r) :=
  after_of_writes_sub w7 _ w7_writes h
/-- The buffers the first 7 windows write. -/
abbrev preW7 : List (Ref sig .tc) := preW6 ++ w7_W
/-- A buffer none of them writes (an argument) still holds its launch contents. -/
theorem st7_arg (V0 : Valuation τ sig (Elt F)) (r : Ref sig .tc) (h : r ∉ preW7) :
    st7 V0 (no_index (Proc.devRef .tc r)) = V0 (Proc.devRef .tc r) :=
  (st7_keep V0 r fun hm => h (List.mem_append_right _ hm)).trans (st6_arg V0 r fun hm => h (List.mem_append_left _ hm))
theorem st7_main_v1 (V0 : Valuation τ sig (Elt F)) :
    st7 V0 (no_index (Proc.devRef .tc main_v1)) = val_main_v1 (F := F) (V0 (Proc.devRef .tc main_arg2)) :=
  (st7_keep V0 main_v1 (by decide)).trans (st6_main_v1 V0)
theorem st7_main_v3 (V0 : Valuation τ sig (Elt F)) :
    st7 V0 (no_index (Proc.devRef .tc main_v3)) = val_main_v3 (F := F) (V0 (Proc.devRef .tc main_arg2)) :=
  (st7_keep V0 main_v3 (by decide)).trans (st6_main_v3 V0)
theorem st7_main_v14 (V0 : Valuation τ sig (Elt F)) :
    st7 V0 (no_index (Proc.devRef .tc main_v14)) = val_main_v14 (F := F) (V0 (Proc.devRef .tc main_arg0)) (V0 (Proc.devRef .tc main_arg3)) (V0 (Proc.devRef .tc main_arg4)) (V0 (Proc.devRef .tc main_arg5)) (V0 (Proc.devRef .tc main_arg6)) :=
  (st7_keep V0 main_v14 (by decide)).trans (st6_main_v14 V0)
theorem st7_main_v21 (V0 : Valuation τ sig (Elt F)) :
    st7 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st7_keep V0 main_v21 (by decide)).trans (st6_main_v21 V0)
theorem st7_main_v28 (V0 : Valuation τ sig (Elt F)) :
    st7 V0 (no_index (Proc.devRef .tc main_v28)) = val_main_v28 (F := F) (V0 (Proc.devRef .tc main_arg1)) (V0 (Proc.devRef .tc main_arg2)) := by
  unfold st7
  simp only [w7]
  after_results_simp
  simp only [st6_main_v27, st6_arg V0 main_arg1 (by decide)] <;> rfl

/-- Window 8: operations 35 … 42. -/
abbrev w8 : List (HloOp τ sig (Elt F)) :=
  [ nullary main_c_3 (constantI S_ 32 0#32),
    unary main_c_3 main_v29 (broadcastInDim S1000000 ![] bcast_S_S1000000 : (⟨S_, .i32⟩ : BufTy).Contents (Elt F) → (⟨S1000000, .i32⟩ : BufTy).Contents (Elt F)),
    binary main_v28 main_v29 main_v30 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 100#32),
    unary main_c_4 main_v31 (broadcastInDim S1000000 ![] bcast_S_S1000000 : (⟨S_, .i32⟩ : BufTy).Contents (Elt F) → (⟨S1000000, .i32⟩ : BufTy).Contents (Elt F)),
    binary main_v28 main_v31 main_v32 (addi : (⟨S1000000, .i32⟩ : BufTy).Contents (Elt F) → (⟨S1000000, .i32⟩ : BufTy).Contents (Elt F) → (⟨S1000000, .i32⟩ : BufTy).Contents (Elt F)),
    ternary main_v30 main_v32 main_v28 main_v33 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v33 main_v34 (broadcastInDim S1000000x1 ![0] bcast_S1000000_S1000000x1_0 : (⟨S1000000, .i32⟩ : BufTy).Contents (Elt F) → (⟨S1000000x1, .i32⟩ : BufTy).Contents (Elt F)) ]
/-- The buffers window 8 writes. -/
abbrev w8_W : List (Ref sig .tc) := [main_c_3, main_v29, main_v30, main_c_4, main_v31, main_v32, main_v33, main_v34]
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 8 windows. -/
def st8 (V0 : Valuation τ sig (Elt F)) : Valuation τ sig (Elt F) := after w8 (st7 V0)
/-- A buffer window 8 does not write keeps its contents through it. -/
theorem st8_keep (V0 : Valuation τ sig (Elt F)) (r : Ref sig .tc) (h : r ∉ w8_W) :
    st8 V0 (Proc.devRef .tc r) = st7 V0 (Proc.devRef .tc r) :=
  after_of_writes_sub w8 _ w8_writes h
/-- The buffers the first 8 windows write. -/
abbrev preW8 : List (Ref sig .tc) := preW7 ++ w8_W
/-- A buffer none of them writes (an argument) still holds its launch contents. -/
theorem st8_arg (V0 : Valuation τ sig (Elt F)) (r : Ref sig .tc) (h : r ∉ preW8) :
    st8 V0 (no_index (Proc.devRef .tc r)) = V0 (Proc.devRef .tc r) :=
  (st8_keep V0 r fun hm => h (List.mem_append_right _ hm)).trans (st7_arg V0 r fun hm => h (List.mem_append_left _ hm))
theorem st8_main_v1 (V0 : Valuation τ sig (Elt F)) :
    st8 V0 (no_index (Proc.devRef .tc main_v1)) = val_main_v1 (F := F) (V0 (Proc.devRef .tc main_arg2)) :=
  (st8_keep V0 main_v1 (by decide)).trans (st7_main_v1 V0)
theorem st8_main_v3 (V0 : Valuation τ sig (Elt F)) :
    st8 V0 (no_index (Proc.devRef .tc main_v3)) = val_main_v3 (F := F) (V0 (Proc.devRef .tc main_arg2)) :=
  (st8_keep V0 main_v3 (by decide)).trans (st7_main_v3 V0)
theorem st8_main_v14 (V0 : Valuation τ sig (Elt F)) :
    st8 V0 (no_index (Proc.devRef .tc main_v14)) = val_main_v14 (F := F) (V0 (Proc.devRef .tc main_arg0)) (V0 (Proc.devRef .tc main_arg3)) (V0 (Proc.devRef .tc main_arg4)) (V0 (Proc.devRef .tc main_arg5)) (V0 (Proc.devRef .tc main_arg6)) :=
  (st8_keep V0 main_v14 (by decide)).trans (st7_main_v14 V0)
theorem st8_main_v21 (V0 : Valuation τ sig (Elt F)) :
    st8 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st8_keep V0 main_v21 (by decide)).trans (st7_main_v21 V0)
theorem st8_main_v34 (V0 : Valuation τ sig (Elt F)) :
    st8 V0 (no_index (Proc.devRef .tc main_v34)) = val_main_v34 (F := F) (V0 (Proc.devRef .tc main_arg1)) (V0 (Proc.devRef .tc main_arg2)) := by
  unfold st8
  simp only [w8]
  after_results_simp
  simp only [st7_main_v28] <;> rfl

/-- Window 9: operations 43 … 43. -/
abbrev w9 : List (HloOp τ sig (Elt F)) :=
  [ binary main_v14 main_v34 main_v35 ((fun x i => Host.gather gather_S100x64_S1000000x1_S1000000x64_1_0_n_n_0_1_164 x i) : (⟨S100x64, .f32⟩ : BufTy).Contents (Elt F) → (⟨S1000000x1, .i32⟩ : BufTy).Contents (Elt F) → (⟨S1000000x64, .f32⟩ : BufTy).Contents (Elt F)) ]
/-- The buffers window 9 writes. -/
abbrev w9_W : List (Ref sig .tc) := [main_v35]
theorem w9_writes : (w9 : List (HloOp τ sig (Elt F))).Forall fun op => op.writes ⊆ (w9_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 9 windows. -/
def st9 (V0 : Valuation τ sig (Elt F)) : Valuation τ sig (Elt F) := after w9 (st8 V0)
/-- A buffer window 9 does not write keeps its contents through it. -/
theorem st9_keep (V0 : Valuation τ sig (Elt F)) (r : Ref sig .tc) (h : r ∉ w9_W) :
    st9 V0 (Proc.devRef .tc r) = st8 V0 (Proc.devRef .tc r) :=
  after_of_writes_sub w9 _ w9_writes h
/-- The buffers the first 9 windows write. -/
abbrev preW9 : List (Ref sig .tc) := preW8 ++ w9_W
/-- A buffer none of them writes (an argument) still holds its launch contents. -/
theorem st9_arg (V0 : Valuation τ sig (Elt F)) (r : Ref sig .tc) (h : r ∉ preW9) :
    st9 V0 (no_index (Proc.devRef .tc r)) = V0 (Proc.devRef .tc r) :=
  (st9_keep V0 r fun hm => h (List.mem_append_right _ hm)).trans (st8_arg V0 r fun hm => h (List.mem_append_left _ hm))
theorem st9_main_v1 (V0 : Valuation τ sig (Elt F)) :
    st9 V0 (no_index (Proc.devRef .tc main_v1)) = val_main_v1 (F := F) (V0 (Proc.devRef .tc main_arg2)) :=
  (st9_keep V0 main_v1 (by decide)).trans (st8_main_v1 V0)
theorem st9_main_v3 (V0 : Valuation τ sig (Elt F)) :
    st9 V0 (no_index (Proc.devRef .tc main_v3)) = val_main_v3 (F := F) (V0 (Proc.devRef .tc main_arg2)) :=
  (st9_keep V0 main_v3 (by decide)).trans (st8_main_v3 V0)
theorem st9_main_v21 (V0 : Valuation τ sig (Elt F)) :
    st9 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st9_keep V0 main_v21 (by decide)).trans (st8_main_v21 V0)
theorem st9_main_v35 (V0 : Valuation τ sig (Elt F)) :
    st9 V0 (no_index (Proc.devRef .tc main_v35)) = val_main_v35 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold st9
  simp only [w9]
  after_results_simp
  simp only [st8_main_v34, st8_main_v14] <;> rfl

/-- Window 10: operations 44 … 51. -/
abbrev w10 : List (HloOp τ sig (Elt F)) :=
  [ nullary main_c_5 (constantI S_ 32 0#32),
    unary main_c_5 main_v36 (broadcastInDim S1000000 ![] bcast_S_S1000000 : (⟨S_, .i32⟩ : BufTy).Contents (Elt F) → (⟨S1000000, .i32⟩ : BufTy).Contents (Elt F)),
    binary main_v1 main_v36 main_v37 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 100000#32),
    unary main_c_6 main_v38 (broadcastInDim S1000000 ![] bcast_S_S1000000 : (⟨S_, .i32⟩ : BufTy).Contents (Elt F) → (⟨S1000000, .i32⟩ : BufTy).Contents (Elt F)),
    binary main_v1 main_v38 main_v39 (addi : (⟨S1000000, .i32⟩ : BufTy).Contents (Elt F) → (⟨S1000000, .i32⟩ : BufTy).Contents (Elt F) → (⟨S1000000, .i32⟩ : BufTy).Contents (Elt F)),
    ternary main_v37 main_v39 main_v1 main_v40 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v40 main_v41 (broadcastInDim S1000000x1 ![0] bcast_S1000000_S1000000x1_0 : (⟨S1000000, .i32⟩ : BufTy).Contents (Elt F) → (⟨S1000000x1, .i32⟩ : BufTy).Contents (Elt F)) ]
/-- The buffers window 10 writes. -/
abbrev w10_W : List (Ref sig .tc) := [main_c_5, main_v36, main_v37, main_c_6, main_v38, main_v39, main_v40, main_v41]
theorem w10_writes : (w10 : List (HloOp τ sig (Elt F))).Forall fun op => op.writes ⊆ (w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 10 windows. -/
def st10 (V0 : Valuation τ sig (Elt F)) : Valuation τ sig (Elt F) := after w10 (st9 V0)
/-- A buffer window 10 does not write keeps its contents through it. -/
theorem st10_keep (V0 : Valuation τ sig (Elt F)) (r : Ref sig .tc) (h : r ∉ w10_W) :
    st10 V0 (Proc.devRef .tc r) = st9 V0 (Proc.devRef .tc r) :=
  after_of_writes_sub w10 _ w10_writes h
/-- The buffers the first 10 windows write. -/
abbrev preW10 : List (Ref sig .tc) := preW9 ++ w10_W
/-- A buffer none of them writes (an argument) still holds its launch contents. -/
theorem st10_arg (V0 : Valuation τ sig (Elt F)) (r : Ref sig .tc) (h : r ∉ preW10) :
    st10 V0 (no_index (Proc.devRef .tc r)) = V0 (Proc.devRef .tc r) :=
  (st10_keep V0 r fun hm => h (List.mem_append_right _ hm)).trans (st9_arg V0 r fun hm => h (List.mem_append_left _ hm))
theorem st10_main_v1 (V0 : Valuation τ sig (Elt F)) :
    st10 V0 (no_index (Proc.devRef .tc main_v1)) = val_main_v1 (F := F) (V0 (Proc.devRef .tc main_arg2)) :=
  (st10_keep V0 main_v1 (by decide)).trans (st9_main_v1 V0)
theorem st10_main_v3 (V0 : Valuation τ sig (Elt F)) :
    st10 V0 (no_index (Proc.devRef .tc main_v3)) = val_main_v3 (F := F) (V0 (Proc.devRef .tc main_arg2)) :=
  (st10_keep V0 main_v3 (by decide)).trans (st9_main_v3 V0)
theorem st10_main_v21 (V0 : Valuation τ sig (Elt F)) :
    st10 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st10_keep V0 main_v21 (by decide)).trans (st9_main_v21 V0)
theorem st10_main_v35 (V0 : Valuation τ sig (Elt F)) :
    st10 V0 (no_index (Proc.devRef .tc main_v35)) = val_main_v35 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (st10_keep V0 main_v35 (by decide)).trans (st9_main_v35 V0)
theorem st10_main_v41 (V0 : Valuation τ sig (Elt F)) :
    st10 V0 (no_index (Proc.devRef .tc main_v41)) = val_main_v41 (F := F) (V0 (Proc.devRef .tc main_arg2)) := by
  unfold st10
  simp only [w10]
  after_results_simp
  simp only [st9_main_v1] <;> rfl

/-- Window 11: operations 52 … 52. -/
abbrev w11 : List (HloOp τ sig (Elt F)) :=
  [ binary main_v21 main_v41 main_v42 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
/-- The buffers window 11 writes. -/
abbrev w11_W : List (Ref sig .tc) := [main_v42]
theorem w11_writes : (w11 : List (HloOp τ sig (Elt F))).Forall fun op => op.writes ⊆ (w11_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 11 windows. -/
def st11 (V0 : Valuation τ sig (Elt F)) : Valuation τ sig (Elt F) := after w11 (st10 V0)
/-- A buffer window 11 does not write keeps its contents through it. -/
theorem st11_keep (V0 : Valuation τ sig (Elt F)) (r : Ref sig .tc) (h : r ∉ w11_W) :
    st11 V0 (Proc.devRef .tc r) = st10 V0 (Proc.devRef .tc r) :=
  after_of_writes_sub w11 _ w11_writes h
/-- The buffers the first 11 windows write. -/
abbrev preW11 : List (Ref sig .tc) := preW10 ++ w11_W
/-- A buffer none of them writes (an argument) still holds its launch contents. -/
theorem st11_arg (V0 : Valuation τ sig (Elt F)) (r : Ref sig .tc) (h : r ∉ preW11) :
    st11 V0 (no_index (Proc.devRef .tc r)) = V0 (Proc.devRef .tc r) :=
  (st11_keep V0 r fun hm => h (List.mem_append_right _ hm)).trans (st10_arg V0 r fun hm => h (List.mem_append_left _ hm))
theorem st11_main_v1 (V0 : Valuation τ sig (Elt F)) :
    st11 V0 (no_index (Proc.devRef .tc main_v1)) = val_main_v1 (F := F) (V0 (Proc.devRef .tc main_arg2)) :=
  (st11_keep V0 main_v1 (by decide)).trans (st10_main_v1 V0)
theorem st11_main_v3 (V0 : Valuation τ sig (Elt F)) :
    st11 V0 (no_index (Proc.devRef .tc main_v3)) = val_main_v3 (F := F) (V0 (Proc.devRef .tc main_arg2)) :=
  (st11_keep V0 main_v3 (by decide)).trans (st10_main_v3 V0)
theorem st11_main_v21 (V0 : Valuation τ sig (Elt F)) :
    st11 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st11_keep V0 main_v21 (by decide)).trans (st10_main_v21 V0)
theorem st11_main_v35 (V0 : Valuation τ sig (Elt F)) :
    st11 V0 (no_index (Proc.devRef .tc main_v35)) = val_main_v35 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (st11_keep V0 main_v35 (by decide)).trans (st10_main_v35 V0)
theorem st11_main_v42 (V0 : Valuation τ sig (Elt F)) :
    st11 V0 (no_index (Proc.devRef .tc main_v42)) = val_main_v42 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold st11
  simp only [w11]
  after_results_simp
  simp only [st10_main_v41, st10_main_v21] <;> rfl

/-- Window 12: operations 53 … 60. -/
abbrev w12 : List (HloOp τ sig (Elt F)) :=
  [ nullary main_c_7 (constantI S_ 32 0#32),
    unary main_c_7 main_v43 (broadcastInDim S1000000 ![] bcast_S_S1000000 : (⟨S_, .i32⟩ : BufTy).Contents (Elt F) → (⟨S1000000, .i32⟩ : BufTy).Contents (Elt F)),
    binary main_v3 main_v43 main_v44 (cmpi .slt : (⟨S1000000, .i32⟩ : BufTy).Contents (Elt F) → (⟨S1000000, .i32⟩ : BufTy).Contents (Elt F) → (⟨S1000000, .i1⟩ : BufTy).Contents (Elt F)),
    nullary main_c_8 (constantI S_ 32 100000#32),
    unary main_c_8 main_v45 (broadcastInDim S1000000 ![] bcast_S_S1000000 : (⟨S_, .i32⟩ : BufTy).Contents (Elt F) → (⟨S1000000, .i32⟩ : BufTy).Contents (Elt F)),
    binary main_v3 main_v45 main_v46 (addi : (⟨S1000000, .i32⟩ : BufTy).Contents (Elt F) → (⟨S1000000, .i32⟩ : BufTy).Contents (Elt F) → (⟨S1000000, .i32⟩ : BufTy).Contents (Elt F)),
    ternary main_v44 main_v46 main_v3 main_v47 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v47 main_v48 (broadcastInDim S1000000x1 ![0] bcast_S1000000_S1000000x1_0 : (⟨S1000000, .i32⟩ : BufTy).Contents (Elt F) → (⟨S1000000x1, .i32⟩ : BufTy).Contents (Elt F)) ]
/-- The buffers window 12 writes. -/
abbrev w12_W : List (Ref sig .tc) := [main_c_7, main_v43, main_v44, main_c_8, main_v45, main_v46, main_v47, main_v48]
theorem w12_writes : (w12 : List (HloOp τ sig (Elt F))).Forall fun op => op.writes ⊆ (w12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 12 windows. -/
def st12 (V0 : Valuation τ sig (Elt F)) : Valuation τ sig (Elt F) := after w12 (st11 V0)
/-- A buffer window 12 does not write keeps its contents through it. -/
theorem st12_keep (V0 : Valuation τ sig (Elt F)) (r : Ref sig .tc) (h : r ∉ w12_W) :
    st12 V0 (Proc.devRef .tc r) = st11 V0 (Proc.devRef .tc r) :=
  after_of_writes_sub w12 _ w12_writes h
/-- The buffers the first 12 windows write. -/
abbrev preW12 : List (Ref sig .tc) := preW11 ++ w12_W
/-- A buffer none of them writes (an argument) still holds its launch contents. -/
theorem st12_arg (V0 : Valuation τ sig (Elt F)) (r : Ref sig .tc) (h : r ∉ preW12) :
    st12 V0 (no_index (Proc.devRef .tc r)) = V0 (Proc.devRef .tc r) :=
  (st12_keep V0 r fun hm => h (List.mem_append_right _ hm)).trans (st11_arg V0 r fun hm => h (List.mem_append_left _ hm))
theorem st12_main_v1 (V0 : Valuation τ sig (Elt F)) :
    st12 V0 (no_index (Proc.devRef .tc main_v1)) = val_main_v1 (F := F) (V0 (Proc.devRef .tc main_arg2)) :=
  (st12_keep V0 main_v1 (by decide)).trans (st11_main_v1 V0)
theorem st12_main_v3 (V0 : Valuation τ sig (Elt F)) :
    st12 V0 (no_index (Proc.devRef .tc main_v3)) = val_main_v3 (F := F) (V0 (Proc.devRef .tc main_arg2)) :=
  (st12_keep V0 main_v3 (by decide)).trans (st11_main_v3 V0)
theorem st12_main_v21 (V0 : Valuation τ sig (Elt F)) :
    st12 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st12_keep V0 main_v21 (by decide)).trans (st11_main_v21 V0)
theorem st12_main_v35 (V0 : Valuation τ sig (Elt F)) :
    st12 V0 (no_index (Proc.devRef .tc main_v35)) = val_main_v35 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (st12_keep V0 main_v35 (by decide)).trans (st11_main_v35 V0)
theorem st12_main_v42 (V0 : Valuation τ sig (Elt F)) :
    st12 V0 (no_index (Proc.devRef .tc main_v42)) = val_main_v42 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (st12_keep V0 main_v42 (by decide)).trans (st11_main_v42 V0)
theorem st12_main_v48 (V0 : Valuation τ sig (Elt F)) :
    st12 V0 (no_index (Proc.devRef .tc main_v48)) = val_main_v48 (F := F) (V0 (Proc.devRef .tc main_arg2)) := by
  unfold st12
  simp only [w12]
  after_results_simp
  simp only [st11_main_v3] <;> rfl

/-- Window 13: operations 61 … 61. -/
abbrev w13 : List (HloOp τ sig (Elt F)) :=
  [ binary main_v21 main_v48 main_v49 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
/-- The buffers window 13 writes. -/
abbrev w13_W : List (Ref sig .tc) := [main_v49]
theorem w13_writes : (w13 : List (HloOp τ sig (Elt F))).Forall fun op => op.writes ⊆ (w13_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 13 windows. -/
def st13 (V0 : Valuation τ sig (Elt F)) : Valuation τ sig (Elt F) := after w13 (st12 V0)
/-- A buffer window 13 does not write keeps its contents through it. -/
theorem st13_keep (V0 : Valuation τ sig (Elt F)) (r : Ref sig .tc) (h : r ∉ w13_W) :
    st13 V0 (Proc.devRef .tc r) = st12 V0 (Proc.devRef .tc r) :=
  after_of_writes_sub w13 _ w13_writes h
/-- The buffers the first 13 windows write. -/
abbrev preW13 : List (Ref sig .tc) := preW12 ++ w13_W
/-- A buffer none of them writes (an argument) still holds its launch contents. -/
theorem st13_arg (V0 : Valuation τ sig (Elt F)) (r : Ref sig .tc) (h : r ∉ preW13) :
    st13 V0 (no_index (Proc.devRef .tc r)) = V0 (Proc.devRef .tc r) :=
  (st13_keep V0 r fun hm => h (List.mem_append_right _ hm)).trans (st12_arg V0 r fun hm => h (List.mem_append_left _ hm))
theorem st13_main_v1 (V0 : Valuation τ sig (Elt F)) :
    st13 V0 (no_index (Proc.devRef .tc main_v1)) = val_main_v1 (F := F) (V0 (Proc.devRef .tc main_arg2)) :=
  (st13_keep V0 main_v1 (by decide)).trans (st12_main_v1 V0)
theorem st13_main_v3 (V0 : Valuation τ sig (Elt F)) :
    st13 V0 (no_index (Proc.devRef .tc main_v3)) = val_main_v3 (F := F) (V0 (Proc.devRef .tc main_arg2)) :=
  (st13_keep V0 main_v3 (by decide)).trans (st12_main_v3 V0)
theorem st13_main_v21 (V0 : Valuation τ sig (Elt F)) :
    st13 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st13_keep V0 main_v21 (by decide)).trans (st12_main_v21 V0)
theorem st13_main_v35 (V0 : Valuation τ sig (Elt F)) :
    st13 V0 (no_index (Proc.devRef .tc main_v35)) = val_main_v35 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (st13_keep V0 main_v35 (by decide)).trans (st12_main_v35 V0)
theorem st13_main_v42 (V0 : Valuation τ sig (Elt F)) :
    st13 V0 (no_index (Proc.devRef .tc main_v42)) = val_main_v42 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (st13_keep V0 main_v42 (by decide)).trans (st12_main_v42 V0)
theorem st13_main_v49 (V0 : Valuation τ sig (Elt F)) :
    st13 V0 (no_index (Proc.devRef .tc main_v49)) = val_main_v49 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold st13
  simp only [w13]
  after_results_simp
  simp only [st12_main_v48, st12_main_v21] <;> rfl

/-- Window 14: operations 62 … 65. -/
abbrev w14 : List (HloOp τ sig (Elt F)) :=
  [ nary ![main_v42, main_v49, main_v35] main_v50 (fun u => concatenate S1000000x192 1 [⟨S1000000x64, u 0⟩, ⟨S1000000x64, u 1⟩, ⟨S1000000x64, u 2⟩] concatenates_S1000000x64_S1000000x64_S1000000x64_S1000000x192_d1),
    unary main_arg7 main_v51 ((extractStridedSlice S1x192x64 ![0, 0, 0] · slices_S3x192x64_S1x192x64_0_0_0) : (⟨S3x192x64, .f32⟩ : BufTy).Contents (Elt F) → (⟨S1x192x64, .f32⟩ : BufTy).Contents (Elt F)),
    reshape main_v51 main_v52 rfl shapeCasts_S1x192x64_S192x64,
    binary main_v50 main_v52 main_v53 ((fun l r => Host.dotGeneral dot_S1000000x192_S192x64_S1000000x64_1_0_0_1_n_n none l r) : (⟨S1000000x192, .f32⟩ : BufTy).Contents (Elt F) → (⟨S192x64, .f32⟩ : BufTy).Contents (Elt F) → (⟨S1000000x64, .f32⟩ : BufTy).Contents (Elt F)) ]
/-- The buffers window 14 writes. -/
abbrev w14_W : List (Ref sig .tc) := [main_v50, main_v51, main_v52, main_v53]
theorem w14_writes : (w14 : List (HloOp τ sig (Elt F))).Forall fun op => op.writes ⊆ (w14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 14 windows. -/
def st14 (V0 : Valuation τ sig (Elt F)) : Valuation τ sig (Elt F) := after w14 (st13 V0)
/-- A buffer window 14 does not write keeps its contents through it. -/
theorem st14_keep (V0 : Valuation τ sig (Elt F)) (r : Ref sig .tc) (h : r ∉ w14_W) :
    st14 V0 (Proc.devRef .tc r) = st13 V0 (Proc.devRef .tc r) :=
  after_of_writes_sub w14 _ w14_writes h
/-- The buffers the first 14 windows write. -/
abbrev preW14 : List (Ref sig .tc) := preW13 ++ w14_W
/-- A buffer none of them writes (an argument) still holds its launch contents. -/
theorem st14_arg (V0 : Valuation τ sig (Elt F)) (r : Ref sig .tc) (h : r ∉ preW14) :
    st14 V0 (no_index (Proc.devRef .tc r)) = V0 (Proc.devRef .tc r) :=
  (st14_keep V0 r fun hm => h (List.mem_append_right _ hm)).trans (st13_arg V0 r fun hm => h (List.mem_append_left _ hm))
theorem st14_main_v1 (V0 : Valuation τ sig (Elt F)) :
    st14 V0 (no_index (Proc.devRef .tc main_v1)) = val_main_v1 (F := F) (V0 (Proc.devRef .tc main_arg2)) :=
  (st14_keep V0 main_v1 (by decide)).trans (st13_main_v1 V0)
theorem st14_main_v3 (V0 : Valuation τ sig (Elt F)) :
    st14 V0 (no_index (Proc.devRef .tc main_v3)) = val_main_v3 (F := F) (V0 (Proc.devRef .tc main_arg2)) :=
  (st14_keep V0 main_v3 (by decide)).trans (st13_main_v3 V0)
theorem st14_main_v21 (V0 : Valuation τ sig (Elt F)) :
    st14 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st14_keep V0 main_v21 (by decide)).trans (st13_main_v21 V0)
theorem st14_main_v53 (V0 : Valuation τ sig (Elt F)) :
    st14 V0 (no_index (Proc.devRef .tc main_v53)) = val_main_v53 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold st14
  simp only [w14]
  after_results_simp
  try dsimp only [Matrix.cons_val]
  try simp only [st13_arg V0 main_arg7 (by decide), st13_main_v35, st13_main_v49, st13_main_v42]
  try rw [st13_arg V0 main_arg7 (by decide)]
  try rw [st13_main_v35]
  try rw [st13_main_v49]
  try rw [st13_main_v42]
  rfl

/-- Window 15: operations 66 … 73. -/
abbrev w15 : List (HloOp τ sig (Elt F)) :=
  [ unary main_arg8 main_v54 ((extractStridedSlice S1x64 ![0, 0] · slices_S3x64_S1x64_0_0) : (⟨S3x64, .f32⟩ : BufTy).Contents (Elt F) → (⟨S1x64, .f32⟩ : BufTy).Contents (Elt F)),
    reshape main_v54 main_v55 rfl shapeCasts_S1x64_S64,
    unary main_v55 main_v56 (broadcastInDim S1x64 ![1] bcast_S64_S1x64_1 : (⟨S64, .f32⟩ : BufTy).Contents (Elt F) → (⟨S1x64, .f32⟩ : BufTy).Contents (Elt F)),
    unary main_v56 main_v57 (broadcastInDim S1000000x64 ![0, 1] bcast_S1x64_S1000000x64_0_1 : (⟨S1x64, .f32⟩ : BufTy).Contents (Elt F) → (⟨S1000000x64, .f32⟩ : BufTy).Contents (Elt F)),
    binary main_v53 main_v57 main_v58 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1000000x64, .f32⟩) main_call1_v0) (broadcastInDim S1000000x64 ![] bcast_S_S1000000x64),
    TRef.binary (TRef.of (T := ⟨S1000000x64, .f32⟩) main_v58) (TRef.of (T := ⟨S1000000x64, .f32⟩) main_call1_v0) (TRef.of (T := ⟨S1000000x64, .f32⟩) main_v59) maximumf ]
/-- The buffers window 15 writes. -/
abbrev w15_W : List (Ref sig .tc) := [main_v54, main_v55, main_v56, main_v57, main_v58, main_call1_cst, main_call1_v0, main_v59]
theorem w15_writes : (w15 : List (HloOp τ sig (Elt F))).Forall fun op => op.writes ⊆ (w15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 15 windows. -/
def st15 (V0 : Valuation τ sig (Elt F)) : Valuation τ sig (Elt F) := after w15 (st14 V0)
/-- A buffer window 15 does not write keeps its contents through it. -/
theorem st15_keep (V0 : Valuation τ sig (Elt F)) (r : Ref sig .tc) (h : r ∉ w15_W) :
    st15 V0 (Proc.devRef .tc r) = st14 V0 (Proc.devRef .tc r) :=
  after_of_writes_sub w15 _ w15_writes h
/-- The buffers the first 15 windows write. -/
abbrev preW15 : List (Ref sig .tc) := preW14 ++ w15_W
/-- A buffer none of them writes (an argument) still holds its launch contents. -/
theorem st15_arg (V0 : Valuation τ sig (Elt F)) (r : Ref sig .tc) (h : r ∉ preW15) :
    st15 V0 (no_index (Proc.devRef .tc r)) = V0 (Proc.devRef .tc r) :=
  (st15_keep V0 r fun hm => h (List.mem_append_right _ hm)).trans (st14_arg V0 r fun hm => h (List.mem_append_left _ hm))
theorem st15_main_v1 (V0 : Valuation τ sig (Elt F)) :
    st15 V0 (no_index (Proc.devRef .tc main_v1)) = val_main_v1 (F := F) (V0 (Proc.devRef .tc main_arg2)) :=
  (st15_keep V0 main_v1 (by decide)).trans (st14_main_v1 V0)
theorem st15_main_v3 (V0 : Valuation τ sig (Elt F)) :
    st15 V0 (no_index (Proc.devRef .tc main_v3)) = val_main_v3 (F := F) (V0 (Proc.devRef .tc main_arg2)) :=
  (st15_keep V0 main_v3 (by decide)).trans (st14_main_v3 V0)
theorem st15_main_v21 (V0 : Valuation τ sig (Elt F)) :
    st15 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st15_keep V0 main_v21 (by decide)).trans (st14_main_v21 V0)
theorem st15_main_v59 (V0 : Valuation τ sig (Elt F)) :
    st15 V0 (no_index (Proc.devRef .tc main_v59)) = val_main_v59 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold st15
  simp only [w15]
  after_results_simp
  simp only [st14_arg V0 main_arg8 (by decide), st14_main_v53] <;> rfl

/-- Window 16: operations 74 … 76. -/
abbrev w16 : List (HloOp τ sig (Elt F)) :=
  [ nullary main_cst (constant S_ .f32 0x00000000#32),
    unary main_cst main_v60 (broadcastInDim S100000x64 ![] bcast_S_S100000x64 : (⟨S_, .f32⟩ : BufTy).Contents (Elt F) → (⟨S100000x64, .f32⟩ : BufTy).Contents (Elt F)),
    unary main_v3 main_v61 (broadcastInDim S1000000x1 ![0] bcast_S1000000_S1000000x1_0 : (⟨S1000000, .i32⟩ : BufTy).Contents (Elt F) → (⟨S1000000x1, .i32⟩ : BufTy).Contents (Elt F)) ]
/-- The buffers window 16 writes. -/
abbrev w16_W : List (Ref sig .tc) := [main_cst, main_v60, main_v61]
theorem w16_writes : (w16 : List (HloOp τ sig (Elt F))).Forall fun op => op.writes ⊆ (w16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 16 windows. -/
def st16 (V0 : Valuation τ sig (Elt F)) : Valuation τ sig (Elt F) := after w16 (st15 V0)
/-- A buffer window 16 does not write keeps its contents through it. -/
theorem st16_keep (V0 : Valuation τ sig (Elt F)) (r : Ref sig .tc) (h : r ∉ w16_W) :
    st16 V0 (Proc.devRef .tc r) = st15 V0 (Proc.devRef .tc r) :=
  after_of_writes_sub w16 _ w16_writes h
/-- The buffers the first 16 windows write. -/
abbrev preW16 : List (Ref sig .tc) := preW15 ++ w16_W
/-- A buffer none of them writes (an argument) still holds its launch contents. -/
theorem st16_arg (V0 : Valuation τ sig (Elt F)) (r : Ref sig .tc) (h : r ∉ preW16) :
    st16 V0 (no_index (Proc.devRef .tc r)) = V0 (Proc.devRef .tc r) :=
  (st16_keep V0 r fun hm => h (List.mem_append_right _ hm)).trans (st15_arg V0 r fun hm => h (List.mem_append_left _ hm))
theorem st16_main_v1 (V0 : Valuation τ sig (Elt F)) :
    st16 V0 (no_index (Proc.devRef .tc main_v1)) = val_main_v1 (F := F) (V0 (Proc.devRef .tc main_arg2)) :=
  (st16_keep V0 main_v1 (by decide)).trans (st15_main_v1 V0)
theorem st16_main_v3 (V0 : Valuation τ sig (Elt F)) :
    st16 V0 (no_index (Proc.devRef .tc main_v3)) = val_main_v3 (F := F) (V0 (Proc.devRef .tc main_arg2)) :=
  (st16_keep V0 main_v3 (by decide)).trans (st15_main_v3 V0)
theorem st16_main_v21 (V0 : Valuation τ sig (Elt F)) :
    st16 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st16_keep V0 main_v21 (by decide)).trans (st15_main_v21 V0)
theorem st16_main_v59 (V0 : Valuation τ sig (Elt F)) :
    st16 V0 (no_index (Proc.devRef .tc main_v59)) = val_main_v59 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (st16_keep V0 main_v59 (by decide)).trans (st15_main_v59 V0)
theorem st16_main_v60 (V0 : Valuation τ sig (Elt F)) :
    st16 V0 (no_index (Proc.devRef .tc main_v60)) = val_main_v60 (F := F) := by
  unfold st16
  simp only [w16]
  after_results_simp
  all_goals rfl
theorem st16_main_v61 (V0 : Valuation τ sig (Elt F)) :
    st16 V0 (no_index (Proc.devRef .tc main_v61)) = val_main_v61 (F := F) (V0 (Proc.devRef .tc main_arg2)) := by
  unfold st16
  simp only [w16]
  after_results_simp
  simp only [st15_main_v3] <;> rfl

/-- Window 17: operations 77 … 77. -/
abbrev w17 : List (HloOp τ sig (Elt F)) :=
  [ ternary main_v60 main_v61 main_v59 main_v62 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]
/-- The buffers window 17 writes. -/
abbrev w17_W : List (Ref sig .tc) := [main_v62]
theorem w17_writes : (w17 : List (HloOp τ sig (Elt F))).Forall fun op => op.writes ⊆ (w17_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 17 windows. -/
def st17 (V0 : Valuation τ sig (Elt F)) : Valuation τ sig (Elt F) := after w17 (st16 V0)
/-- A buffer window 17 does not write keeps its contents through it. -/
theorem st17_keep (V0 : Valuation τ sig (Elt F)) (r : Ref sig .tc) (h : r ∉ w17_W) :
    st17 V0 (Proc.devRef .tc r) = st16 V0 (Proc.devRef .tc r) :=
  after_of_writes_sub w17 _ w17_writes h
/-- The buffers the first 17 windows write. -/
abbrev preW17 : List (Ref sig .tc) := preW16 ++ w17_W
/-- A buffer none of them writes (an argument) still holds its launch contents. -/
theorem st17_arg (V0 : Valuation τ sig (Elt F)) (r : Ref sig .tc) (h : r ∉ preW17) :
    st17 V0 (no_index (Proc.devRef .tc r)) = V0 (Proc.devRef .tc r) :=
  (st17_keep V0 r fun hm => h (List.mem_append_right _ hm)).trans (st16_arg V0 r fun hm => h (List.mem_append_left _ hm))
theorem st17_main_v1 (V0 : Valuation τ sig (Elt F)) :
    st17 V0 (no_index (Proc.devRef .tc main_v1)) = val_main_v1 (F := F) (V0 (Proc.devRef .tc main_arg2)) :=
  (st17_keep V0 main_v1 (by decide)).trans (st16_main_v1 V0)
theorem st17_main_v3 (V0 : Valuation τ sig (Elt F)) :
    st17 V0 (no_index (Proc.devRef .tc main_v3)) = val_main_v3 (F := F) (V0 (Proc.devRef .tc main_arg2)) :=
  (st17_keep V0 main_v3 (by decide)).trans (st16_main_v3 V0)
theorem st17_main_v21 (V0 : Valuation τ sig (Elt F)) :
    st17 V0 (no_index (Proc.devRef .tc main_v21)) = val_main_v21 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (st17_keep V0 main_v21 (by decide)).trans (st16_main_v21 V0)
theorem st17_main_v59 (V0 : Valuation τ sig (Elt F)) :
    st17 V0 (no_index (Proc.devRef .tc main_v59)) = val_main_v59 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (st17_keep V0 main_v59 (by decide)).trans (st16_main_v59 V0)
theorem st17_main_v62 (V0 : Valuation τ sig (Elt F)) :
    st17 V0 (no_index (Proc.devRef .tc main_v62)) = val_main_v62 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold st17
  simp only [w17]
  after_results_simp
  simp only [st16_main_v59, st16_main_v61, st16_main_v60] <;> rfl

/-- Window 18: operations 78 … 81. -/
abbrev w18 : List (HloOp τ sig (Elt F)) :=
  [ binary main_v21 main_v62 main_v63 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg9 main_v64 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v64 main_v65 rfl shapeCasts_S1x128x64_S128x64,
    binary main_v63 main_v65 main_v66 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
/-- The buffers window 18 writes. -/
abbrev w18_W : List (Ref sig .tc) := [main_v63, main_v64, main_v65, main_v66]
theorem w18_writes : (w18 : List (HloOp τ sig (Elt F))).Forall fun op => op.writes ⊆ (w18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 18 windows. -/
def st18 (V0 : Valuation τ sig (Elt F)) : Valuation τ sig (Elt F) := after w18 (st17 V0)
/-- A buffer window 18 does not write keeps its contents through it. -/
theorem st18_keep (V0 : Valuation τ sig (Elt F)) (r : Ref sig .tc) (h : r ∉ w18_W) :
    st18 V0 (Proc.devRef .tc r) = st17 V0 (Proc.devRef .tc r) :=
  after_of_writes_sub w18 _ w18_writes h
/-- The buffers the first 18 windows write. -/
abbrev preW18 : List (Ref sig .tc) := preW17 ++ w18_W
/-- A buffer none of them writes (an argument) still holds its launch contents. -/
theorem st18_arg (V0 : Valuation τ sig (Elt F)) (r : Ref sig .tc) (h : r ∉ preW18) :
    st18 V0 (no_index (Proc.devRef .tc r)) = V0 (Proc.devRef .tc r) :=
  (st18_keep V0 r fun hm => h (List.mem_append_right _ hm)).trans (st17_arg V0 r fun hm => h (List.mem_append_left _ hm))
theorem st18_main_v1 (V0 : Valuation τ sig (Elt F)) :
    st18 V0 (no_index (Proc.devRef .tc main_v1)) = val_main_v1 (F := F) (V0 (Proc.devRef .tc main_arg2)) :=
  (st18_keep V0 main_v1 (by decide)).trans (st17_main_v1 V0)
theorem st18_main_v3 (V0 : Valuation τ sig (Elt F)) :
    st18 V0 (no_index (Proc.devRef .tc main_v3)) = val_main_v3 (F := F) (V0 (Proc.devRef .tc main_arg2)) :=
  (st18_keep V0 main_v3 (by decide)).trans (st17_main_v3 V0)
theorem st18_main_v59 (V0 : Valuation τ sig (Elt F)) :
    st18 V0 (no_index (Proc.devRef .tc main_v59)) = val_main_v59 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (st18_keep V0 main_v59 (by decide)).trans (st17_main_v59 V0)
theorem st18_main_v66 (V0 : Valuation τ sig (Elt F)) :
    st18 V0 (no_index (Proc.devRef .tc main_v66)) = val_main_v66 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold st18
  simp only [w18]
  after_results_simp
  try dsimp only [Matrix.cons_val]
  try simp only [st17_arg V0 main_arg9 (by decide), st17_main_v62, st17_main_v21]
  try rw [st17_arg V0 main_arg9 (by decide)]
  try rw [st17_main_v62]
  try rw [st17_main_v21]
  rfl

/-- Window 19: operations 82 … 89. -/
abbrev w19 : List (HloOp τ sig (Elt F)) :=
  [ unary main_arg10 main_v67 ((extractStridedSlice S1x64 ![0, 0] · slices_S3x64_S1x64_0_0) : (⟨S3x64, .f32⟩ : BufTy).Contents (Elt F) → (⟨S1x64, .f32⟩ : BufTy).Contents (Elt F)),
    reshape main_v67 main_v68 rfl shapeCasts_S1x64_S64,
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v66 main_v70 main_v71 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v71) (TRef.of (T := ⟨S100000x64, .f32⟩) main_call2_v0) (TRef.of (T := ⟨S100000x64, .f32⟩) main_v72) maximumf ]
/-- The buffers window 19 writes. -/
abbrev w19_W : List (Ref sig .tc) := [main_v67, main_v68, main_v69, main_v70, main_v71, main_call2_cst, main_call2_v0, main_v72]
theorem w19_writes : (w19 : List (HloOp τ sig (Elt F))).Forall fun op => op.writes ⊆ (w19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 19 windows. -/
def st19 (V0 : Valuation τ sig (Elt F)) : Valuation τ sig (Elt F) := after w19 (st18 V0)
/-- A buffer window 19 does not write keeps its contents through it. -/
theorem st19_keep (V0 : Valuation τ sig (Elt F)) (r : Ref sig .tc) (h : r ∉ w19_W) :
    st19 V0 (Proc.devRef .tc r) = st18 V0 (Proc.devRef .tc r) :=
  after_of_writes_sub w19 _ w19_writes h
/-- The buffers the first 19 windows write. -/
abbrev preW19 : List (Ref sig .tc) := preW18 ++ w19_W
/-- A buffer none of them writes (an argument) still holds its launch contents. -/
theorem st19_arg (V0 : Valuation τ sig (Elt F)) (r : Ref sig .tc) (h : r ∉ preW19) :
    st19 V0 (no_index (Proc.devRef .tc r)) = V0 (Proc.devRef .tc r) :=
  (st19_keep V0 r fun hm => h (List.mem_append_right _ hm)).trans (st18_arg V0 r fun hm => h (List.mem_append_left _ hm))
theorem st19_main_v1 (V0 : Valuation τ sig (Elt F)) :
    st19 V0 (no_index (Proc.devRef .tc main_v1)) = val_main_v1 (F := F) (V0 (Proc.devRef .tc main_arg2)) :=
  (st19_keep V0 main_v1 (by decide)).trans (st18_main_v1 V0)
theorem st19_main_v3 (V0 : Valuation τ sig (Elt F)) :
    st19 V0 (no_index (Proc.devRef .tc main_v3)) = val_main_v3 (F := F) (V0 (Proc.devRef .tc main_arg2)) :=
  (st19_keep V0 main_v3 (by decide)).trans (st18_main_v3 V0)
theorem st19_main_v59 (V0 : Valuation τ sig (Elt F)) :
    st19 V0 (no_index (Proc.devRef .tc main_v59)) = val_main_v59 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (st19_keep V0 main_v59 (by decide)).trans (st18_main_v59 V0)
theorem st19_main_v72 (V0 : Valuation τ sig (Elt F)) :
    st19 V0 (no_index (Proc.devRef .tc main_v72)) = val_main_v72 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st19
  simp only [w19]
  after_results_simp
  simp only [st18_arg V0 main_arg10 (by decide), st18_main_v66] <;> rfl

/-- Window 20: operations 90 … 97. -/
abbrev w20 : List (HloOp τ sig (Elt F)) :=
  [ nullary main_c_9 (constantI S_ 32 0#32),
    unary main_c_9 main_v73 (broadcastInDim S1000000 ![] bcast_S_S1000000 : (⟨S_, .i32⟩ : BufTy).Contents (Elt F) → (⟨S1000000, .i32⟩ : BufTy).Contents (Elt F)),
    binary main_v1 main_v73 main_v74 (cmpi .slt : (⟨S1000000, .i32⟩ : BufTy).Contents (Elt F) → (⟨S1000000, .i32⟩ : BufTy).Contents (Elt F) → (⟨S1000000, .i1⟩ : BufTy).Contents (Elt F)),
    nullary main_c_10 (constantI S_ 32 100000#32),
    unary main_c_10 main_v75 (broadcastInDim S1000000 ![] bcast_S_S1000000 : (⟨S_, .i32⟩ : BufTy).Contents (Elt F) → (⟨S1000000, .i32⟩ : BufTy).Contents (Elt F)),
    binary main_v1 main_v75 main_v76 (addi : (⟨S1000000, .i32⟩ : BufTy).Contents (Elt F) → (⟨S1000000, .i32⟩ : BufTy).Contents (Elt F) → (⟨S1000000, .i32⟩ : BufTy).Contents (Elt F)),
    ternary main_v74 main_v76 main_v1 main_v77 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v77 main_v78 (broadcastInDim S1000000x1 ![0] bcast_S1000000_S1000000x1_0 : (⟨S1000000, .i32⟩ : BufTy).Contents (Elt F) → (⟨S1000000x1, .i32⟩ : BufTy).Contents (Elt F)) ]
/-- The buffers window 20 writes. -/
abbrev w20_W : List (Ref sig .tc) := [main_c_9, main_v73, main_v74, main_c_10, main_v75, main_v76, main_v77, main_v78]
theorem w20_writes : (w20 : List (HloOp τ sig (Elt F))).Forall fun op => op.writes ⊆ (w20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 20 windows. -/
def st20 (V0 : Valuation τ sig (Elt F)) : Valuation τ sig (Elt F) := after w20 (st19 V0)
/-- A buffer window 20 does not write keeps its contents through it. -/
theorem st20_keep (V0 : Valuation τ sig (Elt F)) (r : Ref sig .tc) (h : r ∉ w20_W) :
    st20 V0 (Proc.devRef .tc r) = st19 V0 (Proc.devRef .tc r) :=
  after_of_writes_sub w20 _ w20_writes h
/-- The buffers the first 20 windows write. -/
abbrev preW20 : List (Ref sig .tc) := preW19 ++ w20_W
/-- A buffer none of them writes (an argument) still holds its launch contents. -/
theorem st20_arg (V0 : Valuation τ sig (Elt F)) (r : Ref sig .tc) (h : r ∉ preW20) :
    st20 V0 (no_index (Proc.devRef .tc r)) = V0 (Proc.devRef .tc r) :=
  (st20_keep V0 r fun hm => h (List.mem_append_right _ hm)).trans (st19_arg V0 r fun hm => h (List.mem_append_left _ hm))
theorem st20_main_v1 (V0 : Valuation τ sig (Elt F)) :
    st20 V0 (no_index (Proc.devRef .tc main_v1)) = val_main_v1 (F := F) (V0 (Proc.devRef .tc main_arg2)) :=
  (st20_keep V0 main_v1 (by decide)).trans (st19_main_v1 V0)
theorem st20_main_v3 (V0 : Valuation τ sig (Elt F)) :
    st20 V0 (no_index (Proc.devRef .tc main_v3)) = val_main_v3 (F := F) (V0 (Proc.devRef .tc main_arg2)) :=
  (st20_keep V0 main_v3 (by decide)).trans (st19_main_v3 V0)
theorem st20_main_v59 (V0 : Valuation τ sig (Elt F)) :
    st20 V0 (no_index (Proc.devRef .tc main_v59)) = val_main_v59 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (st20_keep V0 main_v59 (by decide)).trans (st19_main_v59 V0)
theorem st20_main_v72 (V0 : Valuation τ sig (Elt F)) :
    st20 V0 (no_index (Proc.devRef .tc main_v72)) = val_main_v72 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st20_keep V0 main_v72 (by decide)).trans (st19_main_v72 V0)
theorem st20_main_v78 (V0 : Valuation τ sig (Elt F)) :
    st20 V0 (no_index (Proc.devRef .tc main_v78)) = val_main_v78 (F := F) (V0 (Proc.devRef .tc main_arg2)) := by
  unfold st20
  simp only [w20]
  after_results_simp
  simp only [st19_main_v1] <;> rfl

/-- Window 21: operations 98 … 98. -/
abbrev w21 : List (HloOp τ sig (Elt F)) :=
  [ binary main_v72 main_v78 main_v79 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
/-- The buffers window 21 writes. -/
abbrev w21_W : List (Ref sig .tc) := [main_v79]
theorem w21_writes : (w21 : List (HloOp τ sig (Elt F))).Forall fun op => op.writes ⊆ (w21_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 21 windows. -/
def st21 (V0 : Valuation τ sig (Elt F)) : Valuation τ sig (Elt F) := after w21 (st20 V0)
/-- A buffer window 21 does not write keeps its contents through it. -/
theorem st21_keep (V0 : Valuation τ sig (Elt F)) (r : Ref sig .tc) (h : r ∉ w21_W) :
    st21 V0 (Proc.devRef .tc r) = st20 V0 (Proc.devRef .tc r) :=
  after_of_writes_sub w21 _ w21_writes h
/-- The buffers the first 21 windows write. -/
abbrev preW21 : List (Ref sig .tc) := preW20 ++ w21_W
/-- A buffer none of them writes (an argument) still holds its launch contents. -/
theorem st21_arg (V0 : Valuation τ sig (Elt F)) (r : Ref sig .tc) (h : r ∉ preW21) :
    st21 V0 (no_index (Proc.devRef .tc r)) = V0 (Proc.devRef .tc r) :=
  (st21_keep V0 r fun hm => h (List.mem_append_right _ hm)).trans (st20_arg V0 r fun hm => h (List.mem_append_left _ hm))
theorem st21_main_v1 (V0 : Valuation τ sig (Elt F)) :
    st21 V0 (no_index (Proc.devRef .tc main_v1)) = val_main_v1 (F := F) (V0 (Proc.devRef .tc main_arg2)) :=
  (st21_keep V0 main_v1 (by decide)).trans (st20_main_v1 V0)
theorem st21_main_v3 (V0 : Valuation τ sig (Elt F)) :
    st21 V0 (no_index (Proc.devRef .tc main_v3)) = val_main_v3 (F := F) (V0 (Proc.devRef .tc main_arg2)) :=
  (st21_keep V0 main_v3 (by decide)).trans (st20_main_v3 V0)
theorem st21_main_v59 (V0 : Valuation τ sig (Elt F)) :
    st21 V0 (no_index (Proc.devRef .tc main_v59)) = val_main_v59 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (st21_keep V0 main_v59 (by decide)).trans (st20_main_v59 V0)
theorem st21_main_v72 (V0 : Valuation τ sig (Elt F)) :
    st21 V0 (no_index (Proc.devRef .tc main_v72)) = val_main_v72 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st21_keep V0 main_v72 (by decide)).trans (st20_main_v72 V0)
theorem st21_main_v79 (V0 : Valuation τ sig (Elt F)) :
    st21 V0 (no_index (Proc.devRef .tc main_v79)) = val_main_v79 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st21
  simp only [w21]
  after_results_simp
  simp only [st20_main_v78, st20_main_v72] <;> rfl

/-- Window 22: operations 99 … 106. -/
abbrev w22 : List (HloOp τ sig (Elt F)) :=
  [ nullary main_c_11 (constantI S_ 32 0#32),
    unary main_c_11 main_v80 (broadcastInDim S1000000 ![] bcast_S_S1000000 : (⟨S_, .i32⟩ : BufTy).Contents (Elt F) → (⟨S1000000, .i32⟩ : BufTy).Contents (Elt F)),
    binary main_v3 main_v80 main_v81 (cmpi .slt : (⟨S1000000, .i32⟩ : BufTy).Contents (Elt F) → (⟨S1000000, .i32⟩ : BufTy).Contents (Elt F) → (⟨S1000000, .i1⟩ : BufTy).Contents (Elt F)),
    nullary main_c_12 (constantI S_ 32 100000#32),
    unary main_c_12 main_v82 (broadcastInDim S1000000 ![] bcast_S_S1000000 : (⟨S_, .i32⟩ : BufTy).Contents (Elt F) → (⟨S1000000, .i32⟩ : BufTy).Contents (Elt F)),
    binary main_v3 main_v82 main_v83 (addi : (⟨S1000000, .i32⟩ : BufTy).Contents (Elt F) → (⟨S1000000, .i32⟩ : BufTy).Contents (Elt F) → (⟨S1000000, .i32⟩ : BufTy).Contents (Elt F)),
    ternary main_v81 main_v83 main_v3 main_v84 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v84 main_v85 (broadcastInDim S1000000x1 ![0] bcast_S1000000_S1000000x1_0 : (⟨S1000000, .i32⟩ : BufTy).Contents (Elt F) → (⟨S1000000x1, .i32⟩ : BufTy).Contents (Elt F)) ]
/-- The buffers window 22 writes. -/
abbrev w22_W : List (Ref sig .tc) := [main_c_11, main_v80, main_v81, main_c_12, main_v82, main_v83, main_v84, main_v85]
theorem w22_writes : (w22 : List (HloOp τ sig (Elt F))).Forall fun op => op.writes ⊆ (w22_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 22 windows. -/
def st22 (V0 : Valuation τ sig (Elt F)) : Valuation τ sig (Elt F) := after w22 (st21 V0)
/-- A buffer window 22 does not write keeps its contents through it. -/
theorem st22_keep (V0 : Valuation τ sig (Elt F)) (r : Ref sig .tc) (h : r ∉ w22_W) :
    st22 V0 (Proc.devRef .tc r) = st21 V0 (Proc.devRef .tc r) :=
  after_of_writes_sub w22 _ w22_writes h
/-- The buffers the first 22 windows write. -/
abbrev preW22 : List (Ref sig .tc) := preW21 ++ w22_W
/-- A buffer none of them writes (an argument) still holds its launch contents. -/
theorem st22_arg (V0 : Valuation τ sig (Elt F)) (r : Ref sig .tc) (h : r ∉ preW22) :
    st22 V0 (no_index (Proc.devRef .tc r)) = V0 (Proc.devRef .tc r) :=
  (st22_keep V0 r fun hm => h (List.mem_append_right _ hm)).trans (st21_arg V0 r fun hm => h (List.mem_append_left _ hm))
theorem st22_main_v1 (V0 : Valuation τ sig (Elt F)) :
    st22 V0 (no_index (Proc.devRef .tc main_v1)) = val_main_v1 (F := F) (V0 (Proc.devRef .tc main_arg2)) :=
  (st22_keep V0 main_v1 (by decide)).trans (st21_main_v1 V0)
theorem st22_main_v3 (V0 : Valuation τ sig (Elt F)) :
    st22 V0 (no_index (Proc.devRef .tc main_v3)) = val_main_v3 (F := F) (V0 (Proc.devRef .tc main_arg2)) :=
  (st22_keep V0 main_v3 (by decide)).trans (st21_main_v3 V0)
theorem st22_main_v59 (V0 : Valuation τ sig (Elt F)) :
    st22 V0 (no_index (Proc.devRef .tc main_v59)) = val_main_v59 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (st22_keep V0 main_v59 (by decide)).trans (st21_main_v59 V0)
theorem st22_main_v72 (V0 : Valuation τ sig (Elt F)) :
    st22 V0 (no_index (Proc.devRef .tc main_v72)) = val_main_v72 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st22_keep V0 main_v72 (by decide)).trans (st21_main_v72 V0)
theorem st22_main_v79 (V0 : Valuation τ sig (Elt F)) :
    st22 V0 (no_index (Proc.devRef .tc main_v79)) = val_main_v79 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st22_keep V0 main_v79 (by decide)).trans (st21_main_v79 V0)
theorem st22_main_v85 (V0 : Valuation τ sig (Elt F)) :
    st22 V0 (no_index (Proc.devRef .tc main_v85)) = val_main_v85 (F := F) (V0 (Proc.devRef .tc main_arg2)) := by
  unfold st22
  simp only [w22]
  after_results_simp
  simp only [st21_main_v3] <;> rfl

/-- Window 23: operations 107 … 107. -/
abbrev w23 : List (HloOp τ sig (Elt F)) :=
  [ binary main_v72 main_v85 main_v86 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
/-- The buffers window 23 writes. -/
abbrev w23_W : List (Ref sig .tc) := [main_v86]
theorem w23_writes : (w23 : List (HloOp τ sig (Elt F))).Forall fun op => op.writes ⊆ (w23_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 23 windows. -/
def st23 (V0 : Valuation τ sig (Elt F)) : Valuation τ sig (Elt F) := after w23 (st22 V0)
/-- A buffer window 23 does not write keeps its contents through it. -/
theorem st23_keep (V0 : Valuation τ sig (Elt F)) (r : Ref sig .tc) (h : r ∉ w23_W) :
    st23 V0 (Proc.devRef .tc r) = st22 V0 (Proc.devRef .tc r) :=
  after_of_writes_sub w23 _ w23_writes h
/-- The buffers the first 23 windows write. -/
abbrev preW23 : List (Ref sig .tc) := preW22 ++ w23_W
/-- A buffer none of them writes (an argument) still holds its launch contents. -/
theorem st23_arg (V0 : Valuation τ sig (Elt F)) (r : Ref sig .tc) (h : r ∉ preW23) :
    st23 V0 (no_index (Proc.devRef .tc r)) = V0 (Proc.devRef .tc r) :=
  (st23_keep V0 r fun hm => h (List.mem_append_right _ hm)).trans (st22_arg V0 r fun hm => h (List.mem_append_left _ hm))
theorem st23_main_v1 (V0 : Valuation τ sig (Elt F)) :
    st23 V0 (no_index (Proc.devRef .tc main_v1)) = val_main_v1 (F := F) (V0 (Proc.devRef .tc main_arg2)) :=
  (st23_keep V0 main_v1 (by decide)).trans (st22_main_v1 V0)
theorem st23_main_v3 (V0 : Valuation τ sig (Elt F)) :
    st23 V0 (no_index (Proc.devRef .tc main_v3)) = val_main_v3 (F := F) (V0 (Proc.devRef .tc main_arg2)) :=
  (st23_keep V0 main_v3 (by decide)).trans (st22_main_v3 V0)
theorem st23_main_v59 (V0 : Valuation τ sig (Elt F)) :
    st23 V0 (no_index (Proc.devRef .tc main_v59)) = val_main_v59 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (st23_keep V0 main_v59 (by decide)).trans (st22_main_v59 V0)
theorem st23_main_v72 (V0 : Valuation τ sig (Elt F)) :
    st23 V0 (no_index (Proc.devRef .tc main_v72)) = val_main_v72 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st23_keep V0 main_v72 (by decide)).trans (st22_main_v72 V0)
theorem st23_main_v79 (V0 : Valuation τ sig (Elt F)) :
    st23 V0 (no_index (Proc.devRef .tc main_v79)) = val_main_v79 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st23_keep V0 main_v79 (by decide)).trans (st22_main_v79 V0)
theorem st23_main_v86 (V0 : Valuation τ sig (Elt F)) :
    st23 V0 (no_index (Proc.devRef .tc main_v86)) = val_main_v86 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st23
  simp only [w23]
  after_results_simp
  simp only [st22_main_v85, st22_main_v72] <;> rfl

/-- Window 24: operations 108 … 111. -/
abbrev w24 : List (HloOp τ sig (Elt F)) :=
  [ nary ![main_v79, main_v86, main_v59] main_v87 (fun u => concatenate S1000000x192 1 [⟨S1000000x64, u 0⟩, ⟨S1000000x64, u 1⟩, ⟨S1000000x64, u 2⟩] concatenates_S1000000x64_S1000000x64_S1000000x64_S1000000x192_d1),
    unary main_arg7 main_v88 ((extractStridedSlice S1x192x64 ![1, 0, 0] · slices_S3x192x64_S1x192x64_1_0_0) : (⟨S3x192x64, .f32⟩ : BufTy).Contents (Elt F) → (⟨S1x192x64, .f32⟩ : BufTy).Contents (Elt F)),
    reshape main_v88 main_v89 rfl shapeCasts_S1x192x64_S192x64,
    binary main_v87 main_v89 main_v90 ((fun l r => Host.dotGeneral dot_S1000000x192_S192x64_S1000000x64_1_0_0_1_n_n none l r) : (⟨S1000000x192, .f32⟩ : BufTy).Contents (Elt F) → (⟨S192x64, .f32⟩ : BufTy).Contents (Elt F) → (⟨S1000000x64, .f32⟩ : BufTy).Contents (Elt F)) ]
/-- The buffers window 24 writes. -/
abbrev w24_W : List (Ref sig .tc) := [main_v87, main_v88, main_v89, main_v90]
theorem w24_writes : (w24 : List (HloOp τ sig (Elt F))).Forall fun op => op.writes ⊆ (w24_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 24 windows. -/
def st24 (V0 : Valuation τ sig (Elt F)) : Valuation τ sig (Elt F) := after w24 (st23 V0)
/-- A buffer window 24 does not write keeps its contents through it. -/
theorem st24_keep (V0 : Valuation τ sig (Elt F)) (r : Ref sig .tc) (h : r ∉ w24_W) :
    st24 V0 (Proc.devRef .tc r) = st23 V0 (Proc.devRef .tc r) :=
  after_of_writes_sub w24 _ w24_writes h
/-- The buffers the first 24 windows write. -/
abbrev preW24 : List (Ref sig .tc) := preW23 ++ w24_W
/-- A buffer none of them writes (an argument) still holds its launch contents. -/
theorem st24_arg (V0 : Valuation τ sig (Elt F)) (r : Ref sig .tc) (h : r ∉ preW24) :
    st24 V0 (no_index (Proc.devRef .tc r)) = V0 (Proc.devRef .tc r) :=
  (st24_keep V0 r fun hm => h (List.mem_append_right _ hm)).trans (st23_arg V0 r fun hm => h (List.mem_append_left _ hm))
theorem st24_main_v1 (V0 : Valuation τ sig (Elt F)) :
    st24 V0 (no_index (Proc.devRef .tc main_v1)) = val_main_v1 (F := F) (V0 (Proc.devRef .tc main_arg2)) :=
  (st24_keep V0 main_v1 (by decide)).trans (st23_main_v1 V0)
theorem st24_main_v3 (V0 : Valuation τ sig (Elt F)) :
    st24 V0 (no_index (Proc.devRef .tc main_v3)) = val_main_v3 (F := F) (V0 (Proc.devRef .tc main_arg2)) :=
  (st24_keep V0 main_v3 (by decide)).trans (st23_main_v3 V0)
theorem st24_main_v72 (V0 : Valuation τ sig (Elt F)) :
    st24 V0 (no_index (Proc.devRef .tc main_v72)) = val_main_v72 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st24_keep V0 main_v72 (by decide)).trans (st23_main_v72 V0)
theorem st24_main_v90 (V0 : Valuation τ sig (Elt F)) :
    st24 V0 (no_index (Proc.devRef .tc main_v90)) = val_main_v90 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st24
  simp only [w24]
  after_results_simp
  try dsimp only [Matrix.cons_val]
  try simp only [st23_arg V0 main_arg7 (by decide), st23_main_v59, st23_main_v86, st23_main_v79]
  try rw [st23_arg V0 main_arg7 (by decide)]
  try rw [st23_main_v59]
  try rw [st23_main_v86]
  try rw [st23_main_v79]
  rfl

/-- Window 25: operations 112 … 119. -/
abbrev w25 : List (HloOp τ sig (Elt F)) :=
  [ unary main_arg8 main_v91 ((extractStridedSlice S1x64 ![1, 0] · slices_S3x64_S1x64_1_0) : (⟨S3x64, .f32⟩ : BufTy).Contents (Elt F) → (⟨S1x64, .f32⟩ : BufTy).Contents (Elt F)),
    reshape main_v91 main_v92 rfl shapeCasts_S1x64_S64,
    unary main_v92 main_v93 (broadcastInDim S1x64 ![1] bcast_S64_S1x64_1 : (⟨S64, .f32⟩ : BufTy).Contents (Elt F) → (⟨S1x64, .f32⟩ : BufTy).Contents (Elt F)),
    unary main_v93 main_v94 (broadcastInDim S1000000x64 ![0, 1] bcast_S1x64_S1000000x64_0_1 : (⟨S1x64, .f32⟩ : BufTy).Contents (Elt F) → (⟨S1000000x64, .f32⟩ : BufTy).Contents (Elt F)),
    binary main_v90 main_v94 main_v95 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1000000x64, .f32⟩) main_call3_v0) (broadcastInDim S1000000x64 ![] bcast_S_S1000000x64),
    TRef.binary (TRef.of (T := ⟨S1000000x64, .f32⟩) main_v95) (TRef.of (T := ⟨S1000000x64, .f32⟩) main_call3_v0) (TRef.of (T := ⟨S1000000x64, .f32⟩) main_v96) maximumf ]
/-- The buffers window 25 writes. -/
abbrev w25_W : List (Ref sig .tc) := [main_v91, main_v92, main_v93, main_v94, main_v95, main_call3_cst, main_call3_v0, main_v96]
theorem w25_writes : (w25 : List (HloOp τ sig (Elt F))).Forall fun op => op.writes ⊆ (w25_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 25 windows. -/
def st25 (V0 : Valuation τ sig (Elt F)) : Valuation τ sig (Elt F) := after w25 (st24 V0)
/-- A buffer window 25 does not write keeps its contents through it. -/
theorem st25_keep (V0 : Valuation τ sig (Elt F)) (r : Ref sig .tc) (h : r ∉ w25_W) :
    st25 V0 (Proc.devRef .tc r) = st24 V0 (Proc.devRef .tc r) :=
  after_of_writes_sub w25 _ w25_writes h
/-- The buffers the first 25 windows write. -/
abbrev preW25 : List (Ref sig .tc) := preW24 ++ w25_W
/-- A buffer none of them writes (an argument) still holds its launch contents. -/
theorem st25_arg (V0 : Valuation τ sig (Elt F)) (r : Ref sig .tc) (h : r ∉ preW25) :
    st25 V0 (no_index (Proc.devRef .tc r)) = V0 (Proc.devRef .tc r) :=
  (st25_keep V0 r fun hm => h (List.mem_append_right _ hm)).trans (st24_arg V0 r fun hm => h (List.mem_append_left _ hm))
theorem st25_main_v1 (V0 : Valuation τ sig (Elt F)) :
    st25 V0 (no_index (Proc.devRef .tc main_v1)) = val_main_v1 (F := F) (V0 (Proc.devRef .tc main_arg2)) :=
  (st25_keep V0 main_v1 (by decide)).trans (st24_main_v1 V0)
theorem st25_main_v3 (V0 : Valuation τ sig (Elt F)) :
    st25 V0 (no_index (Proc.devRef .tc main_v3)) = val_main_v3 (F := F) (V0 (Proc.devRef .tc main_arg2)) :=
  (st25_keep V0 main_v3 (by decide)).trans (st24_main_v3 V0)
theorem st25_main_v72 (V0 : Valuation τ sig (Elt F)) :
    st25 V0 (no_index (Proc.devRef .tc main_v72)) = val_main_v72 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st25_keep V0 main_v72 (by decide)).trans (st24_main_v72 V0)
theorem st25_main_v96 (V0 : Valuation τ sig (Elt F)) :
    st25 V0 (no_index (Proc.devRef .tc main_v96)) = val_main_v96 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st25
  simp only [w25]
  after_results_simp
  simp only [st24_arg V0 main_arg8 (by decide), st24_main_v90] <;> rfl

/-- Window 26: operations 120 … 122. -/
abbrev w26 : List (HloOp τ sig (Elt F)) :=
  [ nullary main_cst_13 (constant S_ .f32 0x00000000#32),
    unary main_cst_13 main_v97 (broadcastInDim S100000x64 ![] bcast_S_S100000x64 : (⟨S_, .f32⟩ : BufTy).Contents (Elt F) → (⟨S100000x64, .f32⟩ : BufTy).Contents (Elt F)),
    unary main_v3 main_v98 (broadcastInDim S1000000x1 ![0] bcast_S1000000_S1000000x1_0 : (⟨S1000000, .i32⟩ : BufTy).Contents (Elt F) → (⟨S1000000x1, .i32⟩ : BufTy).Contents (Elt F)) ]
/-- The buffers window 26 writes. -/
abbrev w26_W : List (Ref sig .tc) := [main_cst_13, main_v97, main_v98]
theorem w26_writes : (w26 : List (HloOp τ sig (Elt F))).Forall fun op => op.writes ⊆ (w26_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 26 windows. -/
def st26 (V0 : Valuation τ sig (Elt F)) : Valuation τ sig (Elt F) := after w26 (st25 V0)
/-- A buffer window 26 does not write keeps its contents through it. -/
theorem st26_keep (V0 : Valuation τ sig (Elt F)) (r : Ref sig .tc) (h : r ∉ w26_W) :
    st26 V0 (Proc.devRef .tc r) = st25 V0 (Proc.devRef .tc r) :=
  after_of_writes_sub w26 _ w26_writes h
/-- The buffers the first 26 windows write. -/
abbrev preW26 : List (Ref sig .tc) := preW25 ++ w26_W
/-- A buffer none of them writes (an argument) still holds its launch contents. -/
theorem st26_arg (V0 : Valuation τ sig (Elt F)) (r : Ref sig .tc) (h : r ∉ preW26) :
    st26 V0 (no_index (Proc.devRef .tc r)) = V0 (Proc.devRef .tc r) :=
  (st26_keep V0 r fun hm => h (List.mem_append_right _ hm)).trans (st25_arg V0 r fun hm => h (List.mem_append_left _ hm))
theorem st26_main_v1 (V0 : Valuation τ sig (Elt F)) :
    st26 V0 (no_index (Proc.devRef .tc main_v1)) = val_main_v1 (F := F) (V0 (Proc.devRef .tc main_arg2)) :=
  (st26_keep V0 main_v1 (by decide)).trans (st25_main_v1 V0)
theorem st26_main_v3 (V0 : Valuation τ sig (Elt F)) :
    st26 V0 (no_index (Proc.devRef .tc main_v3)) = val_main_v3 (F := F) (V0 (Proc.devRef .tc main_arg2)) :=
  (st26_keep V0 main_v3 (by decide)).trans (st25_main_v3 V0)
theorem st26_main_v72 (V0 : Valuation τ sig (Elt F)) :
    st26 V0 (no_index (Proc.devRef .tc main_v72)) = val_main_v72 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st26_keep V0 main_v72 (by decide)).trans (st25_main_v72 V0)
theorem st26_main_v96 (V0 : Valuation τ sig (Elt F)) :
    st26 V0 (no_index (Proc.devRef .tc main_v96)) = val_main_v96 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st26_keep V0 main_v96 (by decide)).trans (st25_main_v96 V0)
theorem st26_main_v97 (V0 : Valuation τ sig (Elt F)) :
    st26 V0 (no_index (Proc.devRef .tc main_v97)) = val_main_v97 (F := F) := by
  unfold st26
  simp only [w26]
  after_results_simp
  all_goals rfl
theorem st26_main_v98 (V0 : Valuation τ sig (Elt F)) :
    st26 V0 (no_index (Proc.devRef .tc main_v98)) = val_main_v98 (F := F) (V0 (Proc.devRef .tc main_arg2)) := by
  unfold st26
  simp only [w26]
  after_results_simp
  simp only [st25_main_v3] <;> rfl

/-- Window 27: operations 123 … 123. -/
abbrev w27 : List (HloOp τ sig (Elt F)) :=
  [ ternary main_v97 main_v98 main_v96 main_v99 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]
/-- The buffers window 27 writes. -/
abbrev w27_W : List (Ref sig .tc) := [main_v99]
theorem w27_writes : (w27 : List (HloOp τ sig (Elt F))).Forall fun op => op.writes ⊆ (w27_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 27 windows. -/
def st27 (V0 : Valuation τ sig (Elt F)) : Valuation τ sig (Elt F) := after w27 (st26 V0)
/-- A buffer window 27 does not write keeps its contents through it. -/
theorem st27_keep (V0 : Valuation τ sig (Elt F)) (r : Ref sig .tc) (h : r ∉ w27_W) :
    st27 V0 (Proc.devRef .tc r) = st26 V0 (Proc.devRef .tc r) :=
  after_of_writes_sub w27 _ w27_writes h
/-- The buffers the first 27 windows write. -/
abbrev preW27 : List (Ref sig .tc) := preW26 ++ w27_W
/-- A buffer none of them writes (an argument) still holds its launch contents. -/
theorem st27_arg (V0 : Valuation τ sig (Elt F)) (r : Ref sig .tc) (h : r ∉ preW27) :
    st27 V0 (no_index (Proc.devRef .tc r)) = V0 (Proc.devRef .tc r) :=
  (st27_keep V0 r fun hm => h (List.mem_append_right _ hm)).trans (st26_arg V0 r fun hm => h (List.mem_append_left _ hm))
theorem st27_main_v1 (V0 : Valuation τ sig (Elt F)) :
    st27 V0 (no_index (Proc.devRef .tc main_v1)) = val_main_v1 (F := F) (V0 (Proc.devRef .tc main_arg2)) :=
  (st27_keep V0 main_v1 (by decide)).trans (st26_main_v1 V0)
theorem st27_main_v3 (V0 : Valuation τ sig (Elt F)) :
    st27 V0 (no_index (Proc.devRef .tc main_v3)) = val_main_v3 (F := F) (V0 (Proc.devRef .tc main_arg2)) :=
  (st27_keep V0 main_v3 (by decide)).trans (st26_main_v3 V0)
theorem st27_main_v72 (V0 : Valuation τ sig (Elt F)) :
    st27 V0 (no_index (Proc.devRef .tc main_v72)) = val_main_v72 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st27_keep V0 main_v72 (by decide)).trans (st26_main_v72 V0)
theorem st27_main_v96 (V0 : Valuation τ sig (Elt F)) :
    st27 V0 (no_index (Proc.devRef .tc main_v96)) = val_main_v96 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st27_keep V0 main_v96 (by decide)).trans (st26_main_v96 V0)
theorem st27_main_v99 (V0 : Valuation τ sig (Elt F)) :
    st27 V0 (no_index (Proc.devRef .tc main_v99)) = val_main_v99 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st27
  simp only [w27]
  after_results_simp
  simp only [st26_main_v96, st26_main_v98, st26_main_v97] <;> rfl

/-- Window 28: operations 124 … 127. -/
abbrev w28 : List (HloOp τ sig (Elt F)) :=
  [ binary main_v72 main_v99 main_v100 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg9 main_v101 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v101 main_v102 rfl shapeCasts_S1x128x64_S128x64,
    binary main_v100 main_v102 main_v103 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
/-- The buffers window 28 writes. -/
abbrev w28_W : List (Ref sig .tc) := [main_v100, main_v101, main_v102, main_v103]
theorem w28_writes : (w28 : List (HloOp τ sig (Elt F))).Forall fun op => op.writes ⊆ (w28_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 28 windows. -/
def st28 (V0 : Valuation τ sig (Elt F)) : Valuation τ sig (Elt F) := after w28 (st27 V0)
/-- A buffer window 28 does not write keeps its contents through it. -/
theorem st28_keep (V0 : Valuation τ sig (Elt F)) (r : Ref sig .tc) (h : r ∉ w28_W) :
    st28 V0 (Proc.devRef .tc r) = st27 V0 (Proc.devRef .tc r) :=
  after_of_writes_sub w28 _ w28_writes h
/-- The buffers the first 28 windows write. -/
abbrev preW28 : List (Ref sig .tc) := preW27 ++ w28_W
/-- A buffer none of them writes (an argument) still holds its launch contents. -/
theorem st28_arg (V0 : Valuation τ sig (Elt F)) (r : Ref sig .tc) (h : r ∉ preW28) :
    st28 V0 (no_index (Proc.devRef .tc r)) = V0 (Proc.devRef .tc r) :=
  (st28_keep V0 r fun hm => h (List.mem_append_right _ hm)).trans (st27_arg V0 r fun hm => h (List.mem_append_left _ hm))
theorem st28_main_v1 (V0 : Valuation τ sig (Elt F)) :
    st28 V0 (no_index (Proc.devRef .tc main_v1)) = val_main_v1 (F := F) (V0 (Proc.devRef .tc main_arg2)) :=
  (st28_keep V0 main_v1 (by decide)).trans (st27_main_v1 V0)
theorem st28_main_v3 (V0 : Valuation τ sig (Elt F)) :
    st28 V0 (no_index (Proc.devRef .tc main_v3)) = val_main_v3 (F := F) (V0 (Proc.devRef .tc main_arg2)) :=
  (st28_keep V0 main_v3 (by decide)).trans (st27_main_v3 V0)
theorem st28_main_v96 (V0 : Valuation τ sig (Elt F)) :
    st28 V0 (no_index (Proc.devRef .tc main_v96)) = val_main_v96 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st28_keep V0 main_v96 (by decide)).trans (st27_main_v96 V0)
theorem st28_main_v103 (V0 : Valuation τ sig (Elt F)) :
    st28 V0 (no_index (Proc.devRef .tc main_v103)) = val_main_v103 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st28
  simp only [w28]
  after_results_simp
  try dsimp only [Matrix.cons_val]
  try simp only [st27_arg V0 main_arg9 (by decide), st27_main_v99, st27_main_v72]
  try rw [st27_arg V0 main_arg9 (by decide)]
  try rw [st27_main_v99]
  try rw [st27_main_v72]
  rfl

/-- Window 29: operations 128 … 135. -/
abbrev w29 : List (HloOp τ sig (Elt F)) :=
  [ unary main_arg10 main_v104 ((extractStridedSlice S1x64 ![1, 0] · slices_S3x64_S1x64_1_0) : (⟨S3x64, .f32⟩ : BufTy).Contents (Elt F) → (⟨S1x64, .f32⟩ : BufTy).Contents (Elt F)),
    reshape main_v104 main_v105 rfl shapeCasts_S1x64_S64,
    unary main_v105 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v103 main_v107 main_v108 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v108) (TRef.of (T := ⟨S100000x64, .f32⟩) main_call4_v0) (TRef.of (T := ⟨S100000x64, .f32⟩) main_v109) maximumf ]
/-- The buffers window 29 writes. -/
abbrev w29_W : List (Ref sig .tc) := [main_v104, main_v105, main_v106, main_v107, main_v108, main_call4_cst, main_call4_v0, main_v109]
theorem w29_writes : (w29 : List (HloOp τ sig (Elt F))).Forall fun op => op.writes ⊆ (w29_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 29 windows. -/
def st29 (V0 : Valuation τ sig (Elt F)) : Valuation τ sig (Elt F) := after w29 (st28 V0)
/-- A buffer window 29 does not write keeps its contents through it. -/
theorem st29_keep (V0 : Valuation τ sig (Elt F)) (r : Ref sig .tc) (h : r ∉ w29_W) :
    st29 V0 (Proc.devRef .tc r) = st28 V0 (Proc.devRef .tc r) :=
  after_of_writes_sub w29 _ w29_writes h
/-- The buffers the first 29 windows write. -/
abbrev preW29 : List (Ref sig .tc) := preW28 ++ w29_W
/-- A buffer none of them writes (an argument) still holds its launch contents. -/
theorem st29_arg (V0 : Valuation τ sig (Elt F)) (r : Ref sig .tc) (h : r ∉ preW29) :
    st29 V0 (no_index (Proc.devRef .tc r)) = V0 (Proc.devRef .tc r) :=
  (st29_keep V0 r fun hm => h (List.mem_append_right _ hm)).trans (st28_arg V0 r fun hm => h (List.mem_append_left _ hm))
theorem st29_main_v1 (V0 : Valuation τ sig (Elt F)) :
    st29 V0 (no_index (Proc.devRef .tc main_v1)) = val_main_v1 (F := F) (V0 (Proc.devRef .tc main_arg2)) :=
  (st29_keep V0 main_v1 (by decide)).trans (st28_main_v1 V0)
theorem st29_main_v3 (V0 : Valuation τ sig (Elt F)) :
    st29 V0 (no_index (Proc.devRef .tc main_v3)) = val_main_v3 (F := F) (V0 (Proc.devRef .tc main_arg2)) :=
  (st29_keep V0 main_v3 (by decide)).trans (st28_main_v3 V0)
theorem st29_main_v96 (V0 : Valuation τ sig (Elt F)) :
    st29 V0 (no_index (Proc.devRef .tc main_v96)) = val_main_v96 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st29_keep V0 main_v96 (by decide)).trans (st28_main_v96 V0)
theorem st29_main_v109 (V0 : Valuation τ sig (Elt F)) :
    st29 V0 (no_index (Proc.devRef .tc main_v109)) = val_main_v109 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st29
  simp only [w29]
  after_results_simp
  simp only [st28_arg V0 main_arg10 (by decide), st28_main_v103] <;> rfl

/-- Window 30: operations 136 … 143. -/
abbrev w30 : List (HloOp τ sig (Elt F)) :=
  [ nullary main_c_14 (constantI S_ 32 0#32),
    unary main_c_14 main_v110 (broadcastInDim S1000000 ![] bcast_S_S1000000 : (⟨S_, .i32⟩ : BufTy).Contents (Elt F) → (⟨S1000000, .i32⟩ : BufTy).Contents (Elt F)),
    binary main_v1 main_v110 main_v111 (cmpi .slt : (⟨S1000000, .i32⟩ : BufTy).Contents (Elt F) → (⟨S1000000, .i32⟩ : BufTy).Contents (Elt F) → (⟨S1000000, .i1⟩ : BufTy).Contents (Elt F)),
    nullary main_c_15 (constantI S_ 32 100000#32),
    unary main_c_15 main_v112 (broadcastInDim S1000000 ![] bcast_S_S1000000 : (⟨S_, .i32⟩ : BufTy).Contents (Elt F) → (⟨S1000000, .i32⟩ : BufTy).Contents (Elt F)),
    binary main_v1 main_v112 main_v113 (addi : (⟨S1000000, .i32⟩ : BufTy).Contents (Elt F) → (⟨S1000000, .i32⟩ : BufTy).Contents (Elt F) → (⟨S1000000, .i32⟩ : BufTy).Contents (Elt F)),
    ternary main_v111 main_v113 main_v1 main_v114 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v114 main_v115 (broadcastInDim S1000000x1 ![0] bcast_S1000000_S1000000x1_0 : (⟨S1000000, .i32⟩ : BufTy).Contents (Elt F) → (⟨S1000000x1, .i32⟩ : BufTy).Contents (Elt F)) ]
/-- The buffers window 30 writes. -/
abbrev w30_W : List (Ref sig .tc) := [main_c_14, main_v110, main_v111, main_c_15, main_v112, main_v113, main_v114, main_v115]
theorem w30_writes : (w30 : List (HloOp τ sig (Elt F))).Forall fun op => op.writes ⊆ (w30_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 30 windows. -/
def st30 (V0 : Valuation τ sig (Elt F)) : Valuation τ sig (Elt F) := after w30 (st29 V0)
/-- A buffer window 30 does not write keeps its contents through it. -/
theorem st30_keep (V0 : Valuation τ sig (Elt F)) (r : Ref sig .tc) (h : r ∉ w30_W) :
    st30 V0 (Proc.devRef .tc r) = st29 V0 (Proc.devRef .tc r) :=
  after_of_writes_sub w30 _ w30_writes h
/-- The buffers the first 30 windows write. -/
abbrev preW30 : List (Ref sig .tc) := preW29 ++ w30_W
/-- A buffer none of them writes (an argument) still holds its launch contents. -/
theorem st30_arg (V0 : Valuation τ sig (Elt F)) (r : Ref sig .tc) (h : r ∉ preW30) :
    st30 V0 (no_index (Proc.devRef .tc r)) = V0 (Proc.devRef .tc r) :=
  (st30_keep V0 r fun hm => h (List.mem_append_right _ hm)).trans (st29_arg V0 r fun hm => h (List.mem_append_left _ hm))
theorem st30_main_v3 (V0 : Valuation τ sig (Elt F)) :
    st30 V0 (no_index (Proc.devRef .tc main_v3)) = val_main_v3 (F := F) (V0 (Proc.devRef .tc main_arg2)) :=
  (st30_keep V0 main_v3 (by decide)).trans (st29_main_v3 V0)
theorem st30_main_v96 (V0 : Valuation τ sig (Elt F)) :
    st30 V0 (no_index (Proc.devRef .tc main_v96)) = val_main_v96 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st30_keep V0 main_v96 (by decide)).trans (st29_main_v96 V0)
theorem st30_main_v109 (V0 : Valuation τ sig (Elt F)) :
    st30 V0 (no_index (Proc.devRef .tc main_v109)) = val_main_v109 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st30_keep V0 main_v109 (by decide)).trans (st29_main_v109 V0)
theorem st30_main_v115 (V0 : Valuation τ sig (Elt F)) :
    st30 V0 (no_index (Proc.devRef .tc main_v115)) = val_main_v115 (F := F) (V0 (Proc.devRef .tc main_arg2)) := by
  unfold st30
  simp only [w30]
  after_results_simp
  simp only [st29_main_v1] <;> rfl

/-- Window 31: operations 144 … 144. -/
abbrev w31 : List (HloOp τ sig (Elt F)) :=
  [ binary main_v109 main_v115 main_v116 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
/-- The buffers window 31 writes. -/
abbrev w31_W : List (Ref sig .tc) := [main_v116]
theorem w31_writes : (w31 : List (HloOp τ sig (Elt F))).Forall fun op => op.writes ⊆ (w31_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 31 windows. -/
def st31 (V0 : Valuation τ sig (Elt F)) : Valuation τ sig (Elt F) := after w31 (st30 V0)
/-- A buffer window 31 does not write keeps its contents through it. -/
theorem st31_keep (V0 : Valuation τ sig (Elt F)) (r : Ref sig .tc) (h : r ∉ w31_W) :
    st31 V0 (Proc.devRef .tc r) = st30 V0 (Proc.devRef .tc r) :=
  after_of_writes_sub w31 _ w31_writes h
/-- The buffers the first 31 windows write. -/
abbrev preW31 : List (Ref sig .tc) := preW30 ++ w31_W
/-- A buffer none of them writes (an argument) still holds its launch contents. -/
theorem st31_arg (V0 : Valuation τ sig (Elt F)) (r : Ref sig .tc) (h : r ∉ preW31) :
    st31 V0 (no_index (Proc.devRef .tc r)) = V0 (Proc.devRef .tc r) :=
  (st31_keep V0 r fun hm => h (List.mem_append_right _ hm)).trans (st30_arg V0 r fun hm => h (List.mem_append_left _ hm))
theorem st31_main_v3 (V0 : Valuation τ sig (Elt F)) :
    st31 V0 (no_index (Proc.devRef .tc main_v3)) = val_main_v3 (F := F) (V0 (Proc.devRef .tc main_arg2)) :=
  (st31_keep V0 main_v3 (by decide)).trans (st30_main_v3 V0)
theorem st31_main_v96 (V0 : Valuation τ sig (Elt F)) :
    st31 V0 (no_index (Proc.devRef .tc main_v96)) = val_main_v96 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st31_keep V0 main_v96 (by decide)).trans (st30_main_v96 V0)
theorem st31_main_v109 (V0 : Valuation τ sig (Elt F)) :
    st31 V0 (no_index (Proc.devRef .tc main_v109)) = val_main_v109 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st31_keep V0 main_v109 (by decide)).trans (st30_main_v109 V0)
theorem st31_main_v116 (V0 : Valuation τ sig (Elt F)) :
    st31 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st31
  simp only [w31]
  after_results_simp
  simp only [st30_main_v115, st30_main_v109] <;> rfl

/-- Window 32: operations 145 … 152. -/
abbrev w32 : List (HloOp τ sig (Elt F)) :=
  [ nullary main_c_16 (constantI S_ 32 0#32),
    unary main_c_16 main_v117 (broadcastInDim S1000000 ![] bcast_S_S1000000 : (⟨S_, .i32⟩ : BufTy).Contents (Elt F) → (⟨S1000000, .i32⟩ : BufTy).Contents (Elt F)),
    binary main_v3 main_v117 main_v118 (cmpi .slt : (⟨S1000000, .i32⟩ : BufTy).Contents (Elt F) → (⟨S1000000, .i32⟩ : BufTy).Contents (Elt F) → (⟨S1000000, .i1⟩ : BufTy).Contents (Elt F)),
    nullary main_c_17 (constantI S_ 32 100000#32),
    unary main_c_17 main_v119 (broadcastInDim S1000000 ![] bcast_S_S1000000 : (⟨S_, .i32⟩ : BufTy).Contents (Elt F) → (⟨S1000000, .i32⟩ : BufTy).Contents (Elt F)),
    binary main_v3 main_v119 main_v120 (addi : (⟨S1000000, .i32⟩ : BufTy).Contents (Elt F) → (⟨S1000000, .i32⟩ : BufTy).Contents (Elt F) → (⟨S1000000, .i32⟩ : BufTy).Contents (Elt F)),
    ternary main_v118 main_v120 main_v3 main_v121 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v121 main_v122 (broadcastInDim S1000000x1 ![0] bcast_S1000000_S1000000x1_0 : (⟨S1000000, .i32⟩ : BufTy).Contents (Elt F) → (⟨S1000000x1, .i32⟩ : BufTy).Contents (Elt F)) ]
/-- The buffers window 32 writes. -/
abbrev w32_W : List (Ref sig .tc) := [main_c_16, main_v117, main_v118, main_c_17, main_v119, main_v120, main_v121, main_v122]
theorem w32_writes : (w32 : List (HloOp τ sig (Elt F))).Forall fun op => op.writes ⊆ (w32_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 32 windows. -/
def st32 (V0 : Valuation τ sig (Elt F)) : Valuation τ sig (Elt F) := after w32 (st31 V0)
/-- A buffer window 32 does not write keeps its contents through it. -/
theorem st32_keep (V0 : Valuation τ sig (Elt F)) (r : Ref sig .tc) (h : r ∉ w32_W) :
    st32 V0 (Proc.devRef .tc r) = st31 V0 (Proc.devRef .tc r) :=
  after_of_writes_sub w32 _ w32_writes h
/-- The buffers the first 32 windows write. -/
abbrev preW32 : List (Ref sig .tc) := preW31 ++ w32_W
/-- A buffer none of them writes (an argument) still holds its launch contents. -/
theorem st32_arg (V0 : Valuation τ sig (Elt F)) (r : Ref sig .tc) (h : r ∉ preW32) :
    st32 V0 (no_index (Proc.devRef .tc r)) = V0 (Proc.devRef .tc r) :=
  (st32_keep V0 r fun hm => h (List.mem_append_right _ hm)).trans (st31_arg V0 r fun hm => h (List.mem_append_left _ hm))
theorem st32_main_v3 (V0 : Valuation τ sig (Elt F)) :
    st32 V0 (no_index (Proc.devRef .tc main_v3)) = val_main_v3 (F := F) (V0 (Proc.devRef .tc main_arg2)) :=
  (st32_keep V0 main_v3 (by decide)).trans (st31_main_v3 V0)
theorem st32_main_v96 (V0 : Valuation τ sig (Elt F)) :
    st32 V0 (no_index (Proc.devRef .tc main_v96)) = val_main_v96 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st32_keep V0 main_v96 (by decide)).trans (st31_main_v96 V0)
theorem st32_main_v109 (V0 : Valuation τ sig (Elt F)) :
    st32 V0 (no_index (Proc.devRef .tc main_v109)) = val_main_v109 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st32_keep V0 main_v109 (by decide)).trans (st31_main_v109 V0)
theorem st32_main_v116 (V0 : Valuation τ sig (Elt F)) :
    st32 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st32_keep V0 main_v116 (by decide)).trans (st31_main_v116 V0)
theorem st32_main_v122 (V0 : Valuation τ sig (Elt F)) :
    st32 V0 (no_index (Proc.devRef .tc main_v122)) = val_main_v122 (F := F) (V0 (Proc.devRef .tc main_arg2)) := by
  unfold st32
  simp only [w32]
  after_results_simp
  simp only [st31_main_v3] <;> rfl

/-- Window 33: operations 153 … 153. -/
abbrev w33 : List (HloOp τ sig (Elt F)) :=
  [ binary main_v109 main_v122 main_v123 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]
/-- The buffers window 33 writes. -/
abbrev w33_W : List (Ref sig .tc) := [main_v123]
theorem w33_writes : (w33 : List (HloOp τ sig (Elt F))).Forall fun op => op.writes ⊆ (w33_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 33 windows. -/
def st33 (V0 : Valuation τ sig (Elt F)) : Valuation τ sig (Elt F) := after w33 (st32 V0)
/-- A buffer window 33 does not write keeps its contents through it. -/
theorem st33_keep (V0 : Valuation τ sig (Elt F)) (r : Ref sig .tc) (h : r ∉ w33_W) :
    st33 V0 (Proc.devRef .tc r) = st32 V0 (Proc.devRef .tc r) :=
  after_of_writes_sub w33 _ w33_writes h
/-- The buffers the first 33 windows write. -/
abbrev preW33 : List (Ref sig .tc) := preW32 ++ w33_W
/-- A buffer none of them writes (an argument) still holds its launch contents. -/
theorem st33_arg (V0 : Valuation τ sig (Elt F)) (r : Ref sig .tc) (h : r ∉ preW33) :
    st33 V0 (no_index (Proc.devRef .tc r)) = V0 (Proc.devRef .tc r) :=
  (st33_keep V0 r fun hm => h (List.mem_append_right _ hm)).trans (st32_arg V0 r fun hm => h (List.mem_append_left _ hm))
theorem st33_main_v3 (V0 : Valuation τ sig (Elt F)) :
    st33 V0 (no_index (Proc.devRef .tc main_v3)) = val_main_v3 (F := F) (V0 (Proc.devRef .tc main_arg2)) :=
  (st33_keep V0 main_v3 (by decide)).trans (st32_main_v3 V0)
theorem st33_main_v96 (V0 : Valuation τ sig (Elt F)) :
    st33 V0 (no_index (Proc.devRef .tc main_v96)) = val_main_v96 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st33_keep V0 main_v96 (by decide)).trans (st32_main_v96 V0)
theorem st33_main_v109 (V0 : Valuation τ sig (Elt F)) :
    st33 V0 (no_index (Proc.devRef .tc main_v109)) = val_main_v109 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st33_keep V0 main_v109 (by decide)).trans (st32_main_v109 V0)
theorem st33_main_v116 (V0 : Valuation τ sig (Elt F)) :
    st33 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st33_keep V0 main_v116 (by decide)).trans (st32_main_v116 V0)
theorem st33_main_v123 (V0 : Valuation τ sig (Elt F)) :
    st33 V0 (no_index (Proc.devRef .tc main_v123)) = val_main_v123 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st33
  simp only [w33]
  after_results_simp
  simp only [st32_main_v122, st32_main_v109] <;> rfl

/-- Window 34: operations 154 … 157. -/
abbrev w34 : List (HloOp τ sig (Elt F)) :=
  [ nary ![main_v116, main_v123, main_v96] main_v124 (fun u => concatenate S1000000x192 1 [⟨S1000000x64, u 0⟩, ⟨S1000000x64, u 1⟩, ⟨S1000000x64, u 2⟩] concatenates_S1000000x64_S1000000x64_S1000000x64_S1000000x192_d1),
    unary main_arg7 main_v125 ((extractStridedSlice S1x192x64 ![2, 0, 0] · slices_S3x192x64_S1x192x64_2_0_0) : (⟨S3x192x64, .f32⟩ : BufTy).Contents (Elt F) → (⟨S1x192x64, .f32⟩ : BufTy).Contents (Elt F)),
    reshape main_v125 main_v126 rfl shapeCasts_S1x192x64_S192x64,
    binary main_v124 main_v126 main_v127 ((fun l r => Host.dotGeneral dot_S1000000x192_S192x64_S1000000x64_1_0_0_1_n_n none l r) : (⟨S1000000x192, .f32⟩ : BufTy).Contents (Elt F) → (⟨S192x64, .f32⟩ : BufTy).Contents (Elt F) → (⟨S1000000x64, .f32⟩ : BufTy).Contents (Elt F)) ]
/-- The buffers window 34 writes. -/
abbrev w34_W : List (Ref sig .tc) := [main_v124, main_v125, main_v126, main_v127]
theorem w34_writes : (w34 : List (HloOp τ sig (Elt F))).Forall fun op => op.writes ⊆ (w34_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 34 windows. -/
def st34 (V0 : Valuation τ sig (Elt F)) : Valuation τ sig (Elt F) := after w34 (st33 V0)
/-- A buffer window 34 does not write keeps its contents through it. -/
theorem st34_keep (V0 : Valuation τ sig (Elt F)) (r : Ref sig .tc) (h : r ∉ w34_W) :
    st34 V0 (Proc.devRef .tc r) = st33 V0 (Proc.devRef .tc r) :=
  after_of_writes_sub w34 _ w34_writes h
/-- The buffers the first 34 windows write. -/
abbrev preW34 : List (Ref sig .tc) := preW33 ++ w34_W
/-- A buffer none of them writes (an argument) still holds its launch contents. -/
theorem st34_arg (V0 : Valuation τ sig (Elt F)) (r : Ref sig .tc) (h : r ∉ preW34) :
    st34 V0 (no_index (Proc.devRef .tc r)) = V0 (Proc.devRef .tc r) :=
  (st34_keep V0 r fun hm => h (List.mem_append_right _ hm)).trans (st33_arg V0 r fun hm => h (List.mem_append_left _ hm))
theorem st34_main_v3 (V0 : Valuation τ sig (Elt F)) :
    st34 V0 (no_index (Proc.devRef .tc main_v3)) = val_main_v3 (F := F) (V0 (Proc.devRef .tc main_arg2)) :=
  (st34_keep V0 main_v3 (by decide)).trans (st33_main_v3 V0)
theorem st34_main_v109 (V0 : Valuation τ sig (Elt F)) :
    st34 V0 (no_index (Proc.devRef .tc main_v109)) = val_main_v109 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st34_keep V0 main_v109 (by decide)).trans (st33_main_v109 V0)
theorem st34_main_v127 (V0 : Valuation τ sig (Elt F)) :
    st34 V0 (no_index (Proc.devRef .tc main_v127)) = val_main_v127 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st34
  simp only [w34]
  after_results_simp
  try dsimp only [Matrix.cons_val]
  try simp only [st33_arg V0 main_arg7 (by decide), st33_main_v96, st33_main_v123, st33_main_v116]
  try rw [st33_arg V0 main_arg7 (by decide)]
  try rw [st33_main_v96]
  try rw [st33_main_v123]
  try rw [st33_main_v116]
  rfl

/-- Window 35: operations 158 … 165. -/
abbrev w35 : List (HloOp τ sig (Elt F)) :=
  [ unary main_arg8 main_v128 ((extractStridedSlice S1x64 ![2, 0] · slices_S3x64_S1x64_2_0) : (⟨S3x64, .f32⟩ : BufTy).Contents (Elt F) → (⟨S1x64, .f32⟩ : BufTy).Contents (Elt F)),
    reshape main_v128 main_v129 rfl shapeCasts_S1x64_S64,
    unary main_v129 main_v130 (broadcastInDim S1x64 ![1] bcast_S64_S1x64_1 : (⟨S64, .f32⟩ : BufTy).Contents (Elt F) → (⟨S1x64, .f32⟩ : BufTy).Contents (Elt F)),
    unary main_v130 main_v131 (broadcastInDim S1000000x64 ![0, 1] bcast_S1x64_S1000000x64_0_1 : (⟨S1x64, .f32⟩ : BufTy).Contents (Elt F) → (⟨S1000000x64, .f32⟩ : BufTy).Contents (Elt F)),
    binary main_v127 main_v131 main_v132 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1000000x64, .f32⟩) main_call5_v0) (broadcastInDim S1000000x64 ![] bcast_S_S1000000x64),
    TRef.binary (TRef.of (T := ⟨S1000000x64, .f32⟩) main_v132) (TRef.of (T := ⟨S1000000x64, .f32⟩) main_call5_v0) (TRef.of (T := ⟨S1000000x64, .f32⟩) main_v133) maximumf ]
/-- The buffers window 35 writes. -/
abbrev w35_W : List (Ref sig .tc) := [main_v128, main_v129, main_v130, main_v131, main_v132, main_call5_cst, main_call5_v0, main_v133]
theorem w35_writes : (w35 : List (HloOp τ sig (Elt F))).Forall fun op => op.writes ⊆ (w35_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 35 windows. -/
def st35 (V0 : Valuation τ sig (Elt F)) : Valuation τ sig (Elt F) := after w35 (st34 V0)
/-- A buffer window 35 does not write keeps its contents through it. -/
theorem st35_keep (V0 : Valuation τ sig (Elt F)) (r : Ref sig .tc) (h : r ∉ w35_W) :
    st35 V0 (Proc.devRef .tc r) = st34 V0 (Proc.devRef .tc r) :=
  after_of_writes_sub w35 _ w35_writes h
/-- The buffers the first 35 windows write. -/
abbrev preW35 : List (Ref sig .tc) := preW34 ++ w35_W
/-- A buffer none of them writes (an argument) still holds its launch contents. -/
theorem st35_arg (V0 : Valuation τ sig (Elt F)) (r : Ref sig .tc) (h : r ∉ preW35) :
    st35 V0 (no_index (Proc.devRef .tc r)) = V0 (Proc.devRef .tc r) :=
  (st35_keep V0 r fun hm => h (List.mem_append_right _ hm)).trans (st34_arg V0 r fun hm => h (List.mem_append_left _ hm))
theorem st35_main_v3 (V0 : Valuation τ sig (Elt F)) :
    st35 V0 (no_index (Proc.devRef .tc main_v3)) = val_main_v3 (F := F) (V0 (Proc.devRef .tc main_arg2)) :=
  (st35_keep V0 main_v3 (by decide)).trans (st34_main_v3 V0)
theorem st35_main_v109 (V0 : Valuation τ sig (Elt F)) :
    st35 V0 (no_index (Proc.devRef .tc main_v109)) = val_main_v109 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st35_keep V0 main_v109 (by decide)).trans (st34_main_v109 V0)
theorem st35_main_v133 (V0 : Valuation τ sig (Elt F)) :
    st35 V0 (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st35
  simp only [w35]
  after_results_simp
  simp only [st34_arg V0 main_arg8 (by decide), st34_main_v127] <;> rfl

/-- Window 36: operations 166 … 168. -/
abbrev w36 : List (HloOp τ sig (Elt F)) :=
  [ nullary main_cst_18 (constant S_ .f32 0x00000000#32),
    unary main_cst_18 main_v134 (broadcastInDim S100000x64 ![] bcast_S_S100000x64 : (⟨S_, .f32⟩ : BufTy).Contents (Elt F) → (⟨S100000x64, .f32⟩ : BufTy).Contents (Elt F)),
    unary main_v3 main_v135 (broadcastInDim S1000000x1 ![0] bcast_S1000000_S1000000x1_0 : (⟨S1000000, .i32⟩ : BufTy).Contents (Elt F) → (⟨S1000000x1, .i32⟩ : BufTy).Contents (Elt F)) ]
/-- The buffers window 36 writes. -/
abbrev w36_W : List (Ref sig .tc) := [main_cst_18, main_v134, main_v135]
theorem w36_writes : (w36 : List (HloOp τ sig (Elt F))).Forall fun op => op.writes ⊆ (w36_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 36 windows. -/
def st36 (V0 : Valuation τ sig (Elt F)) : Valuation τ sig (Elt F) := after w36 (st35 V0)
/-- A buffer window 36 does not write keeps its contents through it. -/
theorem st36_keep (V0 : Valuation τ sig (Elt F)) (r : Ref sig .tc) (h : r ∉ w36_W) :
    st36 V0 (Proc.devRef .tc r) = st35 V0 (Proc.devRef .tc r) :=
  after_of_writes_sub w36 _ w36_writes h
/-- The buffers the first 36 windows write. -/
abbrev preW36 : List (Ref sig .tc) := preW35 ++ w36_W
/-- A buffer none of them writes (an argument) still holds its launch contents. -/
theorem st36_arg (V0 : Valuation τ sig (Elt F)) (r : Ref sig .tc) (h : r ∉ preW36) :
    st36 V0 (no_index (Proc.devRef .tc r)) = V0 (Proc.devRef .tc r) :=
  (st36_keep V0 r fun hm => h (List.mem_append_right _ hm)).trans (st35_arg V0 r fun hm => h (List.mem_append_left _ hm))
theorem st36_main_v109 (V0 : Valuation τ sig (Elt F)) :
    st36 V0 (no_index (Proc.devRef .tc main_v109)) = val_main_v109 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st36_keep V0 main_v109 (by decide)).trans (st35_main_v109 V0)
theorem st36_main_v133 (V0 : Valuation τ sig (Elt F)) :
    st36 V0 (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st36_keep V0 main_v133 (by decide)).trans (st35_main_v133 V0)
theorem st36_main_v134 (V0 : Valuation τ sig (Elt F)) :
    st36 V0 (no_index (Proc.devRef .tc main_v134)) = val_main_v134 (F := F) := by
  unfold st36
  simp only [w36]
  after_results_simp
  all_goals rfl
theorem st36_main_v135 (V0 : Valuation τ sig (Elt F)) :
    st36 V0 (no_index (Proc.devRef .tc main_v135)) = val_main_v135 (F := F) (V0 (Proc.devRef .tc main_arg2)) := by
  unfold st36
  simp only [w36]
  after_results_simp
  simp only [st35_main_v3] <;> rfl

/-- Window 37: operations 169 … 169. -/
abbrev w37 : List (HloOp τ sig (Elt F)) :=
  [ ternary main_v134 main_v135 main_v133 main_v136 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]
/-- The buffers window 37 writes. -/
abbrev w37_W : List (Ref sig .tc) := [main_v136]
theorem w37_writes : (w37 : List (HloOp τ sig (Elt F))).Forall fun op => op.writes ⊆ (w37_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 37 windows. -/
def st37 (V0 : Valuation τ sig (Elt F)) : Valuation τ sig (Elt F) := after w37 (st36 V0)
/-- A buffer window 37 does not write keeps its contents through it. -/
theorem st37_keep (V0 : Valuation τ sig (Elt F)) (r : Ref sig .tc) (h : r ∉ w37_W) :
    st37 V0 (Proc.devRef .tc r) = st36 V0 (Proc.devRef .tc r) :=
  after_of_writes_sub w37 _ w37_writes h
/-- The buffers the first 37 windows write. -/
abbrev preW37 : List (Ref sig .tc) := preW36 ++ w37_W
/-- A buffer none of them writes (an argument) still holds its launch contents. -/
theorem st37_arg (V0 : Valuation τ sig (Elt F)) (r : Ref sig .tc) (h : r ∉ preW37) :
    st37 V0 (no_index (Proc.devRef .tc r)) = V0 (Proc.devRef .tc r) :=
  (st37_keep V0 r fun hm => h (List.mem_append_right _ hm)).trans (st36_arg V0 r fun hm => h (List.mem_append_left _ hm))
theorem st37_main_v109 (V0 : Valuation τ sig (Elt F)) :
    st37 V0 (no_index (Proc.devRef .tc main_v109)) = val_main_v109 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st37_keep V0 main_v109 (by decide)).trans (st36_main_v109 V0)
theorem st37_main_v133 (V0 : Valuation τ sig (Elt F)) :
    st37 V0 (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st37_keep V0 main_v133 (by decide)).trans (st36_main_v133 V0)
theorem st37_main_v136 (V0 : Valuation τ sig (Elt F)) :
    st37 V0 (no_index (Proc.devRef .tc main_v136)) = val_main_v136 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st37
  simp only [w37]
  after_results_simp
  simp only [st36_main_v133, st36_main_v135, st36_main_v134] <;> rfl

/-- Window 38: operations 170 … 173. -/
abbrev w38 : List (HloOp τ sig (Elt F)) :=
  [ binary main_v109 main_v136 main_v137 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg9 main_v138 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v138 main_v139 rfl shapeCasts_S1x128x64_S128x64,
    binary main_v137 main_v139 main_v140 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
/-- The buffers window 38 writes. -/
abbrev w38_W : List (Ref sig .tc) := [main_v137, main_v138, main_v139, main_v140]
theorem w38_writes : (w38 : List (HloOp τ sig (Elt F))).Forall fun op => op.writes ⊆ (w38_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 38 windows. -/
def st38 (V0 : Valuation τ sig (Elt F)) : Valuation τ sig (Elt F) := after w38 (st37 V0)
/-- A buffer window 38 does not write keeps its contents through it. -/
theorem st38_keep (V0 : Valuation τ sig (Elt F)) (r : Ref sig .tc) (h : r ∉ w38_W) :
    st38 V0 (Proc.devRef .tc r) = st37 V0 (Proc.devRef .tc r) :=
  after_of_writes_sub w38 _ w38_writes h
/-- The buffers the first 38 windows write. -/
abbrev preW38 : List (Ref sig .tc) := preW37 ++ w38_W
/-- A buffer none of them writes (an argument) still holds its launch contents. -/
theorem st38_arg (V0 : Valuation τ sig (Elt F)) (r : Ref sig .tc) (h : r ∉ preW38) :
    st38 V0 (no_index (Proc.devRef .tc r)) = V0 (Proc.devRef .tc r) :=
  (st38_keep V0 r fun hm => h (List.mem_append_right _ hm)).trans (st37_arg V0 r fun hm => h (List.mem_append_left _ hm))
theorem st38_main_v133 (V0 : Valuation τ sig (Elt F)) :
    st38 V0 (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st38_keep V0 main_v133 (by decide)).trans (st37_main_v133 V0)
theorem st38_main_v140 (V0 : Valuation τ sig (Elt F)) :
    st38 V0 (no_index (Proc.devRef .tc main_v140)) = val_main_v140 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st38
  simp only [w38]
  after_results_simp
  try dsimp only [Matrix.cons_val]
  try simp only [st37_arg V0 main_arg9 (by decide), st37_main_v136, st37_main_v109]
  try rw [st37_arg V0 main_arg9 (by decide)]
  try rw [st37_main_v136]
  try rw [st37_main_v109]
  rfl

/-- Window 39: operations 174 … 181. -/
abbrev w39 : List (HloOp τ sig (Elt F)) :=
  [ unary main_arg10 main_v141 ((extractStridedSlice S1x64 ![2, 0] · slices_S3x64_S1x64_2_0) : (⟨S3x64, .f32⟩ : BufTy).Contents (Elt F) → (⟨S1x64, .f32⟩ : BufTy).Contents (Elt F)),
    reshape main_v141 main_v142 rfl shapeCasts_S1x64_S64,
    unary main_v142 main_v143 (broadcastInDim S1x64 ![1] bcast_S64_S1x64_1 : (⟨S64, .f32⟩ : BufTy).Contents (Elt F) → (⟨S1x64, .f32⟩ : BufTy).Contents (Elt F)),
    unary main_v143 main_v144 (broadcastInDim S100000x64 ![0, 1] bcast_S1x64_S100000x64_0_1 : (⟨S1x64, .f32⟩ : BufTy).Contents (Elt F) → (⟨S100000x64, .f32⟩ : BufTy).Contents (Elt F)),
    binary main_v140 main_v144 main_v145 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v145) (TRef.of (T := ⟨S100000x64, .f32⟩) main_call6_v0) (TRef.of (T := ⟨S100000x64, .f32⟩) main_v146) maximumf ]
/-- The buffers window 39 writes. -/
abbrev w39_W : List (Ref sig .tc) := [main_v141, main_v142, main_v143, main_v144, main_v145, main_call6_cst, main_call6_v0, main_v146]
theorem w39_writes : (w39 : List (HloOp τ sig (Elt F))).Forall fun op => op.writes ⊆ (w39_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 39 windows. -/
def st39 (V0 : Valuation τ sig (Elt F)) : Valuation τ sig (Elt F) := after w39 (st38 V0)
/-- A buffer window 39 does not write keeps its contents through it. -/
theorem st39_keep (V0 : Valuation τ sig (Elt F)) (r : Ref sig .tc) (h : r ∉ w39_W) :
    st39 V0 (Proc.devRef .tc r) = st38 V0 (Proc.devRef .tc r) :=
  after_of_writes_sub w39 _ w39_writes h
/-- The buffers the first 39 windows write. -/
abbrev preW39 : List (Ref sig .tc) := preW38 ++ w39_W
/-- A buffer none of them writes (an argument) still holds its launch contents. -/
theorem st39_arg (V0 : Valuation τ sig (Elt F)) (r : Ref sig .tc) (h : r ∉ preW39) :
    st39 V0 (no_index (Proc.devRef .tc r)) = V0 (Proc.devRef .tc r) :=
  (st39_keep V0 r fun hm => h (List.mem_append_right _ hm)).trans (st38_arg V0 r fun hm => h (List.mem_append_left _ hm))
theorem st39_main_v133 (V0 : Valuation τ sig (Elt F)) :
    st39 V0 (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st39_keep V0 main_v133 (by decide)).trans (st38_main_v133 V0)
theorem st39_main_v146 (V0 : Valuation τ sig (Elt F)) :
    st39 V0 (no_index (Proc.devRef .tc main_v146)) = val_main_v146 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold st39
  simp only [w39]
  after_results_simp
  simp only [st38_arg V0 main_arg10 (by decide), st38_main_v140] <;> rfl

/-- Window 40: operations 182 … 188. -/
abbrev w40 : List (HloOp τ sig (Elt F)) :=
  [ binary main_v146 main_arg11 main_v147 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg12 main_v148 (broadcastInDim S1x192 ![1] bcast_S192_S1x192_1 : (⟨S192, .f32⟩ : BufTy).Contents (Elt F) → (⟨S1x192, .f32⟩ : BufTy).Contents (Elt F)),
    unary main_v148 main_v149 (broadcastInDim S100000x192 ![0, 1] bcast_S1x192_S100000x192_0_1 : (⟨S1x192, .f32⟩ : BufTy).Contents (Elt F) → (⟨S100000x192, .f32⟩ : BufTy).Contents (Elt F)),
    binary main_v147 main_v149 main_v150 (addf : (⟨S100000x192, .f32⟩ : BufTy).Contents (Elt F) → (⟨S100000x192, .f32⟩ : BufTy).Contents (Elt F) → (⟨S100000x192, .f32⟩ : BufTy).Contents (Elt F)),
    unary main_v150 main_v151 ((extractStridedSlice S100000x64 ![0, 0] · slices_S100000x192_S100000x64_0_0) : (⟨S100000x192, .f32⟩ : BufTy).Contents (Elt F) → (⟨S100000x64, .f32⟩ : BufTy).Contents (Elt F)),
    unary main_v150 main_v152 ((extractStridedSlice S100000x64 ![0, 64] · slices_S100000x192_S100000x64_0_64) : (⟨S100000x192, .f32⟩ : BufTy).Contents (Elt F) → (⟨S100000x64, .f32⟩ : BufTy).Contents (Elt F)),
    unary main_v150 main_v153 ((extractStridedSlice S100000x64 ![0, 128] · slices_S100000x192_S100000x64_0_128) : (⟨S100000x192, .f32⟩ : BufTy).Contents (Elt F) → (⟨S100000x64, .f32⟩ : BufTy).Contents (Elt F)) ]
/-- The buffers window 40 writes. -/
abbrev w40_W : List (Ref sig .tc) := [main_v147, main_v148, main_v149, main_v150, main_v151, main_v152, main_v153]
theorem w40_writes : (w40 : List (HloOp τ sig (Elt F))).Forall fun op => op.writes ⊆ (w40_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 40 windows. -/
def st40 (V0 : Valuation τ sig (Elt F)) : Valuation τ sig (Elt F) := after w40 (st39 V0)
/-- A buffer window 40 does not write keeps its contents through it. -/
theorem st40_keep (V0 : Valuation τ sig (Elt F)) (r : Ref sig .tc) (h : r ∉ w40_W) :
    st40 V0 (Proc.devRef .tc r) = st39 V0 (Proc.devRef .tc r) :=
  after_of_writes_sub w40 _ w40_writes h
/-- The buffers the first 40 windows write. -/
abbrev preW40 : List (Ref sig .tc) := preW39 ++ w40_W
/-- A buffer none of them writes (an argument) still holds its launch contents. -/
theorem st40_arg (V0 : Valuation τ sig (Elt F)) (r : Ref sig .tc) (h : r ∉ preW40) :
    st40 V0 (no_index (Proc.devRef .tc r)) = V0 (Proc.devRef .tc r) :=
  (st40_keep V0 r fun hm => h (List.mem_append_right _ hm)).trans (st39_arg V0 r fun hm => h (List.mem_append_left _ hm))
theorem st40_main_v133 (V0 : Valuation τ sig (Elt F)) :
    st40 V0 (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st40_keep V0 main_v133 (by decide)).trans (st39_main_v133 V0)
theorem st40_main_v151 (V0 : Valuation τ sig (Elt F)) :
    st40 V0 (no_index (Proc.devRef .tc main_v151)) = val_main_v151 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold st40
  simp only [w40]
  after_results_simp
  simp only [st39_arg V0 main_arg12 (by decide), st39_arg V0 main_arg11 (by decide), st39_main_v146] <;> rfl
theorem st40_main_v152 (V0 : Valuation τ sig (Elt F)) :
    st40 V0 (no_index (Proc.devRef .tc main_v152)) = val_main_v152 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold st40
  simp only [w40]
  after_results_simp
  simp only [st39_arg V0 main_arg12 (by decide), st39_arg V0 main_arg11 (by decide), st39_main_v146] <;> rfl
theorem st40_main_v153 (V0 : Valuation τ sig (Elt F)) :
    st40 V0 (no_index (Proc.devRef .tc main_v153)) = val_main_v153 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold st40
  simp only [w40]
  after_results_simp
  simp only [st39_arg V0 main_arg12 (by decide), st39_arg V0 main_arg11 (by decide), st39_main_v146] <;> rfl

/-- Window 41: operations 189 … 193. -/
abbrev w41 : List (HloOp τ sig (Elt F)) :=
  [ binary main_v151 main_arg13 main_v154 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg14 main_v155 (broadcastInDim S1x1 ![1] bcast_S1_S1x1_1 : (⟨S1, .f32⟩ : BufTy).Contents (Elt F) → (⟨S1x1, .f32⟩ : BufTy).Contents (Elt F)),
    unary main_v155 main_v156 (broadcastInDim S100000x1 ![0, 1] bcast_S1x1_S100000x1_0_1 : (⟨S1x1, .f32⟩ : BufTy).Contents (Elt F) → (⟨S100000x1, .f32⟩ : BufTy).Contents (Elt F)),
    binary main_v154 main_v156 main_v157 (addf : (⟨S100000x1, .f32⟩ : BufTy).Contents (Elt F) → (⟨S100000x1, .f32⟩ : BufTy).Contents (Elt F) → (⟨S100000x1, .f32⟩ : BufTy).Contents (Elt F)),
    unary main_v157 main_v158 (Host.sin : (⟨S100000x1, .f32⟩ : BufTy).Contents (Elt F) → (⟨S100000x1, .f32⟩ : BufTy).Contents (Elt F)) ]
/-- The buffers window 41 writes. -/
abbrev w41_W : List (Ref sig .tc) := [main_v154, main_v155, main_v156, main_v157, main_v158]
theorem w41_writes : (w41 : List (HloOp τ sig (Elt F))).Forall fun op => op.writes ⊆ (w41_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 41 windows. -/
def st41 (V0 : Valuation τ sig (Elt F)) : Valuation τ sig (Elt F) := after w41 (st40 V0)
/-- A buffer window 41 does not write keeps its contents through it. -/
theorem st41_keep (V0 : Valuation τ sig (Elt F)) (r : Ref sig .tc) (h : r ∉ w41_W) :
    st41 V0 (Proc.devRef .tc r) = st40 V0 (Proc.devRef .tc r) :=
  after_of_writes_sub w41 _ w41_writes h
/-- The buffers the first 41 windows write. -/
abbrev preW41 : List (Ref sig .tc) := preW40 ++ w41_W
/-- A buffer none of them writes (an argument) still holds its launch contents. -/
theorem st41_arg (V0 : Valuation τ sig (Elt F)) (r : Ref sig .tc) (h : r ∉ preW41) :
    st41 V0 (no_index (Proc.devRef .tc r)) = V0 (Proc.devRef .tc r) :=
  (st41_keep V0 r fun hm => h (List.mem_append_right _ hm)).trans (st40_arg V0 r fun hm => h (List.mem_append_left _ hm))
theorem st41_main_v133 (V0 : Valuation τ sig (Elt F)) :
    st41 V0 (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st41_keep V0 main_v133 (by decide)).trans (st40_main_v133 V0)
theorem st41_main_v152 (V0 : Valuation τ sig (Elt F)) :
    st41 V0 (no_index (Proc.devRef .tc main_v152)) = val_main_v152 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (st41_keep V0 main_v152 (by decide)).trans (st40_main_v152 V0)
theorem st41_main_v153 (V0 : Valuation τ sig (Elt F)) :
    st41 V0 (no_index (Proc.devRef .tc main_v153)) = val_main_v153 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (st41_keep V0 main_v153 (by decide)).trans (st40_main_v153 V0)
theorem st41_main_v158 (V0 : Valuation τ sig (Elt F)) :
    st41 V0 (no_index (Proc.devRef .tc main_v158)) = val_main_v158 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold st41
  simp only [w41]
  after_results_simp
  simp only [st40_arg V0 main_arg14 (by decide), st40_arg V0 main_arg13 (by decide), st40_main_v151] <;> rfl

/-- Window 42: operations 194 … 198. -/
abbrev w42 : List (HloOp τ sig (Elt F)) :=
  [ binary main_v152 main_arg15 main_v159 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg16 main_v160 (broadcastInDim S1x1 ![1] bcast_S1_S1x1_1 : (⟨S1, .f32⟩ : BufTy).Contents (Elt F) → (⟨S1x1, .f32⟩ : BufTy).Contents (Elt F)),
    unary main_v160 main_v161 (broadcastInDim S100000x1 ![0, 1] bcast_S1x1_S100000x1_0_1 : (⟨S1x1, .f32⟩ : BufTy).Contents (Elt F) → (⟨S100000x1, .f32⟩ : BufTy).Contents (Elt F)),
    binary main_v159 main_v161 main_v162 (addf : (⟨S100000x1, .f32⟩ : BufTy).Contents (Elt F) → (⟨S100000x1, .f32⟩ : BufTy).Contents (Elt F) → (⟨S100000x1, .f32⟩ : BufTy).Contents (Elt F)),
    unary main_v162 main_v163 (Host.sin : (⟨S100000x1, .f32⟩ : BufTy).Contents (Elt F) → (⟨S100000x1, .f32⟩ : BufTy).Contents (Elt F)) ]
/-- The buffers window 42 writes. -/
abbrev w42_W : List (Ref sig .tc) := [main_v159, main_v160, main_v161, main_v162, main_v163]
theorem w42_writes : (w42 : List (HloOp τ sig (Elt F))).Forall fun op => op.writes ⊆ (w42_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 42 windows. -/
def st42 (V0 : Valuation τ sig (Elt F)) : Valuation τ sig (Elt F) := after w42 (st41 V0)
/-- A buffer window 42 does not write keeps its contents through it. -/
theorem st42_keep (V0 : Valuation τ sig (Elt F)) (r : Ref sig .tc) (h : r ∉ w42_W) :
    st42 V0 (Proc.devRef .tc r) = st41 V0 (Proc.devRef .tc r) :=
  after_of_writes_sub w42 _ w42_writes h
/-- The buffers the first 42 windows write. -/
abbrev preW42 : List (Ref sig .tc) := preW41 ++ w42_W
/-- A buffer none of them writes (an argument) still holds its launch contents. -/
theorem st42_arg (V0 : Valuation τ sig (Elt F)) (r : Ref sig .tc) (h : r ∉ preW42) :
    st42 V0 (no_index (Proc.devRef .tc r)) = V0 (Proc.devRef .tc r) :=
  (st42_keep V0 r fun hm => h (List.mem_append_right _ hm)).trans (st41_arg V0 r fun hm => h (List.mem_append_left _ hm))
theorem st42_main_v133 (V0 : Valuation τ sig (Elt F)) :
    st42 V0 (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st42_keep V0 main_v133 (by decide)).trans (st41_main_v133 V0)
theorem st42_main_v153 (V0 : Valuation τ sig (Elt F)) :
    st42 V0 (no_index (Proc.devRef .tc main_v153)) = val_main_v153 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (st42_keep V0 main_v153 (by decide)).trans (st41_main_v153 V0)
theorem st42_main_v158 (V0 : Valuation τ sig (Elt F)) :
    st42 V0 (no_index (Proc.devRef .tc main_v158)) = val_main_v158 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  (st42_keep V0 main_v158 (by decide)).trans (st41_main_v158 V0)
theorem st42_main_v163 (V0 : Valuation τ sig (Elt F)) :
    st42 V0 (no_index (Proc.devRef .tc main_v163)) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg15)) (V0 (Proc.devRef .tc main_arg16)) := by
  unfold st42
  simp only [w42]
  after_results_simp
  simp only [st41_arg V0 main_arg16 (by decide), st41_arg V0 main_arg15 (by decide), st41_main_v152] <;> rfl

/-- Window 43: operations 199 … 202. -/
abbrev w43 : List (HloOp τ sig (Elt F)) :=
  [ binary main_v153 main_arg17 main_v164 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg18 main_v165 (broadcastInDim S1x1 ![1] bcast_S1_S1x1_1 : (⟨S1, .f32⟩ : BufTy).Contents (Elt F) → (⟨S1x1, .f32⟩ : BufTy).Contents (Elt F)),
    unary main_v165 main_v166 (broadcastInDim S100000x1 ![0, 1] bcast_S1x1_S100000x1_0_1 : (⟨S1x1, .f32⟩ : BufTy).Contents (Elt F) → (⟨S100000x1, .f32⟩ : BufTy).Contents (Elt F)),
    binary main_v164 main_v166 main_v167 (addf : (⟨S100000x1, .f32⟩ : BufTy).Contents (Elt F) → (⟨S100000x1, .f32⟩ : BufTy).Contents (Elt F) → (⟨S100000x1, .f32⟩ : BufTy).Contents (Elt F)) ]
/-- The buffers window 43 writes. -/
abbrev w43_W : List (Ref sig .tc) := [main_v164, main_v165, main_v166, main_v167]
theorem w43_writes : (w43 : List (HloOp τ sig (Elt F))).Forall fun op => op.writes ⊆ (w43_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 43 windows. -/
def st43 (V0 : Valuation τ sig (Elt F)) : Valuation τ sig (Elt F) := after w43 (st42 V0)
/-- A buffer window 43 does not write keeps its contents through it. -/
theorem st43_keep (V0 : Valuation τ sig (Elt F)) (r : Ref sig .tc) (h : r ∉ w43_W) :
    st43 V0 (Proc.devRef .tc r) = st42 V0 (Proc.devRef .tc r) :=
  after_of_writes_sub w43 _ w43_writes h
/-- The buffers the first 43 windows write. -/
abbrev preW43 : List (Ref sig .tc) := preW42 ++ w43_W
/-- A buffer none of them writes (an argument) still holds its launch contents. -/
theorem st43_arg (V0 : Valuation τ sig (Elt F)) (r : Ref sig .tc) (h : r ∉ preW43) :
    st43 V0 (no_index (Proc.devRef .tc r)) = V0 (Proc.devRef .tc r) :=
  (st43_keep V0 r fun hm => h (List.mem_append_right _ hm)).trans (st42_arg V0 r fun hm => h (List.mem_append_left _ hm))
theorem st43_main_v133 (V0 : Valuation τ sig (Elt F)) :
    st43 V0 (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st43_keep V0 main_v133 (by decide)).trans (st42_main_v133 V0)
theorem st43_main_v158 (V0 : Valuation τ sig (Elt F)) :
    st43 V0 (no_index (Proc.devRef .tc main_v158)) = val_main_v158 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  (st43_keep V0 main_v158 (by decide)).trans (st42_main_v158 V0)
theorem st43_main_v163 (V0 : Valuation τ sig (Elt F)) :
    st43 V0 (no_index (Proc.devRef .tc main_v163)) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg15)) (V0 (Proc.devRef .tc main_arg16)) :=
  (st43_keep V0 main_v163 (by decide)).trans (st42_main_v163 V0)
theorem st43_main_v167 (V0 : Valuation τ sig (Elt F)) :
    st43 V0 (no_index (Proc.devRef .tc main_v167)) = val_main_v167 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg17)) (V0 (Proc.devRef .tc main_arg18)) := by
  unfold st43
  simp only [w43]
  after_results_simp
  simp only [st42_arg V0 main_arg18 (by decide), st42_arg V0 main_arg17 (by decide), st42_main_v153] <;> rfl

/-- Window 44: operations 203 … 203. -/
abbrev w44 : List (HloOp τ sig (Elt F)) :=
  [ nary ![main_v158, main_v163, main_v167] main_v168 (fun u => concatenate S100000x3 1 [⟨S100000x1, u 0⟩, ⟨S100000x1, u 1⟩, ⟨S100000x1, u 2⟩] concatenates_S100000x1_S100000x1_S100000x1_S100000x3_d1) ]
/-- The buffers window 44 writes. -/
abbrev w44_W : List (Ref sig .tc) := [main_v168]
theorem w44_writes : (w44 : List (HloOp τ sig (Elt F))).Forall fun op => op.writes ⊆ (w44_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 44 windows. -/
def st44 (V0 : Valuation τ sig (Elt F)) : Valuation τ sig (Elt F) := after w44 (st43 V0)
/-- A buffer window 44 does not write keeps its contents through it. -/
theorem st44_keep (V0 : Valuation τ sig (Elt F)) (r : Ref sig .tc) (h : r ∉ w44_W) :
    st44 V0 (Proc.devRef .tc r) = st43 V0 (Proc.devRef .tc r) :=
  after_of_writes_sub w44 _ w44_writes h
/-- The buffers the first 44 windows write. -/
abbrev preW44 : List (Ref sig .tc) := preW43 ++ w44_W
/-- A buffer none of them writes (an argument) still holds its launch contents. -/
theorem st44_arg (V0 : Valuation τ sig (Elt F)) (r : Ref sig .tc) (h : r ∉ preW44) :
    st44 V0 (no_index (Proc.devRef .tc r)) = V0 (Proc.devRef .tc r) :=
  (st44_keep V0 r fun hm => h (List.mem_append_right _ hm)).trans (st43_arg V0 r fun hm => h (List.mem_append_left _ hm))
theorem st44_main_v133 (V0 : Valuation τ sig (Elt F)) :
    st44 V0 (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (st44_keep V0 main_v133 (by decide)).trans (st43_main_v133 V0)
theorem st44_main_v168 (V0 : Valuation τ sig (Elt F)) :
    st44 V0 (no_index (Proc.devRef .tc main_v168)) = val_main_v168 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold st44
  simp only [w44]
  after_results_simp
  try dsimp only [Matrix.cons_val]
  try simp only [st43_main_v167, st43_main_v163, st43_main_v158]
  try rw [st43_main_v167]
  try rw [st43_main_v163]
  try rw [st43_main_v158]
  rfl

/-- Window 45: operations 204 … 211. -/
abbrev w45 : List (HloOp τ sig (Elt F)) :=
  [ binary main_v133 main_arg19 main_v169 ((fun l r => Host.dotGeneral dot_S1000000x64_S64x256_S1000000x256_1_0_0_1_n_n none l r) : (⟨S1000000x64, .f32⟩ : BufTy).Contents (Elt F) → (⟨S64x256, .f32⟩ : BufTy).Contents (Elt F) → (⟨S1000000x256, .f32⟩ : BufTy).Contents (Elt F)),
    unary main_arg20 main_v170 (broadcastInDim S1x256 ![1] bcast_S256_S1x256_1 : (⟨S256, .f32⟩ : BufTy).Contents (Elt F) → (⟨S1x256, .f32⟩ : BufTy).Contents (Elt F)),
    unary main_v170 main_v171 (broadcastInDim S1000000x256 ![0, 1] bcast_S1x256_S1000000x256_0_1 : (⟨S1x256, .f32⟩ : BufTy).Contents (Elt F) → (⟨S1000000x256, .f32⟩ : BufTy).Contents (Elt F)),
    binary main_v169 main_v171 main_v172 (addf : (⟨S1000000x256, .f32⟩ : BufTy).Contents (Elt F) → (⟨S1000000x256, .f32⟩ : BufTy).Contents (Elt F) → (⟨S1000000x256, .f32⟩ : BufTy).Contents (Elt F)),
    unary main_v172 main_v173 ((extractStridedSlice S1000000x64 ![0, 0] · slices_S1000000x256_S1000000x64_0_0) : (⟨S1000000x256, .f32⟩ : BufTy).Contents (Elt F) → (⟨S1000000x64, .f32⟩ : BufTy).Contents (Elt F)),
    unary main_v172 main_v174 ((extractStridedSlice S1000000x64 ![0, 64] · slices_S1000000x256_S1000000x64_0_64) : (⟨S1000000x256, .f32⟩ : BufTy).Contents (Elt F) → (⟨S1000000x64, .f32⟩ : BufTy).Contents (Elt F)),
    unary main_v172 main_v175 ((extractStridedSlice S1000000x64 ![0, 128] · slices_S1000000x256_S1000000x64_0_128) : (⟨S1000000x256, .f32⟩ : BufTy).Contents (Elt F) → (⟨S1000000x64, .f32⟩ : BufTy).Contents (Elt F)),
    unary main_v172 main_v176 ((extractStridedSlice S1000000x64 ![0, 192] · slices_S1000000x256_S1000000x64_0_192) : (⟨S1000000x256, .f32⟩ : BufTy).Contents (Elt F) → (⟨S1000000x64, .f32⟩ : BufTy).Contents (Elt F)) ]
/-- The buffers window 45 writes. -/
abbrev w45_W : List (Ref sig .tc) := [main_v169, main_v170, main_v171, main_v172, main_v173, main_v174, main_v175, main_v176]
theorem w45_writes : (w45 : List (HloOp τ sig (Elt F))).Forall fun op => op.writes ⊆ (w45_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 45 windows. -/
def st45 (V0 : Valuation τ sig (Elt F)) : Valuation τ sig (Elt F) := after w45 (st44 V0)
/-- A buffer window 45 does not write keeps its contents through it. -/
theorem st45_keep (V0 : Valuation τ sig (Elt F)) (r : Ref sig .tc) (h : r ∉ w45_W) :
    st45 V0 (Proc.devRef .tc r) = st44 V0 (Proc.devRef .tc r) :=
  after_of_writes_sub w45 _ w45_writes h
/-- The buffers the first 45 windows write. -/
abbrev preW45 : List (Ref sig .tc) := preW44 ++ w45_W
/-- A buffer none of them writes (an argument) still holds its launch contents. -/
theorem st45_arg (V0 : Valuation τ sig (Elt F)) (r : Ref sig .tc) (h : r ∉ preW45) :
    st45 V0 (no_index (Proc.devRef .tc r)) = V0 (Proc.devRef .tc r) :=
  (st45_keep V0 r fun hm => h (List.mem_append_right _ hm)).trans (st44_arg V0 r fun hm => h (List.mem_append_left _ hm))
theorem st45_main_v168 (V0 : Valuation τ sig (Elt F)) :
    st45 V0 (no_index (Proc.devRef .tc main_v168)) = val_main_v168 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (st45_keep V0 main_v168 (by decide)).trans (st44_main_v168 V0)
theorem st45_main_v173 (V0 : Valuation τ sig (Elt F)) :
    st45 V0 (no_index (Proc.devRef .tc main_v173)) = val_main_v173 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) := by
  unfold st45
  simp only [w45]
  after_results_simp
  simp only [st44_arg V0 main_arg20 (by decide), st44_arg V0 main_arg19 (by decide), st44_main_v133] <;> rfl
theorem st45_main_v174 (V0 : Valuation τ sig (Elt F)) :
    st45 V0 (no_index (Proc.devRef .tc main_v174)) = val_main_v174 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) := by
  unfold st45
  simp only [w45]
  after_results_simp
  simp only [st44_arg V0 main_arg20 (by decide), st44_arg V0 main_arg19 (by decide), st44_main_v133] <;> rfl
theorem st45_main_v175 (V0 : Valuation τ sig (Elt F)) :
    st45 V0 (no_index (Proc.devRef .tc main_v175)) = val_main_v175 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) := by
  unfold st45
  simp only [w45]
  after_results_simp
  simp only [st44_arg V0 main_arg20 (by decide), st44_arg V0 main_arg19 (by decide), st44_main_v133] <;> rfl
theorem st45_main_v176 (V0 : Valuation τ sig (Elt F)) :
    st45 V0 (no_index (Proc.devRef .tc main_v176)) = val_main_v176 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) := by
  unfold st45
  simp only [w45]
  after_results_simp
  simp only [st44_arg V0 main_arg20 (by decide), st44_arg V0 main_arg19 (by decide), st44_main_v133] <;> rfl

/-- Window 46: operations 212 … 216. -/
abbrev w46 : List (HloOp τ sig (Elt F)) :=
  [ binary main_v173 main_arg21 main_v177 ((fun l r => Host.dotGeneral dot_S1000000x64_S64x1_S1000000x1_1_0_0_1_n_n none l r) : (⟨S1000000x64, .f32⟩ : BufTy).Contents (Elt F) → (⟨S64x1, .f32⟩ : BufTy).Contents (Elt F) → (⟨S1000000x1, .f32⟩ : BufTy).Contents (Elt F)),
    unary main_arg22 main_v178 (broadcastInDim S1x1 ![1] bcast_S1_S1x1_1 : (⟨S1, .f32⟩ : BufTy).Contents (Elt F) → (⟨S1x1, .f32⟩ : BufTy).Contents (Elt F)),
    unary main_v178 main_v179 (broadcastInDim S1000000x1 ![0, 1] bcast_S1x1_S1000000x1_0_1 : (⟨S1x1, .f32⟩ : BufTy).Contents (Elt F) → (⟨S1000000x1, .f32⟩ : BufTy).Contents (Elt F)),
    binary main_v177 main_v179 main_v180 (addf : (⟨S1000000x1, .f32⟩ : BufTy).Contents (Elt F) → (⟨S1000000x1, .f32⟩ : BufTy).Contents (Elt F) → (⟨S1000000x1, .f32⟩ : BufTy).Contents (Elt F)),
    unary main_v180 main_v181 (Host.sin : (⟨S1000000x1, .f32⟩ : BufTy).Contents (Elt F) → (⟨S1000000x1, .f32⟩ : BufTy).Contents (Elt F)) ]
/-- The buffers window 46 writes. -/
abbrev w46_W : List (Ref sig .tc) := [main_v177, main_v178, main_v179, main_v180, main_v181]
theorem w46_writes : (w46 : List (HloOp τ sig (Elt F))).Forall fun op => op.writes ⊆ (w46_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 46 windows. -/
def st46 (V0 : Valuation τ sig (Elt F)) : Valuation τ sig (Elt F) := after w46 (st45 V0)
/-- A buffer window 46 does not write keeps its contents through it. -/
theorem st46_keep (V0 : Valuation τ sig (Elt F)) (r : Ref sig .tc) (h : r ∉ w46_W) :
    st46 V0 (Proc.devRef .tc r) = st45 V0 (Proc.devRef .tc r) :=
  after_of_writes_sub w46 _ w46_writes h
/-- The buffers the first 46 windows write. -/
abbrev preW46 : List (Ref sig .tc) := preW45 ++ w46_W
/-- A buffer none of them writes (an argument) still holds its launch contents. -/
theorem st46_arg (V0 : Valuation τ sig (Elt F)) (r : Ref sig .tc) (h : r ∉ preW46) :
    st46 V0 (no_index (Proc.devRef .tc r)) = V0 (Proc.devRef .tc r) :=
  (st46_keep V0 r fun hm => h (List.mem_append_right _ hm)).trans (st45_arg V0 r fun hm => h (List.mem_append_left _ hm))
theorem st46_main_v168 (V0 : Valuation τ sig (Elt F)) :
    st46 V0 (no_index (Proc.devRef .tc main_v168)) = val_main_v168 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (st46_keep V0 main_v168 (by decide)).trans (st45_main_v168 V0)
theorem st46_main_v174 (V0 : Valuation τ sig (Elt F)) :
    st46 V0 (no_index (Proc.devRef .tc main_v174)) = val_main_v174 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) :=
  (st46_keep V0 main_v174 (by decide)).trans (st45_main_v174 V0)
theorem st46_main_v175 (V0 : Valuation τ sig (Elt F)) :
    st46 V0 (no_index (Proc.devRef .tc main_v175)) = val_main_v175 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) :=
  (st46_keep V0 main_v175 (by decide)).trans (st45_main_v175 V0)
theorem st46_main_v176 (V0 : Valuation τ sig (Elt F)) :
    st46 V0 (no_index (Proc.devRef .tc main_v176)) = val_main_v176 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) :=
  (st46_keep V0 main_v176 (by decide)).trans (st45_main_v176 V0)
theorem st46_main_v181 (V0 : Valuation τ sig (Elt F)) :
    st46 V0 (no_index (Proc.devRef .tc main_v181)) = val_main_v181 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22)) := by
  unfold st46
  simp only [w46]
  after_results_simp
  simp only [st45_arg V0 main_arg22 (by decide), st45_arg V0 main_arg21 (by decide), st45_main_v173] <;> rfl

/-- Window 47: operations 217 … 221. -/
abbrev w47 : List (HloOp τ sig (Elt F)) :=
  [ binary main_v174 main_arg23 main_v182 ((fun l r => Host.dotGeneral dot_S1000000x64_S64x1_S1000000x1_1_0_0_1_n_n none l r) : (⟨S1000000x64, .f32⟩ : BufTy).Contents (Elt F) → (⟨S64x1, .f32⟩ : BufTy).Contents (Elt F) → (⟨S1000000x1, .f32⟩ : BufTy).Contents (Elt F)),
    unary main_arg24 main_v183 (broadcastInDim S1x1 ![1] bcast_S1_S1x1_1 : (⟨S1, .f32⟩ : BufTy).Contents (Elt F) → (⟨S1x1, .f32⟩ : BufTy).Contents (Elt F)),
    unary main_v183 main_v184 (broadcastInDim S1000000x1 ![0, 1] bcast_S1x1_S1000000x1_0_1 : (⟨S1x1, .f32⟩ : BufTy).Contents (Elt F) → (⟨S1000000x1, .f32⟩ : BufTy).Contents (Elt F)),
    binary main_v182 main_v184 main_v185 (addf : (⟨S1000000x1, .f32⟩ : BufTy).Contents (Elt F) → (⟨S1000000x1, .f32⟩ : BufTy).Contents (Elt F) → (⟨S1000000x1, .f32⟩ : BufTy).Contents (Elt F)),
    unary main_v185 main_v186 (Host.sin : (⟨S1000000x1, .f32⟩ : BufTy).Contents (Elt F) → (⟨S1000000x1, .f32⟩ : BufTy).Contents (Elt F)) ]
/-- The buffers window 47 writes. -/
abbrev w47_W : List (Ref sig .tc) := [main_v182, main_v183, main_v184, main_v185, main_v186]
theorem w47_writes : (w47 : List (HloOp τ sig (Elt F))).Forall fun op => op.writes ⊆ (w47_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 47 windows. -/
def st47 (V0 : Valuation τ sig (Elt F)) : Valuation τ sig (Elt F) := after w47 (st46 V0)
/-- A buffer window 47 does not write keeps its contents through it. -/
theorem st47_keep (V0 : Valuation τ sig (Elt F)) (r : Ref sig .tc) (h : r ∉ w47_W) :
    st47 V0 (Proc.devRef .tc r) = st46 V0 (Proc.devRef .tc r) :=
  after_of_writes_sub w47 _ w47_writes h
/-- The buffers the first 47 windows write. -/
abbrev preW47 : List (Ref sig .tc) := preW46 ++ w47_W
/-- A buffer none of them writes (an argument) still holds its launch contents. -/
theorem st47_arg (V0 : Valuation τ sig (Elt F)) (r : Ref sig .tc) (h : r ∉ preW47) :
    st47 V0 (no_index (Proc.devRef .tc r)) = V0 (Proc.devRef .tc r) :=
  (st47_keep V0 r fun hm => h (List.mem_append_right _ hm)).trans (st46_arg V0 r fun hm => h (List.mem_append_left _ hm))
theorem st47_main_v168 (V0 : Valuation τ sig (Elt F)) :
    st47 V0 (no_index (Proc.devRef .tc main_v168)) = val_main_v168 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (st47_keep V0 main_v168 (by decide)).trans (st46_main_v168 V0)
theorem st47_main_v175 (V0 : Valuation τ sig (Elt F)) :
    st47 V0 (no_index (Proc.devRef .tc main_v175)) = val_main_v175 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) :=
  (st47_keep V0 main_v175 (by decide)).trans (st46_main_v175 V0)
theorem st47_main_v176 (V0 : Valuation τ sig (Elt F)) :
    st47 V0 (no_index (Proc.devRef .tc main_v176)) = val_main_v176 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) :=
  (st47_keep V0 main_v176 (by decide)).trans (st46_main_v176 V0)
theorem st47_main_v181 (V0 : Valuation τ sig (Elt F)) :
    st47 V0 (no_index (Proc.devRef .tc main_v181)) = val_main_v181 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22)) :=
  (st47_keep V0 main_v181 (by decide)).trans (st46_main_v181 V0)
theorem st47_main_v186 (V0 : Valuation τ sig (Elt F)) :
    st47 V0 (no_index (Proc.devRef .tc main_v186)) = val_main_v186 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg23)) (V0 (Proc.devRef .tc main_arg24)) := by
  unfold st47
  simp only [w47]
  after_results_simp
  simp only [st46_arg V0 main_arg24 (by decide), st46_arg V0 main_arg23 (by decide), st46_main_v174] <;> rfl

/-- Window 48: operations 222 … 225. -/
abbrev w48 : List (HloOp τ sig (Elt F)) :=
  [ binary main_v175 main_arg25 main_v187 ((fun l r => Host.dotGeneral dot_S1000000x64_S64x1_S1000000x1_1_0_0_1_n_n none l r) : (⟨S1000000x64, .f32⟩ : BufTy).Contents (Elt F) → (⟨S64x1, .f32⟩ : BufTy).Contents (Elt F) → (⟨S1000000x1, .f32⟩ : BufTy).Contents (Elt F)),
    unary main_arg26 main_v188 (broadcastInDim S1x1 ![1] bcast_S1_S1x1_1 : (⟨S1, .f32⟩ : BufTy).Contents (Elt F) → (⟨S1x1, .f32⟩ : BufTy).Contents (Elt F)),
    unary main_v188 main_v189 (broadcastInDim S1000000x1 ![0, 1] bcast_S1x1_S1000000x1_0_1 : (⟨S1x1, .f32⟩ : BufTy).Contents (Elt F) → (⟨S1000000x1, .f32⟩ : BufTy).Contents (Elt F)),
    binary main_v187 main_v189 main_v190 (addf : (⟨S1000000x1, .f32⟩ : BufTy).Contents (Elt F) → (⟨S1000000x1, .f32⟩ : BufTy).Contents (Elt F) → (⟨S1000000x1, .f32⟩ : BufTy).Contents (Elt F)) ]
/-- The buffers window 48 writes. -/
abbrev w48_W : List (Ref sig .tc) := [main_v187, main_v188, main_v189, main_v190]
theorem w48_writes : (w48 : List (HloOp τ sig (Elt F))).Forall fun op => op.writes ⊆ (w48_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 48 windows. -/
def st48 (V0 : Valuation τ sig (Elt F)) : Valuation τ sig (Elt F) := after w48 (st47 V0)
/-- A buffer window 48 does not write keeps its contents through it. -/
theorem st48_keep (V0 : Valuation τ sig (Elt F)) (r : Ref sig .tc) (h : r ∉ w48_W) :
    st48 V0 (Proc.devRef .tc r) = st47 V0 (Proc.devRef .tc r) :=
  after_of_writes_sub w48 _ w48_writes h
/-- The buffers the first 48 windows write. -/
abbrev preW48 : List (Ref sig .tc) := preW47 ++ w48_W
/-- A buffer none of them writes (an argument) still holds its launch contents. -/
theorem st48_arg (V0 : Valuation τ sig (Elt F)) (r : Ref sig .tc) (h : r ∉ preW48) :
    st48 V0 (no_index (Proc.devRef .tc r)) = V0 (Proc.devRef .tc r) :=
  (st48_keep V0 r fun hm => h (List.mem_append_right _ hm)).trans (st47_arg V0 r fun hm => h (List.mem_append_left _ hm))
theorem st48_main_v168 (V0 : Valuation τ sig (Elt F)) :
    st48 V0 (no_index (Proc.devRef .tc main_v168)) = val_main_v168 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (st48_keep V0 main_v168 (by decide)).trans (st47_main_v168 V0)
theorem st48_main_v176 (V0 : Valuation τ sig (Elt F)) :
    st48 V0 (no_index (Proc.devRef .tc main_v176)) = val_main_v176 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) :=
  (st48_keep V0 main_v176 (by decide)).trans (st47_main_v176 V0)
theorem st48_main_v181 (V0 : Valuation τ sig (Elt F)) :
    st48 V0 (no_index (Proc.devRef .tc main_v181)) = val_main_v181 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22)) :=
  (st48_keep V0 main_v181 (by decide)).trans (st47_main_v181 V0)
theorem st48_main_v186 (V0 : Valuation τ sig (Elt F)) :
    st48 V0 (no_index (Proc.devRef .tc main_v186)) = val_main_v186 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg23)) (V0 (Proc.devRef .tc main_arg24)) :=
  (st48_keep V0 main_v186 (by decide)).trans (st47_main_v186 V0)
theorem st48_main_v190 (V0 : Valuation τ sig (Elt F)) :
    st48 V0 (no_index (Proc.devRef .tc main_v190)) = val_main_v190 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg25)) (V0 (Proc.devRef .tc main_arg26)) := by
  unfold st48
  simp only [w48]
  after_results_simp
  simp only [st47_arg V0 main_arg26 (by decide), st47_arg V0 main_arg25 (by decide), st47_main_v175] <;> rfl

/-- Window 49: operations 226 … 230. -/
abbrev w49 : List (HloOp τ sig (Elt F)) :=
  [ binary main_v176 main_arg27 main_v191 ((fun l r => Host.dotGeneral dot_S1000000x64_S64x3_S1000000x3_1_0_0_1_n_n none l r) : (⟨S1000000x64, .f32⟩ : BufTy).Contents (Elt F) → (⟨S64x3, .f32⟩ : BufTy).Contents (Elt F) → (⟨S1000000x3, .f32⟩ : BufTy).Contents (Elt F)),
    unary main_arg28 main_v192 (broadcastInDim S1x3 ![1] bcast_S3_S1x3_1 : (⟨S3, .f32⟩ : BufTy).Contents (Elt F) → (⟨S1x3, .f32⟩ : BufTy).Contents (Elt F)),
    unary main_v192 main_v193 (broadcastInDim S1000000x3 ![0, 1] bcast_S1x3_S1000000x3_0_1 : (⟨S1x3, .f32⟩ : BufTy).Contents (Elt F) → (⟨S1000000x3, .f32⟩ : BufTy).Contents (Elt F)),
    binary main_v191 main_v193 main_v194 (addf : (⟨S1000000x3, .f32⟩ : BufTy).Contents (Elt F) → (⟨S1000000x3, .f32⟩ : BufTy).Contents (Elt F) → (⟨S1000000x3, .f32⟩ : BufTy).Contents (Elt F)),
    unary main_v194 main_v195 (Host.sin : (⟨S1000000x3, .f32⟩ : BufTy).Contents (Elt F) → (⟨S1000000x3, .f32⟩ : BufTy).Contents (Elt F)) ]
/-- The buffers window 49 writes. -/
abbrev w49_W : List (Ref sig .tc) := [main_v191, main_v192, main_v193, main_v194, main_v195]
theorem w49_writes : (w49 : List (HloOp τ sig (Elt F))).Forall fun op => op.writes ⊆ (w49_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffer contents after the first 49 windows. -/
def st49 (V0 : Valuation τ sig (Elt F)) : Valuation τ sig (Elt F) := after w49 (st48 V0)
/-- A buffer window 49 does not write keeps its contents through it. -/
theorem st49_keep (V0 : Valuation τ sig (Elt F)) (r : Ref sig .tc) (h : r ∉ w49_W) :
    st49 V0 (Proc.devRef .tc r) = st48 V0 (Proc.devRef .tc r) :=
  after_of_writes_sub w49 _ w49_writes h
/-- The buffers the first 49 windows write. -/
abbrev preW49 : List (Ref sig .tc) := preW48 ++ w49_W
/-- A buffer none of them writes (an argument) still holds its launch contents. -/
theorem st49_arg (V0 : Valuation τ sig (Elt F)) (r : Ref sig .tc) (h : r ∉ preW49) :
    st49 V0 (no_index (Proc.devRef .tc r)) = V0 (Proc.devRef .tc r) :=
  (st49_keep V0 r fun hm => h (List.mem_append_right _ hm)).trans (st48_arg V0 r fun hm => h (List.mem_append_left _ hm))
theorem st49_main_v168 (V0 : Valuation τ sig (Elt F)) :
    st49 V0 (no_index (Proc.devRef .tc main_v168)) = val_main_v168 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (st49_keep V0 main_v168 (by decide)).trans (st48_main_v168 V0)
theorem st49_main_v181 (V0 : Valuation τ sig (Elt F)) :
    st49 V0 (no_index (Proc.devRef .tc main_v181)) = val_main_v181 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22)) :=
  (st49_keep V0 main_v181 (by decide)).trans (st48_main_v181 V0)
theorem st49_main_v186 (V0 : Valuation τ sig (Elt F)) :
    st49 V0 (no_index (Proc.devRef .tc main_v186)) = val_main_v186 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg23)) (V0 (Proc.devRef .tc main_arg24)) :=
  (st49_keep V0 main_v186 (by decide)).trans (st48_main_v186 V0)
theorem st49_main_v190 (V0 : Valuation τ sig (Elt F)) :
    st49 V0 (no_index (Proc.devRef .tc main_v190)) = val_main_v190 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg25)) (V0 (Proc.devRef .tc main_arg26)) :=
  (st49_keep V0 main_v190 (by decide)).trans (st48_main_v190 V0)
theorem st49_main_v195 (V0 : Valuation τ sig (Elt F)) :
    st49 V0 (no_index (Proc.devRef .tc main_v195)) = val_main_v195 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg27)) (V0 (Proc.devRef .tc main_arg28)) := by
  unfold st49
  simp only [w49]
  after_results_simp
  simp only [st48_arg V0 main_arg28 (by decide), st48_arg V0 main_arg27 (by decide), st48_main_v176] <;> rfl

/-- Window 50: operations 231 … 231. -/
abbrev w50 : List (HloOp τ sig (Elt F)) :=
  [ nary ![main_v181, main_v186, main_v190, main_v195] main_v196 (fun u => concatenate S1000000x6 1 [⟨S1000000x1, u 0⟩, ⟨S1000000x1, u 1⟩, ⟨S1000000x1, u 2⟩, ⟨S1000000x3, u 3⟩] concatenates_S1000000x1_S1000000x1_S1000000x1_S1000000x3_S1000000x6_d1) ]
/-- The buffers window 50 writes. -/
abbrev w50_W : List (Ref sig .tc) := [main_v196]
theorem w50_writes : (w50 : List (HloOp τ sig (Elt F))).Forall fun op => op.writes ⊆ (w50_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffer contents after the first 50 windows. -/
def st50 (V0 : Valuation τ sig (Elt F)) : Valuation τ sig (Elt F) := after w50 (st49 V0)
/-- A buffer window 50 does not write keeps its contents through it. -/
theorem st50_keep (V0 : Valuation τ sig (Elt F)) (r : Ref sig .tc) (h : r ∉ w50_W) :
    st50 V0 (Proc.devRef .tc r) = st49 V0 (Proc.devRef .tc r) :=
  after_of_writes_sub w50 _ w50_writes h
/-- The buffers the first 50 windows write. -/
abbrev preW50 : List (Ref sig .tc) := preW49 ++ w50_W
/-- A buffer none of them writes (an argument) still holds its launch contents. -/
theorem st50_arg (V0 : Valuation τ sig (Elt F)) (r : Ref sig .tc) (h : r ∉ preW50) :
    st50 V0 (no_index (Proc.devRef .tc r)) = V0 (Proc.devRef .tc r) :=
  (st50_keep V0 r fun hm => h (List.mem_append_right _ hm)).trans (st49_arg V0 r fun hm => h (List.mem_append_left _ hm))
theorem st50_main_v168 (V0 : Valuation τ sig (Elt F)) :
    st50 V0 (no_index (Proc.devRef .tc main_v168)) = val_main_v168 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (st50_keep V0 main_v168 (by decide)).trans (st49_main_v168 V0)
theorem st50_main_v196 (V0 : Valuation τ sig (Elt F)) :
    st50 V0 (no_index (Proc.devRef .tc main_v196)) = val_main_v196 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) := by
  unfold st50
  simp only [w50]
  after_results_simp
  try dsimp only [Matrix.cons_val]
  try simp only [st49_main_v195, st49_main_v190, st49_main_v186, st49_main_v181]
  try rw [st49_main_v195]
  try rw [st49_main_v190]
  try rw [st49_main_v186]
  try rw [st49_main_v181]
  rfl

/-- The windows, joined end to end, are the program's list of operations. -/
theorem ops_eq : (ops : List (HloOp τ sig (Elt F))) = w1 ++ (w2 ++ (w3 ++ (w4 ++ (w5 ++ (w6 ++ (w7 ++ (w8 ++ (w9 ++ (w10 ++ (w11 ++ (w12 ++ (w13 ++ (w14 ++ (w15 ++ (w16 ++ (w17 ++ (w18 ++ (w19 ++ (w20 ++ (w21 ++ (w22 ++ (w23 ++ (w24 ++ (w25 ++ (w26 ++ (w27 ++ (w28 ++ (w29 ++ (w30 ++ (w31 ++ (w32 ++ (w33 ++ (w34 ++ (w35 ++ (w36 ++ (w37 ++ (w38 ++ (w39 ++ (w40 ++ (w41 ++ (w42 ++ (w43 ++ (w44 ++ (w45 ++ (w46 ++ (w47 ++ (w48 ++ (w49 ++ (w50))))))))))))))))))))))))))))))))))))))))))))))))) := rfl

/-- After all the operations the buffers hold what they hold after the last window. -/
theorem after_ops (V0 : Valuation τ sig (Elt F)) : after ops V0 = st50 V0 := by
  rw [ops_eq]
  simp only [after_app]
  rfl

set_option maxRecDepth 8192 in
/-- On every device, for any float values, from any memory with zero counters: every weakly fair execution of
    @main terminates with each result at its stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168) = val_main_v168 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v196) = val_main_v196 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v168).trans (by simp only [after_ops]; exact st50_main_v168 (launchContents m c)),
      (h c main_v196).trans (by simp only [after_ops]; exact st50_main_v196 (launchContents m c)),
      (h c main_arg0).trans (by simp only [after_ops]; exact st50_arg (launchContents m c) main_arg0 (by decide)),
      (h c main_arg1).trans (by simp only [after_ops]; exact st50_arg (launchContents m c) main_arg1 (by decide)),
      (h c main_arg2).trans (by simp only [after_ops]; exact st50_arg (launchContents m c) main_arg2 (by decide)),
      (h c main_arg3).trans (by simp only [after_ops]; exact st50_arg (launchContents m c) main_arg3 (by decide)),
      (h c main_arg4).trans (by simp only [after_ops]; exact st50_arg (launchContents m c) main_arg4 (by decide)),
      (h c main_arg5).trans (by simp only [after_ops]; exact st50_arg (launchContents m c) main_arg5 (by decide)),
      (h c main_arg6).trans (by simp only [after_ops]; exact st50_arg (launchContents m c) main_arg6 (by decide)),
      (h c main_arg7).trans (by simp only [after_ops]; exact st50_arg (launchContents m c) main_arg7 (by decide)),
      (h c main_arg8).trans (by simp only [after_ops]; exact st50_arg (launchContents m c) main_arg8 (by decide)),
      (h c main_arg9).trans (by simp only [after_ops]; exact st50_arg (launchContents m c) main_arg9 (by decide)),
      (h c main_arg10).trans (by simp only [after_ops]; exact st50_arg (launchContents m c) main_arg10 (by decide)),
      (h c main_arg11).trans (by simp only [after_ops]; exact st50_arg (launchContents m c) main_arg11 (by decide)),
      (h c main_arg12).trans (by simp only [after_ops]; exact st50_arg (launchContents m c) main_arg12 (by decide)),
      (h c main_arg13).trans (by simp only [after_ops]; exact st50_arg (launchContents m c) main_arg13 (by decide)),
      (h c main_arg14).trans (by simp only [after_ops]; exact st50_arg (launchContents m c) main_arg14 (by decide)),
      (h c main_arg15).trans (by simp only [after_ops]; exact st50_arg (launchContents m c) main_arg15 (by decide)),
      (h c main_arg16).trans (by simp only [after_ops]; exact st50_arg (launchContents m c) main_arg16 (by decide)),
      (h c main_arg17).trans (by simp only [after_ops]; exact st50_arg (launchContents m c) main_arg17 (by decide)),
      (h c main_arg18).trans (by simp only [after_ops]; exact st50_arg (launchContents m c) main_arg18 (by decide)),
      (h c main_arg19).trans (by simp only [after_ops]; exact st50_arg (launchContents m c) main_arg19 (by decide)),
      (h c main_arg20).trans (by simp only [after_ops]; exact st50_arg (launchContents m c) main_arg20 (by decide)),
      (h c main_arg21).trans (by simp only [after_ops]; exact st50_arg (launchContents m c) main_arg21 (by decide)),
      (h c main_arg22).trans (by simp only [after_ops]; exact st50_arg (launchContents m c) main_arg22 (by decide)),
      (h c main_arg23).trans (by simp only [after_ops]; exact st50_arg (launchContents m c) main_arg23 (by decide)),
      (h c main_arg24).trans (by simp only [after_ops]; exact st50_arg (launchContents m c) main_arg24 (by decide)),
      (h c main_arg25).trans (by simp only [after_ops]; exact st50_arg (launchContents m c) main_arg25 (by decide)),
      (h c main_arg26).trans (by simp only [after_ops]; exact st50_arg (launchContents m c) main_arg26 (by decide)),
      (h c main_arg27).trans (by simp only [after_ops]; exact st50_arg (launchContents m c) main_arg27 (by decide)),
      (h c main_arg28).trans (by simp only [after_ops]; exact st50_arg (launchContents m c) main_arg28 (by decide))⟩)
    (run_seq scopedRefs_eq scopedSems_eq defs main (fun _ => ops) main_eq (fun _ => ops_sub) m ρ)

end Cert.ReferenceIdeal.RefRun

end
-- ==== Proof.Alg.lean ====
/-
  The two idealized programs, run from memories that agree on the arguments, end with equal results. The kernel program's
  results are the reference's two result terms at the kernel's arguments (the layer-by-layer modules); the reference's run
  ends at the same terms of its own arguments, which are the kernel's.
-/
import proofs.«118118_j10582799417469_1_alg».proof.Defs
import proofs.«118118_j10582799417469_1_alg».proof.Proof.Gen.Pre_finite_inputs
import proofs.«118118_j10582799417469_1_alg».proof.Proof.KD6
import proofs.«118118_j10582799417469_1_alg».proof.Proof.KD7
import proofs.«118118_j10582799417469_1_alg».proof.Proof.RefRun

set_option maxRecDepth 16384

noncomputable section

namespace Cert.Proof.Alg

open Idealize.ShloMosaic Idealize.ShloMosaic.TcCoe Idealize.SL.Sem
open Cert.ReferenceIdeal.ReadP

section
open Cert.KernelIdeal Cert.KernelIdeal.Gen

variable (m : (ℓ : Loc nD τ sig) → Buf (Elt Ideal) ℓ) (ρ : Dev nD → PrngReg)

/-- The kernel program's run with both results named and the arguments unchanged. -/
theorem kernel_run : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v165) = val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v173) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run Cert.KernelIdeal.defs _ _).mono (fun r h c =>
    ⟨(h c main_v165 (by decide)).trans (Cert.KernelIdeal.KD6.K165 m ρ c),
     (h c main_v173 (by decide)).trans (Cert.KernelIdeal.KD7.K173 m ρ c),
     (h c main_arg0 (by decide)).trans (W53_main_arg0 m ρ c),
     (h c main_arg1 (by decide)).trans (W53_main_arg1 m ρ c),
     (h c main_arg2 (by decide)).trans (W53_main_arg2 m ρ c),
     (h c main_arg3 (by decide)).trans (W53_main_arg3 m ρ c),
     (h c main_arg4 (by decide)).trans (W53_main_arg4 m ρ c),
     (h c main_arg5 (by decide)).trans (W53_main_arg5 m ρ c),
     (h c main_arg6 (by decide)).trans (W53_main_arg6 m ρ c),
     (h c main_arg7 (by decide)).trans (W53_main_arg7 m ρ c),
     (h c main_arg8 (by decide)).trans (W53_main_arg8 m ρ c),
     (h c main_arg9 (by decide)).trans (W53_main_arg9 m ρ c),
     (h c main_arg10 (by decide)).trans (W53_main_arg10 m ρ c),
     (h c main_arg11 (by decide)).trans (W53_main_arg11 m ρ c),
     (h c main_arg12 (by decide)).trans (W53_main_arg12 m ρ c),
     (h c main_arg13 (by decide)).trans (W53_main_arg13 m ρ c),
     (h c main_arg14 (by decide)).trans (W53_main_arg14 m ρ c),
     (h c main_arg15 (by decide)).trans (W53_main_arg15 m ρ c),
     (h c main_arg16 (by decide)).trans (W53_main_arg16 m ρ c),
     (h c main_arg17 (by decide)).trans (W53_main_arg17 m ρ c),
     (h c main_arg18 (by decide)).trans (W53_main_arg18 m ρ c),
     (h c main_arg19 (by decide)).trans (W53_main_arg19 m ρ c),
     (h c main_arg20 (by decide)).trans (W53_main_arg20 m ρ c),
     (h c main_arg21 (by decide)).trans (W53_main_arg21 m ρ c),
     (h c main_arg22 (by decide)).trans (W53_main_arg22 m ρ c),
     (h c main_arg23 (by decide)).trans (W53_main_arg23 m ρ c),
     (h c main_arg24 (by decide)).trans (W53_main_arg24 m ρ c),
     (h c main_arg25 (by decide)).trans (W53_main_arg25 m ρ c),
     (h c main_arg26 (by decide)).trans (W53_main_arg26 m ρ c),
     (h c main_arg27 (by decide)).trans (W53_main_arg27 m ρ c),
     (h c main_arg28 (by decide)).trans (W53_main_arg28 m ρ c)⟩)
    (Cert.KernelIdeal.KRun.run_all m ρ)

end

/-- Equal results at `Ideal`. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨h0, h1, h2, h3, h4, h5, h6, h7, h8, h9, h10, h11, h12, h13, h14, h15, h16, h17, h18, h19, h20, h21, h22, h23, h24, h25, h26, h27, h28⟩ := hagree c
    rw [h0, h1, h2, h3, h4, h5, h6, h7, h8, h9, h10, h11, h12, h13, h14, h15, h16, h17, h18]
  · obtain ⟨h0, h1, h2, h3, h4, h5, h6, h7, h8, h9, h10, h11, h12, h13, h14, h15, h16, h17, h18, h19, h20, h21, h22, h23, h24, h25, h26, h27, h28⟩ := hagree c
    rw [h0, h1, h2, h3, h4, h5, h6, h7, h8, h9, h10, h19, h20, h21, h22, h23, h24, h25, h26, h27, h28]

end Cert.Proof.Alg

end
-- ==== Proof.lean ====
/-
  The certificate: the three frames, the (empty) list of idealization rewrites, and the equality of results at the ideal
  instance. The kernel is a three-layer message-passing network whose dense steps run as eight blocked regions over
  zero-padded arrays, with the gathers and the scatter-add between them on the host; the reference is the same network
  written with whole-array operations. At the ideal instance the two agree because each region, with its padding cut off,
  is the reference's formula for that step up to the grouping of a sum over the joined columns into sums over the parts.
-/
import proofs.«118118_j10582799417469_1_alg».proof.Defs
import proofs.«118118_j10582799417469_1_alg».proof.Proof.Gen.Kernel
import proofs.«118118_j10582799417469_1_alg».proof.Proof.Gen.Kernel.Skeleton
import proofs.«118118_j10582799417469_1_alg».proof.Proof.Gen.Kernel.Launch
import proofs.«118118_j10582799417469_1_alg».proof.Proof.Gen.Kernel.Points
import proofs.«118118_j10582799417469_1_alg».proof.Proof.Gen.Kernel.Frame
import proofs.«118118_j10582799417469_1_alg».proof.Proof.Gen.KernelIdeal
import proofs.«118118_j10582799417469_1_alg».proof.Proof.Gen.KernelIdeal.Skeleton
import proofs.«118118_j10582799417469_1_alg».proof.Proof.Gen.KernelIdeal.Launch
import proofs.«118118_j10582799417469_1_alg».proof.Proof.Gen.KernelIdeal.Points
import proofs.«118118_j10582799417469_1_alg».proof.Proof.Gen.KernelIdeal.Frame
import proofs.«118118_j10582799417469_1_alg».proof.Proof.Gen.ReferenceIdeal
import proofs.«118118_j10582799417469_1_alg».proof.Proof.Gen.Pre_finite_inputs
import proofs.«118118_j10582799417469_1_alg».proof.Proof.Alg
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.RefRun.run (F := Ideal) m ρ),
  trivial,
  Cert.Proof.Alg.algebraic⟩

end Cert.Proof

end
